-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100002x128 : Shape := ⟨2, ![100002, 128]⟩
abbrev S128x100 : Shape := ⟨2, ![128, 100]⟩
abbrev S100 : Shape := ⟨1, ![100]⟩
abbrev S100x100 : Shape := ⟨2, ![100, 100]⟩
abbrev S_ : Shape := ⟨0, ![]⟩

class Facts : Prop where
  bcast_S_S100002x128 : S_.BroadcastsInDim S100002x128 (![] : Fin 0 → Fin S100002x128.rank)
  reducesTo_S100002x128_S_d0_1 : S100002x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S1024x200 : S_.BroadcastsInDim S1024x200 (![] : Fin 0 → Fin S1024x200.rank)
  reducesTo_S1024x200_S_d0_1 : S1024x200.ReducesTo [0, 1] S_

variable [Facts]

def fn_part2 {F : FTy → Type} [FloatOps F] (main_arg0 : IVec S1024x200 32) (main_v33 : IVec S_ 1) : IVec S_ 1 :=
  let main_c_12 : IVec S_ 32 := constantI S_ 32 0#32
  let main_v34 : IVec S1024x200 32 := broadcastInDim S1024x200 ![] bcast_S_S1024x200 main_c_12
  let main_v35 : IVec S1024x200 1 := cmpi .sge main_arg0 main_v34
  let main_c_13 : IVec S_ 32 := constantI S_ 32 99999#32
  let main_v36 : IVec S1024x200 32 := broadcastInDim S1024x200 ![] bcast_S_S1024x200 main_c_13
  let main_v37 : IVec S1024x200 1 := cmpi .sle main_arg0 main_v36
  let main_v38 : IVec S1024x200 1 := andi main_v35 main_v37
  let main_c_14 : IVec S_ 1 := constantI S_ 1 1#1
  let main_v39 : IVec S_ 1 := (fun x v => Host.reduce IntOp.andi x v reducesTo_S1024x200_S_d0_1 h_S_) main_v38 main_c_14
  let main_v40 : IVec S_ 1 := andi main_v33 main_v39
  main_v40

def fn_part1 {F : FTy → Type} [FloatOps F] (main_arg0 : IVec S1024x200 32) (main_arg5 : FVec F S100 .f32) (main_arg6 : FVec F S100x100 .f32) (main_arg7 : FVec F S100 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg6
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg0 main_v33

def fn {F : FTy → Type} [FloatOps F] (main_arg0 : IVec S1024x200 32) (main_arg1 : FVec F S100002x128 .f32) (main_arg2 : FVec F S128x100 .f32) (main_arg3 : FVec F S100 .f32) (main_arg4 : FVec F S100x100 .f32) (main_arg5 : FVec F S100 .f32) (main_arg6 : FVec F S100x100 .f32) (main_arg7 : FVec F S100 .f32) (main_arg8 : IVec S_ 1) : IVec S_ 1 :=
  let main_v0 : FVec F S100002x128 .f32 := Host.absf main_arg1
  let main_cst : FVec F S_ .f32 := constant S_ .f32 0x7F800000#32
  let main_v1 : FVec F S100002x128 .f32 := broadcastInDim S100002x128 ![] bcast_S_S100002x128 main_cst
  let main_v2 : IVec S100002x128 1 := cmpf .olt main_v0 main_v1
  let main_c : IVec S_ 1 := constantI S_ 1 1#1
  let main_v3 : IVec S_ 1 := (fun x v => Host.reduce IntOp.andi x v reducesTo_S100002x128_S_d0_1 h_S_) main_v2 main_c
  let main_v4 : FVec F S128x100 .f32 := Host.absf main_arg2
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg4
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg0 main_arg5 main_arg6 main_arg7 main_v13 main_v16
-- ==== Kernel.lean ====
abbrev S1024x200 : Shape := ⟨2, ![1024, 200]⟩
abbrev S100002x128 : Shape := ⟨2, ![100002, 128]⟩
abbrev S128x100 : Shape := ⟨2, ![128, 100]⟩
abbrev S100 : Shape := ⟨1, ![100]⟩
abbrev S100x100 : Shape := ⟨2, ![100, 100]⟩
abbrev S_ : Shape := ⟨0, ![]⟩
abbrev S2048x100 : Shape := ⟨2, ![2048, 100]⟩
abbrev S1024x128 : Shape := ⟨2, ![1024, 128]⟩
abbrev S64x100 : Shape := ⟨2, ![64, 100]⟩
abbrev S100x128 : Shape := ⟨2, ![100, 128]⟩
abbrev S32x128 : Shape := ⟨2, ![32, 128]⟩
abbrev S1x100 : Shape := ⟨2, ![1, 100]⟩
abbrev S16 : Shape := ⟨1, ![16]⟩
abbrev S1x16 : Shape := ⟨2, ![1, 16]⟩
abbrev S1024x100 : Shape := ⟨2, ![1024, 100]⟩

abbrev nBuf : Table → Nat
  | .hbm => 15
  | .local .tc .vmem => 8
  | .local .scVector .vmem => 6
  | _ => 0

abbrev bufTy : (tb : Table) → Fin (nBuf tb) → BufTy
  | .hbm, ⟨0, _⟩ => ⟨S1024x200, .i32⟩
  | .hbm, ⟨1, _⟩ => ⟨S100002x128, .f32⟩
  | .hbm, ⟨2, _⟩ => ⟨S128x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S_, .i1⟩
  | .hbm, ⟨9, _⟩ => ⟨S2048x100, .i32⟩
  | .hbm, ⟨10, _⟩ => ⟨S1024x128, .f32⟩
  | .hbm, ⟨11, _⟩ => ⟨S1x100, .f32⟩
  | .hbm, ⟨12, _⟩ => ⟨S1x100, .f32⟩
  | .hbm, ⟨13, _⟩ => ⟨S1x100, .f32⟩
  | .hbm, ⟨14, _⟩ => ⟨S1024x100, .f32⟩
  | .local .tc .vmem, ⟨0, _⟩ => ⟨S1024x128, .f32⟩
  | .local .tc .vmem, ⟨1, _⟩ => ⟨S128x100, .f32⟩
  | .local .tc .vmem, ⟨2, _⟩ => ⟨S1x100, .f32⟩
  | .local .tc .vmem, ⟨3, _⟩ => ⟨S100x100, .f32⟩
  | .local .tc .vmem, ⟨4, _⟩ => ⟨S1x100, .f32⟩
  | .local .tc .vmem, ⟨5, _⟩ => ⟨S100x100, .f32⟩
  | .local .tc .vmem, ⟨6, _⟩ => ⟨S1x100, .f32⟩
  | .local .tc .vmem, ⟨7, _⟩ => ⟨S1024x100, .f32⟩
  | .local .scVector .vmem, ⟨0, _⟩ => ⟨S64x100, .i32⟩
  | .local .scVector .vmem, ⟨1, _⟩ => ⟨S100x128, .f32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S32x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v0_scv : Ref sig .scVector := ⟨.hbm, 9, rfl⟩
abbrev main_arg1_scv : Ref sig .scVector := ⟨.hbm, 1, rfl⟩
abbrev main_v1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_24_r0 : BitVec 32 := 0#32
  ![v2.toNat, 0]
@[reducible] def k0_t1_loop : Scf.Loop 32 :=
  let c0_i32_21 : BitVec 32 := 0#32
  let c16_i32 : BitVec 32 := 16#32
  let v23 : BitVec 32 := Scalar.addi c0_i32_21 c16_i32
  let c1_i32_22 : BitVec 32 := 1#32
  ⟨c0_i32_21, v23, c1_i32_22⟩
@[reducible] def k0_t2_loop : Scf.Loop 32 :=
  let c0_i32_28 : BitVec 32 := 0#32
  let c100_i32 : BitVec 32 := 100#32
  let v29 : BitVec 32 := Scalar.addi c0_i32_28 c100_i32
  let c1_i32_29 : BitVec 32 := 1#32
  ⟨c0_i32_28, v29, c1_i32_29⟩
def k0_off2 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v147 : Index := Scalar.indexCast arg16
  let c0_96 : Index := 0#32
  ![v147.toNat, 0]
def k0_off3 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v151 : Index := Scalar.indexCast arg16
  let c16_97 : Index := 16#32
  ![v151.toNat, 16]
def k0_off4 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v155 : Index := Scalar.indexCast arg16
  let c32_98 : Index := 32#32
  ![v155.toNat, 32]
def k0_off5 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v159 : Index := Scalar.indexCast arg16
  let c48_99 : Index := 48#32
  ![v159.toNat, 48]
def k0_off6 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v163 : Index := Scalar.indexCast arg16
  let c64_100 : Index := 64#32
  ![v163.toNat, 64]
def k0_off7 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v167 : Index := Scalar.indexCast arg16
  let c80_101 : Index := 80#32
  ![v167.toNat, 80]
def k0_off8 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v171 : Index := Scalar.indexCast arg16
  let c96_102 : Index := 96#32
  ![v171.toNat, 96]
def k0_off9 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v175 : Index := Scalar.indexCast arg16
  let c112_103 : Index := 112#32
  ![v175.toNat, 112]
def k0_cond1 (k0_t1 : Fin k0_t1_loop.trips) : BitVec 1 :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c0_i32_31 : BitVec 32 := 0#32
  let v31 : BitVec 32 := Scalar.addi v25 c0_i32_31
  let c4_i32_32 : BitVec 32 := 4#32
  let v32 : BitVec 32 := Scalar.addi v31 c4_i32_32
  let c64_i32_33 : BitVec 32 := 64#32
  let v33 : BitVec 1 := Scalar.cmpi .slt v32 c64_i32_33
  let v34 : BitVec 32 := Scalar.extui v33
  let c0_i32_34 : BitVec 32 := 0#32
  let v35 : BitVec 1 := Scalar.cmpi .ne v34 c0_i32_34
  v35

def k0_off10 (k0_t1 : Fin k0_t1_loop.trips) : Fin 2 → Nat :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c0_i32_96 : BitVec 32 := 0#32
  let v147 : BitVec 32 := Scalar.addi v25 c0_i32_96
  let c4_i32_97 : BitVec 32 := 4#32
  let v148 : BitVec 32 := Scalar.addi v147 c4_i32_97
  let c0_i32_98 : BitVec 32 := 0#32
  ![v148.toNat, 0]
@[reducible] def k0_t3_loop : Scf.Loop 32 :=
  let c0_i32_39 : BitVec 32 := 0#32
  let c100_i32_40 : BitVec 32 := 100#32
  let v39 : BitVec 32 := Scalar.addi c0_i32_39 c100_i32_40
  let c1_i32_41 : BitVec 32 := 1#32
  ⟨c0_i32_39, v39, c1_i32_41⟩
def k0_off11 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v147 : Index := Scalar.indexCast arg16
  let c0_96 : Index := 0#32
  ![v147.toNat, 0]
def k0_off12 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v151 : Index := Scalar.indexCast arg16
  let c16_97 : Index := 16#32
  ![v151.toNat, 16]
def k0_off13 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v155 : Index := Scalar.indexCast arg16
  let c32_98 : Index := 32#32
  ![v155.toNat, 32]
def k0_off14 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v159 : Index := Scalar.indexCast arg16
  let c48_99 : Index := 48#32
  ![v159.toNat, 48]
def k0_off15 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v163 : Index := Scalar.indexCast arg16
  let c64_100 : Index := 64#32
  ![v163.toNat, 64]
def k0_off16 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v167 : Index := Scalar.indexCast arg16
  let c80_101 : Index := 80#32
  ![v167.toNat, 80]
def k0_off17 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v171 : Index := Scalar.indexCast arg16
  let c96_102 : Index := 96#32
  ![v171.toNat, 96]
def k0_off18 (k0_t3 : Fin k0_t3_loop.trips) : Fin 2 → Nat :=
  let c0_i32_39 : BitVec 32 := 0#32
  let c1_i32_41 : BitVec 32 := 1#32
  let arg16 : BitVec 32 := Scf.iv c0_i32_39 c1_i32_41 k0_t3
  let v175 : Index := Scalar.indexCast arg16
  let c112_103 : Index := 112#32
  ![v175.toNat, 112]
def k0_cond2 (k0_t1 : Fin k0_t1_loop.trips) : BitVec 1 :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c1_i32_43 : BitVec 32 := 1#32
  let v41 : BitVec 32 := Scalar.addi v25 c1_i32_43
  let c4_i32_44 : BitVec 32 := 4#32
  let v42 : BitVec 32 := Scalar.addi v41 c4_i32_44
  let c64_i32_45 : BitVec 32 := 64#32
  let v43 : BitVec 1 := Scalar.cmpi .slt v42 c64_i32_45
  let v44 : BitVec 32 := Scalar.extui v43
  let c0_i32_46 : BitVec 32 := 0#32
  let v45 : BitVec 1 := Scalar.cmpi .ne v44 c0_i32_46
  v45

def k0_off19 (k0_t1 : Fin k0_t1_loop.trips) : Fin 2 → Nat :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c1_i32_96 : BitVec 32 := 1#32
  let v147 : BitVec 32 := Scalar.addi v25 c1_i32_96
  let c4_i32_97 : BitVec 32 := 4#32
  let v148 : BitVec 32 := Scalar.addi v147 c4_i32_97
  let c0_i32_98 : BitVec 32 := 0#32
  ![v148.toNat, 0]
@[reducible] def k0_t4_loop : Scf.Loop 32 :=
  let c0_i32_51 : BitVec 32 := 0#32
  let c100_i32_52 : BitVec 32 := 100#32
  let v49 : BitVec 32 := Scalar.addi c0_i32_51 c100_i32_52
  let c1_i32_53 : BitVec 32 := 1#32
  ⟨c0_i32_51, v49, c1_i32_53⟩
def k0_off20 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v147 : Index := Scalar.indexCast arg16
  let c0_96 : Index := 0#32
  ![v147.toNat, 0]
def k0_off21 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v151 : Index := Scalar.indexCast arg16
  let c16_97 : Index := 16#32
  ![v151.toNat, 16]
def k0_off22 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v155 : Index := Scalar.indexCast arg16
  let c32_98 : Index := 32#32
  ![v155.toNat, 32]
def k0_off23 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v159 : Index := Scalar.indexCast arg16
  let c48_99 : Index := 48#32
  ![v159.toNat, 48]
def k0_off24 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v163 : Index := Scalar.indexCast arg16
  let c64_100 : Index := 64#32
  ![v163.toNat, 64]
def k0_off25 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v167 : Index := Scalar.indexCast arg16
  let c80_101 : Index := 80#32
  ![v167.toNat, 80]
def k0_off26 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v171 : Index := Scalar.indexCast arg16
  let c96_102 : Index := 96#32
  ![v171.toNat, 96]
def k0_off27 (k0_t4 : Fin k0_t4_loop.trips) : Fin 2 → Nat :=
  let c0_i32_51 : BitVec 32 := 0#32
  let c1_i32_53 : BitVec 32 := 1#32
  let arg16 : BitVec 32 := Scf.iv c0_i32_51 c1_i32_53 k0_t4
  let v175 : Index := Scalar.indexCast arg16
  let c112_103 : Index := 112#32
  ![v175.toNat, 112]
def k0_cond3 (k0_t1 : Fin k0_t1_loop.trips) : BitVec 1 :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c2_i32_55 : BitVec 32 := 2#32
  let v51 : BitVec 32 := Scalar.addi v25 c2_i32_55
  let c4_i32_56 : BitVec 32 := 4#32
  let v52 : BitVec 32 := Scalar.addi v51 c4_i32_56
  let c64_i32_57 : BitVec 32 := 64#32
  let v53 : BitVec 1 := Scalar.cmpi .slt v52 c64_i32_57
  let v54 : BitVec 32 := Scalar.extui v53
  let c0_i32_58 : BitVec 32 := 0#32
  let v55 : BitVec 1 := Scalar.cmpi .ne v54 c0_i32_58
  v55

def k0_off28 (k0_t1 : Fin k0_t1_loop.trips) : Fin 2 → Nat :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c2_i32_96 : BitVec 32 := 2#32
  let v147 : BitVec 32 := Scalar.addi v25 c2_i32_96
  let c4_i32_97 : BitVec 32 := 4#32
  let v148 : BitVec 32 := Scalar.addi v147 c4_i32_97
  let c0_i32_98 : BitVec 32 := 0#32
  ![v148.toNat, 0]
@[reducible] def k0_t5_loop : Scf.Loop 32 :=
  let c0_i32_63 : BitVec 32 := 0#32
  let c100_i32_64 : BitVec 32 := 100#32
  let v59 : BitVec 32 := Scalar.addi c0_i32_63 c100_i32_64
  let c1_i32_65 : BitVec 32 := 1#32
  ⟨c0_i32_63, v59, c1_i32_65⟩
def k0_off29 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v147 : Index := Scalar.indexCast arg16
  let c0_96 : Index := 0#32
  ![v147.toNat, 0]
def k0_off30 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v151 : Index := Scalar.indexCast arg16
  let c16_97 : Index := 16#32
  ![v151.toNat, 16]
def k0_off31 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v155 : Index := Scalar.indexCast arg16
  let c32_98 : Index := 32#32
  ![v155.toNat, 32]
def k0_off32 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v159 : Index := Scalar.indexCast arg16
  let c48_99 : Index := 48#32
  ![v159.toNat, 48]
def k0_off33 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v163 : Index := Scalar.indexCast arg16
  let c64_100 : Index := 64#32
  ![v163.toNat, 64]
def k0_off34 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v167 : Index := Scalar.indexCast arg16
  let c80_101 : Index := 80#32
  ![v167.toNat, 80]
def k0_off35 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v171 : Index := Scalar.indexCast arg16
  let c96_102 : Index := 96#32
  ![v171.toNat, 96]
def k0_off36 (k0_t5 : Fin k0_t5_loop.trips) : Fin 2 → Nat :=
  let c0_i32_63 : BitVec 32 := 0#32
  let c1_i32_65 : BitVec 32 := 1#32
  let arg16 : BitVec 32 := Scf.iv c0_i32_63 c1_i32_65 k0_t5
  let v175 : Index := Scalar.indexCast arg16
  let c112_103 : Index := 112#32
  ![v175.toNat, 112]
def k0_cond4 (k0_t1 : Fin k0_t1_loop.trips) : BitVec 1 :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c3_i32_67 : BitVec 32 := 3#32
  let v61 : BitVec 32 := Scalar.addi v25 c3_i32_67
  let c4_i32_68 : BitVec 32 := 4#32
  let v62 : BitVec 32 := Scalar.addi v61 c4_i32_68
  let c64_i32_69 : BitVec 32 := 64#32
  let v63 : BitVec 1 := Scalar.cmpi .slt v62 c64_i32_69
  let v64 : BitVec 32 := Scalar.extui v63
  let c0_i32_70 : BitVec 32 := 0#32
  let v65 : BitVec 1 := Scalar.cmpi .ne v64 c0_i32_70
  v65

def k0_off37 (k0_t1 : Fin k0_t1_loop.trips) : Fin 2 → Nat :=
  let c0_i32_21 : BitVec 32 := 0#32
  let c1_i32_22 : BitVec 32 := 1#32
  let arg15 : BitVec 32 := Scf.iv c0_i32_21 c1_i32_22 k0_t1
  let c4_i32 : BitVec 32 := 4#32
  let v25 : BitVec 32 := Scalar.muli arg15 c4_i32
  let c3_i32_96 : BitVec 32 := 3#32
  let v147 : BitVec 32 := Scalar.addi v25 c3_i32_96
  let c4_i32_97 : BitVec 32 := 4#32
  let v148 : BitVec 32 := Scalar.addi v147 c4_i32_97
  let c0_i32_98 : BitVec 32 := 0#32
  ![v148.toNat, 0]
def k0_off38 (k0_t1 : Fin k0_t1_loop.trips) (c0_i32_72 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v67 : BitVec 32 := Scalar.addi v66 c0_i32_72
  let v68 : Index := Scalar.indexCast v67
  let c0 : Index := 0#32
  ![v68.toNat, 0]
def k0_off39 (k0_t1 : Fin k0_t1_loop.trips) (c0_i32_73 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v72 : BitVec 32 := Scalar.addi v66 c0_i32_73
  let v73 : Index := Scalar.indexCast v72
  let c16 : Index := 16#32
  ![v73.toNat, 16]
def k0_off40 (k0_t1 : Fin k0_t1_loop.trips) (c0_i32_74 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v77 : BitVec 32 := Scalar.addi v66 c0_i32_74
  let v78 : Index := Scalar.indexCast v77
  let c32 : Index := 32#32
  ![v78.toNat, 32]
def k0_off41 (k0_t1 : Fin k0_t1_loop.trips) (c0_i32_75 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v82 : BitVec 32 := Scalar.addi v66 c0_i32_75
  let v83 : Index := Scalar.indexCast v82
  let c48 : Index := 48#32
  ![v83.toNat, 48]
def k0_off42 (k0_t1 : Fin k0_t1_loop.trips) (c0_i32_76 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v87 : BitVec 32 := Scalar.addi v66 c0_i32_76
  let v88 : Index := Scalar.indexCast v87
  let c64 : Index := 64#32
  ![v88.toNat, 64]
def k0_off43 (k0_t1 : Fin k0_t1_loop.trips) (c0_i32_77 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v92 : BitVec 32 := Scalar.addi v66 c0_i32_77
  let v93 : Index := Scalar.indexCast v92
  let c80 : Index := 80#32
  ![v93.toNat, 80]
def k0_off44 (k0_t1 : Fin k0_t1_loop.trips) (c0_i32_78 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v97 : BitVec 32 := Scalar.addi v66 c0_i32_78
  let v98 : Index := Scalar.indexCast v97
  let c96 : Index := 96#32
  ![v98.toNat, 96]
def k0_off45 (k0_t1 : Fin k0_t1_loop.trips) (c0_i32_79 : BitVec 32) : Fin 2 → Nat :=
  let c0_i32_21 : BitVec 32 := 0#32
  let c1_i32_22 : BitVec 32 := 1#32
  let arg15 : BitVec 32 := Scf.iv c0_i32_21 c1_i32_22 k0_t1
  let c2_i32_71 : BitVec 32 := 2#32
  let v66 : BitVec 32 := Scalar.muli arg15 c2_i32_71
  let v102 : BitVec 32 := Scalar.addi v66 c0_i32_79
  let v103 : Index := Scalar.indexCast v102
  let c112 : Index := 112#32
  ![v103.toNat, 112]
def k0_off46 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v24 : BitVec 32 := Scalar.muli v1 c32_i32
  let c0_i32_24_r1 : BitVec 32 := 0#32
  ![v24.toNat, 0]
abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S100x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S100x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S2048x100 : S1024x200.ShapeCasts S2048x100
  inb_S64x100_S1x100_0_0 : ∀ a, (![0, 0] : Fin 2 → Nat) a + S1x100.size a ≤ S64x100.size a
  squeezes_S1x100_S100 : S1x100.Squeezes S100
  inb_S100002x128_S100002x128_0_0 : ∀ a, (![0, 0] : Fin 2 → Nat) a + S100002x128.size a ≤ S100002x128.size a
  gathers_S100002x128_S100x128 : S100002x128.Gathers 0 S100x128
  inb_S64x100_S1x100_1_0 : ∀ a, (![1, 0] : Fin 2 → Nat) a + S1x100.size a ≤ S64x100.size a
  inb_S64x100_S1x100_2_0 : ∀ a, (![2, 0] : Fin 2 → Nat) a + S1x100.size a ≤ S64x100.size a
  inb_S64x100_S1x100_3_0 : ∀ a, (![3, 0] : Fin 2 → Nat) a + S1x100.size a ≤ S64x100.size a
  h_S1x16 : 0 < S1x16.numel
  shapeCasts_S1x16_S16 : S1x16.ShapeCasts S16
  shapeCasts_S16_S1x16 : S16.ShapeCasts S1x16
  shapeCasts_S100_S1x100 : S100.ShapeCasts S1x100
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x100_S128x100_0_0 : ∀ a, (![0, 0] : Fin 2 → Nat) a + S128x100.size a ≤ S128x100.size a
  h_S128x100 : 0 < S128x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  inb_S100x100_S100x100_0_0 : ∀ a, (![0, 0] : Fin 2 → Nat) a + S100x100.size a ≤ S100x100.size a
  h_S100x100 : 0 < S100x100.numel
  inb_S1024x100_S1024x100_0_0 : ∀ a, (![0, 0] : Fin 2 → Nat) a + S1024x100.size a ≤ S1024x100.size a
  h_S1024x100 : 0 < S1024x100.numel
  dot_S1024x128_S128x100_S1024x100_1_0_0_1_n_n_wf : DotDims.WF S1024x128 S128x100 S1024x100 [1] [0] [0] [1] [] []
  dot_S1024x100_S100x100_S1024x100_1_0_0_1_n_n_wf : DotDims.WF S1024x100 S100x100 S1024x100 [1] [0] [0] [1] [] []
  hcc0_scratch6 : 0 + S_.numel ≤ 14
  hcc0_scratch7 : 1 + S_.numel ≤ 14
  hcc0_scratch8 : 2 + S_.numel ≤ 14
  hcc0_scratch9 : 3 + S_.numel ≤ 14
  hcc0_scoped0 : 4 + S_.numel ≤ 14
  hcc0_scoped1 : 5 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64x100.size a ≤ S2048x100.size a
  k0_t1_ok : k0_t1_loop.OK
  k0_t2_ok : k0_t2_loop.OK
  k0_off2_inb : ∀ k0_t2 : Fin k0_t2_loop.trips, ∀ a, (k0_off2 k0_t2) a + S1x16.size a ≤ S100x128.size a
  k0_off3_inb : ∀ k0_t2 : Fin k0_t2_loop.trips, ∀ a, (k0_off3 k0_t2) a + S1x16.size a ≤ S100x128.size a
  k0_off4_inb : ∀ k0_t2 : Fin k0_t2_loop.trips, ∀ a, (k0_off4 k0_t2) a + S1x16.size a ≤ S100x128.size a
  k0_off5_inb : ∀ k0_t2 : Fin k0_t2_loop.trips, ∀ a, (k0_off5 k0_t2) a + S1x16.size a ≤ S100x128.size a
  k0_off6_inb : ∀ k0_t2 : Fin k0_t2_loop.trips, ∀ a, (k0_off6 k0_t2) a + S1x16.size a ≤ S100x128.size a
  k0_off7_inb : ∀ k0_t2 : Fin k0_t2_loop.trips, ∀ a, (k0_off7 k0_t2) a + S1x16.size a ≤ S100x128.size a
  k0_off8_inb : ∀ k0_t2 : Fin k0_t2_loop.trips, ∀ a, (k0_off8 k0_t2) a + S1x16.size a ≤ S100x128.size a
  k0_off9_inb : ∀ k0_t2 : Fin k0_t2_loop.trips, ∀ a, (k0_off9 k0_t2) a + S1x16.size a ≤ S100x128.size a
  k0_off10_inb : ∀ k0_t1 : Fin k0_t1_loop.trips, ∀ (k0_h1 : k0_cond1 k0_t1 = 1#1), ∀ a, (k0_off10 k0_t1) a + S1x100.size a ≤ S64x100.size a
  k0_t3_ok : k0_t3_loop.OK
  k0_off11_inb : ∀ k0_t3 : Fin k0_t3_loop.trips, ∀ a, (k0_off11 k0_t3) a + S1x16.size a ≤ S100x128.size a
  k0_off12_inb : ∀ k0_t3 : Fin k0_t3_loop.trips, ∀ a, (k0_off12 k0_t3) a + S1x16.size a ≤ S100x128.size a
  k0_off13_inb : ∀ k0_t3 : Fin k0_t3_loop.trips, ∀ a, (k0_off13 k0_t3) a + S1x16.size a ≤ S100x128.size a
  k0_off14_inb : ∀ k0_t3 : Fin k0_t3_loop.trips, ∀ a, (k0_off14 k0_t3) a + S1x16.size a ≤ S100x128.size a
  k0_off15_inb : ∀ k0_t3 : Fin k0_t3_loop.trips, ∀ a, (k0_off15 k0_t3) a + S1x16.size a ≤ S100x128.size a
  k0_off16_inb : ∀ k0_t3 : Fin k0_t3_loop.trips, ∀ a, (k0_off16 k0_t3) a + S1x16.size a ≤ S100x128.size a
  k0_off17_inb : ∀ k0_t3 : Fin k0_t3_loop.trips, ∀ a, (k0_off17 k0_t3) a + S1x16.size a ≤ S100x128.size a
  k0_off18_inb : ∀ k0_t3 : Fin k0_t3_loop.trips, ∀ a, (k0_off18 k0_t3) a + S1x16.size a ≤ S100x128.size a
  k0_off19_inb : ∀ k0_t1 : Fin k0_t1_loop.trips, ∀ (k0_h2 : k0_cond2 k0_t1 = 1#1), ∀ a, (k0_off19 k0_t1) a + S1x100.size a ≤ S64x100.size a
  k0_t4_ok : k0_t4_loop.OK
  k0_off20_inb : ∀ k0_t4 : Fin k0_t4_loop.trips, ∀ a, (k0_off20 k0_t4) a + S1x16.size a ≤ S100x128.size a
  k0_off21_inb : ∀ k0_t4 : Fin k0_t4_loop.trips, ∀ a, (k0_off21 k0_t4) a + S1x16.size a ≤ S100x128.size a
  k0_off22_inb : ∀ k0_t4 : Fin k0_t4_loop.trips, ∀ a, (k0_off22 k0_t4) a + S1x16.size a ≤ S100x128.size a
  k0_off23_inb : ∀ k0_t4 : Fin k0_t4_loop.trips, ∀ a, (k0_off23 k0_t4) a + S1x16.size a ≤ S100x128.size a
  k0_off24_inb : ∀ k0_t4 : Fin k0_t4_loop.trips, ∀ a, (k0_off24 k0_t4) a + S1x16.size a ≤ S100x128.size a
  k0_off25_inb : ∀ k0_t4 : Fin k0_t4_loop.trips, ∀ a, (k0_off25 k0_t4) a + S1x16.size a ≤ S100x128.size a
  k0_off26_inb : ∀ k0_t4 : Fin k0_t4_loop.trips, ∀ a, (k0_off26 k0_t4) a + S1x16.size a ≤ S100x128.size a
  k0_off27_inb : ∀ k0_t4 : Fin k0_t4_loop.trips, ∀ a, (k0_off27 k0_t4) a + S1x16.size a ≤ S100x128.size a
  k0_off28_inb : ∀ k0_t1 : Fin k0_t1_loop.trips, ∀ (k0_h3 : k0_cond3 k0_t1 = 1#1), ∀ a, (k0_off28 k0_t1) a + S1x100.size a ≤ S64x100.size a
  k0_t5_ok : k0_t5_loop.OK
  k0_off29_inb : ∀ k0_t5 : Fin k0_t5_loop.trips, ∀ a, (k0_off29 k0_t5) a + S1x16.size a ≤ S100x128.size a
  k0_off30_inb : ∀ k0_t5 : Fin k0_t5_loop.trips, ∀ a, (k0_off30 k0_t5) a + S1x16.size a ≤ S100x128.size a
  k0_off31_inb : ∀ k0_t5 : Fin k0_t5_loop.trips, ∀ a, (k0_off31 k0_t5) a + S1x16.size a ≤ S100x128.size a
  k0_off32_inb : ∀ k0_t5 : Fin k0_t5_loop.trips, ∀ a, (k0_off32 k0_t5) a + S1x16.size a ≤ S100x128.size a
  k0_off33_inb : ∀ k0_t5 : Fin k0_t5_loop.trips, ∀ a, (k0_off33 k0_t5) a + S1x16.size a ≤ S100x128.size a
  k0_off34_inb : ∀ k0_t5 : Fin k0_t5_loop.trips, ∀ a, (k0_off34 k0_t5) a + S1x16.size a ≤ S100x128.size a
  k0_off35_inb : ∀ k0_t5 : Fin k0_t5_loop.trips, ∀ a, (k0_off35 k0_t5) a + S1x16.size a ≤ S100x128.size a
  k0_off36_inb : ∀ k0_t5 : Fin k0_t5_loop.trips, ∀ a, (k0_off36 k0_t5) a + S1x16.size a ≤ S100x128.size a
  k0_off37_inb : ∀ k0_t1 : Fin k0_t1_loop.trips, ∀ (k0_h4 : k0_cond4 k0_t1 = 1#1), ∀ a, (k0_off37 k0_t1) a + S1x100.size a ≤ S64x100.size a
  k0_off38_inb : ∀ k0_t1 : Fin k0_t1_loop.trips, ∀ (r : Fin 2), ∀ a, (k0_off38 k0_t1 (BitVec.ofNat 32 r.val)) a + S1x16.size a ≤ S32x128.size a
  k0_off39_inb : ∀ k0_t1 : Fin k0_t1_loop.trips, ∀ (r : Fin 2), ∀ a, (k0_off39 k0_t1 (BitVec.ofNat 32 r.val)) a + S1x16.size a ≤ S32x128.size a
  k0_off40_inb : ∀ k0_t1 : Fin k0_t1_loop.trips, ∀ (r : Fin 2), ∀ a, (k0_off40 k0_t1 (BitVec.ofNat 32 r.val)) a + S1x16.size a ≤ S32x128.size a
  k0_off41_inb : ∀ k0_t1 : Fin k0_t1_loop.trips, ∀ (r : Fin 2), ∀ a, (k0_off41 k0_t1 (BitVec.ofNat 32 r.val)) a + S1x16.size a ≤ S32x128.size a
  k0_off42_inb : ∀ k0_t1 : Fin k0_t1_loop.trips, ∀ (r : Fin 2), ∀ a, (k0_off42 k0_t1 (BitVec.ofNat 32 r.val)) a + S1x16.size a ≤ S32x128.size a
  k0_off43_inb : ∀ k0_t1 : Fin k0_t1_loop.trips, ∀ (r : Fin 2), ∀ a, (k0_off43 k0_t1 (BitVec.ofNat 32 r.val)) a + S1x16.size a ≤ S32x128.size a
  k0_off44_inb : ∀ k0_t1 : Fin k0_t1_loop.trips, ∀ (r : Fin 2), ∀ a, (k0_off44 k0_t1 (BitVec.ofNat 32 r.val)) a + S1x16.size a ≤ S32x128.size a
  k0_off45_inb : ∀ k0_t1 : Fin k0_t1_loop.trips, ∀ (r : Fin 2), ∀ a, (k0_off45 k0_t1 (BitVec.ofNat 32 r.val)) a + S1x16.size a ≤ S32x128.size a
  k0_off46_inb : ∀ i : grid0.Coords, ∀ a, (k0_off46 i) a + S32x128.size a ≤ S1024x128.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1
def dot_S1024x128_S128x100_S1024x100_1_0_0_1_n_n : DotDims S1024x128 S128x100 S1024x100 where
  lhsContracting := [1]
  rhsContracting := [0]
  lhsNonContracting := [0]
  rhsNonContracting := [1]
  lhsBatch := []
  rhsBatch := []
  wf := dot_S1024x128_S128x100_S1024x100_1_0_0_1_n_n_wf
def dot_S1024x100_S100x100_S1024x100_1_0_0_1_n_n : DotDims S1024x100 S100x100 S1024x100 where
  lhsContracting := [1]
  rhsContracting := [0]
  lhsNonContracting := [0]
  rhsNonContracting := [1]
  lhsBatch := []
  rhsBatch := []
  wf := dot_S1024x100_S100x100_S1024x100_1_0_0_1_n_n_wf

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v2) false false (stage1_2 0) (sem1_2 0) (Memref.isWhole_whole _) (hstage1_2 0)

abbrev win1_3 : Pipeline.Window sig grid1 :=
  Pipeline.Window.whole (Memref.whole main_arg4) false false (stage1_3 0) (sem1_3 0) (Memref.isWhole_whole _) (hstage1_3 0)

abbrev win1_4 : Pipeline.Window sig grid1 :=
  Pipeline.Window.whole (Memref.whole main_v3) false false (stage1_4 0) (sem1_4 0) (Memref.isWhole_whole _) (hstage1_4 0)

abbrev win1_5 : Pipeline.Window sig grid1 :=
  Pipeline.Window.whole (Memref.whole main_arg6) false false (stage1_5 0) (sem1_5 0) (Memref.isWhole_whole _) (hstage1_5 0)

abbrev win1_6 : Pipeline.Window sig grid1 :=
  Pipeline.Window.whole (Memref.whole main_v4) false false (stage1_6 0) (sem1_6 0) (Memref.isWhole_whole _) (hstage1_6 0)

abbrev win1_7 : Pipeline.Window sig grid1 :=
  Pipeline.Window.whole (Memref.whole main_v5) true false (stage1_7 0) (sem1_7 0) (Memref.isWhole_whole _) (hstage1_7 0)

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1024x200 : Shape := ⟨2, ![1024, 200]⟩
abbrev S100002x128 : Shape := ⟨2, ![100002, 128]⟩
abbrev S128x100 : Shape := ⟨2, ![128, 100]⟩
abbrev S100 : Shape := ⟨1, ![100]⟩
abbrev S100x100 : Shape := ⟨2, ![100, 100]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x128 : Shape := ⟨2, ![1024, 128]⟩
abbrev S1024x100 : Shape := ⟨2, ![1024, 100]⟩
abbrev S1x100 : Shape := ⟨2, ![1, 100]⟩

abbrev nBuf : Space → Nat
  | .hbm => 55
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100002x128, .f32⟩
  | .hbm, ⟨2, _⟩ => ⟨S128x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S_, .i1⟩
  | .hbm, ⟨9, _⟩ => ⟨S_, .i32⟩
  | .hbm, ⟨10, _⟩ => ⟨S1024x200, .i32⟩
  | .hbm, ⟨11, _⟩ => ⟨S1024x200, .i1⟩
  | .hbm, ⟨12, _⟩ => ⟨S_, .i32⟩
  | .hbm, ⟨13, _⟩ => ⟨S1024x200, .i32⟩
  | .hbm, ⟨14, _⟩ => ⟨S1024x200, .i32⟩
  | .hbm, ⟨15, _⟩ => ⟨S1024x200, .i32⟩
  | .hbm, ⟨16, _⟩ => ⟨S1024x200x1, .i32⟩
  | .hbm, ⟨17, _⟩ => ⟨S1, .i32⟩
  | .hbm, ⟨18, _⟩ => ⟨S_, .i32⟩
  | .hbm, ⟨19, _⟩ => ⟨S1024x200x1, .i32⟩
  | .hbm, ⟨20, _⟩ => ⟨S1024x200x1, .i1⟩
  | .hbm, ⟨21, _⟩ => ⟨S1x1x1, .i32⟩
  | .hbm, ⟨22, _⟩ => ⟨S1024x200x1, .i32⟩
  | .hbm, ⟨23, _⟩ => ⟨S1024x200x1, .i1⟩
  | .hbm, ⟨24, _⟩ => ⟨S1024x200x1, .i1⟩
  | .hbm, ⟨25, _⟩ => ⟨S_, .i1⟩
  | .hbm, ⟨26, _⟩ => ⟨S1024x200, .i1⟩
  | .hbm, ⟨27, _⟩ => ⟨S1024x200x128, .f32⟩
  | .hbm, ⟨28, _⟩ => ⟨S1024x200x128, .i1⟩
  | .hbm, ⟨29, _⟩ => ⟨S_, .f32⟩
  | .hbm, ⟨30, _⟩ => ⟨S1024x200x128, .f32⟩
  | .hbm, ⟨31, _⟩ => ⟨S1024x200x128, .f32⟩
  | .hbm, ⟨32, _⟩ => ⟨S_, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x100, .f32⟩
  | .hbm, ⟨38, _⟩ => ⟨S1x100, .f32⟩
  | .hbm, ⟨39, _⟩ => ⟨S1024x100, .f32⟩
  | .hbm, ⟨40, _⟩ => ⟨S1024x100, .f32⟩
  | .hbm, ⟨41, _⟩ => ⟨S_, .f32⟩
  | .hbm, ⟨42, _⟩ => ⟨S1024x100, .f32⟩
  | .hbm, ⟨43, _⟩ => ⟨S1024x100, .f32⟩
  | .hbm, ⟨44, _⟩ => ⟨S1024x100, .f32⟩
  | .hbm, ⟨45, _⟩ => ⟨S1x100, .f32⟩
  | .hbm, ⟨46, _⟩ => ⟨S1024x100, .f32⟩
  | .hbm, ⟨47, _⟩ => ⟨S1024x100, .f32⟩
  | .hbm, ⟨48, _⟩ => ⟨S_, .f32⟩
  | .hbm, ⟨49, _⟩ => ⟨S1024x100, .f32⟩
  | .hbm, ⟨50, _⟩ => ⟨S1024x100, .f32⟩
  | .hbm, ⟨51, _⟩ => ⟨S1024x100, .f32⟩
  | .hbm, ⟨52, _⟩ => ⟨S1x100, .f32⟩
  | .hbm, ⟨53, _⟩ => ⟨S1024x100, .f32⟩
  | .hbm, ⟨54, _⟩ => ⟨S1024x100, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_cst_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_call1_cst : Ref sig .tc := ⟨.hbm, 41, rfl⟩
abbrev main_call1_v0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_call2_cst : Ref sig .tc := ⟨.hbm, 48, rfl⟩
abbrev main_call2_v0 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  reducesTo_S1024x200x128_S1024x128_d1 : S1024x200x128.ReducesTo [1] S1024x128
  bcast_S_S1024x128 : S_.BroadcastsInDim S1024x128 (![] : Fin 0 → Fin S1024x128.rank)
  bcast_S100_S1x100_1 : S100.BroadcastsInDim S1x100 (![1] : Fin 1 → Fin S1x100.rank)
  bcast_S1x100_S1024x100_0_1 : S1x100.BroadcastsInDim S1024x100 (![0, 1] : Fin 2 → Fin S1024x100.rank)
  bcast_S_S1024x100 : S_.BroadcastsInDim S1024x100 (![] : Fin 0 → Fin S1024x100.rank)
  gather_S100002x128_S1024x200x1_S1024x200x128_2_0_n_n_0_2_1128_wf : GatherDims.WF S100002x128 S1024x200x1 S1024x200x128 [2] [0] [] [0] [] 2 ![1, 128]
  dot_S1024x128_S128x100_S1024x100_1_0_0_1_n_n_wf : DotDims.WF S1024x128 S128x100 S1024x100 [1] [0] [0] [1] [] []
  dot_S1024x100_S100x100_S1024x100_1_0_0_1_n_n_wf : DotDims.WF S1024x100 S100x100 S1024x100 [1] [0] [0] [1] [] []

variable [Facts₀]

def gather_S100002x128_S1024x200x1_S1024x200x128_2_0_n_n_0_2_1128 : GatherDims S100002x128 S1024x200x1 S1024x200x128 where
  offsetDims := [2]
  collapsedSliceDims := [0]
  operandBatchingDims := []
  startIndicesBatchingDims := []
  startIndexMap := [0]
  indexVectorDim := 2
  sliceSizes := ![1, 128]
  wf := gather_S100002x128_S1024x200x1_S1024x200x128_2_0_n_n_0_2_1128_wf
def dot_S1024x128_S128x100_S1024x100_1_0_0_1_n_n : DotDims S1024x128 S128x100 S1024x100 where
  lhsContracting := [1]
  rhsContracting := [0]
  lhsNonContracting := [0]
  rhsNonContracting := [1]
  lhsBatch := []
  rhsBatch := []
  wf := dot_S1024x128_S128x100_S1024x100_1_0_0_1_n_n_wf
def dot_S1024x100_S100x100_S1024x100_1_0_0_1_n_n : DotDims S1024x100 S100x100 S1024x100 where
  lhsContracting := [1]
  rhsContracting := [0]
  lhsNonContracting := [0]
  rhsNonContracting := [1]
  lhsBatch := []
  rhsBatch := []
  wf := dot_S1024x100_S100x100_S1024x100_1_0_0_1_n_n_wf

class Facts : Prop extends Facts₀ where

variable [Facts]
-- ==== Proof.IdealTile.lean ====
/-
  What one vector subcore's task is handed and what it hands back, for the pooling kernel.

  The mesh is 2 SparseCores of 16 vector subcores. The task at coordinates (c, s) is task number w = 2·s + c of 32.
  It copies rows 64·w … 64·w + 63 of the token matrix [2048, 100] (two rows per sentence: sentence b is rows
  2·b and 2·b + 1) into its scratch, gathers for each of them the 100 table rows its words name, adds them up,
  and writes rows 32·w … 32·w + 31 of the pooled matrix [1024, 128].

  The pooled value is stated once for every float instance: at sentence b and feature e it is the left fold
  of the float addition over the 200 named table entries, in reading order, from the zero word.
-/
import proofs.«202922_g81758997446792_cont_9to1_m_1158_4_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«202922_g81758997446792_cont_9to1_m_1158_4_alg».proof.Proof.Gen.KernelIdeal
import proofs.«202922_g81758997446792_cont_9to1_m_1158_4_alg».proof.Proof.Gen.KernelIdeal.Skeleton

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The pooled value, for every float instance -/

/-- The table row a token word names: its value as a natural number, kept below the table's 100002 rows. -/
def rowOf (t : BitVec 32) : Fin 100002 := ⟨min t.toNat 100001, by omega⟩

/-- The n-th word of sentence b in the token matrix [2048, 100]: row 2·b + n / 100, column n % 100. -/
def wordAt (t2 : S2048x100.Idx → BitVec 32) (b : Nat) (n : Nat) : BitVec 32 :=
  t2 (ix2 ⟨(2 * b + n / 100) % 2048, Nat.mod_lt _ (by decide)⟩ ⟨n % 100, Nat.mod_lt _ (by decide)⟩)

/-- The sum of the first n named table entries of sentence b at feature e, added left to right from the zero word. -/
def accUpTo [FloatOps F] (t2 : S2048x100.Idx → BitVec 32) (tab : S100002x128.Idx → F .f32) (b : Nat) (e : Fin 128) : Nat → F .f32
  | 0 => Scalar.ofBits .f32 0x00000000#32
  | n + 1 => FloatOps.addf (accUpTo t2 tab b e n) (tab (ix2 (rowOf (wordAt t2 b n)) e))

/-- The pooled matrix: all 200 entries of each sentence added up. -/
def pooledF [FloatOps F] (t2 : S2048x100.Idx → BitVec 32) (tab : S100002x128.Idx → F .f32) : S1024x128.Idx → F .f32 :=
  fun i => accUpTo t2 tab (i 0).val (i 1) 200

/-! ## The program as the launch theorem sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the launch handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays and one task's pieces of them -/

abbrev tokLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The task's 64 rows of the token matrix and its 32 rows of the pooled matrix, as the kernel slices them. -/
abbrev tokRect (L : grid0.Coords) : Rect S2048x100 := Rect.unit (s := S2048x100) (k0_off1 L) S64x100.size (k0_off1_inb L)
abbrev outRect (L : grid0.Coords) : Rect S1024x128 := Rect.unit (s := S1024x128) (k0_off46 L) S32x128.size (k0_off46_inb L)
abbrev tokSet (L : grid0.Coords) : Finset S2048x100.Idx :=
  ((Memref.whole main_v0_scv : Memref sig .scVector .hbm S2048x100 .i32).slice (tokRect L) (fun _ => rfl)).view.set
abbrev outSet (L : grid0.Coords) : Finset S1024x128.Idx :=
  ((Memref.whole main_v1_scv : Memref sig .scVector .hbm S1024x128 .f32).slice (outRect L) (fun _ => rfl)).view.set

/-- The number 2·s + c of the task at (c, s), and its read share of the table: one of 32. -/
def wid (L : grid0.Coords) : Fin 32 := ⟨2 * (L 1).val + (L 0).val, by have h0 : (L 0).val < 2 := (L 0).isLt; have h1 : (L 1).val < 16 := (L 1).isLt; omega⟩
abbrev tabShare (L : grid0.Coords) : PosShare TreeShare := Transfers.shareTok fullShare 32 (wid L)

/-- What the proof asks of the token matrix: every word names a table row. -/
def PreOK (t2 : S2048x100.Idx → BitVec 32) : Prop := ∀ j, (t2 j).toNat ≤ 99999

variable [FloatOps F] [Named F]

/-- Handed to the task at L: its token rows, its read share of the whole table, its pooled rows (at contents o). -/
def tileGo (d : Dev nD) (t2 : Buf (Elt F) (tokLoc d)) (tab : Buf (Elt F) (tabLoc d)) (o : Buf (Elt F) (outLoc d)) (L : grid0.Coords) : sProp 𝕄 :=
  iprop((tokLoc d ↦[tokSet L]{fullShare} t2) ∗ (tabLoc d ↦{tabShare L} tab) ∗ (outLoc d ↦[outSet L]{fullShare} o))

/-- Handed back: the same, the pooled rows now at the pooled value of the token matrix and the table. -/
def tileTd (d : Dev nD) (t2 : Buf (Elt F) (tokLoc d)) (tab : Buf (Elt F) (tabLoc d)) (L : grid0.Coords) : sProp 𝕄 :=
  iprop((tokLoc d ↦[tokSet L]{fullShare} t2) ∗ (tabLoc d ↦{tabShare L} tab) ∗ (outLoc d ↦[outSet L]{fullShare} pooledF (F := F) t2 tab))

end Cert.Proof.IdealSide

end
-- ==== Proof.IdealSplit.lean ====
/-
  The 32 tasks' pieces of the three arrays: the token matrix and the pooled matrix cut into 32 bands of rows, task
  w = 2·s + c taking band w; the table read by all, each task under one of 32 read shares.
-/
import proofs.«202922_g81758997446792_cont_9to1_m_1158_4_alg».proof.Proof.IdealTile

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The mesh's coordinates and the task number -/

theorem nCore_zero [FloatOps F] [Named F] : (K (F := F)).nCore 0 = 2 := rfl
theorem nSub_zero [FloatOps F] [Named F] : (K (F := F)).nSub 0 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The coordinates of task w: core w % 2, subcore w / 2. -/
def coordsW (w : Fin 32) : grid0.Coords := coordsV ⟨w.val % 2, Nat.mod_lt _ (by decide)⟩ ⟨w.val / 2, by have := w.isLt; show w.val / 2 < 16; omega⟩

theorem wid_coordsW (w : Fin 32) : wid (coordsW w) = w := by
  apply Fin.ext; show 2 * (w.val / 2) + w.val % 2 = w.val; omega

/-- Pairs (core, subcore) and task numbers correspond one to one. -/
def widEquiv : Fin 2 × Fin 16 ≃ Fin 32 where
  toFun p := ⟨2 * p.2.val + p.1.val, by have h0 := p.1.isLt; have h1 := p.2.isLt; omega⟩
  invFun w := (⟨w.val % 2, Nat.mod_lt _ (by decide)⟩, ⟨w.val / 2, by have := w.isLt; omega⟩)
  left_inv p := by
    have h0 := p.1.isLt; have h1 := p.2.isLt
    apply Prod.ext <;> apply Fin.ext <;> simp <;> omega
  right_inv w := by apply Fin.ext; simp; omega

theorem coordsW_widEquiv (c : Fin 2) (i : Fin 16) : coordsW (widEquiv (c, i)) = coordsV c i := by
  have h0 := c.isLt; have h1 := i.isLt
  funext a
  match a with
  | ⟨0, _⟩ => apply Fin.ext; show (2 * i.val + c.val) % 2 = c.val; omega
  | ⟨1, _⟩ => apply Fin.ext; show (2 * i.val + c.val) / 2 = i.val; omega

/-- A family over the mesh, core by core and subcore by subcore, is the family over the 32 tasks. -/
theorem bigSep_mesh (Φ : grid0.Coords → sProp 𝕄) :
    (bigSep Finset.univ fun c : Fin 2 => bigSep Finset.univ fun i : Fin 16 => Φ (coordsV c i))
      = bigSep Finset.univ fun w : Fin 32 => Φ (coordsW w) := by
  rw [bigSep_univ_equiv widEquiv (fun w : Fin 32 => Φ (coordsW w)), bigSep_univ_prod]
  refine bigSep_congr fun c _ => bigSep_congr fun i _ => ?_
  rw [coordsW_widEquiv]

/-! ## The bands of rows -/

theorem tdiv : 32 ∣ S2048x100.size 0 := ⟨64, rfl⟩
theorem odiv : 32 ∣ S1024x128.size 0 := ⟨32, rfl⟩

theorem tokRect_eq (w : Fin 32) : tokRect (coordsW w) = Rect.part (s := S2048x100) (a₀ := 0) tdiv w := by
  have hw := w.isLt
  unfold tokRect Rect.part Rect.block
  congr 1 <;> funext a
  · rw [k0_off1_eq]
    match a with
    | 0 => simp [Shape.partIx, Shape.partSize, coordsW, coordsV]; omega
    | 1 => simp [Shape.partIx, Shape.partSize]
  · match a with
    | 0 => simp [Shape.partSize]
    | 1 => simp [Shape.partSize]

theorem outRect_eq (w : Fin 32) : outRect (coordsW w) = Rect.part (s := S1024x128) (a₀ := 0) odiv w := by
  have hw := w.isLt
  unfold outRect Rect.part Rect.block
  congr 1 <;> funext a
  · rw [k0_off46_eq]
    match a with
    | 0 => simp [Shape.partIx, Shape.partSize, coordsW, coordsV]; omega
    | 1 => simp [Shape.partIx, Shape.partSize]
  · match a with
    | 0 => simp [Shape.partSize]
    | 1 => simp [Shape.partSize]

theorem tokSet_eq (w : Fin 32) : tokSet (coordsW w) = (Rect.part (s := S2048x100) (a₀ := 0) tdiv w).set := by
  show ((View.whole (main_v0_scv : Ref sig .scVector)).slice (tokRect (coordsW w))).set = _
  rw [View.set_slice, tokRect_eq]; exact Finset.map_refl

theorem outSet_eq (w : Fin 32) : outSet (coordsW w) = (Rect.part (s := S1024x128) (a₀ := 0) odiv w).set := by
  show ((View.whole (main_v1_scv : Ref sig .scVector)).slice (outRect (coordsW w))).set = _
  rw [View.set_slice, outRect_eq]; exact Finset.map_refl

theorem tok_disjoint : ∀ i ∈ (Finset.univ : Finset (Fin 32)), ∀ j ∈ (Finset.univ : Finset (Fin 32)), i ≠ j →
    Disjoint (tokSet (coordsW i)) (tokSet (coordsW j)) :=
  fun i _ j _ h => by rw [tokSet_eq, tokSet_eq]; exact Rect.part_disjoint tdiv h
theorem out_disjoint : ∀ i ∈ (Finset.univ : Finset (Fin 32)), ∀ j ∈ (Finset.univ : Finset (Fin 32)), i ≠ j →
    Disjoint (outSet (coordsW i)) (outSet (coordsW j)) :=
  fun i _ j _ h => by rw [outSet_eq, outSet_eq]; exact Rect.part_disjoint odiv h
theorem tok_cover : (Finset.univ : Finset (Fin 32)).biUnion (fun w => tokSet (coordsW w)) = Finset.univ :=
  (Finset.biUnion_congr rfl fun i _ => tokSet_eq i).trans (Rect.biUnion_part tdiv)
theorem out_cover : (Finset.univ : Finset (Fin 32)).biUnion (fun w => outSet (coordsW w)) = Finset.univ :=
  (Finset.biUnion_congr rfl fun i _ => outSet_eq i).trans (Rect.biUnion_part odiv)

/-- The token matrix whole is its 32 bands. -/
theorem tok_bands (d : Dev nD) (f : Buf (Elt F) (tokLoc d)) :
    (tokLoc d ↦{fullShare} f : sProp 𝕄) = bigSep Finset.univ fun w : Fin 32 => tokLoc d ↦[tokSet (coordsW w)]{fullShare} f := by
  rw [← pointsTo_biUnion Finset.univ (ℓ := tokLoc d) (fun w => tokSet (coordsW w)) tok_disjoint, tok_cover]; try rfl

/-- The pooled matrix whole is its 32 bands. -/
theorem out_bands (d : Dev nD) (f : Buf (Elt F) (outLoc d)) :
    (outLoc d ↦{fullShare} f : sProp 𝕄) = bigSep Finset.univ fun w : Fin 32 => outLoc d ↦[outSet (coordsW w)]{fullShare} f := by
  rw [← pointsTo_biUnion Finset.univ (ℓ := outLoc d) (fun w => outSet (coordsW w)) out_disjoint, out_cover]; try rfl

/-- The table's 32 read shares, by task. -/
theorem tab_shares (d : Dev nD) (f : Buf (Elt F) (tabLoc d)) :
    (bigSep Finset.univ fun w : Fin 32 => (tabLoc d ↦{tabShare (coordsW w)} f : sProp 𝕄))
      = bigSep Finset.univ fun w : Fin 32 => tabLoc d ↦{Transfers.shareTok fullShare 32 w} f :=
  bigSep_congr fun w _ => by unfold tabShare; rw [wid_coordsW]

end Cert.Proof.IdealSide

end
-- ==== Proof.IdealPay.lean ====
/-
  What the one SparseCore call carries: to each SparseCore its 16 tasks' pieces, to each task its own, and back; the
  whole arrays cut into these pieces at the call and joined after it.
-/
import proofs.«202922_g81758997446792_cont_9to1_m_1158_4_alg».proof.Proof.IdealTile
import proofs.«202922_g81758997446792_cont_9to1_m_1158_4_alg».proof.Proof.IdealSplit

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] [Named F]

/-- The coordinates of task i of SparseCore c of the call's grid. -/
abbrev coordsOf (c : Fin ((K (F := F)).nCore 0)) (i : Fin ((K (F := F)).nSub 0)) : grid0.Coords :=
  coordsV (Fin.cast nCore_zero c) (Fin.cast nSub_zero i)

variable (d : Dev nD) (t2 : Dev nD → S2048x100.Idx → BitVec 32) (tab : (d : Dev nD) → Buf (Elt F) (tabLoc d)) (o : (d : Dev nD) → Buf (Elt F) (outLoc d))

/-- The call hands SparseCore c its 16 tasks' pieces and takes them back, the pooled rows then at the pooled value. -/
def P : (K (F := F)).Pay (nD := nD) (Val := Elt F) (Name := ℕ) (U := UU) where
  st := fun q d c => match q with | 0 => bigSep Finset.univ fun i : Fin ((K (F := F)).nSub 0) => tileGo d (t2 d) (tab d) (o d) (coordsOf c i)
  dn := fun q d c => match q with | 0 => bigSep Finset.univ fun i : Fin ((K (F := F)).nSub 0) => tileTd d (t2 d) (tab d) (coordsOf c i)
  go := fun q d c i => match q with | 0 => tileGo d (t2 d) (tab d) (o d) (coordsOf c i)
  td := fun q d c i => match q with | 0 => tileTd d (t2 d) (tab d) (coordsOf c i)
  x := fun _ _ => iprop(emp)

instance tileGo_storable (L : grid0.Coords) : BI.Storable (upEmb : UEmb _ 𝕄) (tileGo (F := F) d (t2 d) (tab d) (o d) L) := by
  unfold tileGo; infer_instance
instance tileTd_storable (L : grid0.Coords) : BI.Storable (upEmb : UEmb _ 𝕄) (tileTd (F := F) d (t2 d) (tab d) L) := by
  unfold tileTd; infer_instance

instance P_storable : (P (F := F) t2 tab o).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands are its tasks' pieces, and its results theirs: nothing to rearrange. -/
theorem vecSplit : (K (F := F)).VecSplit' (P t2 tab o) 0 := by
  intro d c
  show (bigSep Finset.univ fun i : Fin ((K (F := F)).nSub 0) => tileGo d (t2 d) (tab d) (o d) (coordsOf c i))
    ⊢ |={Set.univ}=> iprop((bigSep Finset.univ fun i : Fin ((K (F := F)).nSub 0) => tileGo d (t2 d) (tab d) (o d) (coordsOf c i))
      ∗ ((bigSep Finset.univ fun i : Fin ((K (F := F)).nSub 0) => tileTd d (t2 d) (tab d) (coordsOf c i))
          -∗ bigSep Finset.univ fun i : Fin ((K (F := F)).nSub 0) => tileTd d (t2 d) (tab d) (coordsOf c i)))
  iintro H; imodintro
  isplitl [H]; · iexact H
  iintro H; iexact H

/-- What the call takes, over the 32 tasks. -/
theorem st0_eq :
    (bigSep Finset.univ fun c : Fin ((K (F := F)).nCore 0) => (P t2 tab o).st 0 d c)
      = bigSep Finset.univ fun w : Fin 32 => tileGo d (t2 d) (tab d) (o d) (coordsW w) := by
  exact bigSep_mesh (F := F) (fun L => tileGo d (t2 d) (tab d) (o d) L)

/-- What it hands back, over the 32 tasks. -/
theorem dn0_eq :
    (bigSep Finset.univ fun c : Fin ((K (F := F)).nCore 0) => (P t2 tab o).dn 0 d c)
      = bigSep Finset.univ fun w : Fin 32 => tileTd d (t2 d) (tab d) (coordsW w) := by
  exact bigSep_mesh (F := F) (fun L => tileTd d (t2 d) (tab d) L)

/-- The three arrays whole (the table but for the share the TensorCore keeps) are the 32 tasks' pieces. -/
theorem pieces_out :
    iprop((tokLoc d ↦{fullShare} (t2 d)) ∗ (tabLoc d ↦{fullShare} tab d) ∗ (outLoc d ↦{fullShare} o d))
      ⊢ (iprop((tabLoc d ↦{Transfers.shareDrop fullShare 32} tab d)
          ∗ bigSep Finset.univ fun w : Fin 32 => tileGo d (t2 d) (tab d) (o d) (coordsW w)) : sProp 𝕄) := by
  unfold tileGo
  rw [bigSep_sep', bigSep_sep', tab_shares, tok_bands, out_bands]
  iintro ⟨Ht, Hx, Ho⟩
  ihave Hx' := (Transfers.pointsTo_toks_split (S := Finset.univ) fullShare 32) $$ Hx
  icases Hx' with ⟨Hd, Hx⟩
  isplitl [Hd]; · iexact Hd
  isplitl [Ht]; · iexact Ht
  isplitl [Hx]; · iexact Hx
  iexact Ho

/-- Back: the token matrix and the table whole as they were, the pooled matrix whole at the pooled value. -/
theorem pieces_back :
    iprop((tabLoc d ↦{Transfers.shareDrop fullShare 32} tab d)
        ∗ bigSep Finset.univ fun w : Fin 32 => tileTd d (t2 d) (tab d) (coordsW w))
      ⊢ (iprop((tokLoc d ↦{fullShare} (t2 d)) ∗ (tabLoc d ↦{fullShare} tab d)
          ∗ (outLoc d ↦{fullShare} pooledF (F := F) (t2 d) (tab d))) : sProp 𝕄) := by
  unfold tileTd
  rw [bigSep_sep', bigSep_sep', tab_shares, tok_bands, out_bands]
  iintro ⟨Hd, Ht, Hx, Ho⟩
  isplitl [Ht]; · iexact Ht
  isplitl [Hd Hx]
  · iapply (Transfers.pointsTo_toks_join (S := Finset.univ) fullShare 32); isplitl [Hd] <;> iassumption
  iexact Ho

end Cert.Proof.IdealSide

end
-- ==== Proof.IdealMlpBody.lean ====
/-
  The dense layers' kernel body on whole staging buffers.

  The body reads seven buffers whole — the pooled sums [1024,128], the three weight matrices and the three bias
  rows — and stores ONE value over the whole of the eighth, the result [1024,100]: the generated payload
  `k1_pay1` of the seven values read (scale by 1/200, three affine layers, the first two clamped below at zero).
  Here: the rounds algebra the staging cells live in, and the body's triple — from the seven inputs at read
  contents and the result's buffer at anything, to the inputs as they were and the result at the single store
  read back as one function.
-/
import proofs.«202922_g81758997446792_cont_9to1_m_1158_4_alg».proof.Proof.IdealTile
import proofs.«202922_g81758997446792_cont_9to1_m_1158_4_alg».proof.Proof.Gen.KernelIdeal.Launch
import proofs.«202922_g81758997446792_cont_9to1_m_1158_4_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.IdealSide

open Cert.KernelIdeal Cert.KernelIdeal.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The staging cells' algebra inside the proof's -/

/-- The staging cells' rounds are the middle component of the proof's algebra. -/
def EP : Emb UP (MT nD τ sig (HIx 1) (Elt F) ℕ UU ℕ) :=
  (Emb.inl : Emb UP (UP × Counters)).trans (embR : Emb (UP × Counters) (MT nD τ sig (HIx 1) (Elt F) ℕ (UH × (UP × Counters)) ℕ))

instance EP_landsIn : (EP : Emb UP 𝕄).LandsIn (upEmb : UEmb _ 𝕄) := by unfold EP; infer_instance

/-- The pipeline has no prefetched table: nothing to admit. -/
abbrev adm : (p : Fin 1) → (pcfgs (F := F) p).Adm := fun p => (cfgs p).toPCfg_adm

/-! ## The body's accesses: every one the whole of its buffer -/

abbrev boxPool : Rect S1024x128 := Rect.unit (s := S1024x128) ![0, 0] S1024x128.size inb_S1024x128_S1024x128_0_0
abbrev boxW1 : Rect S128x100 := Rect.unit (s := S128x100) ![0, 0] S128x100.size inb_S128x100_S128x100_0_0
abbrev boxBias : Rect S1x100 := Rect.unit (s := S1x100) ![0, 0] S1x100.size inb_S1x100_S1x100_0_0
abbrev boxW : Rect S100x100 := Rect.unit (s := S100x100) ![0, 0] S100x100.size inb_S100x100_S100x100_0_0
abbrev boxOut : Rect S1024x100 := Rect.unit (s := S1024x100) ![0, 0] S1024x100.size inb_S1024x100_S1024x100_0_0

/-- What the body leaves in the result's buffer: its one store, over what the seven loads read. -/
def mlpBlk (pooled : Vec F S1024x128 .f32) (w1 : Vec F S128x100 .f32) (b1 : Vec F S1x100 .f32) (w2 : Vec F S100x100 .f32)
    (b2 : Vec F S1x100 .f32) (w3 : Vec F S100x100 .f32) (b3 : Vec F S1x100 .f32) : Vec F S1024x100 .f32 :=
  View.canon [⟨boxOut, k1_pay1 (View.ld pooled boxPool) (View.ld w1 boxW1) (View.ld b1 boxBias) (View.ld w2 boxW)
    (View.ld b2 boxBias) (View.ld w3 boxW) (View.ld b3 boxBias)⟩]

/-- The one store is over the whole buffer. -/
theorem mlp_cover (p : Vec F S1024x100 .f32) (y : S1024x100.Idx) :
    ∃ pc ∈ ([⟨boxOut, p⟩] : List (View.Piece (Elt F) S1024x100 .f32)), y ∈ pc.1.set :=
  View.cover_of_tiled [⟨boxOut, p⟩] S1024x100.size (by rfl) y

/-! ## The body's triple -/

set_option maxHeartbeats 1000000 in
/-- The body on eight whole staging buffers: the seven inputs at read contents and the result's at anything, to the
    inputs unchanged and the result's at `mlpBlk` of them. -/
theorem mlp_body_run (c : Dev nD) (E : Set ℕ)
    (a0 : Memref sig .tc .vmem S1024x128 .f32) (h0 : a0.IsWhole) (a1 : Memref sig .tc .vmem S128x100 .f32) (h1 : a1.IsWhole)
    (a2 : Memref sig .tc .vmem S1x100 .f32) (h2 : a2.IsWhole) (a3 : Memref sig .tc .vmem S100x100 .f32) (h3 : a3.IsWhole)
    (a4 : Memref sig .tc .vmem S1x100 .f32) (h4 : a4.IsWhole) (a5 : Memref sig .tc .vmem S100x100 .f32) (h5 : a5.IsWhole)
    (a6 : Memref sig .tc .vmem S1x100 .f32) (h6 : a6.IsWhole) (a7 : Memref sig .tc .vmem S1024x100 .f32) (h7 : a7.IsWhole)
    (x0 : Vec F S1024x128 .f32) (x1 : Vec F S128x100 .f32) (x2 : Vec F S1x100 .f32) (x3 : Vec F S100x100 .f32)
    (x4 : Vec F S1x100 .f32) (x5 : Vec F S100x100 .f32) (x6 : Vec F S1x100 .f32) (Kk : PUnit → sProp 𝕄) :
    iprop(owns (c.tc : Thread nD τ) a0 fullShare x0 ∗ owns (c.tc : Thread nD τ) a1 fullShare x1 ∗ owns (c.tc : Thread nD τ) a2 fullShare x2
        ∗ owns (c.tc : Thread nD τ) a3 fullShare x3 ∗ owns (c.tc : Thread nD τ) a4 fullShare x4 ∗ owns (c.tc : Thread nD τ) a5 fullShare x5
        ∗ owns (c.tc : Thread nD τ) a6 fullShare x6 ∗ (∃ d, owns (c.tc : Thread nD τ) a7 fullShare d)
        ∗ (iprop(owns (c.tc : Thread nD τ) a0 fullShare x0 ∗ owns (c.tc : Thread nD τ) a1 fullShare x1 ∗ owns (c.tc : Thread nD τ) a2 fullShare x2
            ∗ owns (c.tc : Thread nD τ) a3 fullShare x3 ∗ owns (c.tc : Thread nD τ) a4 fullShare x4 ∗ owns (c.tc : Thread nD τ) a5 fullShare x5
            ∗ owns (c.tc : Thread nD τ) a6 fullShare x6 ∗ owns (c.tc : Thread nD τ) a7 fullShare (mlpBlk x0 x1 x2 x3 x4 x5 x6)) -∗ Kk ⟨⟩))
      ⊢ wp frame (wpE (defs₀ (F := F)) Variants.none (c.tc : Thread nD τ) none) E (cc1__mlp_body a0 h0 a1 h1 a2 h2 a3 h3 a4 h4 a5 h5 a6 h6 a7 h7) Kk := by
  simp only [cc1__mlp_body_eq_skeleton]; unfold cc1__mlp_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (mlp_cover _)

end Cert.Proof.IdealSide

end
-- ==== Proof.IdealMlpData.lean ====
/-
  The dense layers' kernel region inside the program's main thread.

  The region is one gridless pipeline: ONE point, eight windows, each window's block the whole of its array.
  The pipeline copies the seven input arrays into their staging buffers, runs the body once, and copies the
  result's staging buffer back over the whole result array. So after the region the seven inputs are as they
  were and the result array holds what the body left in its buffer.

  Here: the pipeline's proof data over any valuation of the main thread's unscoped buffers, and the body
  obligation at the one point (from the body's triple).
-/
import proofs.«202922_g81758997446792_cont_9to1_m_1158_4_alg».proof.Proof.IdealMlpBody

set_option maxRecDepth 16384

noncomputable section

namespace Cert.Proof.IdealSide

open Cert.KernelIdeal Cert.KernelIdeal.Gen

open Idealize.ShloMosaic Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- A valuation of every device's main-thread buffers. -/
abbrev Valn (F : FTy → Type) : Type := (c : Dev nD) → (b : Ref sig .tc) → Buf (Elt F) ((c.tc : Thread nD τ).loc b)

variable (Vv : Valn F)

/-! ## The proof data -/

/-- Window `w`'s block at the point, read off its array as the region finds it. -/
def winBlk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- The recorded waits the main thread may carry through the region: those at or below the level of its first call. -/
def lowPairs (c : Dev nD) : Set (SemLoc sig × HIx 1) := {p | (K (F := F)).lev ((c.tc : Thread nD τ), p.1) p.2 ≤ 8 * 1}

/-- The pipeline's proof data on core `c`: the arrays as the valuation has them; after the body each input's buffer
    at its block and the result's at the body's store over the input blocks; the invariant the scoped buffers no
    window stages; nothing owed; full shares; the recorded waits low. -/
def dats (_ : Fin 1) (c : Dev nD) : Dat τ (Elt F) (HIx 1) ℕ UU ℕ cfg1 c where
  A w := Vv c (Pipeline.arrRef spec1 w)
  after w t := match w with
    | ⟨0, _⟩ => winBlk Vv c 0 t
    | ⟨1, _⟩ => winBlk Vv c 1 t
    | ⟨2, _⟩ => winBlk Vv c 2 t
    | ⟨3, _⟩ => winBlk Vv c 3 t
    | ⟨4, _⟩ => winBlk Vv c 4 t
    | ⟨5, _⟩ => winBlk Vv c 5 t
    | ⟨6, _⟩ => winBlk Vv c 6 t
    | ⟨7, _⟩ => mlpBlk (winBlk Vv c 0 t) (winBlk Vv c 1 t) (winBlk Vv c 2 t) (winBlk Vv c 3 t) (winBlk Vv c 4 t) (winBlk Vv c 5 t) (winBlk Vv c 6 t)
  Φ _ := Pipeline.scopedRest spec1 c
  q _ := fullShare
  owed _ := 0
  recorded _ := lowPairs (F := F) c

theorem A_eq (c : Dev nD) (w : Fin cfg1.W) : (dats Vv 0 c).A w = Vv c (Pipeline.arrRef spec1 w) := by
  dsimp only [dats]

theorem after_0 (c : Dev nD) (t : Fin cfg1.N) : (dats Vv 0 c).after 0 t = winBlk Vv c 0 t := by dsimp only [dats]
theorem after_1 (c : Dev nD) (t : Fin cfg1.N) : (dats Vv 0 c).after 1 t = winBlk Vv c 1 t := by dsimp only [dats]
theorem after_2 (c : Dev nD) (t : Fin cfg1.N) : (dats Vv 0 c).after 2 t = winBlk Vv c 2 t := by dsimp only [dats]
theorem after_3 (c : Dev nD) (t : Fin cfg1.N) : (dats Vv 0 c).after 3 t = winBlk Vv c 3 t := by dsimp only [dats]
theorem after_4 (c : Dev nD) (t : Fin cfg1.N) : (dats Vv 0 c).after 4 t = winBlk Vv c 4 t := by dsimp only [dats]
theorem after_5 (c : Dev nD) (t : Fin cfg1.N) : (dats Vv 0 c).after 5 t = winBlk Vv c 5 t := by dsimp only [dats]
theorem after_6 (c : Dev nD) (t : Fin cfg1.N) : (dats Vv 0 c).after 6 t = winBlk Vv c 6 t := by dsimp only [dats]
theorem after_7 (c : Dev nD) (t : Fin cfg1.N) : (dats Vv 0 c).after 7 t
    = mlpBlk (winBlk Vv c 0 t) (winBlk Vv c 1 t) (winBlk Vv c 2 t) (winBlk Vv c 3 t) (winBlk Vv c 4 t) (winBlk Vv c 5 t) (winBlk Vv c 6 t) := by
  dsimp only [dats]

/-- Each input's staging buffer holds its block when the body runs: the point fetches it, and the fetch of an
    uncut window fills the whole buffer. -/
theorem before_0 (c : Dev nD) (t : Fin cfg1.N) (d) : (dats Vv 0 c).before 0 t d = winBlk Vv c 0 t := by
  unfold Dat.before; rw [if_pos (fetch1_0 t)]; rfl
theorem before_1 (c : Dev nD) (t : Fin cfg1.N) (d) : (dats Vv 0 c).before 1 t d = winBlk Vv c 1 t := by
  unfold Dat.before; rw [if_pos (fetch1_1 t)]; rfl
theorem before_2 (c : Dev nD) (t : Fin cfg1.N) (d) : (dats Vv 0 c).before 2 t d = winBlk Vv c 2 t := by
  unfold Dat.before; rw [if_pos (fetch1_2 t)]; rfl
theorem before_3 (c : Dev nD) (t : Fin cfg1.N) (d) : (dats Vv 0 c).before 3 t d = winBlk Vv c 3 t := by
  unfold Dat.before; rw [if_pos (fetch1_3 t)]; rfl
theorem before_4 (c : Dev nD) (t : Fin cfg1.N) (d) : (dats Vv 0 c).before 4 t d = winBlk Vv c 4 t := by
  unfold Dat.before; rw [if_pos (fetch1_4 t)]; rfl
theorem before_5 (c : Dev nD) (t : Fin cfg1.N) (d) : (dats Vv 0 c).before 5 t d = winBlk Vv c 5 t := by
  unfold Dat.before; rw [if_pos (fetch1_5 t)]; rfl
theorem before_6 (c : Dev nD) (t : Fin cfg1.N) (d) : (dats Vv 0 c).before 6 t d = winBlk Vv c 6 t := by
  unfold Dat.before; rw [if_pos (fetch1_6 t)]; rfl

/-! ## The body obligation -/

/-- What the body is called with at the point, the windows one by one, -/
def bodyPre (c : Dev nD) (t : Fin cfg1.N) : sProp 𝕄 :=
  iprop((dats Vv 0 c).Φ t.castSucc ∗ (dats Vv 0 c).owesAt (none : HIx 1) t.castSucc
    ∗ (∃ d, owns (c.tc : Thread nD τ) (st1_0 t) fullShare ((dats Vv 0 c).before 0 t d))
    ∗ (∃ d, owns (c.tc : Thread nD τ) (st1_1 t) fullShare ((dats Vv 0 c).before 1 t d))
    ∗ (∃ d, owns (c.tc : Thread nD τ) (st1_2 t) fullShare ((dats Vv 0 c).before 2 t d))
    ∗ (∃ d, owns (c.tc : Thread nD τ) (st1_3 t) fullShare ((dats Vv 0 c).before 3 t d))
    ∗ (∃ d, owns (c.tc : Thread nD τ) (st1_4 t) fullShare ((dats Vv 0 c).before 4 t d))
    ∗ (∃ d, owns (c.tc : Thread nD τ) (st1_5 t) fullShare ((dats Vv 0 c).before 5 t d))
    ∗ (∃ d, owns (c.tc : Thread nD τ) (st1_6 t) fullShare ((dats Vv 0 c).before 6 t d))
    ∗ (∃ d, owns (c.tc : Thread nD τ) (st1_7 t) fullShare ((dats Vv 0 c).before 7 t d)))

/-- and what it hands back. -/
def bodyPost (c : Dev nD) (t : Fin cfg1.N) : sProp 𝕄 :=
  iprop((dats Vv 0 c).Φ t.succ ∗ (dats Vv 0 c).owesAt (none : HIx 1) t.succ
    ∗ owns (c.tc : Thread nD τ) (st1_0 t) fullShare ((dats Vv 0 c).after 0 t)
    ∗ owns (c.tc : Thread nD τ) (st1_1 t) fullShare ((dats Vv 0 c).after 1 t)
    ∗ owns (c.tc : Thread nD τ) (st1_2 t) fullShare ((dats Vv 0 c).after 2 t)
    ∗ owns (c.tc : Thread nD τ) (st1_3 t) fullShare ((dats Vv 0 c).after 3 t)
    ∗ owns (c.tc : Thread nD τ) (st1_4 t) fullShare ((dats Vv 0 c).after 4 t)
    ∗ owns (c.tc : Thread nD τ) (st1_5 t) fullShare ((dats Vv 0 c).after 5 t)
    ∗ owns (c.tc : Thread nD τ) (st1_6 t) fullShare ((dats Vv 0 c).after 6 t)
    ∗ owns (c.tc : Thread nD τ) (st1_7 t) fullShare ((dats Vv 0 c).after 7 t))

/-- The body at the point: the inputs' buffers hold their blocks, so the body's triple applies; the invariant and
    what the thread owes pass through untouched. -/
theorem sound_body (c : Dev nD) (t : Fin cfg1.N) :
    bodyPre Vv c t ⊢ wp frame (wpE (defs₀ (F := F)) Variants.none (c.tc : Thread nD τ) none) Set.univ (bodyAt1 t) (fun _ => bodyPost Vv c t) := by
  unfold bodyPre bodyPost bodyAt1
  simp only [before_0, before_1, before_2, before_3, before_4, before_5, before_6]
  rw [show (dats Vv 0 c).Φ t.succ = (dats Vv 0 c).Φ t.castSucc from rfl,
    show (dats Vv 0 c).owesAt (none : HIx 1) t.succ = (dats Vv 0 c).owesAt (none : HIx 1) t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (mlp_body_run c Set.univ _ _ _ _ _ _ _ _ _ _ _ _ _ _ _ _ (winBlk Vv c 0 t) (winBlk Vv c 1 t) (winBlk Vv c 2 t)
    (winBlk Vv c 3 t) (winBlk Vv c 4 t) (winBlk Vv c 5 t) (winBlk Vv c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the one point. -/
theorem body_obligation (c : Dev nD) : BodyObligation (dats (F := F) Vv 0 c) (defs₀ (F := F)) Variants.none (none : HIx 1) Set.univ := fun t => by
  rw [bigSep_W1, bigSep_W1]
  exact sound_body Vv c t

end Cert.Proof.IdealSide

end
-- ==== Proof.IdealRegion.lean ====
/-
  The dense layers' kernel region, as one rule on the main thread.

  From the main thread's unscoped buffers at a valuation, the region (one gridless pipeline, eight whole-array
  windows) runs to the same valuation with the result array replaced by what the one point wrote back; the
  seven input arrays are as they were (an input window's array is never written). The thread enters owing
  nothing with its recorded waits at low levels and leaves the same way: the pipeline's own waits are recorded
  at the kernels' index, which sits at level zero.

  The rule is first proved at the pipeline layer's body table and then carried to the program's own, which
  wraps it in the layer of the vector-subcore calls.
-/
import proofs.«202922_g81758997446792_cont_9to1_m_1158_4_alg».proof.Proof.IdealMlpData

set_option maxRecDepth 16384

noncomputable section

namespace Cert.Proof.IdealSide

open Cert.KernelIdeal Cert.KernelIdeal.Gen

open Idealize.ShloMosaic Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (Vv : Valn F)

/-! ## What the region leaves -/

/-- The result array after the region: the proof data's account of the one write-back. -/
def mlpArr (c : Dev nD) : Buf (Elt F) ((c.tc : Thread nD τ).loc main_v5) := (dats Vv 0 c).arrAt 7 cfg1.N

/-- The valuation after the region: the result array replaced, every other buffer as it was. -/
abbrev afterRegion (c : Dev nD) : (b : Ref sig .tc) → Buf (Elt F) ((c.tc : Thread nD τ).loc b) :=
  Function.update (Vv c) main_v5 (mlpArr Vv c)

/-- What the main thread owes around the region, as its state between calls spells it: nothing after its one
    call, its recorded waits at or below that call's level. -/
abbrev owesLow (c : Dev nD) : sProp 𝕄 :=
  iprop(∃ W, ⌜(K (F := F)).WBelow (T c) W (8 * 1)⌝ ∗ owes (T c) ((K (F := F)).Otc c 1) W)

/-- Each window's array after the region is the new valuation's: an input's is never written, the result's is
    the write-back's. -/
theorem arrAt_afterRegion (c : Dev nD) : ∀ w : Fin cfg1.W,
    (dats Vv 0 c).arrAt w cfg1.N = afterRegion Vv c (Pipeline.arrRef spec1 w)
  | ⟨0, _⟩ => ((dats Vv 0 c).arrAt_in 0 rfl _).trans (Function.update_of_ne (show (main_v1 : Ref sig .tc) ≠ main_v5 by decide) _ _).symm
  | ⟨1, _⟩ => ((dats Vv 0 c).arrAt_in 1 rfl _).trans (Function.update_of_ne (show (main_arg2 : Ref sig .tc) ≠ main_v5 by decide) _ _).symm
  | ⟨2, _⟩ => ((dats Vv 0 c).arrAt_in 2 rfl _).trans (Function.update_of_ne (show (main_v2 : Ref sig .tc) ≠ main_v5 by decide) _ _).symm
  | ⟨3, _⟩ => ((dats Vv 0 c).arrAt_in 3 rfl _).trans (Function.update_of_ne (show (main_arg4 : Ref sig .tc) ≠ main_v5 by decide) _ _).symm
  | ⟨4, _⟩ => ((dats Vv 0 c).arrAt_in 4 rfl _).trans (Function.update_of_ne (show (main_v3 : Ref sig .tc) ≠ main_v5 by decide) _ _).symm
  | ⟨5, _⟩ => ((dats Vv 0 c).arrAt_in 5 rfl _).trans (Function.update_of_ne (show (main_arg6 : Ref sig .tc) ≠ main_v5 by decide) _ _).symm
  | ⟨6, _⟩ => ((dats Vv 0 c).arrAt_in 6 rfl _).trans (Function.update_of_ne (show (main_v4 : Ref sig .tc) ≠ main_v5 by decide) _ _).symm
  | ⟨7, _⟩ => (Function.update_self main_v5 (mlpArr Vv c) (Vv c)).symm

/-- The buffers no window stages are the same at both valuations: the result array is a window's. -/
theorem unscopedRest_afterRegion (c : Dev nD) :
    (Pipeline.unscopedRest (Ix := HIx 1) (Name := ℕ) (U := UU) (Lvl := ℕ) spec1 c (afterRegion Vv c) : sProp 𝕄)
      = Pipeline.unscopedRest spec1 c (Vv c) := by
  rw [unscopedRest1_eq, unscopedRest1_eq]
  simp only [afterRegion, Function.update_of_ne (show main_arg0 ≠ main_v5 by decide), Function.update_of_ne (show main_arg1 ≠ main_v5 by decide),
    Function.update_of_ne (show main_arg3 ≠ main_v5 by decide), Function.update_of_ne (show main_arg5 ≠ main_v5 by decide),
    Function.update_of_ne (show main_arg7 ≠ main_v5 by decide), Function.update_of_ne (show main_arg8 ≠ main_v5 by decide),
    Function.update_of_ne (show main_v0 ≠ main_v5 by decide)]

/-- EXIT, the buffers' part: the windows' arrays at their final contents and the buffers no window stages are the
    unscoped buffers at the new valuation. -/
theorem exit_bufs (c : Dev nD) :
    iprop((dats Vv 0 c).arrays ((dats Vv 0 c).arrAt · cfg1.N) ∗ (Pipeline.unscopedRest spec1 c (Vv c) : sProp 𝕄))
      ⊢ unscopedBufs c (afterRegion Vv c) := by
  rw [Pipeline.unscopedBufs_split (Pipeline.pin (pcfgs (F := F)) adm) 0 launch1.win.arr_unscoped launch1.win.arr_inj c (afterRegion Vv c),
    Pipeline.arrays_eq (Pipeline.pin (pcfgs (F := F)) adm) (dats Vv) 0 c launch1.arr_whole ((dats Vv 0 c).share_full fun _ => rfl),
    unscopedRest_afterRegion]
  exact sep_mono (Entails.of_eq (bigSep_congr fun w _ => by rw [arrAt_afterRegion Vv c w])) .rfl

/-! ## The region -/

-- the library's lemmas are stated over the pinned configuration of a pipeline family; ours is that configuration
-- only up to unfolding plain definitions inside a metavariable's type
set_option backward.isDefEq.respectTransparency.types false in
/-- The region: the decided layout, no semaphore of the kernel's own, the body obligation; entered from the
    unscoped buffers at the valuation and the thread owing nothing, left at the new valuation owing nothing. -/
def mlpRegion : Pipeline.RegionSeg (pcfgs (F := F)) adm (dats Vv) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation Vv c).loose
  hwaits := Pipeline.hwaits_of_owed_zero _ _ _ _ (K (F := F)).L (K (F := F)).lev 0 fun _ _ => rfl
  pre c := iprop(unscopedBufs c (Vv c) ∗ owesLow c)
  post c := iprop(unscopedBufs c (afterRegion Vv c) ∗ owesLow c)
  X _ := iprop(emp)
  Y _ := iprop(emp)
  Z c := Pipeline.unscopedRest spec1 c (Vv c)
  hentry c := by
    have hsplit := Pipeline.arrays_of_unscopedBufs (pcfgs (F := F)) adm (dats Vv) launch1.win launch1.arr_whole c
      ((dats Vv 0 c).share_full fun _ => rfl) (Vv c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p (Finset.mem_coe.mp hp))
      rw [(K (F := F)).Otc_end c le_rfl]; iexact HO
    isplitr; · iempintro
    iexact Hrest
  hin c := by
    rw [show (dats Vv 0 c).Φ 0 = Pipeline.scopedRest spec1 c from rfl]
    iintro ⟨-, -, Hr⟩; iexact Hr
  hout c := by
    rw [show (dats Vv 0 c).Φ (Fin.last cfg1.N) = Pipeline.scopedRest spec1 c from rfl]
    iintro Hr
    isplitr; · iempintro
    isplitr
    · unfold Pipeline.ownSems0; rw [show (Finset.univ : Finset PEmpty) = ∅ from rfl, BI.bigSep_empty]; iempintro
    iexact Hr
  hexit c := by
    iintro ⟨Ha, HO, -, HZ⟩
    imodintro
    isplitr [HO]
    · iapply (exit_bufs Vv c)
      isplitl [Ha]; · iexact Ha
      iexact HZ
    · unfold Pipeline.Dat.owesAt Pipeline.owesWithin
      icases HO with ⟨%W, %hW, HO⟩
      iexists W; isplitr
      · ipureintro
        intro p hp
        rcases hW (Finset.mem_coe.mpr hp) with h | ⟨w, s, rfl⟩
        · exact h
        · exact Nat.zero_le _
      rw [(K (F := F)).Otc_end c le_rfl]; iexact HO

/-! ## The region's rule -/

set_option backward.isDefEq.respectTransparency.types false in
set_option maxHeartbeats 2000000 in
/-- The region at the pipeline layer's body table. -/
theorem region_wp_inner (d : Dev nD) {Φ : PUnit → sProp 𝕄} :
    iprop(boundary (T d) ∗ unscopedBufs d (Vv d) ∗ levAts (K (F := F)).L (K (F := F)).lev ∗ owesLow d
        ∗ Pipeline.cellsGhost (Pipeline.pin (pcfgs (F := F)) adm) EP 0 d ∗ Pipeline.toksInit (Pipeline.pin (pcfgs (F := F)) adm) EP 0 d
        ∗ (iprop(boundary (T d) ∗ unscopedBufs d (afterRegion Vv d) ∗ owesLow d) -∗ Φ ⟨⟩))
      ⊢ wp frame (wpE (Pipeline.defs (pcfgs (F := F)) defs₀) (Variants.lift 𝒱₀) (d.tc : Thread nD τ) none) Set.univ
          (.op (.customCall (Pipeline.entry (0 : Fin 1)) ()) fun _ => .ret ⟨⟩) Φ := by
  have hR := Pipeline.RegionSeg.wp (pcfgs (F := F)) adm (dats Vv) (none : HIx 1) cellOf_inj EP defs₀ 𝒱₀
    (K (F := F)).L (K (F := F)).lev (mlpRegion Vv) d none (fun _ h => nomatch h) (fun _ => .ret ⟨⟩) Φ
  rw [show (mlpRegion Vv).post d = iprop(unscopedBufs d (afterRegion Vv d) ∗ owesLow d) from rfl,
    show (mlpRegion Vv).pre d = iprop(unscopedBufs d (Vv d) ∗ owesLow d) from rfl] at hR
  refine BIBase.Entails.trans ?_ hR
  iintro ⟨Hb, Hu, Hlev, Ho, Hg, Ht, Hk⟩
  isplitl [Hk]
  · iintro ⟨Hb, Hu, Ho⟩
    rw [wp_ret]
    imodintro
    iapply Hk
    isplitl [Hb]; · iexact Hb
    isplitl [Hu]; · iexact Hu
    iexact Ho
  isplitl [Hb]; · iexact Hb
  isplitl [Hu Ho]
  · isplitl [Hu]; · iexact Hu
    iexact Ho
  isplitl [Hlev]; · iexact Hlev
  isplitl [Hg]; · iexact Hg
  iexact Ht

/-- THE REGION on the main thread, at the program's body table: from the unscoped buffers at the valuation, the thread
    owing nothing, and the staging cells' launch state, the call runs to the valuation with the result array replaced. -/
theorem region_wp (d : Dev nD) {Φ : PUnit → sProp 𝕄} :
    iprop(boundary (T d) ∗ unscopedBufs d (Vv d) ∗ levAts (K (F := F)).L (K (F := F)).lev ∗ owesLow d
        ∗ Pipeline.cellsGhost (Pipeline.pin (pcfgs (F := F)) adm) EP 0 d ∗ Pipeline.toksInit (Pipeline.pin (pcfgs (F := F)) adm) EP 0 d
        ∗ (iprop(boundary (T d) ∗ unscopedBufs d (afterRegion Vv d) ∗ owesLow d) -∗ Φ ⟨⟩))
      ⊢ wp frame (wpE ((K (F := F)).defs (D (F := F))) 𝒱 (T d) none) Set.univ
          (Prog.lift (.customCall (SparseCore.inner (Pipeline.entry 0)) ())) Φ :=
  (region_wp_inner Vv d).trans
    ((K (F := F)).wp_liftProg (D (F := F)) 𝒱 (T d) Set.univ none (Prog.lift (.customCall (Pipeline.entry 0) ())) Φ)

/-- info: 'Cert.Proof.IdealSide.region_wp' depends on axioms: [propext, Classical.choice, Quot.sound] -/
#guard_msgs in #print axioms region_wp

end Cert.Proof.IdealSide

end
-- ==== Proof.IdealMlpValue.lean ====
/-
  The value of the dense layers' kernel region.

  The pipeline has ONE point and every window's block is the whole of its array at block index zero, so an
  input's block read off its array is the array, and the one write-back overwrites the whole result array with
  what the body left in its buffer: the body's single store over the seven arrays themselves. Hence the result
  array after the region is the generated payload of the seven input arrays.
-/
import proofs.«202922_g81758997446792_cont_9to1_m_1158_4_alg».proof.Proof.IdealRegion
import Idealize.ShloMosaic.Lib.Pipeline.Value

set_option maxRecDepth 16384

noncomputable section

namespace Cert.Proof.IdealSide

open Cert.KernelIdeal Cert.KernelIdeal.Gen

open Idealize.ShloMosaic Idealize.ShloMosaic.Tactic
open Idealize.ShloMosaic.SparseCore (T)
open Idealize.ShloMosaic.SparseCore.Cfg (HIx)
open Idealize.SL Idealize.SL.Sem
open Idealize.ShloMosaic.Pipeline (Dat Cfg Window)

variable {F : FTy → Type} [FloatOps F] [Named F]

variable (Vv : Valn F)

/-- Both offsets of every access of the body are zero. -/
theorem zeros2 : (![0, 0] : Fin 2 → ℕ) = fun _ => 0 := by
  funext a; match a with | ⟨0, _⟩ => rfl | ⟨1, _⟩ => rfl

/-- A whole-buffer load reads the buffer and the one whole-buffer store leaves its payload: the body's store is
    the payload of the seven buffers' contents. -/
theorem mlpBlk_eq (x0 : Vec F S1024x128 .f32) (x1 : Vec F S128x100 .f32) (x2 : Vec F S1x100 .f32) (x3 : Vec F S100x100 .f32)
    (x4 : Vec F S1x100 .f32) (x5 : Vec F S100x100 .f32) (x6 : Vec F S1x100 .f32) :
    mlpBlk x0 x1 x2 x3 x4 x5 x6 = k1_pay1 x0 x1 x2 x3 x4 x5 x6 := by
  unfold mlpBlk
  rw [View.canon_unit_zero zeros2]
  simp only [View.ld_unit_zero (S := S1024x128) zeros2, View.ld_unit_zero (S := S128x100) zeros2,
    View.ld_unit_zero (S := S1x100) zeros2, View.ld_unit_zero (S := S100x100) zeros2]

/-! ## An input's block is its array -/

theorem winBlk_0 (c : Dev nD) (t : Fin cfg1.N) : winBlk Vv c 0 t = Vv c main_v1 := by
  funext j
  show Vv c main_v1 (((cfg1.win 0).blk t).view.emb j) = Vv c main_v1 j
  congr 1; funext a; apply Fin.ext
  match a with
  | ⟨0, _⟩ => show 0 * 1024 + 1 * (j 0).val = (j 0).val; omega
  | ⟨1, _⟩ => show 0 * 128 + 1 * (j 1).val = (j 1).val; omega
theorem winBlk_1 (c : Dev nD) (t : Fin cfg1.N) : winBlk Vv c 1 t = Vv c main_arg2 := by
  funext j
  show Vv c main_arg2 (((cfg1.win 1).blk t).view.emb j) = Vv c main_arg2 j
  congr 1; funext a; apply Fin.ext
  match a with
  | ⟨0, _⟩ => show 0 * 128 + 1 * (j 0).val = (j 0).val; omega
  | ⟨1, _⟩ => show 0 * 100 + 1 * (j 1).val = (j 1).val; omega
theorem winBlk_2 (c : Dev nD) (t : Fin cfg1.N) : winBlk Vv c 2 t = Vv c main_v2 := by
  funext j
  show Vv c main_v2 (((cfg1.win 2).blk t).view.emb j) = Vv c main_v2 j
  congr 1; funext a; apply Fin.ext
  match a with
  | ⟨0, _⟩ => show 0 * 1 + 1 * (j 0).val = (j 0).val; omega
  | ⟨1, _⟩ => show 0 * 100 + 1 * (j 1).val = (j 1).val; omega
theorem winBlk_3 (c : Dev nD) (t : Fin cfg1.N) : winBlk Vv c 3 t = Vv c main_arg4 := by
  funext j
  show Vv c main_arg4 (((cfg1.win 3).blk t).view.emb j) = Vv c main_arg4 j
  congr 1; funext a; apply Fin.ext
  match a with
  | ⟨0, _⟩ => show 0 * 100 + 1 * (j 0).val = (j 0).val; omega
  | ⟨1, _⟩ => show 0 * 100 + 1 * (j 1).val = (j 1).val; omega
theorem winBlk_4 (c : Dev nD) (t : Fin cfg1.N) : winBlk Vv c 4 t = Vv c main_v3 := by
  funext j
  show Vv c main_v3 (((cfg1.win 4).blk t).view.emb j) = Vv c main_v3 j
  congr 1; funext a; apply Fin.ext
  match a with
  | ⟨0, _⟩ => show 0 * 1 + 1 * (j 0).val = (j 0).val; omega
  | ⟨1, _⟩ => show 0 * 100 + 1 * (j 1).val = (j 1).val; omega
theorem winBlk_5 (c : Dev nD) (t : Fin cfg1.N) : winBlk Vv c 5 t = Vv c main_arg6 := by
  funext j
  show Vv c main_arg6 (((cfg1.win 5).blk t).view.emb j) = Vv c main_arg6 j
  congr 1; funext a; apply Fin.ext
  match a with
  | ⟨0, _⟩ => show 0 * 100 + 1 * (j 0).val = (j 0).val; omega
  | ⟨1, _⟩ => show 0 * 100 + 1 * (j 1).val = (j 1).val; omega
theorem winBlk_6 (c : Dev nD) (t : Fin cfg1.N) : winBlk Vv c 6 t = Vv c main_v4 := by
  funext j
  show Vv c main_v4 (((cfg1.win 6).blk t).view.emb j) = Vv c main_v4 j
  congr 1; funext a; apply Fin.ext
  match a with
  | ⟨0, _⟩ => show 0 * 1 + 1 * (j 0).val = (j 0).val; omega
  | ⟨1, _⟩ => show 0 * 100 + 1 * (j 1).val = (j 1).val; omega

/-! ## The result array -/

/-- The dense layers of the seven arrays as the region finds them: what the region leaves in the result array. -/
def mlpOut (c : Dev nD) : Buf (Elt F) ((c.tc : Thread nD τ).loc main_v5) :=
  k1_pay1 (Vv c main_v1) (Vv c main_arg2) (Vv c main_v2) (Vv c main_arg4) (Vv c main_v3) (Vv c main_arg6) (Vv c main_v4)

/-- THE VALUE: the one point writes the whole result array, with the body's store over the seven arrays. -/
theorem mlpArr_eq (c : Dev nD) : mlpArr Vv c = mlpOut Vv c := by
  unfold mlpArr
  refine (dats Vv 0 c).arrAt_eq_of_cover 7 (mlpOut Vv c) (fun t _ => ?_) (fun i => ⟨t1_0, flush1_7 t1_0, ?_⟩)
  · show (cfg1.win 7).cut (grid1.coords t) ((dats Vv 0 c).after 7 t) = _
    rw [after_7, mlpBlk_eq, winBlk_0, winBlk_1, winBlk_2, winBlk_3, winBlk_4, winBlk_5, winBlk_6]
    funext j
    show mlpOut Vv c ((cfg1.win 7).xinj (grid1.coords t) j) = mlpOut Vv c (((cfg1.win 7).blk t).view.emb j)
    congr 1; funext a; apply Fin.ext
    match a with
    | ⟨0, _⟩ => show (j 0).val = 0 * 1024 + 1 * (j 0).val; omega
    | ⟨1, _⟩ => show (j 1).val = 0 * 100 + 1 * (j 1).val; omega
  · show i ∈ ((View.whole main_v5).slice (win1_7.rect t1_0)).set
    rw [View.set_slice_whole, Rect.mem_set_unit]
    intro a
    match a with
    | ⟨0, _⟩ =>
      show 0 * 1024 ≤ (i 0).val ∧ (i 0).val < 0 * 1024 + 1024
      have h : (i 0).val < 1024 := (i 0).isLt
      omega
    | ⟨1, _⟩ =>
      show 0 * 100 ≤ (i 1).val ∧ (i 1).val < 0 * 100 + 100
      have h : (i 1).val < 100 := (i 1).isLt
      omega

/-- info: 'Cert.Proof.IdealSide.mlpArr_eq' depends on axioms: [propext, Classical.choice, Quot.sound] -/
#guard_msgs in #print axioms mlpArr_eq

/-- The valuation after the region, read: the result array at the dense layers of the seven arrays, -/
theorem afterRegion_out (c : Dev nD) : afterRegion Vv c main_v5 = mlpOut Vv c :=
  (Function.update_self main_v5 (mlpArr Vv c) (Vv c)).trans (mlpArr_eq Vv c)

/-- every other buffer as it was. -/
theorem afterRegion_of_ne (c : Dev nD) {b : Ref sig .tc} (h : b ≠ main_v5) : afterRegion Vv c b = Vv c b :=
  Function.update_of_ne h _ _

end Cert.Proof.IdealSide

end
-- ==== Proof.IdealMain.lean ====
/-
  @main on the TensorCore: the token matrix re-read as [2048, 100]; the SparseCore call, handed the three arrays in 32
  pieces and handing back the pooled matrix; the three biases re-read as rows; the layers' region; and what the final
  memory then holds.
-/
import proofs.«202922_g81758997446792_cont_9to1_m_1158_4_alg».proof.Proof.IdealTile
import proofs.«202922_g81758997446792_cont_9to1_m_1158_4_alg».proof.Proof.IdealPay
import proofs.«202922_g81758997446792_cont_9to1_m_1158_4_alg».proof.Proof.IdealMlpValue
import Idealize.ShloMosaic.Lib.Pipeline.Frame

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

open Idealize.ShloMosaic.Pipeline (unscopedBufs_held ucRefs sub_ucRefs)

variable [FloatOps F] [Named F]
variable (m : (ℓ : Loc nD τ sig) → Buf (Elt F) ℓ) (ρ : Dev nD → PrngReg)

/-! ## The host operations and the contents after each -/

abbrev rf (b : Ref sig .tc) : DevRef τ sig := Proc.devRef .tc b

abbrev opTok : HloOp τ sig (Elt F) := StableHlo.reshape main_arg0 main_v0 rfl shapeCasts_S1024x200_S2048x100
abbrev opB1 : HloOp τ sig (Elt F) := StableHlo.reshape main_arg3 main_v2 rfl shapeCasts_S100_S1x100
abbrev opB2 : HloOp τ sig (Elt F) := StableHlo.reshape main_arg5 main_v3 rfl shapeCasts_S100_S1x100
abbrev opB3 : HloOp τ sig (Elt F) := StableHlo.reshape main_arg7 main_v4 rfl shapeCasts_S100_S1x100

/-- The launch contents. -/
def V0 (d : Dev nD) : Valuation τ sig (Elt F) := fun b => m (d, b)
/-- After the token matrix is re-read. -/
def V1 (d : Dev nD) : Valuation τ sig (Elt F) := (opTok (F := F)).result (V0 m d)
/-- The token matrix as [2048, 100], and the table. -/
def tk (d : Dev nD) : S2048x100.Idx → BitVec 32 := V1 m d (rf main_v0)
def tb (d : Dev nD) : Buf (Elt F) (tabLoc d) := m (tabLoc d)
/-- After the SparseCore call: the pooled matrix at the pooled value. -/
def V2 (d : Dev nD) : Valuation τ sig (Elt F) := Function.update (V1 m d) (rf main_v1) (pooledF (F := F) (tk m d) (tb m d))
def V3 (d : Dev nD) : Valuation τ sig (Elt F) := (opB1 (F := F)).result (V2 m d)
def V4 (d : Dev nD) : Valuation τ sig (Elt F) := (opB2 (F := F)).result (V3 m d)
def V5 (d : Dev nD) : Valuation τ sig (Elt F) := (opB3 (F := F)).result (V4 m d)
/-- The contents the region is entered at, reference by reference. -/
def Vv (c : Dev nD) (b : Ref sig .tc) : Buf (Elt F) ((c.tc : Thread nD τ).loc b) := V5 m c (rf b)

theorem hTok : (opTok (F := F)).bufs ⊆ ucRefs τ sig := sub_ucRefs _ (StableHlo.reshape_bufs_sub _ _ _ _ _ _)
theorem hB1 : (opB1 (F := F)).bufs ⊆ ucRefs τ sig := sub_ucRefs _ (StableHlo.reshape_bufs_sub _ _ _ _ _ _)
theorem hB2 : (opB2 (F := F)).bufs ⊆ ucRefs τ sig := sub_ucRefs _ (StableHlo.reshape_bufs_sub _ _ _ _ _ _)
theorem hB3 : (opB3 (F := F)).bufs ⊆ ucRefs τ sig := sub_ucRefs _ (StableHlo.reshape_bufs_sub _ _ _ _ _ _)

/-! ## The call's three arrays out of the held set and back -/

/-- The three arrays the SparseCore call works on. -/
abbrev S3 : Finset (DevRef τ sig) := {rf main_v0, rf main_arg1, rf main_v1}
theorem hS3 : S3 ⊆ ucRefs τ sig := by decide

omit [FloatOps F] [Named F] in
theorem held_S3 (d : Dev nD) (W : Valuation τ sig (Elt F)) :
    (held (T d) S3 W : sProp 𝕄) = iprop((tokLoc d ↦{fullShare} W (rf main_v0)) ∗ (tabLoc d ↦{fullShare} W (rf main_arg1)) ∗ (outLoc d ↦{fullShare} W (rf main_v1))) := by
  unfold held S3
  rw [SparseCore.bigSep_insert' (by decide), SparseCore.bigSep_insert' (by decide), bigSep_singleton]

theorem V1_tab (d : Dev nD) : V1 m d (rf main_arg1) = tb m d :=
  (opTok (F := F)).result_of_not_mem (V0 m d) (b := rf main_arg1) (show rf main_arg1 ∉ ({rf main_v0} : Finset (DevRef τ sig)) by decide)

theorem V2_tok (d : Dev nD) : V2 m d (rf main_v0) = tk m d := Function.update_of_ne (show rf main_v0 ≠ rf main_v1 by decide) _ _
theorem V2_tab (d : Dev nD) : V2 m d (rf main_arg1) = tb m d :=
  (Function.update_of_ne (show rf main_arg1 ≠ rf main_v1 by decide) _ _).trans (V1_tab m d)
theorem V2_out (d : Dev nD) : V2 m d (rf main_v1) = pooledF (F := F) (tk m d) (tb m d) := Function.update_self _ _ _

theorem held_rest_V2 (d : Dev nD) : (held (T d) (ucRefs τ sig \ S3) (V2 m d) : sProp 𝕄) = held (T d) (ucRefs τ sig \ S3) (V1 m d) :=
  StableHlo.held_congr _ fun b hb => Function.update_of_ne (fun e => (Finset.mem_sdiff.mp hb).2 (by rw [e]; decide)) _ _

/-- The pooled matrix's launch-time contents after the first host operation (what the call is handed). -/
def o1 (d : Dev nD) : Buf (Elt F) (outLoc d) := V1 m d (rf main_v1)

theorem held_V1 (d : Dev nD) :
    (held (T d) (ucRefs τ sig) (V1 m d) : sProp 𝕄)
      = iprop(((tokLoc d ↦{fullShare} tk m d) ∗ (tabLoc d ↦{fullShare} tb m d) ∗ (outLoc d ↦{fullShare} o1 m d))
          ∗ held (T d) (ucRefs τ sig \ S3) (V1 m d)) := by
  rw [StableHlo.held_sub_split (T d) hS3 (V1 m d), held_S3, V1_tab]; rfl

theorem held_V2 (d : Dev nD) :
    (held (T d) (ucRefs τ sig) (V2 m d) : sProp 𝕄)
      = iprop(((tokLoc d ↦{fullShare} tk m d) ∗ (tabLoc d ↦{fullShare} tb m d) ∗ (outLoc d ↦{fullShare} pooledF (F := F) (tk m d) (tb m d)))
          ∗ held (T d) (ucRefs τ sig \ S3) (V1 m d)) := by
  rw [StableHlo.held_sub_split (T d) hS3 (V2 m d), held_S3, held_rest_V2, V2_tok, V2_tab, V2_out]

/-- The call's payloads at this launch. -/
abbrev Pm : (K (F := F)).Pay (nD := nD) (Val := Elt F) (Name := ℕ) (U := UU) := P (F := F) (tk m) (tb m) (o1 m)

omit [FloatOps F] [Named F] in
theorem held_eq_of {W W' : Valuation τ sig (Elt F)} (h : W = W') (c : Thread nD τ) (S : Finset (DevRef τ sig)) :
    (held c S W : sProp 𝕄) = held c S W' := by rw [h]

theorem V1_def (d : Dev nD) : (opTok (F := F)).result (V0 m d) = V1 m d := rfl
theorem V3_def (d : Dev nD) : (opB1 (F := F)).result (V2 m d) = V3 m d := rfl
theorem V4_def (d : Dev nD) : (opB2 (F := F)).result (V3 m d) = V4 m d := rfl
theorem V5_def (d : Dev nD) : (opB3 (F := F)).result (V4 m d) = V5 m d := rfl

/-- The launch contents of the TensorCore's arrays, as a held set. -/
theorem launch_held (d : Dev nD) :
    (unscopedBufs d (fun b => m ((SparseCore.T d).loc b)) : sProp 𝕄) = held (SparseCore.T d) (ucRefs τ sig) (V0 m d) :=
  unscopedBufs_held d (V0 m d)

/-- The contents the region is entered at, as the launch's unscoped buffers. -/
theorem region_held (d : Dev nD) :
    (held (SparseCore.T d) (ucRefs τ sig) (V5 m d) : sProp 𝕄) = unscopedBufs d (Vv m d) :=
  (unscopedBufs_held d (V5 m d)).symm

section Main

/-- What @main leaves: every array of the TensorCore at the contents the region was entered at, the result at what the region wrote. -/
def FIN (d : Dev nD) : sProp 𝕄 := unscopedBufs d (afterRegion (Vv m) d)

/-- What the launch element funds for the layers' pipeline on device d. -/
abbrev GP (d : Dev nD) : sProp 𝕄 :=
  iprop(Pipeline.cellsGhost (Pipeline.pin (pcfgs (F := F)) adm) EP 0 d ∗ Pipeline.toksInit (Pipeline.pin (pcfgs (F := F)) adm) EP 0 d)

set_option maxHeartbeats 1600000 in
theorem hmain (κ : GSem nD τ sig → ℕ) (d : Dev nD) :
    iprop((K (F := F)).ctx EH (Pm m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [launch_held]
  simp only [main, wp_bind, wp_pure]
  iintro ⟨#Hctx, Hst, ⟨Hb, Hheld, Hsems, Hprng⟩, HG⟩
  -- the token matrix re-read as [2048, 100]
  iapply (wp_hlo_within 𝒱 (SparseCore.T d) none Set.univ (op := opTok) (S := ucRefs τ sig) hTok (V := V0 m d)) $$ [Hb Hheld]
  · isplitl [Hb]; · iexact Hb
    iexact Hheld
  iintro ⟨Hb, Hheld⟩
  rw [wp_ret]; imodintro
  ihave Hheld1 := (Entails.of_eq (held_eq_of (V1_def m d) _ _)) $$ Hheld
  ihave Hh := (Entails.of_eq (held_V1 m d)) $$ Hheld1
  icases Hh with ⟨⟨Ht, Hx, Ho⟩, Hrest⟩
  ihave Hp := (pieces_out d (tk m) (tb m) (o1 m)) $$ [Ht Hx Ho]
  · isplitl [Ht]; · iexact Ht
    isplitl [Hx]; · iexact Hx
    iexact Ho
  icases Hp with ⟨Hdrop, Hgo⟩
  -- the SparseCore call
  iapply ((K (F := F)).wp_run (D (F := F)) 𝒱 (EH := EH) (P := Pm m) κ d 0) $$ [Hst Hgo Hdrop Hrest Hb Hsems Hprng HG]
  isplitr; · iexact Hctx
  isplitl [Hst]; · iexact Hst
  isplitl [Hgo]
  · rw [st0_eq]; iexact Hgo
  iintro ⟨Hst, Hdn⟩
  ihave Hdn' := (Entails.of_eq (dn0_eq d (tk m) (tb m) (o1 m))) $$ Hdn
  ihave Hback := (pieces_back d (tk m) (tb m)) $$ [Hdrop Hdn']
  · isplitl [Hdrop]; · iexact Hdrop
    iexact Hdn'
  ihave Hheld2 := (Entails.of_eq (held_V2 m d).symm) $$ [Hback Hrest]
  · isplitl [Hback]; · iexact Hback
    iexact Hrest
  -- the three biases re-read as rows
  iapply (wp_hlo_within 𝒱 (SparseCore.T d) none Set.univ (op := opB1) (S := ucRefs τ sig) hB1 (V := V2 m d)) $$ [Hb Hheld2]
  · isplitl [Hb]; · iexact Hb
    iexact Hheld2
  iintro ⟨Hb, Hheld⟩
  rw [wp_ret]; imodintro
  ihave Hheld3 := (Entails.of_eq (held_eq_of (V3_def m d) _ _)) $$ Hheld
  iapply (wp_hlo_within 𝒱 (SparseCore.T d) none Set.univ (op := opB2) (S := ucRefs τ sig) hB2 (V := V3 m d)) $$ [Hb Hheld3]
  · isplitl [Hb]; · iexact Hb
    iexact Hheld3
  iintro ⟨Hb, Hheld⟩
  rw [wp_ret]; imodintro
  ihave Hheld4 := (Entails.of_eq (held_eq_of (V4_def m d) _ _)) $$ Hheld
  iapply (wp_hlo_within 𝒱 (SparseCore.T d) none Set.univ (op := opB3) (S := ucRefs τ sig) hB3 (V := V4 m d)) $$ [Hb Hheld4]
  · isplitl [Hb]; · iexact Hb
    iexact Hheld4
  iintro ⟨Hb, Hheld⟩
  rw [wp_ret]; imodintro
  -- the layers' region
  ihave Hheld5 := (Entails.of_eq (held_eq_of (V5_def m d) _ _)) $$ Hheld
  ihave Hub := (Entails.of_eq (region_held m d)) $$ Hheld5
  ihave Hlev := ((K (F := F)).ctx_levAts κ) $$ Hctx
  unfold SparseCore.Cfg.tcSt
  icases Hst with ⟨Howe, Hstrest⟩
  icases HG with ⟨Hcg, Htk⟩
  iapply (region_wp (F := F) (Vv m) d) $$ [Hb Hub Hlev Howe Hcg Htk Hstrest]
  isplitl [Hb]; · iexact Hb
  isplitl [Hub]; · iexact Hub
  isplitl [Hlev]; · iexact Hlev
  isplitl [Howe]; · iexact Howe
  isplitl [Hcg]; · iexact Hcg
  isplitl [Htk]; · iexact Htk
  iintro ⟨Hb, Hub, Howe⟩
  imodintro
  isplitl [Howe Hstrest]
  · isplitl [Howe]; · iexact Howe
    iexact Hstrest
  unfold FIN
  iexact Hub

end Main

end Cert.Proof.IdealSide

end
-- ==== Proof.IdealEnds.lean ====
/-
  The two ends of the run: the launch element of the ghost state (the handshakes' rounds, the layers' pipeline's
  rounds, the transfers' counters), and what the final memory holds, array by array.
-/
import proofs.«202922_g81758997446792_cont_9to1_m_1158_4_alg».proof.Proof.IdealTile
import proofs.«202922_g81758997446792_cont_9to1_m_1158_4_alg».proof.Proof.IdealMain

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

open Idealize.ShloMosaic.Pipeline (unscopedBufs_held ucRefs sub_ucRefs)

variable [FloatOps F] [Named F]
variable (m : (ℓ : Loc nD τ sig) → Buf (Elt F) ℓ) (ρ : Dev nD → PrngReg)

/-! ## The launch element -/

/-- The pipeline's rounds at launch: its staging cells' and duty tokens'. -/
abbrev uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (Pm (F := F) m).x q thr) := by
  unfold u₀
  iintro Hu
  ihave H := (ownU_pair (initOf (K (F := F)).hsCells (K (F := F)).hsToks) ((uP (F := F), (1 : Counters)))) $$ Hu
  icases H with ⟨HH, HR⟩
  ihave HR' := (own_pair_emb (embR (A := UH) (B := UP × Counters) (nD := nD) (τ := τ) (sig := sig) (Ix := HIx 1) (Val := Elt F) (Name := ℕ) (Lvl := ℕ)) (uP (F := F)) (1 : Counters)) $$ HR
  icases HR' with ⟨HP, -⟩
  ihave HP' := (Entails.of_eq (show (BI.own (((Emb.inl : Emb UP (UP × Counters)).trans (embR (A := UH) (B := UP × Counters) (nD := nD) (τ := τ) (sig := sig) (Ix := HIx 1) (Val := Elt F) (Name := ℕ) (Lvl := ℕ))) (uP (F := F))) : sProp 𝕄)
      = BI.own (EP (uP (F := F))) from rfl)) $$ HP
  imod (Pipeline.fund_ghost (Pipeline.pin (pcfgs (F := F)) adm) EP cellOf_inj) $$ HP' with ⟨Hg, Ht⟩
  imodintro
  isplitl [HH]; · iexact HH
  have eg : (bigSep Finset.univ fun c : Dev nD => bigSep Finset.univ fun p : Fin 1 => Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun c _ => bigSep_univ_of_subsingleton (0 : Fin 1)
  have et : (bigSep Finset.univ fun c : Dev nD => bigSep Finset.univ fun p : Fin 1 => Pipeline.toksInit (Pipeline.pin (pcfgs (F := F)) adm) EP p c : sProp 𝕄)
      = bigSep Finset.univ fun c : Dev nD => Pipeline.toksInit (Pipeline.pin (pcfgs (F := F)) adm) EP 0 c :=
    bigSep_congr fun c _ => bigSep_univ_of_subsingleton (0 : Fin 1)
  ihave Hg' := (Entails.of_eq eg) $$ Hg
  ihave Ht' := (Entails.of_eq et) $$ Ht
  isplitl [Hg' Ht']
  · rw [bigSep_sep']
    isplitl [Hg']
    · iexact Hg'
    · iexact Ht'
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## The final memory -/

omit [FloatOps F] [Named F] in
/-- Buffers held whole agree with the memory, one by one. -/
theorem bufs_agree (d : Dev nD) (s' : Phys nD τ sig (Elt F)) (W : (b : Ref sig .tc) → Buf (Elt F) ((d.tc : Thread nD τ).loc b)) :
    ∀ s : Finset (Ref sig .tc), iprop((bigSep s fun b => ((d.tc : Thread nD τ).loc b) ↦{fullShare} W b) ∗ SI s')
      ⊢ (⌜∀ b ∈ s, s'.mem.mem ((d.tc : Thread nD τ).loc b) = W b⌝ : sProp 𝕄) := by
  classical
  intro s
  induction s using Finset.induction_on with
  | empty => iintro -; ipureintro; intro b hb; exact absurd hb (Finset.notMem_empty b)
  | insert b s hb ih =>
    rw [SparseCore.bigSep_insert' hb]
    iintro ⟨⟨Hb, Hs⟩, HSI⟩
    ihave H := (persistent_entails_right (SI_pointsTo_agree (st := s') (ℓ := (d.tc : Thread nD τ).loc b) (I := Finset.univ) (q := fullShare) (f := W b))) $$ [HSI Hb]
    · isplitl [HSI] <;> iassumption
    icases H with ⟨%h1, HSI, -⟩
    ihave H2 := ih $$ [Hs HSI]
    · isplitl [Hs] <;> iassumption
    icases H2 with %h2
    ipureintro
    intro b' hb'
    rcases Finset.mem_insert.mp hb' with rfl | hb'
    · exact funext fun i => h1 i (Finset.mem_univ i)
    · exact h2 b' hb'

/-- What the final memory holds on device d: every array of the TensorCore at what @main left. -/
def fq (d : Dev nD) (s' : Phys nD τ sig (Elt F)) : Prop :=
  ∀ b : Ref sig .tc, ¬ b.isScoped → s'.mem.mem ((d.tc : Thread nD τ).loc b) = afterRegion (Vv m) d b

theorem hfin (d : Dev nD) (s' : Phys nD τ sig (Elt F)) : iprop(FIN m d ∗ SI s') ⊢ (⌜fq m d s'⌝ : sProp 𝕄) := by
  unfold FIN unscopedBufs
  refine (bufs_agree d s' (afterRegion (Vv m) d) _).trans ?_
  iintro %h; ipureintro
  exact fun b hb => h b (Finset.mem_filter.mpr ⟨Finset.mem_univ b, hb⟩)

/-! ## The contents of each array at the end, read back through @main's steps -/

/-- An array no step of @main writes before the region holds its launch contents there. -/
theorem V5_kept (d : Dev nD) (b : DevRef τ sig) (h0 : b ≠ rf main_v0) (h1 : b ≠ rf main_v1) (h2 : b ≠ rf main_v2) (h3 : b ≠ rf main_v3) (h4 : b ≠ rf main_v4) :
    V5 m d b = m (d, b) := by
  unfold V5 V4 V3 V2 V1 V0
  rw [(opB3 (F := F)).result_of_not_mem _ (fun hm => h4 (Finset.mem_singleton.mp hm)),
    (opB2 (F := F)).result_of_not_mem _ (fun hm => h3 (Finset.mem_singleton.mp hm)),
    (opB1 (F := F)).result_of_not_mem _ (fun hm => h2 (Finset.mem_singleton.mp hm)),
    Function.update_of_ne h1,
    (opTok (F := F)).result_of_not_mem _ (fun hm => h0 (Finset.mem_singleton.mp hm))]

/-- The pooled matrix at the region's entry is the pooled value. -/
theorem V5_pooled (d : Dev nD) : V5 m d (rf main_v1) = pooledF (F := F) (tk m d) (tb m d) := by
  unfold V5 V4 V3
  rw [(opB3 (F := F)).result_of_not_mem _ (show rf main_v1 ∉ ({rf main_v4} : Finset (DevRef τ sig)) by decide),
    (opB2 (F := F)).result_of_not_mem _ (show rf main_v1 ∉ ({rf main_v3} : Finset (DevRef τ sig)) by decide),
    (opB1 (F := F)).result_of_not_mem _ (show rf main_v1 ∉ ({rf main_v2} : Finset (DevRef τ sig)) by decide)]
  exact V2_out m d

end Cert.Proof.IdealSide

end
-- ==== Proof.IdealBodyBase.lean ====
/-
  A vector subcore's own semaphores and scratch buffers, taken out of what the subcore owns one by one.

  The pooling task names six DMA semaphores (one per row buffer and one for each of its two plain copies) and six
  scratch buffers (the index rows, the four row buffers, the pooled rows). The subcore's semaphores at zero and its
  buffers at some contents are families over everything the subcore owns; the two equations here split the named ones
  off in the order the task uses them and leave the rest as one family.
-/
import proofs.«202922_g81758997446792_cont_9to1_m_1158_4_alg».proof.Proof.IdealTile

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

/-! ## The subcore's own semaphores and buffers, named -/

section Own

variable (d : Dev nD) (L : grid0.Coords)

abbrev semCell (s : DmaSems sig S_) : GSem nD τ sig := ((V d (cV L) (jV L)), SemLoc.dma s.sem)

omit [FloatOps F] [Named F] in
theorem semCell_ne {a b : DmaSem sig} (h : a ≠ b) :
    (((V d (cV L) (jV L)), SemLoc.dma a) : GSem nD τ sig) ≠ ((V d (cV L) (jV L)), SemLoc.dma b) :=
  fun e => h (SemLoc.dma.inj (Prod.mk.inj e).2)

omit [FloatOps F] [Named F] in
theorem ownSems0_V :
    (ownSems0 (V d (cV L) (jV L)) : sProp 𝕄)
      = iprop(semVal (semCell d L cc0_scratch6) 0 ∗ semVal (semCell d L cc0_scratch7) 0 ∗ semVal (semCell d L cc0_scratch8) 0 ∗ semVal (semCell d L cc0_scratch9) 0 ∗ semVal (semCell d L cc0_scoped0) 0 ∗ semVal (semCell d L cc0_scoped1) 0
          ∗ bigSep (((((((ownCells (V d (cV L) (jV L))).erase (semCell d L cc0_scratch6)).erase (semCell d L cc0_scratch7)).erase (semCell d L cc0_scratch8)).erase (semCell d L cc0_scratch9)).erase (semCell d L cc0_scoped0)).erase (semCell d L cc0_scoped1)) fun g => semVal g 0) := by
  unfold SparseCore.Cfg.ownSems0
  rw [SparseCore.bigSep_erase' ((mem_ownCells (g := semCell d L cc0_scratch6)).mpr ⟨rfl, by show (SemLoc.dma cc0_scratch6.sem : SemLoc sig).isScoped .scVector = true; decide⟩),
    SparseCore.bigSep_erase' (Finset.mem_erase.mpr ⟨semCell_ne d L (by decide : cc0_scratch7.sem ≠ cc0_scratch6.sem), (mem_ownCells (g := semCell d L cc0_scratch7)).mpr ⟨rfl, by show (SemLoc.dma cc0_scratch7.sem : SemLoc sig).isScoped .scVector = true; decide⟩⟩),
    SparseCore.bigSep_erase' (Finset.mem_erase.mpr ⟨semCell_ne d L (by decide : cc0_scratch8.sem ≠ cc0_scratch7.sem), Finset.mem_erase.mpr ⟨semCell_ne d L (by decide : cc0_scratch8.sem ≠ cc0_scratch6.sem), (mem_ownCells (g := semCell d L cc0_scratch8)).mpr ⟨rfl, by show (SemLoc.dma cc0_scratch8.sem : SemLoc sig).isScoped .scVector = true; decide⟩⟩⟩),
    SparseCore.bigSep_erase' (Finset.mem_erase.mpr ⟨semCell_ne d L (by decide : cc0_scratch9.sem ≠ cc0_scratch8.sem), Finset.mem_erase.mpr ⟨semCell_ne d L (by decide : cc0_scratch9.sem ≠ cc0_scratch7.sem), Finset.mem_erase.mpr ⟨semCell_ne d L (by decide : cc0_scratch9.sem ≠ cc0_scratch6.sem), (mem_ownCells (g := semCell d L cc0_scratch9)).mpr ⟨rfl, by show (SemLoc.dma cc0_scratch9.sem : SemLoc sig).isScoped .scVector = true; decide⟩⟩⟩⟩),
    SparseCore.bigSep_erase' (Finset.mem_erase.mpr ⟨semCell_ne d L (by decide : cc0_scoped0.sem ≠ cc0_scratch9.sem), Finset.mem_erase.mpr ⟨semCell_ne d L (by decide : cc0_scoped0.sem ≠ cc0_scratch8.sem), Finset.mem_erase.mpr ⟨semCell_ne d L (by decide : cc0_scoped0.sem ≠ cc0_scratch7.sem), Finset.mem_erase.mpr ⟨semCell_ne d L (by decide : cc0_scoped0.sem ≠ cc0_scratch6.sem), (mem_ownCells (g := semCell d L cc0_scoped0)).mpr ⟨rfl, by show (SemLoc.dma cc0_scoped0.sem : SemLoc sig).isScoped .scVector = true; decide⟩⟩⟩⟩⟩),
    SparseCore.bigSep_erase' (Finset.mem_erase.mpr ⟨semCell_ne d L (by decide : cc0_scoped1.sem ≠ cc0_scoped0.sem), Finset.mem_erase.mpr ⟨semCell_ne d L (by decide : cc0_scoped1.sem ≠ cc0_scratch9.sem), Finset.mem_erase.mpr ⟨semCell_ne d L (by decide : cc0_scoped1.sem ≠ cc0_scratch8.sem), Finset.mem_erase.mpr ⟨semCell_ne d L (by decide : cc0_scoped1.sem ≠ cc0_scratch7.sem), Finset.mem_erase.mpr ⟨semCell_ne d L (by decide : cc0_scoped1.sem ≠ cc0_scratch6.sem), (mem_ownCells (g := semCell d L cc0_scoped1)).mpr ⟨rfl, by show (SemLoc.dma cc0_scoped1.sem : SemLoc sig).isScoped .scVector = true; decide⟩⟩⟩⟩⟩⟩)]

omit [FloatOps F] [Named F] in
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

end Own

end Cert.Proof.IdealSide

end
-- ==== Proof.IdealBodyDefs.lean ====
/-
  What the pooling task addresses: its 64 token rows and its 32 pooled rows as slices of the whole matrices, a row of
  the index scratch as the list a gather reads, the index scratch's contents once the token rows have landed in it, the
  whole table as a gather's source, and what a gather lands.

  A gather into a row buffer reads the 100 words of one row of the index scratch and lands, at row r of the buffer, the
  table row the r-th word names. Every token word is at most 99999 on the domain the programs are compared on, so it
  names one of the table's 100002 rows: the range fact each gather needs.
-/
import proofs.«202922_g81758997446792_cont_9to1_m_1158_4_alg».proof.Proof.IdealTile
import proofs.«202922_g81758997446792_cont_9to1_m_1158_4_alg».proof.Proof.IdealBodyBase

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

section Tile
variable (d : Dev nD) (L : grid0.Coords)

abbrev tokK (L : grid0.Coords) : Memref sig .scVector .hbm S64x100 .i32 := (tokV).slice (tokRect L) (fun _ => rfl)
abbrev outK (L : grid0.Coords) : Memref sig .scVector .hbm S32x128 .f32 := (outV).slice (outRect L) (fun _ => rfl)

/-- A row of the index scratch, as a gather names its list. -/
abbrev idxRow (off : Fin 2 → Nat) (hoff : ∀ a, off a + S1x100.size a ≤ S64x100.size a) : Memref sig .scVector .vmem S100 .i32 :=
  ((s0V).slice (Rect.unit (s := S64x100) off S1x100.size hoff) (fun _ => rfl)).squeeze S100 squeezes_S1x100_S100

/-- The index scratch once the task's token rows have landed in it. -/
abbrev idxBuf (t2 : Buf (Elt F) (tokLoc d)) : Buf (Elt F) ((V d (cV L) (jV L)).loc cc0_scratch0) := (tokK L).view.read (Elt F) t2

omit [FloatOps F] [Named F] in
/-- Every word of a row of the index scratch, once it holds the task's token rows, names a table row. -/
theorem hin_idx (t2 : Buf (Elt F) (tokLoc d)) (hpre : PreOK t2) (off : Fin 2 → Nat) (hoff : ∀ a, off a + S1x100.size a ≤ S64x100.size a) :
    ∀ x, ((idxRow off hoff).view.read (Elt F) (idxBuf d L t2) x).toNat < S100002x128.size gathers_S100002x128_S100x128.axis := by
  intro x
  rw [show ∀ G : Buf (Elt F) ((V d (cV L) (jV L)).loc cc0_scratch0), (idxRow off hoff).view.read (Elt F) G x = G ((idxRow off hoff).view.emb x)
    from fun G => (View.read_apply _ _).trans (cast_eq _ _)]
  rw [show ∀ j, idxBuf d L t2 j = t2 ((tokK L).view.emb j) from fun j => (View.read_apply _ _).trans (cast_eq _ _)]
  exact Nat.lt_of_le_of_lt (hpre _) (by decide)

abbrev tabK : Memref sig .scVector .hbm S100002x128 .f32 :=
  (tabV).slice (Rect.unit (s := S100002x128) ![0, 0] S100002x128.size inb_S100002x128_S100002x128_0_0) (fun _ => rfl)

theorem hnRows : S100.numel = S100x128.size gathers_S100002x128_S100x128.axis' := by decide

/-- What a gather lands in a row buffer: at row r, the table row the r-th word of the list names. -/
abbrev gatherPay (t2 : Buf (Elt F) (tokLoc d)) (tab : Buf (Elt F) (tabLoc d))
    (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (off : Fin 2 → Nat) (hoff : ∀ a, off a + S1x100.size a ≤ S64x100.size a) : S100x128.Idx → Elt F .f32 :=
  SparseCore.gatherPayload gathers_S100002x128_S100x128 ((tabK).view.read (Elt F) tab)
    (SparseCore.rows ((idxRow off hoff).view.read (Elt F) (idxBuf d L t2)) hnRows (hin off hoff))

end Tile

end Cert.Proof.IdealSide

end
-- ==== Proof.IdealBodyRows.lean ====
/-
  The row sums as pure functions.

  A sentence's pooled vector is kept in eight vectors of sixteen lanes: vector c, lane l is feature 16·c + l. Adding one
  row of a row buffer adds the row's 128 entries lane by lane; a row sum is that step folded over the buffer's first n
  rows, in order. There is one copy per row buffer, each over its own buffer's loads. Feature e of the eight vectors,
  and the same fold at a single feature, say entry by entry what the vectors hold. The sixteen pieces a trip stores are
  the two finished sums, eight pieces of sixteen lanes each, at rows 2k and 2k + 1 of the pooled scratch.
-/
import proofs.«202922_g81758997446792_cont_9to1_m_1158_4_alg».proof.Proof.IdealTile
import proofs.«202922_g81758997446792_cont_9to1_m_1158_4_alg».proof.Proof.IdealBodyDefs

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

section Rows
variable (d : Dev nD) (L : grid0.Coords)

/-- The eight lane vectors a row sum carries: vector c, lane l is feature 16·c + l. -/
abbrev A8 (F : FTy → Type) : Type := (FVec F S16 .f32 × FVec F S16 .f32 × FVec F S16 .f32 × FVec F S16 .f32 × FVec F S16 .f32 × FVec F S16 .f32 × FVec F S16 .f32 × FVec F S16 .f32)

/-- One row of row buffer 0 added to the eight lane vectors. -/
def rowStep0 (cont : Buf (Elt F) ((s1V).view.loc (V d (cV L) (jV L)))) (r : Fin k0_t2_loop.trips) (a : A8 F) : A8 F :=
  (addf a.1 (shapeCast S16 (View.readAt (Elt F) (s1V).view (Rect.unit (s := S100x128) (k0_off2 r) S1x16.size (k0_off2_inb r)).toLoadRect cont) shapeCasts_S1x16_S16),
   addf a.2.1 (shapeCast S16 (View.readAt (Elt F) (s1V).view (Rect.unit (s := S100x128) (k0_off3 r) S1x16.size (k0_off3_inb r)).toLoadRect cont) shapeCasts_S1x16_S16),
   addf a.2.2.1 (shapeCast S16 (View.readAt (Elt F) (s1V).view (Rect.unit (s := S100x128) (k0_off4 r) S1x16.size (k0_off4_inb r)).toLoadRect cont) shapeCasts_S1x16_S16),
   addf a.2.2.2.1 (shapeCast S16 (View.readAt (Elt F) (s1V).view (Rect.unit (s := S100x128) (k0_off5 r) S1x16.size (k0_off5_inb r)).toLoadRect cont) shapeCasts_S1x16_S16),
   addf a.2.2.2.2.1 (shapeCast S16 (View.readAt (Elt F) (s1V).view (Rect.unit (s := S100x128) (k0_off6 r) S1x16.size (k0_off6_inb r)).toLoadRect cont) shapeCasts_S1x16_S16),
   addf a.2.2.2.2.2.1 (shapeCast S16 (View.readAt (Elt F) (s1V).view (Rect.unit (s := S100x128) (k0_off7 r) S1x16.size (k0_off7_inb r)).toLoadRect cont) shapeCasts_S1x16_S16),
   addf a.2.2.2.2.2.2.1 (shapeCast S16 (View.readAt (Elt F) (s1V).view (Rect.unit (s := S100x128) (k0_off8 r) S1x16.size (k0_off8_inb r)).toLoadRect cont) shapeCasts_S1x16_S16),
   addf a.2.2.2.2.2.2.2 (shapeCast S16 (View.readAt (Elt F) (s1V).view (Rect.unit (s := S100x128) (k0_off9 r) S1x16.size (k0_off9_inb r)).toLoadRect cont) shapeCasts_S1x16_S16))

/-- The first n rows of row buffer 0 added to the eight lane vectors, in order. -/
def rowFold0 (cont : Buf (Elt F) ((s1V).view.loc (V d (cV L) (jV L)))) (init : A8 F) : Nat → A8 F
  | 0 => init
  | n + 1 => if h : n < k0_t2_loop.trips then rowStep0 d L cont ⟨n, h⟩ (rowFold0 cont init n) else rowFold0 cont init n

theorem rowFold0_succ (cont : Buf (Elt F) ((s1V).view.loc (V d (cV L) (jV L)))) (init : A8 F) (r : Fin k0_t2_loop.trips) :
    rowFold0 d L cont init (r.val + 1) = rowStep0 d L cont r (rowFold0 d L cont init r.val) := by
  rw [rowFold0, dif_pos r.isLt]

/-- One row of row buffer 1 added to the eight lane vectors. -/
def rowStep1 (cont : Buf (Elt F) ((s2V).view.loc (V d (cV L) (jV L)))) (r : Fin k0_t3_loop.trips) (a : A8 F) : A8 F :=
  (addf a.1 (shapeCast S16 (View.readAt (Elt F) (s2V).view (Rect.unit (s := S100x128) (k0_off11 r) S1x16.size (k0_off11_inb r)).toLoadRect cont) shapeCasts_S1x16_S16),
   addf a.2.1 (shapeCast S16 (View.readAt (Elt F) (s2V).view (Rect.unit (s := S100x128) (k0_off12 r) S1x16.size (k0_off12_inb r)).toLoadRect cont) shapeCasts_S1x16_S16),
   addf a.2.2.1 (shapeCast S16 (View.readAt (Elt F) (s2V).view (Rect.unit (s := S100x128) (k0_off13 r) S1x16.size (k0_off13_inb r)).toLoadRect cont) shapeCasts_S1x16_S16),
   addf a.2.2.2.1 (shapeCast S16 (View.readAt (Elt F) (s2V).view (Rect.unit (s := S100x128) (k0_off14 r) S1x16.size (k0_off14_inb r)).toLoadRect cont) shapeCasts_S1x16_S16),
   addf a.2.2.2.2.1 (shapeCast S16 (View.readAt (Elt F) (s2V).view (Rect.unit (s := S100x128) (k0_off15 r) S1x16.size (k0_off15_inb r)).toLoadRect cont) shapeCasts_S1x16_S16),
   addf a.2.2.2.2.2.1 (shapeCast S16 (View.readAt (Elt F) (s2V).view (Rect.unit (s := S100x128) (k0_off16 r) S1x16.size (k0_off16_inb r)).toLoadRect cont) shapeCasts_S1x16_S16),
   addf a.2.2.2.2.2.2.1 (shapeCast S16 (View.readAt (Elt F) (s2V).view (Rect.unit (s := S100x128) (k0_off17 r) S1x16.size (k0_off17_inb r)).toLoadRect cont) shapeCasts_S1x16_S16),
   addf a.2.2.2.2.2.2.2 (shapeCast S16 (View.readAt (Elt F) (s2V).view (Rect.unit (s := S100x128) (k0_off18 r) S1x16.size (k0_off18_inb r)).toLoadRect cont) shapeCasts_S1x16_S16))

/-- The first n rows of row buffer 1 added to the eight lane vectors, in order. -/
def rowFold1 (cont : Buf (Elt F) ((s2V).view.loc (V d (cV L) (jV L)))) (init : A8 F) : Nat → A8 F
  | 0 => init
  | n + 1 => if h : n < k0_t3_loop.trips then rowStep1 d L cont ⟨n, h⟩ (rowFold1 cont init n) else rowFold1 cont init n

theorem rowFold1_succ (cont : Buf (Elt F) ((s2V).view.loc (V d (cV L) (jV L)))) (init : A8 F) (r : Fin k0_t3_loop.trips) :
    rowFold1 d L cont init (r.val + 1) = rowStep1 d L cont r (rowFold1 d L cont init r.val) := by
  rw [rowFold1, dif_pos r.isLt]

/-- One row of row buffer 2 added to the eight lane vectors. -/
def rowStep2 (cont : Buf (Elt F) ((s3V).view.loc (V d (cV L) (jV L)))) (r : Fin k0_t4_loop.trips) (a : A8 F) : A8 F :=
  (addf a.1 (shapeCast S16 (View.readAt (Elt F) (s3V).view (Rect.unit (s := S100x128) (k0_off20 r) S1x16.size (k0_off20_inb r)).toLoadRect cont) shapeCasts_S1x16_S16),
   addf a.2.1 (shapeCast S16 (View.readAt (Elt F) (s3V).view (Rect.unit (s := S100x128) (k0_off21 r) S1x16.size (k0_off21_inb r)).toLoadRect cont) shapeCasts_S1x16_S16),
   addf a.2.2.1 (shapeCast S16 (View.readAt (Elt F) (s3V).view (Rect.unit (s := S100x128) (k0_off22 r) S1x16.size (k0_off22_inb r)).toLoadRect cont) shapeCasts_S1x16_S16),
   addf a.2.2.2.1 (shapeCast S16 (View.readAt (Elt F) (s3V).view (Rect.unit (s := S100x128) (k0_off23 r) S1x16.size (k0_off23_inb r)).toLoadRect cont) shapeCasts_S1x16_S16),
   addf a.2.2.2.2.1 (shapeCast S16 (View.readAt (Elt F) (s3V).view (Rect.unit (s := S100x128) (k0_off24 r) S1x16.size (k0_off24_inb r)).toLoadRect cont) shapeCasts_S1x16_S16),
   addf a.2.2.2.2.2.1 (shapeCast S16 (View.readAt (Elt F) (s3V).view (Rect.unit (s := S100x128) (k0_off25 r) S1x16.size (k0_off25_inb r)).toLoadRect cont) shapeCasts_S1x16_S16),
   addf a.2.2.2.2.2.2.1 (shapeCast S16 (View.readAt (Elt F) (s3V).view (Rect.unit (s := S100x128) (k0_off26 r) S1x16.size (k0_off26_inb r)).toLoadRect cont) shapeCasts_S1x16_S16),
   addf a.2.2.2.2.2.2.2 (shapeCast S16 (View.readAt (Elt F) (s3V).view (Rect.unit (s := S100x128) (k0_off27 r) S1x16.size (k0_off27_inb r)).toLoadRect cont) shapeCasts_S1x16_S16))

/-- The first n rows of row buffer 2 added to the eight lane vectors, in order. -/
def rowFold2 (cont : Buf (Elt F) ((s3V).view.loc (V d (cV L) (jV L)))) (init : A8 F) : Nat → A8 F
  | 0 => init
  | n + 1 => if h : n < k0_t4_loop.trips then rowStep2 d L cont ⟨n, h⟩ (rowFold2 cont init n) else rowFold2 cont init n

theorem rowFold2_succ (cont : Buf (Elt F) ((s3V).view.loc (V d (cV L) (jV L)))) (init : A8 F) (r : Fin k0_t4_loop.trips) :
    rowFold2 d L cont init (r.val + 1) = rowStep2 d L cont r (rowFold2 d L cont init r.val) := by
  rw [rowFold2, dif_pos r.isLt]

/-- One row of row buffer 3 added to the eight lane vectors. -/
def rowStep3 (cont : Buf (Elt F) ((s4V).view.loc (V d (cV L) (jV L)))) (r : Fin k0_t5_loop.trips) (a : A8 F) : A8 F :=
  (addf a.1 (shapeCast S16 (View.readAt (Elt F) (s4V).view (Rect.unit (s := S100x128) (k0_off29 r) S1x16.size (k0_off29_inb r)).toLoadRect cont) shapeCasts_S1x16_S16),
   addf a.2.1 (shapeCast S16 (View.readAt (Elt F) (s4V).view (Rect.unit (s := S100x128) (k0_off30 r) S1x16.size (k0_off30_inb r)).toLoadRect cont) shapeCasts_S1x16_S16),
   addf a.2.2.1 (shapeCast S16 (View.readAt (Elt F) (s4V).view (Rect.unit (s := S100x128) (k0_off31 r) S1x16.size (k0_off31_inb r)).toLoadRect cont) shapeCasts_S1x16_S16),
   addf a.2.2.2.1 (shapeCast S16 (View.readAt (Elt F) (s4V).view (Rect.unit (s := S100x128) (k0_off32 r) S1x16.size (k0_off32_inb r)).toLoadRect cont) shapeCasts_S1x16_S16),
   addf a.2.2.2.2.1 (shapeCast S16 (View.readAt (Elt F) (s4V).view (Rect.unit (s := S100x128) (k0_off33 r) S1x16.size (k0_off33_inb r)).toLoadRect cont) shapeCasts_S1x16_S16),
   addf a.2.2.2.2.2.1 (shapeCast S16 (View.readAt (Elt F) (s4V).view (Rect.unit (s := S100x128) (k0_off34 r) S1x16.size (k0_off34_inb r)).toLoadRect cont) shapeCasts_S1x16_S16),
   addf a.2.2.2.2.2.2.1 (shapeCast S16 (View.readAt (Elt F) (s4V).view (Rect.unit (s := S100x128) (k0_off35 r) S1x16.size (k0_off35_inb r)).toLoadRect cont) shapeCasts_S1x16_S16),
   addf a.2.2.2.2.2.2.2 (shapeCast S16 (View.readAt (Elt F) (s4V).view (Rect.unit (s := S100x128) (k0_off36 r) S1x16.size (k0_off36_inb r)).toLoadRect cont) shapeCasts_S1x16_S16))

/-- The first n rows of row buffer 3 added to the eight lane vectors, in order. -/
def rowFold3 (cont : Buf (Elt F) ((s4V).view.loc (V d (cV L) (jV L)))) (init : A8 F) : Nat → A8 F
  | 0 => init
  | n + 1 => if h : n < k0_t5_loop.trips then rowStep3 d L cont ⟨n, h⟩ (rowFold3 cont init n) else rowFold3 cont init n

theorem rowFold3_succ (cont : Buf (Elt F) ((s4V).view.loc (V d (cV L) (jV L)))) (init : A8 F) (r : Fin k0_t5_loop.trips) :
    rowFold3 d L cont init (r.val + 1) = rowStep3 d L cont r (rowFold3 d L cont init r.val) := by
  rw [rowFold3, dif_pos r.isLt]

/-- The c-th of the eight lane vectors. -/
def comp8 (a : A8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

/-- Feature e of the eight lane vectors: vector e / 16, lane e % 16. -/
def lane (a : A8 F) (e : Fin 128) : F .f32 :=
  comp8 a ⟨e.val / 16, by have := e.isLt; omega⟩ (ix1 ⟨e.val % 16, Nat.mod_lt _ (by decide)⟩)

/-- The first n rows of a row buffer added up at feature e, in order, from a0. -/
def laneFold (g : S100x128.Idx → F .f32) (a0 : F .f32) (e : Fin 128) : Nat → F .f32
  | 0 => a0
  | n + 1 => FloatOps.addf (laneFold g a0 e n) (g (ix2 ⟨n % 100, Nat.mod_lt _ (by decide)⟩ e))

/-- The sixteen pieces one trip stores into the pooled scratch: rows 2k (from A) and 2k + 1 (from B), last store first. -/
def s5Pieces (k : Fin k0_t1_loop.trips) (A B : A8 F) : List (View.Piece (Elt F) S32x128 .f32) :=
  [⟨Rect.unit (s := S32x128) (k0_off45 k 1#32) S1x16.size (k0_off45_inb k 1), k0_pay9 B.2.2.2.2.2.2.2⟩,
   ⟨Rect.unit (s := S32x128) (k0_off44 k 1#32) S1x16.size (k0_off44_inb k 1), k0_pay8 B.2.2.2.2.2.2.1⟩,
   ⟨Rect.unit (s := S32x128) (k0_off43 k 1#32) S1x16.size (k0_off43_inb k 1), k0_pay7 B.2.2.2.2.2.1⟩,
   ⟨Rect.unit (s := S32x128) (k0_off42 k 1#32) S1x16.size (k0_off42_inb k 1), k0_pay6 B.2.2.2.2.1⟩,
   ⟨Rect.unit (s := S32x128) (k0_off41 k 1#32) S1x16.size (k0_off41_inb k 1), k0_pay5 B.2.2.2.1⟩,
   ⟨Rect.unit (s := S32x128) (k0_off40 k 1#32) S1x16.size (k0_off40_inb k 1), k0_pay4 B.2.2.1⟩,
   ⟨Rect.unit (s := S32x128) (k0_off39 k 1#32) S1x16.size (k0_off39_inb k 1), k0_pay51 B.2.1⟩,
   ⟨Rect.unit (s := S32x128) (k0_off38 k 1#32) S1x16.size (k0_off38_inb k 1), k0_pay50 B.1⟩,
   ⟨Rect.unit (s := S32x128) (k0_off45 k 0#32) S1x16.size (k0_off45_inb k 0), k0_pay49 A.2.2.2.2.2.2.2⟩,
   ⟨Rect.unit (s := S32x128) (k0_off44 k 0#32) S1x16.size (k0_off44_inb k 0), k0_pay48 A.2.2.2.2.2.2.1⟩,
   ⟨Rect.unit (s := S32x128) (k0_off43 k 0#32) S1x16.size (k0_off43_inb k 0), k0_pay47 A.2.2.2.2.2.1⟩,
   ⟨Rect.unit (s := S32x128) (k0_off42 k 0#32) S1x16.size (k0_off42_inb k 0), k0_pay46 A.2.2.2.2.1⟩,
   ⟨Rect.unit (s := S32x128) (k0_off41 k 0#32) S1x16.size (k0_off41_inb k 0), k0_pay45 A.2.2.2.1⟩,
   ⟨Rect.unit (s := S32x128) (k0_off40 k 0#32) S1x16.size (k0_off40_inb k 0), k0_pay44 A.2.2.1⟩,
   ⟨Rect.unit (s := S32x128) (k0_off39 k 0#32) S1x16.size (k0_off39_inb k 0), k0_pay43 A.2.1⟩,
   ⟨Rect.unit (s := S32x128) (k0_off38 k 0#32) S1x16.size (k0_off38_inb k 0), k0_pay42 A.1⟩]

end Rows

end Cert.Proof.IdealSide

end
-- ==== Proof.IdealBodyTrip.lean ====
/-
  One trip of the task's outer loop, at a symbolic trip k.

  Before the trip the four row buffers are being filled: slot j is fetching chunk 4k + j, the table rows that the task's
  token row 4k + j names. The trip takes the slots in order: it waits for the slot's gather, adds the buffer's hundred
  rows to the running sums (chunks 4k and 4k + 1 make sentence 2k's sum, chunks 4k + 2 and 4k + 3 sentence 2k + 1's,
  each from zero) and, while k < 15, starts the slot on chunk 4k + j + 4. Then it stores the two sums as rows 2k and
  2k + 1 of the pooled scratch. The first theorem is the trip for k < 15, all four slots fetching again afterwards; the
  second is the last trip, all four slots idle afterwards. Each inner loop's invariant says that the carried vectors
  are the fold of the buffer's first r rows.
-/
import proofs.«202922_g81758997446792_cont_9to1_m_1158_4_alg».proof.Proof.IdealTile
import proofs.«202922_g81758997446792_cont_9to1_m_1158_4_alg».proof.Proof.IdealBodyRows

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

section Tile
variable (d : Dev nD) (L : grid0.Coords)

theorem cond_lt : ∀ k : Fin k0_t1_loop.trips, k.val < 15 → (k0_cond1 k = 1#1 ∧ k0_cond2 k = 1#1 ∧ k0_cond3 k = 1#1 ∧ k0_cond4 k = 1#1) := by decide +kernel
theorem cond_ge : ∀ k : Fin k0_t1_loop.trips, ¬ k.val < 15 → (¬ k0_cond1 k = 1#1 ∧ ¬ k0_cond2 k = 1#1 ∧ ¬ k0_cond3 k = 1#1 ∧ ¬ k0_cond4 k = 1#1) := by decide +kernel

set_option maxHeartbeats 4000000 in
/-- One trip of the outer loop while chunks remain: each slot's gather awaited, its hundred rows added up, the slot
    re-armed with the chunk four ahead; the two sentences' sums stored. -/

theorem trip_lt (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (O : CellTallies nD τ sig (HIx 1)) (W' : Waits sig (HIx 1))
    (k : Fin k0_t1_loop.trips) (hk : k.val < 15)
    (off0 : Fin 2 → Nat) (hoff0 : ∀ a, off0 a + S1x100.size a ≤ S64x100.size a) (fp0 : Buf (Elt F) ((s1V).view.loc (V d (cV L) (jV L))))
    (off1 : Fin 2 → Nat) (hoff1 : ∀ a, off1 a + S1x100.size a ≤ S64x100.size a) (fp1 : Buf (Elt F) ((s2V).view.loc (V d (cV L) (jV L))))
    (off2 : Fin 2 → Nat) (hoff2 : ∀ a, off2 a + S1x100.size a ≤ S64x100.size a) (fp2 : Buf (Elt F) ((s3V).view.loc (V d (cV L) (jV L))))
    (off3 : Fin 2 → Nat) (hoff3 : ∀ a, off3 a + S1x100.size a ≤ S64x100.size a) (fp3 : Buf (Elt F) ((s4V).view.loc (V d (cV L) (jV L))))
    (f5 : Buf (Elt F) ((s5V).view.loc (V d (cV L) (jV L))))
    (z0 z1 z2 z3 z4 : FVec F S16 .f32) (c17 : F .f32) :
    iprop(Transfers.MayWaits (V d (cV L) (jV L)) (default : HIx 1) O
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) fp0 [⟨Rect.whole cc0_scratch1.ty.shape, gatherPay d L t2 tab hin off0 hoff0⟩])
          ∗ ((s0V).view.loc (V d (cV L) (jV L)) ↦[(idxRow off0 hoff0).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) fp0 [⟨Rect.whole cc0_scratch1.ty.shape, gatherPay d L t2 tab hin off0 hoff0⟩])
    ∗ ((s0V).view.loc (V d (cV L) (jV L)) ↦[Finset.univ \ (idxRow off0 hoff0).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) fp1 [⟨Rect.whole cc0_scratch2.ty.shape, gatherPay d L t2 tab hin off1 hoff1⟩])
          ∗ ((s0V).view.loc (V d (cV L) (jV L)) ↦[(idxRow off1 hoff1).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) fp1 [⟨Rect.whole cc0_scratch2.ty.shape, gatherPay d L t2 tab hin off1 hoff1⟩])
    ∗ ((s0V).view.loc (V d (cV L) (jV L)) ↦[Finset.univ \ (idxRow off1 hoff1).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) fp2 [⟨Rect.whole cc0_scratch3.ty.shape, gatherPay d L t2 tab hin off2 hoff2⟩])
          ∗ ((s0V).view.loc (V d (cV L) (jV L)) ↦[(idxRow off2 hoff2).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) fp2 [⟨Rect.whole cc0_scratch3.ty.shape, gatherPay d L t2 tab hin off2 hoff2⟩])
    ∗ ((s0V).view.loc (V d (cV L) (jV L)) ↦[Finset.univ \ (idxRow off2 hoff2).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) fp3 [⟨Rect.whole cc0_scratch4.ty.shape, gatherPay d L t2 tab hin off3 hoff3⟩])
          ∗ ((s0V).view.loc (V d (cV L) (jV L)) ↦[(idxRow off3 hoff3).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) fp3 [⟨Rect.whole cc0_scratch4.ty.shape, gatherPay d L t2 tab hin off3 hoff3⟩])
    ∗ ((s0V).view.loc (V d (cV L) (jV L)) ↦[Finset.univ \ (idxRow off3 hoff3).view.set]{Transfers.shareTok fullShare 3 2} idxBuf d L t2)
    ∗ ((s5V).view.loc (V d (cV L) (jV L)) ↦{fullShare} f5)
    ∗ owes (V d (cV L) (jV L)) O W')
      ⊢ wp frame (wpE (defs₀ (F := F)) 𝒱₀ (V d (cV L) (jV L)) none) Set.univ
          (k0_t1_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 z0 z1 z2 z3 z4 c17 k PUnit.unit)
          fun _ => (iprop(Transfers.MayWaits (V d (cV L) (jV L)) (default : HIx 1) O
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) ((s1V).view.writes (Elt F) (s1V).view.junk [⟨Rect.whole cc0_scratch1.ty.shape, gatherPay d L t2 tab hin off0 hoff0⟩]) [⟨Rect.whole cc0_scratch1.ty.shape, gatherPay d L t2 tab hin (k0_off10 k) (k0_off10_inb k (cond_lt k hk).1)⟩])
          ∗ ((s0V).view.loc (V d (cV L) (jV L)) ↦[(idxRow (k0_off10 k) (k0_off10_inb k (cond_lt k hk).1)).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) ((s1V).view.writes (Elt F) (s1V).view.junk [⟨Rect.whole cc0_scratch1.ty.shape, gatherPay d L t2 tab hin off0 hoff0⟩]) [⟨Rect.whole cc0_scratch1.ty.shape, gatherPay d L t2 tab hin (k0_off10 k) (k0_off10_inb k (cond_lt k hk).1)⟩])
    ∗ ((s0V).view.loc (V d (cV L) (jV L)) ↦[Finset.univ \ (idxRow (k0_off10 k) (k0_off10_inb k (cond_lt k hk).1)).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) ((s2V).view.writes (Elt F) (s2V).view.junk [⟨Rect.whole cc0_scratch2.ty.shape, gatherPay d L t2 tab hin off1 hoff1⟩]) [⟨Rect.whole cc0_scratch2.ty.shape, gatherPay d L t2 tab hin (k0_off19 k) (k0_off19_inb k (cond_lt k hk).2.1)⟩])
          ∗ ((s0V).view.loc (V d (cV L) (jV L)) ↦[(idxRow (k0_off19 k) (k0_off19_inb k (cond_lt k hk).2.1)).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) ((s2V).view.writes (Elt F) (s2V).view.junk [⟨Rect.whole cc0_scratch2.ty.shape, gatherPay d L t2 tab hin off1 hoff1⟩]) [⟨Rect.whole cc0_scratch2.ty.shape, gatherPay d L t2 tab hin (k0_off19 k) (k0_off19_inb k (cond_lt k hk).2.1)⟩])
    ∗ ((s0V).view.loc (V d (cV L) (jV L)) ↦[Finset.univ \ (idxRow (k0_off19 k) (k0_off19_inb k (cond_lt k hk).2.1)).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) ((s3V).view.writes (Elt F) (s3V).view.junk [⟨Rect.whole cc0_scratch3.ty.shape, gatherPay d L t2 tab hin off2 hoff2⟩]) [⟨Rect.whole cc0_scratch3.ty.shape, gatherPay d L t2 tab hin (k0_off28 k) (k0_off28_inb k (cond_lt k hk).2.2.1)⟩])
          ∗ ((s0V).view.loc (V d (cV L) (jV L)) ↦[(idxRow (k0_off28 k) (k0_off28_inb k (cond_lt k hk).2.2.1)).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) ((s3V).view.writes (Elt F) (s3V).view.junk [⟨Rect.whole cc0_scratch3.ty.shape, gatherPay d L t2 tab hin off2 hoff2⟩]) [⟨Rect.whole cc0_scratch3.ty.shape, gatherPay d L t2 tab hin (k0_off28 k) (k0_off28_inb k (cond_lt k hk).2.2.1)⟩])
    ∗ ((s0V).view.loc (V d (cV L) (jV L)) ↦[Finset.univ \ (idxRow (k0_off28 k) (k0_off28_inb k (cond_lt k hk).2.2.1)).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) ((s4V).view.writes (Elt F) (s4V).view.junk [⟨Rect.whole cc0_scratch4.ty.shape, gatherPay d L t2 tab hin off3 hoff3⟩]) [⟨Rect.whole cc0_scratch4.ty.shape, gatherPay d L t2 tab hin (k0_off37 k) (k0_off37_inb k (cond_lt k hk).2.2.2)⟩])
          ∗ ((s0V).view.loc (V d (cV L) (jV L)) ↦[(idxRow (k0_off37 k) (k0_off37_inb k (cond_lt k hk).2.2.2)).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) ((s4V).view.writes (Elt F) (s4V).view.junk [⟨Rect.whole cc0_scratch4.ty.shape, gatherPay d L t2 tab hin off3 hoff3⟩]) [⟨Rect.whole cc0_scratch4.ty.shape, gatherPay d L t2 tab hin (k0_off37 k) (k0_off37_inb k (cond_lt k hk).2.2.2)⟩])
    ∗ ((s0V).view.loc (V d (cV L) (jV L)) ↦[Finset.univ \ (idxRow (k0_off37 k) (k0_off37_inb k (cond_lt k hk).2.2.2)).view.set]{Transfers.shareTok fullShare 3 2} idxBuf d L t2)
    ∗ ((s5V).view.loc (V d (cV L) (jV L)) ↦{fullShare} (s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) k0_t4_loop.trips) k0_t5_loop.trips)))
    ∗ owes (V d (cV L) (jV L)) O (insert (SemLoc.dma cc0_scratch9.sem, (default : HIx 1)) (insert (SemLoc.dma cc0_scratch8.sem, (default : HIx 1)) (insert (SemLoc.dma cc0_scratch7.sem, (default : HIx 1)) (insert (SemLoc.dma cc0_scratch6.sem, (default : HIx 1)) W'))))) : sProp 𝕄) := by
  obtain ⟨k0_h1, k0_h2, k0_h3, k0_h4⟩ := cond_lt k hk

  unfold k0_t1_body
  iintro ⟨Hmw, Hfl0, HtR0, HbR0, HiR0, Hfl1, HtR1, HbR1, HiR1, Hfl2, HtR2, HbR2, HiR2, Hfl3, HtR3, HbR3, HiR3, H5, HO⟩
  sl_exec
  sl_for (fun (r : Nat) (acc : A8 F) =>
      (iprop(((s1V).view.loc (V d (cV L) (jV L)) ↦{fullShare} (s1V).view.writes (Elt F) (s1V).view.junk [⟨Rect.whole cc0_scratch1.ty.shape, gatherPay d L t2 tab hin off0 hoff0⟩])
        ∗ ⌜acc = rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) r⌝) : sProp 𝕄)) $$ [HbR0]
  case region =>
    intro r acc
    iintro ⟨Hb, %hacc⟩
    sl_exec
    sl_step
    isplitl [Hb]; · iexact Hb
    ipureintro
    subst hacc
    exact (rowFold0_succ d L _ _ r).symm
  · isplitl [HbR0]; · iexact HbR0
    ipureintro; rfl
  iintro %acc1 HI
  icases HI with ⟨HbR0, %hacc1⟩
  sl_exec

  sl_for (fun (r : Nat) (acc : A8 F) =>
      (iprop(((s2V).view.loc (V d (cV L) (jV L)) ↦{fullShare} (s2V).view.writes (Elt F) (s2V).view.junk [⟨Rect.whole cc0_scratch2.ty.shape, gatherPay d L t2 tab hin off1 hoff1⟩])
        ∗ ⌜acc = rowFold1 d L ((s2V).view.writes (Elt F) (s2V).view.junk [⟨Rect.whole cc0_scratch2.ty.shape, gatherPay d L t2 tab hin off1 hoff1⟩]) acc1 r⌝) : sProp 𝕄)) $$ [HbR1]
  case region =>
    intro r acc
    iintro ⟨Hb, %hacc⟩
    sl_exec
    sl_step
    isplitl [Hb]; · iexact Hb
    ipureintro
    subst hacc
    exact (rowFold1_succ d L _ _ r).symm
  · isplitl [HbR1]; · iexact HbR1
    ipureintro; rfl
  iintro %acc2 HI
  icases HI with ⟨HbR1, %hacc2⟩
  sl_exec

  sl_for (fun (r : Nat) (acc : A8 F) =>
      (iprop(((s3V).view.loc (V d (cV L) (jV L)) ↦{fullShare} (s3V).view.writes (Elt F) (s3V).view.junk [⟨Rect.whole cc0_scratch3.ty.shape, gatherPay d L t2 tab hin off2 hoff2⟩])
        ∗ ⌜acc = rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) r⌝) : sProp 𝕄)) $$ [HbR2]
  case region =>
    intro r acc
    iintro ⟨Hb, %hacc⟩
    sl_exec
    sl_step
    isplitl [Hb]; · iexact Hb
    ipureintro
    subst hacc
    exact (rowFold2_succ d L _ _ r).symm
  · isplitl [HbR2]; · iexact HbR2
    ipureintro; rfl
  iintro %acc3 HI
  icases HI with ⟨HbR2, %hacc3⟩
  sl_exec

  sl_for (fun (r : Nat) (acc : A8 F) =>
      (iprop(((s4V).view.loc (V d (cV L) (jV L)) ↦{fullShare} (s4V).view.writes (Elt F) (s4V).view.junk [⟨Rect.whole cc0_scratch4.ty.shape, gatherPay d L t2 tab hin off3 hoff3⟩])
        ∗ ⌜acc = rowFold3 d L ((s4V).view.writes (Elt F) (s4V).view.junk [⟨Rect.whole cc0_scratch4.ty.shape, gatherPay d L t2 tab hin off3 hoff3⟩]) acc3 r⌝) : sProp 𝕄)) $$ [HbR3]
  case region =>
    intro r acc
    iintro ⟨Hb, %hacc⟩
    sl_exec
    sl_step
    isplitl [Hb]; · iexact Hb
    ipureintro
    subst hacc
    exact (rowFold3_succ d L _ _ r).symm
  · isplitl [HbR3]; · iexact HbR3
    ipureintro; rfl
  iintro %acc4 HI
  icases HI with ⟨HbR3, %hacc4⟩
  sl_exec

  sl_step
  subst hacc1 hacc2 hacc3 hacc4
  isplitl [Hmw]; · iexact Hmw
  isplitl [Hfl0]; · iexact Hfl0
  isplitl [HtR0]; · iexact HtR0
  isplitl [HbR0]; · iexact HbR0
  isplitl [HiR0]; · iexact HiR0
  isplitl [Hfl1]; · iexact Hfl1
  isplitl [HtR1]; · iexact HtR1
  isplitl [HbR1]; · iexact HbR1
  isplitl [HiR1]; · iexact HiR1
  isplitl [Hfl2]; · iexact Hfl2
  isplitl [HtR2]; · iexact HtR2
  isplitl [HbR2]; · iexact HbR2
  isplitl [HiR2]; · iexact HiR2
  isplitl [Hfl3]; · iexact Hfl3
  isplitl [HtR3]; · iexact HtR3
  isplitl [HbR3]; · iexact HbR3
  isplitl [HiR3]; · iexact HiR3
  isplitl [H5]; · iexact H5
  iexact HO

set_option maxHeartbeats 4000000 in
/-- The last trip: the same, no slot re-armed. -/

theorem trip_last (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (O : CellTallies nD τ sig (HIx 1)) (W' : Waits sig (HIx 1))
    (k : Fin k0_t1_loop.trips) (hk : ¬ k.val < 15)
    (off0 : Fin 2 → Nat) (hoff0 : ∀ a, off0 a + S1x100.size a ≤ S64x100.size a) (fp0 : Buf (Elt F) ((s1V).view.loc (V d (cV L) (jV L))))
    (off1 : Fin 2 → Nat) (hoff1 : ∀ a, off1 a + S1x100.size a ≤ S64x100.size a) (fp1 : Buf (Elt F) ((s2V).view.loc (V d (cV L) (jV L))))
    (off2 : Fin 2 → Nat) (hoff2 : ∀ a, off2 a + S1x100.size a ≤ S64x100.size a) (fp2 : Buf (Elt F) ((s3V).view.loc (V d (cV L) (jV L))))
    (off3 : Fin 2 → Nat) (hoff3 : ∀ a, off3 a + S1x100.size a ≤ S64x100.size a) (fp3 : Buf (Elt F) ((s4V).view.loc (V d (cV L) (jV L))))
    (f5 : Buf (Elt F) ((s5V).view.loc (V d (cV L) (jV L))))
    (z0 z1 z2 z3 z4 : FVec F S16 .f32) (c17 : F .f32) :
    iprop(Transfers.MayWaits (V d (cV L) (jV L)) (default : HIx 1) O
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) fp0 [⟨Rect.whole cc0_scratch1.ty.shape, gatherPay d L t2 tab hin off0 hoff0⟩])
          ∗ ((s0V).view.loc (V d (cV L) (jV L)) ↦[(idxRow off0 hoff0).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) fp0 [⟨Rect.whole cc0_scratch1.ty.shape, gatherPay d L t2 tab hin off0 hoff0⟩])
    ∗ ((s0V).view.loc (V d (cV L) (jV L)) ↦[Finset.univ \ (idxRow off0 hoff0).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) fp1 [⟨Rect.whole cc0_scratch2.ty.shape, gatherPay d L t2 tab hin off1 hoff1⟩])
          ∗ ((s0V).view.loc (V d (cV L) (jV L)) ↦[(idxRow off1 hoff1).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) fp1 [⟨Rect.whole cc0_scratch2.ty.shape, gatherPay d L t2 tab hin off1 hoff1⟩])
    ∗ ((s0V).view.loc (V d (cV L) (jV L)) ↦[Finset.univ \ (idxRow off1 hoff1).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) fp2 [⟨Rect.whole cc0_scratch3.ty.shape, gatherPay d L t2 tab hin off2 hoff2⟩])
          ∗ ((s0V).view.loc (V d (cV L) (jV L)) ↦[(idxRow off2 hoff2).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) fp2 [⟨Rect.whole cc0_scratch3.ty.shape, gatherPay d L t2 tab hin off2 hoff2⟩])
    ∗ ((s0V).view.loc (V d (cV L) (jV L)) ↦[Finset.univ \ (idxRow off2 hoff2).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) fp3 [⟨Rect.whole cc0_scratch4.ty.shape, gatherPay d L t2 tab hin off3 hoff3⟩])
          ∗ ((s0V).view.loc (V d (cV L) (jV L)) ↦[(idxRow off3 hoff3).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) fp3 [⟨Rect.whole cc0_scratch4.ty.shape, gatherPay d L t2 tab hin off3 hoff3⟩])
    ∗ ((s0V).view.loc (V d (cV L) (jV L)) ↦[Finset.univ \ (idxRow off3 hoff3).view.set]{Transfers.shareTok fullShare 3 2} idxBuf d L t2)
    ∗ ((s5V).view.loc (V d (cV L) (jV L)) ↦{fullShare} f5)
    ∗ owes (V d (cV L) (jV L)) O W')
      ⊢ wp frame (wpE (defs₀ (F := F)) 𝒱₀ (V d (cV L) (jV L)) none) Set.univ
          (k0_t1_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 z0 z1 z2 z3 z4 c17 k PUnit.unit)
          fun _ => (iprop(Transfers.MayWaits (V d (cV L) (jV L)) (default : HIx 1) O
    ∗ semVal ((V d (cV L) (jV L)), SemLoc.dma cc0_scratch6.sem) 0
    ∗ ((tabV).view.loc (V d (cV L) (jV L)) ↦{Transfers.shareTok (tabShare L) 4 0} tab)
    ∗ ((s1V).view.loc (V d (cV L) (jV L)) ↦{fullShare} (s1V).view.writes (Elt F) (s1V).view.junk [⟨Rect.whole cc0_scratch1.ty.shape, gatherPay d L t2 tab hin off0 hoff0⟩])
    ∗ ((s0V).view.loc (V d (cV L) (jV L)) ↦{Transfers.shareDrop fullShare 3} idxBuf d L t2)
    ∗ semVal ((V d (cV L) (jV L)), SemLoc.dma cc0_scratch7.sem) 0
    ∗ ((tabV).view.loc (V d (cV L) (jV L)) ↦{Transfers.shareTok (tabShare L) 4 1} tab)
    ∗ ((s2V).view.loc (V d (cV L) (jV L)) ↦{fullShare} (s2V).view.writes (Elt F) (s2V).view.junk [⟨Rect.whole cc0_scratch2.ty.shape, gatherPay d L t2 tab hin off1 hoff1⟩])
    ∗ ((s0V).view.loc (V d (cV L) (jV L)) ↦{Transfers.shareTok fullShare 3 0} idxBuf d L t2)
    ∗ semVal ((V d (cV L) (jV L)), SemLoc.dma cc0_scratch8.sem) 0
    ∗ ((tabV).view.loc (V d (cV L) (jV L)) ↦{Transfers.shareTok (tabShare L) 4 2} tab)
    ∗ ((s3V).view.loc (V d (cV L) (jV L)) ↦{fullShare} (s3V).view.writes (Elt F) (s3V).view.junk [⟨Rect.whole cc0_scratch3.ty.shape, gatherPay d L t2 tab hin off2 hoff2⟩])
    ∗ ((s0V).view.loc (V d (cV L) (jV L)) ↦{Transfers.shareTok fullShare 3 1} idxBuf d L t2)
    ∗ semVal ((V d (cV L) (jV L)), SemLoc.dma cc0_scratch9.sem) 0
    ∗ ((tabV).view.loc (V d (cV L) (jV L)) ↦{Transfers.shareTok (tabShare L) 4 3} tab)
    ∗ ((s4V).view.loc (V d (cV L) (jV L)) ↦{fullShare} (s4V).view.writes (Elt F) (s4V).view.junk [⟨Rect.whole cc0_scratch4.ty.shape, gatherPay d L t2 tab hin off3 hoff3⟩])
    ∗ ((s0V).view.loc (V d (cV L) (jV L)) ↦{Transfers.shareTok fullShare 3 2} idxBuf d L t2)
    ∗ ((s5V).view.loc (V d (cV L) (jV L)) ↦{fullShare} (s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) k0_t4_loop.trips) k0_t5_loop.trips)))
    ∗ owes (V d (cV L) (jV L)) O (insert (SemLoc.dma cc0_scratch9.sem, (default : HIx 1)) (insert (SemLoc.dma cc0_scratch8.sem, (default : HIx 1)) (insert (SemLoc.dma cc0_scratch7.sem, (default : HIx 1)) (insert (SemLoc.dma cc0_scratch6.sem, (default : HIx 1)) W'))))) : sProp 𝕄) := by
  obtain ⟨k0_h1, k0_h2, k0_h3, k0_h4⟩ := cond_ge k hk

  unfold k0_t1_body
  iintro ⟨Hmw, Hfl0, HtR0, HbR0, HiR0, Hfl1, HtR1, HbR1, HiR1, Hfl2, HtR2, HbR2, HiR2, Hfl3, HtR3, HbR3, HiR3, H5, HO⟩
  sl_exec
  sl_for (fun (r : Nat) (acc : A8 F) =>
      (iprop(((s1V).view.loc (V d (cV L) (jV L)) ↦{fullShare} (s1V).view.writes (Elt F) (s1V).view.junk [⟨Rect.whole cc0_scratch1.ty.shape, gatherPay d L t2 tab hin off0 hoff0⟩])
        ∗ ⌜acc = rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) r⌝) : sProp 𝕄)) $$ [HbR0]
  case region =>
    intro r acc
    iintro ⟨Hb, %hacc⟩
    sl_exec
    sl_step
    isplitl [Hb]; · iexact Hb
    ipureintro
    subst hacc
    exact (rowFold0_succ d L _ _ r).symm
  · isplitl [HbR0]; · iexact HbR0
    ipureintro; rfl
  iintro %acc1 HI
  icases HI with ⟨HbR0, %hacc1⟩
  sl_exec

  sl_for (fun (r : Nat) (acc : A8 F) =>
      (iprop(((s2V).view.loc (V d (cV L) (jV L)) ↦{fullShare} (s2V).view.writes (Elt F) (s2V).view.junk [⟨Rect.whole cc0_scratch2.ty.shape, gatherPay d L t2 tab hin off1 hoff1⟩])
        ∗ ⌜acc = rowFold1 d L ((s2V).view.writes (Elt F) (s2V).view.junk [⟨Rect.whole cc0_scratch2.ty.shape, gatherPay d L t2 tab hin off1 hoff1⟩]) acc1 r⌝) : sProp 𝕄)) $$ [HbR1]
  case region =>
    intro r acc
    iintro ⟨Hb, %hacc⟩
    sl_exec
    sl_step
    isplitl [Hb]; · iexact Hb
    ipureintro
    subst hacc
    exact (rowFold1_succ d L _ _ r).symm
  · isplitl [HbR1]; · iexact HbR1
    ipureintro; rfl
  iintro %acc2 HI
  icases HI with ⟨HbR1, %hacc2⟩
  sl_exec

  sl_for (fun (r : Nat) (acc : A8 F) =>
      (iprop(((s3V).view.loc (V d (cV L) (jV L)) ↦{fullShare} (s3V).view.writes (Elt F) (s3V).view.junk [⟨Rect.whole cc0_scratch3.ty.shape, gatherPay d L t2 tab hin off2 hoff2⟩])
        ∗ ⌜acc = rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) r⌝) : sProp 𝕄)) $$ [HbR2]
  case region =>
    intro r acc
    iintro ⟨Hb, %hacc⟩
    sl_exec
    sl_step
    isplitl [Hb]; · iexact Hb
    ipureintro
    subst hacc
    exact (rowFold2_succ d L _ _ r).symm
  · isplitl [HbR2]; · iexact HbR2
    ipureintro; rfl
  iintro %acc3 HI
  icases HI with ⟨HbR2, %hacc3⟩
  sl_exec

  sl_for (fun (r : Nat) (acc : A8 F) =>
      (iprop(((s4V).view.loc (V d (cV L) (jV L)) ↦{fullShare} (s4V).view.writes (Elt F) (s4V).view.junk [⟨Rect.whole cc0_scratch4.ty.shape, gatherPay d L t2 tab hin off3 hoff3⟩])
        ∗ ⌜acc = rowFold3 d L ((s4V).view.writes (Elt F) (s4V).view.junk [⟨Rect.whole cc0_scratch4.ty.shape, gatherPay d L t2 tab hin off3 hoff3⟩]) acc3 r⌝) : sProp 𝕄)) $$ [HbR3]
  case region =>
    intro r acc
    iintro ⟨Hb, %hacc⟩
    sl_exec
    sl_step
    isplitl [Hb]; · iexact Hb
    ipureintro
    subst hacc
    exact (rowFold3_succ d L _ _ r).symm
  · isplitl [HbR3]; · iexact HbR3
    ipureintro; rfl
  iintro %acc4 HI
  icases HI with ⟨HbR3, %hacc4⟩
  sl_exec

  sl_step
  subst hacc1 hacc2 hacc3 hacc4
  isplitl [Hmw]; · iexact Hmw
  isplitl [Hfl0]; · iexact Hfl0
  isplitl [HtR0]; · iexact HtR0
  isplitl [HbR0]; · iexact HbR0
  isplitl [HiR0]; · iexact HiR0
  isplitl [Hfl1]; · iexact Hfl1
  isplitl [HtR1]; · iexact HtR1
  isplitl [HbR1]; · iexact HbR1
  isplitl [HiR1]; · iexact HiR1
  isplitl [Hfl2]; · iexact Hfl2
  isplitl [HtR2]; · iexact HtR2
  isplitl [HbR2]; · iexact HbR2
  isplitl [HiR2]; · iexact HiR2
  isplitl [Hfl3]; · iexact Hfl3
  isplitl [HtR3]; · iexact HtR3
  isplitl [HbR3]; · iexact HbR3
  isplitl [HiR3]; · iexact HiR3
  isplitl [H5]; · iexact H5
  iexact HO

end Tile

end Cert.Proof.IdealSide

end
-- ==== Proof.IdealBodyGen.lean ====
/-
  The whole task, with the pooled scratch followed by a predicate.

  The task copies its 64 token rows into the index scratch, starts the four slots on chunks 0 to 3, runs sixteen trips,
  and copies the pooled scratch out to its 32 rows of the pooled matrix. Between trips either all four slots are
  fetching (before trip k < 16 slot j fetches chunk 4k + j) or, after the last trip, all are idle. The table is read
  through four read shares, one per slot, so that four gathers may read it at once; the index scratch likewise.
  What the pooled scratch holds is followed by a predicate P5 of the caller's choosing: anything satisfies P5 0, and a
  trip's sixteen stores take P5 k to P5 (k + 1). The task ends with the pooled rows at the copy of a scratch that
  satisfies P5 16 and every other resource back as it came.
-/
import proofs.«202922_g81758997446792_cont_9to1_m_1158_4_alg».proof.Proof.IdealTile
import proofs.«202922_g81758997446792_cont_9to1_m_1158_4_alg».proof.Proof.IdealBodyTrip

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

section Tile
variable (d : Dev nD) (L : grid0.Coords)

/-- The four slots in flight before trip k: slot j is fetching chunk 4·k + j. -/
def slotsFl (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (k : Nat) : sProp 𝕄 :=
  iprop(∃ (off0 : Fin 2 → Nat) (hoff0 : ∀ a, off0 a + S1x100.size a ≤ S64x100.size a) (fp0 : Buf (Elt F) ((s1V).view.loc (V d (cV L) (jV L)))) (off1 : Fin 2 → Nat) (hoff1 : ∀ a, off1 a + S1x100.size a ≤ S64x100.size a) (fp1 : Buf (Elt F) ((s2V).view.loc (V d (cV L) (jV L)))) (off2 : Fin 2 → Nat) (hoff2 : ∀ a, off2 a + S1x100.size a ≤ S64x100.size a) (fp2 : Buf (Elt F) ((s3V).view.loc (V d (cV L) (jV L)))) (off3 : Fin 2 → Nat) (hoff3 : ∀ a, off3 a + S1x100.size a ≤ S64x100.size a) (fp3 : Buf (Elt F) ((s4V).view.loc (V d (cV L) (jV L)))),
    ⌜off0 = ![4 * k + 0, 0] ∧ off1 = ![4 * k + 1, 0] ∧ off2 = ![4 * k + 2, 0] ∧ off3 = ![4 * k + 3, 0]⌝
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) fp0 [⟨Rect.whole cc0_scratch1.ty.shape, gatherPay d L t2 tab hin off0 hoff0⟩])
          ∗ ((s0V).view.loc (V d (cV L) (jV L)) ↦[(idxRow off0 hoff0).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) fp0 [⟨Rect.whole cc0_scratch1.ty.shape, gatherPay d L t2 tab hin off0 hoff0⟩])
    ∗ ((s0V).view.loc (V d (cV L) (jV L)) ↦[Finset.univ \ (idxRow off0 hoff0).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) fp1 [⟨Rect.whole cc0_scratch2.ty.shape, gatherPay d L t2 tab hin off1 hoff1⟩])
          ∗ ((s0V).view.loc (V d (cV L) (jV L)) ↦[(idxRow off1 hoff1).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) fp1 [⟨Rect.whole cc0_scratch2.ty.shape, gatherPay d L t2 tab hin off1 hoff1⟩])
    ∗ ((s0V).view.loc (V d (cV L) (jV L)) ↦[Finset.univ \ (idxRow off1 hoff1).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) fp2 [⟨Rect.whole cc0_scratch3.ty.shape, gatherPay d L t2 tab hin off2 hoff2⟩])
          ∗ ((s0V).view.loc (V d (cV L) (jV L)) ↦[(idxRow off2 hoff2).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) fp2 [⟨Rect.whole cc0_scratch3.ty.shape, gatherPay d L t2 tab hin off2 hoff2⟩])
    ∗ ((s0V).view.loc (V d (cV L) (jV L)) ↦[Finset.univ \ (idxRow off2 hoff2).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) fp3 [⟨Rect.whole cc0_scratch4.ty.shape, gatherPay d L t2 tab hin off3 hoff3⟩])
          ∗ ((s0V).view.loc (V d (cV L) (jV L)) ↦[(idxRow off3 hoff3).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) fp3 [⟨Rect.whole cc0_scratch4.ty.shape, gatherPay d L t2 tab hin off3 hoff3⟩])
    ∗ ((s0V).view.loc (V d (cV L) (jV L)) ↦[Finset.univ \ (idxRow off3 hoff3).view.set]{Transfers.shareTok fullShare 3 2} idxBuf d L t2))

/-- The four slots idle: each buffer held plainly, each semaphore at zero, the read shares whole. -/
def slotsIdle (t2 : Buf (Elt F) (tokLoc d)) (tab : Buf (Elt F) (tabLoc d)) : sProp 𝕄 :=
  iprop(∃ (c0 : Buf (Elt F) ((s1V).view.loc (V d (cV L) (jV L)))) (c1 : Buf (Elt F) ((s2V).view.loc (V d (cV L) (jV L)))) (c2 : Buf (Elt F) ((s3V).view.loc (V d (cV L) (jV L)))) (c3 : Buf (Elt F) ((s4V).view.loc (V d (cV L) (jV L)))),
    semVal ((V d (cV L) (jV L)), SemLoc.dma cc0_scratch6.sem) 0
    ∗ ((tabV).view.loc (V d (cV L) (jV L)) ↦{Transfers.shareTok (tabShare L) 4 0} tab)
    ∗ ((s1V).view.loc (V d (cV L) (jV L)) ↦{fullShare} c0)
    ∗ ((s0V).view.loc (V d (cV L) (jV L)) ↦{Transfers.shareDrop fullShare 3} idxBuf d L t2)
    ∗ semVal ((V d (cV L) (jV L)), SemLoc.dma cc0_scratch7.sem) 0
    ∗ ((tabV).view.loc (V d (cV L) (jV L)) ↦{Transfers.shareTok (tabShare L) 4 1} tab)
    ∗ ((s2V).view.loc (V d (cV L) (jV L)) ↦{fullShare} c1)
    ∗ ((s0V).view.loc (V d (cV L) (jV L)) ↦{Transfers.shareTok fullShare 3 0} idxBuf d L t2)
    ∗ semVal ((V d (cV L) (jV L)), SemLoc.dma cc0_scratch8.sem) 0
    ∗ ((tabV).view.loc (V d (cV L) (jV L)) ↦{Transfers.shareTok (tabShare L) 4 2} tab)
    ∗ ((s3V).view.loc (V d (cV L) (jV L)) ↦{fullShare} c2)
    ∗ ((s0V).view.loc (V d (cV L) (jV L)) ↦{Transfers.shareTok fullShare 3 1} idxBuf d L t2)
    ∗ semVal ((V d (cV L) (jV L)), SemLoc.dma cc0_scratch9.sem) 0
    ∗ ((tabV).view.loc (V d (cV L) (jV L)) ↦{Transfers.shareTok (tabShare L) 4 3} tab)
    ∗ ((s4V).view.loc (V d (cV L) (jV L)) ↦{fullShare} c3)
    ∗ ((s0V).view.loc (V d (cV L) (jV L)) ↦{Transfers.shareTok fullShare 3 2} idxBuf d L t2))

/-- Before trip k of the outer loop: the slots in flight (idle once all sixteen trips are done), the pooled scratch at
    contents the first k trips left (P5), what the thread owes. -/
def outerInv (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (O : CellTallies nD τ sig (HIx 1)) (W : Waits sig (HIx 1))
    (P5 : Nat → Buf (Elt F) ((s5V).view.loc (V d (cV L) (jV L))) → Prop) (k : Nat) (_ : PUnit) : sProp 𝕄 :=
  iprop(Transfers.MayWaits (V d (cV L) (jV L)) (default : HIx 1) O
    ∗ (if k < 16 then slotsFl d L t2 tab hin k else slotsIdle d L t2 tab)
    ∗ (∃ f5, ((s5V).view.loc (V d (cV L) (jV L)) ↦{fullShare} f5) ∗ ⌜P5 k f5⌝)
    ∗ ∃ W', ⌜∀ p ∈ W', p ∈ W ∨ p.2 = none⌝ ∗ owes (V d (cV L) (jV L)) O W')

omit [FloatOps F] [Named F] in
theorem pts_out (f : Buf (Elt F) (outLoc d)) :
    (((outK L).view.loc (V d (cV L) (jV L)) ↦[(outK L).view.set]{fullShare} f) : sProp 𝕄) = (outLoc d ↦[outSet L]{fullShare} f) := rfl
omit [FloatOps F] [Named F] in
theorem pts_s0 (f : Buf (Elt F) ((V d (cV L) (jV L)).loc cc0_scratch0)) :
    (((s0V).view.loc (V d (cV L) (jV L)) ↦{fullShare} f) : sProp 𝕄) = ((V d (cV L) (jV L)).loc cc0_scratch0 ↦{fullShare} f) := rfl
omit [FloatOps F] [Named F] in
theorem pts_s1 (f : Buf (Elt F) ((V d (cV L) (jV L)).loc cc0_scratch1)) :
    (((s1V).view.loc (V d (cV L) (jV L)) ↦{fullShare} f) : sProp 𝕄) = ((V d (cV L) (jV L)).loc cc0_scratch1 ↦{fullShare} f) := rfl
omit [FloatOps F] [Named F] in
theorem pts_s2 (f : Buf (Elt F) ((V d (cV L) (jV L)).loc cc0_scratch2)) :
    (((s2V).view.loc (V d (cV L) (jV L)) ↦{fullShare} f) : sProp 𝕄) = ((V d (cV L) (jV L)).loc cc0_scratch2 ↦{fullShare} f) := rfl
omit [FloatOps F] [Named F] in
theorem pts_s3 (f : Buf (Elt F) ((V d (cV L) (jV L)).loc cc0_scratch3)) :
    (((s3V).view.loc (V d (cV L) (jV L)) ↦{fullShare} f) : sProp 𝕄) = ((V d (cV L) (jV L)).loc cc0_scratch3 ↦{fullShare} f) := rfl
omit [FloatOps F] [Named F] in
theorem pts_s4 (f : Buf (Elt F) ((V d (cV L) (jV L)).loc cc0_scratch4)) :
    (((s4V).view.loc (V d (cV L) (jV L)) ↦{fullShare} f) : sProp 𝕄) = ((V d (cV L) (jV L)).loc cc0_scratch4 ↦{fullShare} f) := rfl
omit [FloatOps F] [Named F] in
theorem pts_s5 (f : Buf (Elt F) ((V d (cV L) (jV L)).loc cc0_scratch5)) :
    (((s5V).view.loc (V d (cV L) (jV L)) ↦{fullShare} f) : sProp 𝕄) = ((V d (cV L) (jV L)).loc cc0_scratch5 ↦{fullShare} f) := rfl

omit [FloatOps F] [Named F] in
theorem row_eq (a b : Nat) (h : a = b) : (![a, 0] : Fin 2 → Nat) = ![b, 0] := by rw [h]

set_option maxHeartbeats 8000000 in
/-- The task's body, with the pooled scratch's contents followed through the sixteen trips by a predicate P5 the caller
    chooses (P5 0 of anything; each trip's sixteen stores take P5 k to P5 (k + 1)): the pooled rows end at the scratch's
    final contents, copied out. -/
theorem tile_body_gen (hF : (K (F := F)).Facts) (t2 : Buf (Elt F) (tokLoc d)) (tab : Buf (Elt F) (tabLoc d)) (o : Buf (Elt F) (outLoc d)) (hpre : PreOK t2)
      (O : CellTallies nD τ sig (HIx 1)) (W : Waits sig (HIx 1)) (hO : ∀ g, O g none = 0)
      (P5 : Nat → Buf (Elt F) ((s5V).view.loc (V d (cV L) (jV L))) → Prop) (hP0 : ∀ f, P5 0 f)
      (hPs : ∀ (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (k : Fin k0_t1_loop.trips) (f5 : Buf (Elt F) ((s5V).view.loc (V d (cV L) (jV L)))) (off0 : Fin 2 → Nat) (hoff0 : ∀ a, off0 a + S1x100.size a ≤ S64x100.size a) (off1 : Fin 2 → Nat) (hoff1 : ∀ a, off1 a + S1x100.size a ≤ S64x100.size a) (off2 : Fin 2 → Nat) (hoff2 : ∀ a, off2 a + S1x100.size a ≤ S64x100.size a) (off3 : Fin 2 → Nat) (hoff3 : ∀ a, off3 a + S1x100.size a ≤ S64x100.size a),
        off0 = ![4 * k.val + 0, 0] → off1 = ![4 * k.val + 1, 0] → off2 = ![4 * k.val + 2, 0] → off3 = ![4 * k.val + 3, 0] → P5 k.val f5 →
        P5 (k.val + 1) ((s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t4_loop.trips) k0_t5_loop.trips)))) :
    iprop(levAts (K (F := F)).L (K (F := F)).lev ∗ emp ∗ tileGo d t2 tab o L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pooled_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1)
          fun _ => iprop((tokLoc d ↦[tokSet L]{fullShare} t2) ∗ (tabLoc d ↦{tabShare L} tab) ∗ (∃ g5, ⌜P5 k0_t1_loop.trips g5⌝ ∗ (outLoc d ↦[outSet L]{fullShare} (outK L).view.writes (Elt F) o [⟨Rect.whole S32x128, ReadAs.same.apply ((s5V).view.read (Elt F) g5)⟩])) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__pooled_body_eq_skeleton]; unfold cc0__pooled_body_skel
  unfold tileGo
  rw [(K (F := F)).scopedBufs_V hF d (cV L) (jV L), SparseCore.Cfg.scopedSems0_V (Val := Elt F) d (cV L) (jV L), ownSems0_V, ownBufs_V]
  iintro ⟨#Hlv, -, ⟨Htok, Htab, Hout⟩, ⟨⟨%f0, H0⟩, ⟨%f1, H1⟩, ⟨%f2, H2⟩, ⟨%f3, H3⟩, ⟨%f4, H4⟩, ⟨%f5, H5⟩, Hbufs⟩, ⟨Hs6, Hs7, Hs8, Hs9, Hc0, Hc1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htok' := (Entails.of_eq (show (tokLoc d ↦[tokSet L]{fullShare} t2 : sProp 𝕄)
      = ((tokK L).view.loc (V d (cV L) (jV L)) ↦[(tokK L).view.set]{fullShare} t2) from rfl)) $$ Htok
  ihave Hout' := (Entails.of_eq (show (outLoc d ↦[outSet L]{fullShare} o : sProp 𝕄)
      = ((outK L).view.loc (V d (cV L) (jV L)) ↦[(outK L).view.set]{fullShare} o) from rfl)) $$ Hout
  ihave Htab' := ((Transfers.pointsTo_toks_split (tabShare L) 4).trans (Entails.of_eq (show
      iprop((tabLoc d ↦{Transfers.shareDrop (tabShare L) 4} tab) ∗ bigSep Finset.univ (fun i : Fin 4 => (tabLoc d ↦{Transfers.shareTok (tabShare L) 4 i} tab : sProp 𝕄)))
      = iprop(((tabV).view.loc (V d (cV L) (jV L)) ↦{Transfers.shareDrop (tabShare L) 4} tab)
          ∗ ((tabV).view.loc (V d (cV L) (jV L)) ↦{Transfers.shareTok (tabShare L) 4 0} tab)
          ∗ ((tabV).view.loc (V d (cV L) (jV L)) ↦{Transfers.shareTok (tabShare L) 4 1} tab)
          ∗ ((tabV).view.loc (V d (cV L) (jV L)) ↦{Transfers.shareTok (tabShare L) 4 2} tab)
          ∗ ((tabV).view.loc (V d (cV L) (jV L)) ↦{Transfers.shareTok (tabShare L) 4 3} tab)) by
      rw [show (Finset.univ : Finset (Fin 4)) = {0, 1, 2, 3} by decide,
        SparseCore.bigSep_insert' (by decide), SparseCore.bigSep_insert' (by decide), SparseCore.bigSep_insert' (by decide), bigSep_singleton]))) $$ Htab
  icases Htab' with ⟨HtabR, Htab0, Htab1, Htab2, Htab3⟩
  ihave H0' := (Entails.of_eq (show ((V d (cV L) (jV L)).loc cc0_scratch0 ↦{fullShare} f0 : sProp 𝕄)
      = ((s0V).view.loc (V d (cV L) (jV L)) ↦{fullShare} f0) from rfl)) $$ H0
  ihave H1' := (Entails.of_eq (show ((V d (cV L) (jV L)).loc cc0_scratch1 ↦{fullShare} f1 : sProp 𝕄)
      = ((s1V).view.loc (V d (cV L) (jV L)) ↦{fullShare} f1) from rfl)) $$ H1
  ihave H2' := (Entails.of_eq (show ((V d (cV L) (jV L)).loc cc0_scratch2 ↦{fullShare} f2 : sProp 𝕄)
      = ((s2V).view.loc (V d (cV L) (jV L)) ↦{fullShare} f2) from rfl)) $$ H2
  ihave H3' := (Entails.of_eq (show ((V d (cV L) (jV L)).loc cc0_scratch3 ↦{fullShare} f3 : sProp 𝕄)
      = ((s3V).view.loc (V d (cV L) (jV L)) ↦{fullShare} f3) from rfl)) $$ H3
  ihave H4' := (Entails.of_eq (show ((V d (cV L) (jV L)).loc cc0_scratch4 ↦{fullShare} f4 : sProp 𝕄)
      = ((s4V).view.loc (V d (cV L) (jV L)) ↦{fullShare} f4) from rfl)) $$ H4
  ihave H5' := (Entails.of_eq (show ((V d (cV L) (jV L)).loc cc0_scratch5 ↦{fullShare} f5 : sProp 𝕄)
      = ((s5V).view.loc (V d (cV L) (jV L)) ↦{fullShare} f5) from rfl)) $$ H5
  sl_exec
  ihave H0i := (Entails.of_eq (show ((s0V).view.loc (V d (cV L) (jV L)) ↦{fullShare} View.write (Elt F) (s0V).view f0 (tile_body_gen.sl.dma0 d L t2) Finset.univ : sProp 𝕄)
      = ((s0V).view.loc (V d (cV L) (jV L)) ↦{fullShare} idxBuf d L t2) by rw [View.write_whole_univ]; rfl)) $$ H0'
  ihave H0s := ((Transfers.pointsTo_toks_split fullShare 3).trans (Entails.of_eq (show
      iprop(((s0V).view.loc (V d (cV L) (jV L)) ↦{Transfers.shareDrop fullShare 3} idxBuf d L t2) ∗ bigSep Finset.univ (fun i : Fin 3 => ((s0V).view.loc (V d (cV L) (jV L)) ↦{Transfers.shareTok fullShare 3 i} idxBuf d L t2 : sProp 𝕄)))
      = iprop(((s0V).view.loc (V d (cV L) (jV L)) ↦{Transfers.shareDrop fullShare 3} idxBuf d L t2)
          ∗ ((s0V).view.loc (V d (cV L) (jV L)) ↦{Transfers.shareTok fullShare 3 0} idxBuf d L t2)
          ∗ ((s0V).view.loc (V d (cV L) (jV L)) ↦{Transfers.shareTok fullShare 3 1} idxBuf d L t2)
          ∗ ((s0V).view.loc (V d (cV L) (jV L)) ↦{Transfers.shareTok fullShare 3 2} idxBuf d L t2)) by
      rw [show (Finset.univ : Finset (Fin 3)) = {0, 1, 2} by decide,
        SparseCore.bigSep_insert' (by decide), SparseCore.bigSep_insert' (by decide), bigSep_singleton]))) $$ H0i
  icases H0s with ⟨HiA, HiB, HiC, HiD⟩
  have hin := hin_idx (F := F) d L t2 hpre
  sl_exec
  sl_for (outerInv d L t2 tab hin O W P5) $$ [Hmw Hs6 Htab0 H1' HiA Hs7 Htab1 H2' HiB Hs8 Htab2 H3' HiC Hs9 Htab3 H4' HiD H5' HO]
  case region =>
    intro k _
    have h16 : k.val < 16 := lt_of_lt_of_le k.isLt k0_t1_abs.2.1
    unfold outerInv
    rw [if_pos h16]
    unfold slotsFl
    iintro ⟨Hmw, ⟨%off0, %hoff0, %fp0, %off1, %hoff1, %fp1, %off2, %hoff2, %fp2, %off3, %hoff3, %fp3, %he, Hfl0, HtR0, HbR0, HiR0, Hfl1, HtR1, HbR1, HiR1, Hfl2, HtR2, HbR2, HiR2, Hfl3, HtR3, HbR3, HiR3⟩, ⟨%g5, H5, %hP⟩, %W', %hW', HO⟩
    obtain ⟨he0, he1, he2, he3⟩ := he
    by_cases hk : k.val < 15
    · iapply (wp_wand_r frame _ Set.univ)
      isplitl [Hmw Hfl0 HtR0 HbR0 HiR0 Hfl1 HtR1 HbR1 HiR1 Hfl2 HtR2 HbR2 HiR2 Hfl3 HtR3 HbR3 HiR3 H5 HO]
      · iapply (trip_lt d L t2 tab hin O W' k hk off0 hoff0 fp0 off1 hoff1 fp1 off2 hoff2 fp2 off3 hoff3 fp3 g5 _ _ _ _ _ _)
        isplitl [Hmw]; · iexact Hmw
        isplitl [Hfl0]; · iexact Hfl0
        isplitl [HtR0]; · iexact HtR0
        isplitl [HbR0]; · iexact HbR0
        isplitl [HiR0]; · iexact HiR0
        isplitl [Hfl1]; · iexact Hfl1
        isplitl [HtR1]; · iexact HtR1
        isplitl [HbR1]; · iexact HbR1
        isplitl [HiR1]; · iexact HiR1
        isplitl [Hfl2]; · iexact Hfl2
        isplitl [HtR2]; · iexact HtR2
        isplitl [HbR2]; · iexact HbR2
        isplitl [HiR2]; · iexact HiR2
        isplitl [Hfl3]; · iexact Hfl3
        isplitl [HtR3]; · iexact HtR3
        isplitl [HbR3]; · iexact HbR3
        isplitl [HiR3]; · iexact HiR3
        isplitl [H5]; · iexact H5
        iexact HO
      · iintro %x ⟨Hmw, Hfl0, HtR0, HbR0, HiR0, Hfl1, HtR1, HbR1, HiR1, Hfl2, HtR2, HbR2, HiR2, Hfl3, HtR3, HbR3, HiR3, H5, HO⟩
        rw [if_pos (show k.val + 1 < 16 by omega)]
        isplitl [Hmw]; · iexact Hmw
        isplitl [Hfl0 HtR0 HbR0 HiR0 Hfl1 HtR1 HbR1 HiR1 Hfl2 HtR2 HbR2 HiR2 Hfl3 HtR3 HbR3 HiR3]
        · iexists (k0_off10 k), _, _, (k0_off19 k), _, _, (k0_off28 k), _, _, (k0_off37 k), _, _
          isplitr
          · ipureintro
            exact ⟨(k0_off10_eq k).trans (row_eq _ _ (by omega)), (k0_off19_eq k).trans (row_eq _ _ (by omega)),
              (k0_off28_eq k).trans (row_eq _ _ (by omega)), (k0_off37_eq k).trans (row_eq _ _ (by omega))⟩
          isplitl [Hfl0]; · iexact Hfl0
          isplitl [HtR0]; · iexact HtR0
          isplitl [HbR0]; · iexact HbR0
          isplitl [HiR0]; · iexact HiR0
          isplitl [Hfl1]; · iexact Hfl1
          isplitl [HtR1]; · iexact HtR1
          isplitl [HbR1]; · iexact HbR1
          isplitl [HiR1]; · iexact HiR1
          isplitl [Hfl2]; · iexact Hfl2
          isplitl [HtR2]; · iexact HtR2
          isplitl [HbR2]; · iexact HbR2
          isplitl [HiR2]; · iexact HiR2
          isplitl [Hfl3]; · iexact Hfl3
          isplitl [HtR3]; · iexact HtR3
          isplitl [HbR3]; · iexact HbR3
          iexact HiR3
        isplitl [H5]
        · iexists _; isplitl [H5]; · iexact H5
          ipureintro; exact hPs hin k g5 off0 hoff0 off1 hoff1 off2 hoff2 off3 hoff3 he0 he1 he2 he3 hP
        iexists _; isplitr
        swap; · iexact HO
        ipureintro; intro p hp
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        exact hW' p hp
    · iapply (wp_wand_r frame _ Set.univ)
      isplitl [Hmw Hfl0 HtR0 HbR0 HiR0 Hfl1 HtR1 HbR1 HiR1 Hfl2 HtR2 HbR2 HiR2 Hfl3 HtR3 HbR3 HiR3 H5 HO]
      · iapply (trip_last d L t2 tab hin O W' k hk off0 hoff0 fp0 off1 hoff1 fp1 off2 hoff2 fp2 off3 hoff3 fp3 g5 _ _ _ _ _ _)
        isplitl [Hmw]; · iexact Hmw
        isplitl [Hfl0]; · iexact Hfl0
        isplitl [HtR0]; · iexact HtR0
        isplitl [HbR0]; · iexact HbR0
        isplitl [HiR0]; · iexact HiR0
        isplitl [Hfl1]; · iexact Hfl1
        isplitl [HtR1]; · iexact HtR1
        isplitl [HbR1]; · iexact HbR1
        isplitl [HiR1]; · iexact HiR1
        isplitl [Hfl2]; · iexact Hfl2
        isplitl [HtR2]; · iexact HtR2
        isplitl [HbR2]; · iexact HbR2
        isplitl [HiR2]; · iexact HiR2
        isplitl [Hfl3]; · iexact Hfl3
        isplitl [HtR3]; · iexact HtR3
        isplitl [HbR3]; · iexact HbR3
        isplitl [HiR3]; · iexact HiR3
        isplitl [H5]; · iexact H5
        iexact HO
      · iintro %x ⟨Hmw, Hfl0, HtR0, HbR0, HiR0, Hfl1, HtR1, HbR1, HiR1, Hfl2, HtR2, HbR2, HiR2, Hfl3, HtR3, HbR3, HiR3, H5, HO⟩
        rw [if_neg (show ¬ k.val + 1 < 16 by omega)]
        isplitl [Hmw]; · iexact Hmw
        isplitl [Hfl0 HtR0 HbR0 HiR0 Hfl1 HtR1 HbR1 HiR1 Hfl2 HtR2 HbR2 HiR2 Hfl3 HtR3 HbR3 HiR3]
        · unfold slotsIdle
          iexists _, _, _, _
          isplitl [Hfl0]; · iexact Hfl0
          isplitl [HtR0]; · iexact HtR0
          isplitl [HbR0]; · iexact HbR0
          isplitl [HiR0]; · iexact HiR0
          isplitl [Hfl1]; · iexact Hfl1
          isplitl [HtR1]; · iexact HtR1
          isplitl [HbR1]; · iexact HbR1
          isplitl [HiR1]; · iexact HiR1
          isplitl [Hfl2]; · iexact Hfl2
          isplitl [HtR2]; · iexact HtR2
          isplitl [HbR2]; · iexact HbR2
          isplitl [HiR2]; · iexact HiR2
          isplitl [Hfl3]; · iexact Hfl3
          isplitl [HtR3]; · iexact HtR3
          isplitl [HbR3]; · iexact HbR3
          iexact HiR3
        isplitl [H5]
        · iexists _; isplitl [H5]; · iexact H5
          ipureintro; exact hPs hin k g5 off0 hoff0 off1 hoff1 off2 hoff2 off3 hoff3 he0 he1 he2 he3 hP
        iexists _; isplitr
        swap; · iexact HO
        ipureintro; intro p hp
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        exact hW' p hp
  · unfold outerInv
    rw [if_pos (show 0 < 16 by decide)]
    unfold slotsFl
    isplitl [Hmw]; · iexact Hmw
    isplitl [Hs6 Htab0 H1' HiA Hs7 Htab1 H2' HiB Hs8 Htab2 H3' HiC Hs9 Htab3 H4' HiD]
    · iexists ![0, 0], inb_S64x100_S1x100_0_0, f1, ![1, 0], inb_S64x100_S1x100_1_0, f2, ![2, 0], inb_S64x100_S1x100_2_0, f3, ![3, 0], inb_S64x100_S1x100_3_0, f4
      isplitr
      · ipureintro; exact ⟨rfl, rfl, rfl, rfl⟩
      isplitl [Hs6]; · iexact Hs6
      isplitl [Htab0]; · iexact Htab0
      isplitl [H1']; · iexact H1'
      isplitl [HiA]; · iexact HiA
      isplitl [Hs7]; · iexact Hs7
      isplitl [Htab1]; · iexact Htab1
      isplitl [H2']; · iexact H2'
      isplitl [HiB]; · iexact HiB
      isplitl [Hs8]; · iexact Hs8
      isplitl [Htab2]; · iexact Htab2
      isplitl [H3']; · iexact H3'
      isplitl [HiC]; · iexact HiC
      isplitl [Hs9]; · iexact Hs9
      isplitl [Htab3]; · iexact Htab3
      isplitl [H4']; · iexact H4'
      iexact HiD
    isplitl [H5']
    · iexists f5; isplitl [H5']; · iexact H5'
      ipureintro; exact hP0 f5
    iexists _; isplitr
    swap; · iexact HO
    ipureintro; intro p hp
    rcases Finset.mem_insert.mp hp with hp | hp; · exact .inr (hp ▸ rfl)
    exact .inl hp
  iintro %_ HI
  unfold outerInv
  rw [if_neg (show ¬ Scf.trips k0_t1_loop.lb k0_t1_loop.ub k0_t1_loop.st < 16 by decide)]
  unfold slotsIdle
  icases HI with ⟨-, ⟨%c0, %c1, %c2, %c3, Hv0, Ht0, Hb0, Hi0, Hv1, Ht1, Hb1, Hi1, Hv2, Ht2, Hb2, Hi2, Hv3, Ht3, Hb3, Hi3⟩, ⟨%g5, H5, %hP⟩, %W', %hW', HO⟩
  sl_exec
  sl_step
  isplitl [Htok']
  · iapply (Entails.of_eq (show (((tokK L).view.loc (V d (cV L) (jV L)) ↦[(tokK L).view.set]{fullShare} t2) : sProp 𝕄) = (tokLoc d ↦[tokSet L]{fullShare} t2) from rfl)); iexact Htok'
  isplitl [HtabR Ht0 Ht1 Ht2 Ht3]
  · iapply ((Entails.of_eq (show
      iprop(((tabV).view.loc (V d (cV L) (jV L)) ↦{Transfers.shareDrop (tabShare L) 4} tab)
          ∗ ((tabV).view.loc (V d (cV L) (jV L)) ↦{Transfers.shareTok (tabShare L) 4 0} tab)
          ∗ ((tabV).view.loc (V d (cV L) (jV L)) ↦{Transfers.shareTok (tabShare L) 4 1} tab)
          ∗ ((tabV).view.loc (V d (cV L) (jV L)) ↦{Transfers.shareTok (tabShare L) 4 2} tab)
          ∗ ((tabV).view.loc (V d (cV L) (jV L)) ↦{Transfers.shareTok (tabShare L) 4 3} tab))
      = iprop((tabLoc d ↦{Transfers.shareDrop (tabShare L) 4} tab) ∗ bigSep Finset.univ (fun i : Fin 4 => (tabLoc d ↦{Transfers.shareTok (tabShare L) 4 i} tab : sProp 𝕄))) by
      rw [show (Finset.univ : Finset (Fin 4)) = {0, 1, 2, 3} by decide,
        SparseCore.bigSep_insert' (by decide), SparseCore.bigSep_insert' (by decide), SparseCore.bigSep_insert' (by decide), bigSep_singleton])).trans
      (Transfers.pointsTo_toks_join (tabShare L) 4))
    isplitl [HtabR]; · iexact HtabR
    isplitl [Ht0]; · iexact Ht0
    isplitl [Ht1]; · iexact Ht1
    isplitl [Ht2]; · iexact Ht2
    iexact Ht3
  isplitl [Hout']
  · iexists g5; isplitr
    · ipureintro; exact hP
    iapply (Entails.of_eq (pts_out (F := F) d L _)); iexact Hout'
  isplitl [Hi0 Hi1 Hi2 Hi3 Hb0 Hb1 Hb2 Hb3 H5 Hbufs]
  · isplitl [Hi0 Hi1 Hi2 Hi3]
    · iexists (idxBuf d L t2)
      iapply (Entails.of_eq (pts_s0 (F := F) d L _))
      iapply ((Entails.of_eq (show
        iprop(((s0V).view.loc (V d (cV L) (jV L)) ↦{Transfers.shareDrop fullShare 3} idxBuf d L t2)
            ∗ ((s0V).view.loc (V d (cV L) (jV L)) ↦{Transfers.shareTok fullShare 3 0} idxBuf d L t2)
            ∗ ((s0V).view.loc (V d (cV L) (jV L)) ↦{Transfers.shareTok fullShare 3 1} idxBuf d L t2)
            ∗ ((s0V).view.loc (V d (cV L) (jV L)) ↦{Transfers.shareTok fullShare 3 2} idxBuf d L t2))
        = iprop(((s0V).view.loc (V d (cV L) (jV L)) ↦{Transfers.shareDrop fullShare 3} idxBuf d L t2) ∗ bigSep Finset.univ (fun i : Fin 3 => ((s0V).view.loc (V d (cV L) (jV L)) ↦{Transfers.shareTok fullShare 3 i} idxBuf d L t2 : sProp 𝕄))) by
        rw [show (Finset.univ : Finset (Fin 3)) = {0, 1, 2} by decide,
          SparseCore.bigSep_insert' (by decide), SparseCore.bigSep_insert' (by decide), bigSep_singleton])).trans
        (Transfers.pointsTo_toks_join fullShare 3))
      isplitl [Hi0]; · iexact Hi0
      isplitl [Hi1]; · iexact Hi1
      isplitl [Hi2]; · iexact Hi2
      iexact Hi3
    isplitl [Hb0]; · iexists _; iapply (Entails.of_eq (pts_s1 (F := F) d L _)); iexact Hb0
    isplitl [Hb1]; · iexists _; iapply (Entails.of_eq (pts_s2 (F := F) d L _)); iexact Hb1
    isplitl [Hb2]; · iexists _; iapply (Entails.of_eq (pts_s3 (F := F) d L _)); iexact Hb2
    isplitl [Hb3]; · iexists _; iapply (Entails.of_eq (pts_s4 (F := F) d L _)); iexact Hb3
    isplitl [H5]; · iexists _; iapply (Entails.of_eq (pts_s5 (F := F) d L _)); iexact H5
    iexact Hbufs
  isplitl [Hv0 Hv1 Hv2 Hv3 Hc0 Hc1 Hsems]
  · isplitl [Hv0]; · iexact Hv0
    isplitl [Hv1]; · iexact Hv1
    isplitl [Hv2]; · iexact Hv2
    isplitl [Hv3]; · iexact Hv3
    isplitl [Hc0]; · iexact Hc0
    isplitl [Hc1]; · iexact Hc1
    iexact Hsems
  iexists _; isplitr
  swap; · iexact HO
  ipureintro; intro p hp
  rcases Finset.mem_insert.mp hp with hp | hp; · exact .inr (hp ▸ rfl)
  exact hW' p hp

end Tile

end Cert.Proof.IdealSide

end
-- ==== Proof.IdealBodyVal.lean ====
/-
  The pooling task's values, read index by index.

  One task adds up, for each of its 32 sentences, the 200 table rows its words name. It works a token row (100 words)
  at a time: a gather lands the 100 named table rows in a row buffer [100,128]; a loop adds the buffer's rows, one by
  one, to eight 16-lane vectors (lane l of vector c is feature 16·c + l); after the sentence's two token rows the
  eight vectors are stored as one row of the pooled scratch [32,128]. Here, for every float instance: what the row
  folds mean lane by lane, what a landed gather holds, the sixteen stores of one trip read back as one function,
  and the pooled value of a sentence as the fold over its two token rows.
-/
import proofs.«202922_g81758997446792_cont_9to1_m_1158_4_alg».proof.Proof.IdealTile
import proofs.«202922_g81758997446792_cont_9to1_m_1158_4_alg».proof.Proof.IdealBodyRows
import Idealize.ShloMosaic.Lib.Pipeline.Value

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

/-! ## Indices of the 128 features: vector e / 16, lane e % 16 -/

omit [FloatOps F] [Named F] in
/-- A feature is sixteen times its vector plus its lane. -/
theorem split128 (e : Fin 128) : ∃ (c : Fin 8) (l : Fin 16) (h : 16 * c.val + l.val < 128), e = ⟨16 * c.val + l.val, h⟩ :=
  ⟨⟨e.val / 16, by have := e.isLt; omega⟩, ⟨e.val % 16, Nat.mod_lt _ (by decide)⟩,
    (by have := e.isLt; show 16 * (e.val / 16) + e.val % 16 < 128; omega),
    Fin.ext (by show e.val = 16 * (e.val / 16) + e.val % 16; omega)⟩

omit [Named F] in
/-- Feature 16·c + l of the eight lane vectors is lane l of vector c. -/
theorem lane_mk (a : A8 F) (c : Fin 8) (l : Fin 16) (h : 16 * c.val + l.val < 128) :
    lane a ⟨16 * c.val + l.val, h⟩ = comp8 a c (ix1 l) := by
  have h1 : (16 * c.val + l.val) / 16 = c.val := by have := l.isLt; omega
  have h2 : (16 * c.val + l.val) % 16 = l.val := by have := l.isLt; omega
  unfold lane
  congr 1
  · congr 1 <;> exact Fin.ext h1
  · congr 1 <;> exact Fin.ext h2

section Val
variable (d : Dev nD) (L : grid0.Coords)

/-! ## (L1) The row folds, lane by lane

A row step loads the eight 16-lane pieces of row r of a row buffer and adds each to its lane vector; piece c starts at
column 16·c (the generated closed forms of the offsets). So at feature e the step adds the buffer's entry (r, e). -/

/-! ### Row buffer 0 -/

/-- Lane l of piece 0 of row r is the buffer's entry (r, 0 + l). -/
theorem rowRead0_0 (cont : Buf (Elt F) ((s1V).view.loc (V d (cV L) (jV L)))) (r : Fin k0_t2_loop.trips) (l : Fin 16) :
    (shapeCast S16 (View.readAt (Elt F) (s1V).view (Rect.unit (s := S100x128) (k0_off2 r) S1x16.size (k0_off2_inb r)).toLoadRect cont) shapeCasts_S1x16_S16) (ix1 l)
      = cont (ix2 ⟨r.val, r.isLt⟩ ⟨0 + l.val, by have := l.isLt; omega⟩) := by
  rw [show (shapeCast S16 (View.readAt (Elt F) (s1V).view (Rect.unit (s := S100x128) (k0_off2 r) S1x16.size (k0_off2_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off2 r 0 = r.val := congrFun (k0_off2_eq r) 0
  have h1 : k0_off2 r 1 = 0 := congrFun (k0_off2_eq r) 1
  match a with
  | ⟨0, _⟩ => show k0_off2 r 0 + 1 * 0 = r.val; omega
  | ⟨1, _⟩ => show k0_off2 r 1 + 1 * l.val = 0 + l.val; omega

/-- Lane l of piece 1 of row r is the buffer's entry (r, 16 + l). -/
theorem rowRead0_1 (cont : Buf (Elt F) ((s1V).view.loc (V d (cV L) (jV L)))) (r : Fin k0_t2_loop.trips) (l : Fin 16) :
    (shapeCast S16 (View.readAt (Elt F) (s1V).view (Rect.unit (s := S100x128) (k0_off3 r) S1x16.size (k0_off3_inb r)).toLoadRect cont) shapeCasts_S1x16_S16) (ix1 l)
      = cont (ix2 ⟨r.val, r.isLt⟩ ⟨16 + l.val, by have := l.isLt; omega⟩) := by
  rw [show (shapeCast S16 (View.readAt (Elt F) (s1V).view (Rect.unit (s := S100x128) (k0_off3 r) S1x16.size (k0_off3_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off3 r 0 = r.val := congrFun (k0_off3_eq r) 0
  have h1 : k0_off3 r 1 = 16 := congrFun (k0_off3_eq r) 1
  match a with
  | ⟨0, _⟩ => show k0_off3 r 0 + 1 * 0 = r.val; omega
  | ⟨1, _⟩ => show k0_off3 r 1 + 1 * l.val = 16 + l.val; omega

/-- Lane l of piece 2 of row r is the buffer's entry (r, 32 + l). -/
theorem rowRead0_2 (cont : Buf (Elt F) ((s1V).view.loc (V d (cV L) (jV L)))) (r : Fin k0_t2_loop.trips) (l : Fin 16) :
    (shapeCast S16 (View.readAt (Elt F) (s1V).view (Rect.unit (s := S100x128) (k0_off4 r) S1x16.size (k0_off4_inb r)).toLoadRect cont) shapeCasts_S1x16_S16) (ix1 l)
      = cont (ix2 ⟨r.val, r.isLt⟩ ⟨32 + l.val, by have := l.isLt; omega⟩) := by
  rw [show (shapeCast S16 (View.readAt (Elt F) (s1V).view (Rect.unit (s := S100x128) (k0_off4 r) S1x16.size (k0_off4_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off4 r 0 = r.val := congrFun (k0_off4_eq r) 0
  have h1 : k0_off4 r 1 = 32 := congrFun (k0_off4_eq r) 1
  match a with
  | ⟨0, _⟩ => show k0_off4 r 0 + 1 * 0 = r.val; omega
  | ⟨1, _⟩ => show k0_off4 r 1 + 1 * l.val = 32 + l.val; omega

/-- Lane l of piece 3 of row r is the buffer's entry (r, 48 + l). -/
theorem rowRead0_3 (cont : Buf (Elt F) ((s1V).view.loc (V d (cV L) (jV L)))) (r : Fin k0_t2_loop.trips) (l : Fin 16) :
    (shapeCast S16 (View.readAt (Elt F) (s1V).view (Rect.unit (s := S100x128) (k0_off5 r) S1x16.size (k0_off5_inb r)).toLoadRect cont) shapeCasts_S1x16_S16) (ix1 l)
      = cont (ix2 ⟨r.val, r.isLt⟩ ⟨48 + l.val, by have := l.isLt; omega⟩) := by
  rw [show (shapeCast S16 (View.readAt (Elt F) (s1V).view (Rect.unit (s := S100x128) (k0_off5 r) S1x16.size (k0_off5_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off5 r 0 = r.val := congrFun (k0_off5_eq r) 0
  have h1 : k0_off5 r 1 = 48 := congrFun (k0_off5_eq r) 1
  match a with
  | ⟨0, _⟩ => show k0_off5 r 0 + 1 * 0 = r.val; omega
  | ⟨1, _⟩ => show k0_off5 r 1 + 1 * l.val = 48 + l.val; omega

/-- Lane l of piece 4 of row r is the buffer's entry (r, 64 + l). -/
theorem rowRead0_4 (cont : Buf (Elt F) ((s1V).view.loc (V d (cV L) (jV L)))) (r : Fin k0_t2_loop.trips) (l : Fin 16) :
    (shapeCast S16 (View.readAt (Elt F) (s1V).view (Rect.unit (s := S100x128) (k0_off6 r) S1x16.size (k0_off6_inb r)).toLoadRect cont) shapeCasts_S1x16_S16) (ix1 l)
      = cont (ix2 ⟨r.val, r.isLt⟩ ⟨64 + l.val, by have := l.isLt; omega⟩) := by
  rw [show (shapeCast S16 (View.readAt (Elt F) (s1V).view (Rect.unit (s := S100x128) (k0_off6 r) S1x16.size (k0_off6_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off6 r 0 = r.val := congrFun (k0_off6_eq r) 0
  have h1 : k0_off6 r 1 = 64 := congrFun (k0_off6_eq r) 1
  match a with
  | ⟨0, _⟩ => show k0_off6 r 0 + 1 * 0 = r.val; omega
  | ⟨1, _⟩ => show k0_off6 r 1 + 1 * l.val = 64 + l.val; omega

/-- Lane l of piece 5 of row r is the buffer's entry (r, 80 + l). -/
theorem rowRead0_5 (cont : Buf (Elt F) ((s1V).view.loc (V d (cV L) (jV L)))) (r : Fin k0_t2_loop.trips) (l : Fin 16) :
    (shapeCast S16 (View.readAt (Elt F) (s1V).view (Rect.unit (s := S100x128) (k0_off7 r) S1x16.size (k0_off7_inb r)).toLoadRect cont) shapeCasts_S1x16_S16) (ix1 l)
      = cont (ix2 ⟨r.val, r.isLt⟩ ⟨80 + l.val, by have := l.isLt; omega⟩) := by
  rw [show (shapeCast S16 (View.readAt (Elt F) (s1V).view (Rect.unit (s := S100x128) (k0_off7 r) S1x16.size (k0_off7_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off7 r 0 = r.val := congrFun (k0_off7_eq r) 0
  have h1 : k0_off7 r 1 = 80 := congrFun (k0_off7_eq r) 1
  match a with
  | ⟨0, _⟩ => show k0_off7 r 0 + 1 * 0 = r.val; omega
  | ⟨1, _⟩ => show k0_off7 r 1 + 1 * l.val = 80 + l.val; omega

/-- Lane l of piece 6 of row r is the buffer's entry (r, 96 + l). -/
theorem rowRead0_6 (cont : Buf (Elt F) ((s1V).view.loc (V d (cV L) (jV L)))) (r : Fin k0_t2_loop.trips) (l : Fin 16) :
    (shapeCast S16 (View.readAt (Elt F) (s1V).view (Rect.unit (s := S100x128) (k0_off8 r) S1x16.size (k0_off8_inb r)).toLoadRect cont) shapeCasts_S1x16_S16) (ix1 l)
      = cont (ix2 ⟨r.val, r.isLt⟩ ⟨96 + l.val, by have := l.isLt; omega⟩) := by
  rw [show (shapeCast S16 (View.readAt (Elt F) (s1V).view (Rect.unit (s := S100x128) (k0_off8 r) S1x16.size (k0_off8_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off8 r 0 = r.val := congrFun (k0_off8_eq r) 0
  have h1 : k0_off8 r 1 = 96 := congrFun (k0_off8_eq r) 1
  match a with
  | ⟨0, _⟩ => show k0_off8 r 0 + 1 * 0 = r.val; omega
  | ⟨1, _⟩ => show k0_off8 r 1 + 1 * l.val = 96 + l.val; omega

/-- Lane l of piece 7 of row r is the buffer's entry (r, 112 + l). -/
theorem rowRead0_7 (cont : Buf (Elt F) ((s1V).view.loc (V d (cV L) (jV L)))) (r : Fin k0_t2_loop.trips) (l : Fin 16) :
    (shapeCast S16 (View.readAt (Elt F) (s1V).view (Rect.unit (s := S100x128) (k0_off9 r) S1x16.size (k0_off9_inb r)).toLoadRect cont) shapeCasts_S1x16_S16) (ix1 l)
      = cont (ix2 ⟨r.val, r.isLt⟩ ⟨112 + l.val, by have := l.isLt; omega⟩) := by
  rw [show (shapeCast S16 (View.readAt (Elt F) (s1V).view (Rect.unit (s := S100x128) (k0_off9 r) S1x16.size (k0_off9_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off9 r 0 = r.val := congrFun (k0_off9_eq r) 0
  have h1 : k0_off9 r 1 = 112 := congrFun (k0_off9_eq r) 1
  match a with
  | ⟨0, _⟩ => show k0_off9 r 0 + 1 * 0 = r.val; omega
  | ⟨1, _⟩ => show k0_off9 r 1 + 1 * l.val = 112 + l.val; omega

/-- One row step at feature e adds the buffer's entry (r, e). -/
theorem lane_rowStep0 (cont : Buf (Elt F) ((s1V).view.loc (V d (cV L) (jV L)))) (r : Fin k0_t2_loop.trips) (a : A8 F) (e : Fin 128) :
    lane (rowStep0 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead0_0 d L cont r l)
  | ⟨1, _⟩ => exact congrArg (FloatOps.addf _) (rowRead0_1 d L cont r l)
  | ⟨2, _⟩ => exact congrArg (FloatOps.addf _) (rowRead0_2 d L cont r l)
  | ⟨3, _⟩ => exact congrArg (FloatOps.addf _) (rowRead0_3 d L cont r l)
  | ⟨4, _⟩ => exact congrArg (FloatOps.addf _) (rowRead0_4 d L cont r l)
  | ⟨5, _⟩ => exact congrArg (FloatOps.addf _) (rowRead0_5 d L cont r l)
  | ⟨6, _⟩ => exact congrArg (FloatOps.addf _) (rowRead0_6 d L cont r l)
  | ⟨7, _⟩ => exact congrArg (FloatOps.addf _) (rowRead0_7 d L cont r l)

theorem lane_rowFold0 (cont : Buf (Elt F) ((s1V).view.loc (V d (cV L) (jV L)))) (init : A8 F) (n : Nat) (hn : n ≤ 100) (e : Fin 128) :
    lane (rowFold0 d L cont init n) e = laneFold cont (lane init e) e n := by
  induction n with
  | zero => rfl
  | succ n ih =>
    have h : n < k0_t2_loop.trips := by show n < 100; omega
    rw [show rowFold0 d L cont init (n + 1) = _ from rowFold0_succ d L cont init ⟨n, h⟩, lane_rowStep0, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ### Row buffer 1 -/

/-- Lane l of piece 0 of row r is the buffer's entry (r, 0 + l). -/
theorem rowRead1_0 (cont : Buf (Elt F) ((s2V).view.loc (V d (cV L) (jV L)))) (r : Fin k0_t3_loop.trips) (l : Fin 16) :
    (shapeCast S16 (View.readAt (Elt F) (s2V).view (Rect.unit (s := S100x128) (k0_off11 r) S1x16.size (k0_off11_inb r)).toLoadRect cont) shapeCasts_S1x16_S16) (ix1 l)
      = cont (ix2 ⟨r.val, r.isLt⟩ ⟨0 + l.val, by have := l.isLt; omega⟩) := by
  rw [show (shapeCast S16 (View.readAt (Elt F) (s2V).view (Rect.unit (s := S100x128) (k0_off11 r) S1x16.size (k0_off11_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off11 r 0 = r.val := congrFun (k0_off11_eq r) 0
  have h1 : k0_off11 r 1 = 0 := congrFun (k0_off11_eq r) 1
  match a with
  | ⟨0, _⟩ => show k0_off11 r 0 + 1 * 0 = r.val; omega
  | ⟨1, _⟩ => show k0_off11 r 1 + 1 * l.val = 0 + l.val; omega

/-- Lane l of piece 1 of row r is the buffer's entry (r, 16 + l). -/
theorem rowRead1_1 (cont : Buf (Elt F) ((s2V).view.loc (V d (cV L) (jV L)))) (r : Fin k0_t3_loop.trips) (l : Fin 16) :
    (shapeCast S16 (View.readAt (Elt F) (s2V).view (Rect.unit (s := S100x128) (k0_off12 r) S1x16.size (k0_off12_inb r)).toLoadRect cont) shapeCasts_S1x16_S16) (ix1 l)
      = cont (ix2 ⟨r.val, r.isLt⟩ ⟨16 + l.val, by have := l.isLt; omega⟩) := by
  rw [show (shapeCast S16 (View.readAt (Elt F) (s2V).view (Rect.unit (s := S100x128) (k0_off12 r) S1x16.size (k0_off12_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off12 r 0 = r.val := congrFun (k0_off12_eq r) 0
  have h1 : k0_off12 r 1 = 16 := congrFun (k0_off12_eq r) 1
  match a with
  | ⟨0, _⟩ => show k0_off12 r 0 + 1 * 0 = r.val; omega
  | ⟨1, _⟩ => show k0_off12 r 1 + 1 * l.val = 16 + l.val; omega

/-- Lane l of piece 2 of row r is the buffer's entry (r, 32 + l). -/
theorem rowRead1_2 (cont : Buf (Elt F) ((s2V).view.loc (V d (cV L) (jV L)))) (r : Fin k0_t3_loop.trips) (l : Fin 16) :
    (shapeCast S16 (View.readAt (Elt F) (s2V).view (Rect.unit (s := S100x128) (k0_off13 r) S1x16.size (k0_off13_inb r)).toLoadRect cont) shapeCasts_S1x16_S16) (ix1 l)
      = cont (ix2 ⟨r.val, r.isLt⟩ ⟨32 + l.val, by have := l.isLt; omega⟩) := by
  rw [show (shapeCast S16 (View.readAt (Elt F) (s2V).view (Rect.unit (s := S100x128) (k0_off13 r) S1x16.size (k0_off13_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off13 r 0 = r.val := congrFun (k0_off13_eq r) 0
  have h1 : k0_off13 r 1 = 32 := congrFun (k0_off13_eq r) 1
  match a with
  | ⟨0, _⟩ => show k0_off13 r 0 + 1 * 0 = r.val; omega
  | ⟨1, _⟩ => show k0_off13 r 1 + 1 * l.val = 32 + l.val; omega

/-- Lane l of piece 3 of row r is the buffer's entry (r, 48 + l). -/
theorem rowRead1_3 (cont : Buf (Elt F) ((s2V).view.loc (V d (cV L) (jV L)))) (r : Fin k0_t3_loop.trips) (l : Fin 16) :
    (shapeCast S16 (View.readAt (Elt F) (s2V).view (Rect.unit (s := S100x128) (k0_off14 r) S1x16.size (k0_off14_inb r)).toLoadRect cont) shapeCasts_S1x16_S16) (ix1 l)
      = cont (ix2 ⟨r.val, r.isLt⟩ ⟨48 + l.val, by have := l.isLt; omega⟩) := by
  rw [show (shapeCast S16 (View.readAt (Elt F) (s2V).view (Rect.unit (s := S100x128) (k0_off14 r) S1x16.size (k0_off14_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off14 r 0 = r.val := congrFun (k0_off14_eq r) 0
  have h1 : k0_off14 r 1 = 48 := congrFun (k0_off14_eq r) 1
  match a with
  | ⟨0, _⟩ => show k0_off14 r 0 + 1 * 0 = r.val; omega
  | ⟨1, _⟩ => show k0_off14 r 1 + 1 * l.val = 48 + l.val; omega

/-- Lane l of piece 4 of row r is the buffer's entry (r, 64 + l). -/
theorem rowRead1_4 (cont : Buf (Elt F) ((s2V).view.loc (V d (cV L) (jV L)))) (r : Fin k0_t3_loop.trips) (l : Fin 16) :
    (shapeCast S16 (View.readAt (Elt F) (s2V).view (Rect.unit (s := S100x128) (k0_off15 r) S1x16.size (k0_off15_inb r)).toLoadRect cont) shapeCasts_S1x16_S16) (ix1 l)
      = cont (ix2 ⟨r.val, r.isLt⟩ ⟨64 + l.val, by have := l.isLt; omega⟩) := by
  rw [show (shapeCast S16 (View.readAt (Elt F) (s2V).view (Rect.unit (s := S100x128) (k0_off15 r) S1x16.size (k0_off15_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off15 r 0 = r.val := congrFun (k0_off15_eq r) 0
  have h1 : k0_off15 r 1 = 64 := congrFun (k0_off15_eq r) 1
  match a with
  | ⟨0, _⟩ => show k0_off15 r 0 + 1 * 0 = r.val; omega
  | ⟨1, _⟩ => show k0_off15 r 1 + 1 * l.val = 64 + l.val; omega

/-- Lane l of piece 5 of row r is the buffer's entry (r, 80 + l). -/
theorem rowRead1_5 (cont : Buf (Elt F) ((s2V).view.loc (V d (cV L) (jV L)))) (r : Fin k0_t3_loop.trips) (l : Fin 16) :
    (shapeCast S16 (View.readAt (Elt F) (s2V).view (Rect.unit (s := S100x128) (k0_off16 r) S1x16.size (k0_off16_inb r)).toLoadRect cont) shapeCasts_S1x16_S16) (ix1 l)
      = cont (ix2 ⟨r.val, r.isLt⟩ ⟨80 + l.val, by have := l.isLt; omega⟩) := by
  rw [show (shapeCast S16 (View.readAt (Elt F) (s2V).view (Rect.unit (s := S100x128) (k0_off16 r) S1x16.size (k0_off16_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off16 r 0 = r.val := congrFun (k0_off16_eq r) 0
  have h1 : k0_off16 r 1 = 80 := congrFun (k0_off16_eq r) 1
  match a with
  | ⟨0, _⟩ => show k0_off16 r 0 + 1 * 0 = r.val; omega
  | ⟨1, _⟩ => show k0_off16 r 1 + 1 * l.val = 80 + l.val; omega

/-- Lane l of piece 6 of row r is the buffer's entry (r, 96 + l). -/
theorem rowRead1_6 (cont : Buf (Elt F) ((s2V).view.loc (V d (cV L) (jV L)))) (r : Fin k0_t3_loop.trips) (l : Fin 16) :
    (shapeCast S16 (View.readAt (Elt F) (s2V).view (Rect.unit (s := S100x128) (k0_off17 r) S1x16.size (k0_off17_inb r)).toLoadRect cont) shapeCasts_S1x16_S16) (ix1 l)
      = cont (ix2 ⟨r.val, r.isLt⟩ ⟨96 + l.val, by have := l.isLt; omega⟩) := by
  rw [show (shapeCast S16 (View.readAt (Elt F) (s2V).view (Rect.unit (s := S100x128) (k0_off17 r) S1x16.size (k0_off17_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off17 r 0 = r.val := congrFun (k0_off17_eq r) 0
  have h1 : k0_off17 r 1 = 96 := congrFun (k0_off17_eq r) 1
  match a with
  | ⟨0, _⟩ => show k0_off17 r 0 + 1 * 0 = r.val; omega
  | ⟨1, _⟩ => show k0_off17 r 1 + 1 * l.val = 96 + l.val; omega

/-- Lane l of piece 7 of row r is the buffer's entry (r, 112 + l). -/
theorem rowRead1_7 (cont : Buf (Elt F) ((s2V).view.loc (V d (cV L) (jV L)))) (r : Fin k0_t3_loop.trips) (l : Fin 16) :
    (shapeCast S16 (View.readAt (Elt F) (s2V).view (Rect.unit (s := S100x128) (k0_off18 r) S1x16.size (k0_off18_inb r)).toLoadRect cont) shapeCasts_S1x16_S16) (ix1 l)
      = cont (ix2 ⟨r.val, r.isLt⟩ ⟨112 + l.val, by have := l.isLt; omega⟩) := by
  rw [show (shapeCast S16 (View.readAt (Elt F) (s2V).view (Rect.unit (s := S100x128) (k0_off18 r) S1x16.size (k0_off18_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off18 r 0 = r.val := congrFun (k0_off18_eq r) 0
  have h1 : k0_off18 r 1 = 112 := congrFun (k0_off18_eq r) 1
  match a with
  | ⟨0, _⟩ => show k0_off18 r 0 + 1 * 0 = r.val; omega
  | ⟨1, _⟩ => show k0_off18 r 1 + 1 * l.val = 112 + l.val; omega

/-- One row step at feature e adds the buffer's entry (r, e). -/
theorem lane_rowStep1 (cont : Buf (Elt F) ((s2V).view.loc (V d (cV L) (jV L)))) (r : Fin k0_t3_loop.trips) (a : A8 F) (e : Fin 128) :
    lane (rowStep1 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead1_0 d L cont r l)
  | ⟨1, _⟩ => exact congrArg (FloatOps.addf _) (rowRead1_1 d L cont r l)
  | ⟨2, _⟩ => exact congrArg (FloatOps.addf _) (rowRead1_2 d L cont r l)
  | ⟨3, _⟩ => exact congrArg (FloatOps.addf _) (rowRead1_3 d L cont r l)
  | ⟨4, _⟩ => exact congrArg (FloatOps.addf _) (rowRead1_4 d L cont r l)
  | ⟨5, _⟩ => exact congrArg (FloatOps.addf _) (rowRead1_5 d L cont r l)
  | ⟨6, _⟩ => exact congrArg (FloatOps.addf _) (rowRead1_6 d L cont r l)
  | ⟨7, _⟩ => exact congrArg (FloatOps.addf _) (rowRead1_7 d L cont r l)

theorem lane_rowFold1 (cont : Buf (Elt F) ((s2V).view.loc (V d (cV L) (jV L)))) (init : A8 F) (n : Nat) (hn : n ≤ 100) (e : Fin 128) :
    lane (rowFold1 d L cont init n) e = laneFold cont (lane init e) e n := by
  induction n with
  | zero => rfl
  | succ n ih =>
    have h : n < k0_t3_loop.trips := by show n < 100; omega
    rw [show rowFold1 d L cont init (n + 1) = _ from rowFold1_succ d L cont init ⟨n, h⟩, lane_rowStep1, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ### Row buffer 2 -/

/-- Lane l of piece 0 of row r is the buffer's entry (r, 0 + l). -/
theorem rowRead2_0 (cont : Buf (Elt F) ((s3V).view.loc (V d (cV L) (jV L)))) (r : Fin k0_t4_loop.trips) (l : Fin 16) :
    (shapeCast S16 (View.readAt (Elt F) (s3V).view (Rect.unit (s := S100x128) (k0_off20 r) S1x16.size (k0_off20_inb r)).toLoadRect cont) shapeCasts_S1x16_S16) (ix1 l)
      = cont (ix2 ⟨r.val, r.isLt⟩ ⟨0 + l.val, by have := l.isLt; omega⟩) := by
  rw [show (shapeCast S16 (View.readAt (Elt F) (s3V).view (Rect.unit (s := S100x128) (k0_off20 r) S1x16.size (k0_off20_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off20 r 0 = r.val := congrFun (k0_off20_eq r) 0
  have h1 : k0_off20 r 1 = 0 := congrFun (k0_off20_eq r) 1
  match a with
  | ⟨0, _⟩ => show k0_off20 r 0 + 1 * 0 = r.val; omega
  | ⟨1, _⟩ => show k0_off20 r 1 + 1 * l.val = 0 + l.val; omega

/-- Lane l of piece 1 of row r is the buffer's entry (r, 16 + l). -/
theorem rowRead2_1 (cont : Buf (Elt F) ((s3V).view.loc (V d (cV L) (jV L)))) (r : Fin k0_t4_loop.trips) (l : Fin 16) :
    (shapeCast S16 (View.readAt (Elt F) (s3V).view (Rect.unit (s := S100x128) (k0_off21 r) S1x16.size (k0_off21_inb r)).toLoadRect cont) shapeCasts_S1x16_S16) (ix1 l)
      = cont (ix2 ⟨r.val, r.isLt⟩ ⟨16 + l.val, by have := l.isLt; omega⟩) := by
  rw [show (shapeCast S16 (View.readAt (Elt F) (s3V).view (Rect.unit (s := S100x128) (k0_off21 r) S1x16.size (k0_off21_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off21 r 0 = r.val := congrFun (k0_off21_eq r) 0
  have h1 : k0_off21 r 1 = 16 := congrFun (k0_off21_eq r) 1
  match a with
  | ⟨0, _⟩ => show k0_off21 r 0 + 1 * 0 = r.val; omega
  | ⟨1, _⟩ => show k0_off21 r 1 + 1 * l.val = 16 + l.val; omega

/-- Lane l of piece 2 of row r is the buffer's entry (r, 32 + l). -/
theorem rowRead2_2 (cont : Buf (Elt F) ((s3V).view.loc (V d (cV L) (jV L)))) (r : Fin k0_t4_loop.trips) (l : Fin 16) :
    (shapeCast S16 (View.readAt (Elt F) (s3V).view (Rect.unit (s := S100x128) (k0_off22 r) S1x16.size (k0_off22_inb r)).toLoadRect cont) shapeCasts_S1x16_S16) (ix1 l)
      = cont (ix2 ⟨r.val, r.isLt⟩ ⟨32 + l.val, by have := l.isLt; omega⟩) := by
  rw [show (shapeCast S16 (View.readAt (Elt F) (s3V).view (Rect.unit (s := S100x128) (k0_off22 r) S1x16.size (k0_off22_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off22 r 0 = r.val := congrFun (k0_off22_eq r) 0
  have h1 : k0_off22 r 1 = 32 := congrFun (k0_off22_eq r) 1
  match a with
  | ⟨0, _⟩ => show k0_off22 r 0 + 1 * 0 = r.val; omega
  | ⟨1, _⟩ => show k0_off22 r 1 + 1 * l.val = 32 + l.val; omega

/-- Lane l of piece 3 of row r is the buffer's entry (r, 48 + l). -/
theorem rowRead2_3 (cont : Buf (Elt F) ((s3V).view.loc (V d (cV L) (jV L)))) (r : Fin k0_t4_loop.trips) (l : Fin 16) :
    (shapeCast S16 (View.readAt (Elt F) (s3V).view (Rect.unit (s := S100x128) (k0_off23 r) S1x16.size (k0_off23_inb r)).toLoadRect cont) shapeCasts_S1x16_S16) (ix1 l)
      = cont (ix2 ⟨r.val, r.isLt⟩ ⟨48 + l.val, by have := l.isLt; omega⟩) := by
  rw [show (shapeCast S16 (View.readAt (Elt F) (s3V).view (Rect.unit (s := S100x128) (k0_off23 r) S1x16.size (k0_off23_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off23 r 0 = r.val := congrFun (k0_off23_eq r) 0
  have h1 : k0_off23 r 1 = 48 := congrFun (k0_off23_eq r) 1
  match a with
  | ⟨0, _⟩ => show k0_off23 r 0 + 1 * 0 = r.val; omega
  | ⟨1, _⟩ => show k0_off23 r 1 + 1 * l.val = 48 + l.val; omega

/-- Lane l of piece 4 of row r is the buffer's entry (r, 64 + l). -/
theorem rowRead2_4 (cont : Buf (Elt F) ((s3V).view.loc (V d (cV L) (jV L)))) (r : Fin k0_t4_loop.trips) (l : Fin 16) :
    (shapeCast S16 (View.readAt (Elt F) (s3V).view (Rect.unit (s := S100x128) (k0_off24 r) S1x16.size (k0_off24_inb r)).toLoadRect cont) shapeCasts_S1x16_S16) (ix1 l)
      = cont (ix2 ⟨r.val, r.isLt⟩ ⟨64 + l.val, by have := l.isLt; omega⟩) := by
  rw [show (shapeCast S16 (View.readAt (Elt F) (s3V).view (Rect.unit (s := S100x128) (k0_off24 r) S1x16.size (k0_off24_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off24 r 0 = r.val := congrFun (k0_off24_eq r) 0
  have h1 : k0_off24 r 1 = 64 := congrFun (k0_off24_eq r) 1
  match a with
  | ⟨0, _⟩ => show k0_off24 r 0 + 1 * 0 = r.val; omega
  | ⟨1, _⟩ => show k0_off24 r 1 + 1 * l.val = 64 + l.val; omega

/-- Lane l of piece 5 of row r is the buffer's entry (r, 80 + l). -/
theorem rowRead2_5 (cont : Buf (Elt F) ((s3V).view.loc (V d (cV L) (jV L)))) (r : Fin k0_t4_loop.trips) (l : Fin 16) :
    (shapeCast S16 (View.readAt (Elt F) (s3V).view (Rect.unit (s := S100x128) (k0_off25 r) S1x16.size (k0_off25_inb r)).toLoadRect cont) shapeCasts_S1x16_S16) (ix1 l)
      = cont (ix2 ⟨r.val, r.isLt⟩ ⟨80 + l.val, by have := l.isLt; omega⟩) := by
  rw [show (shapeCast S16 (View.readAt (Elt F) (s3V).view (Rect.unit (s := S100x128) (k0_off25 r) S1x16.size (k0_off25_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off25 r 0 = r.val := congrFun (k0_off25_eq r) 0
  have h1 : k0_off25 r 1 = 80 := congrFun (k0_off25_eq r) 1
  match a with
  | ⟨0, _⟩ => show k0_off25 r 0 + 1 * 0 = r.val; omega
  | ⟨1, _⟩ => show k0_off25 r 1 + 1 * l.val = 80 + l.val; omega

/-- Lane l of piece 6 of row r is the buffer's entry (r, 96 + l). -/
theorem rowRead2_6 (cont : Buf (Elt F) ((s3V).view.loc (V d (cV L) (jV L)))) (r : Fin k0_t4_loop.trips) (l : Fin 16) :
    (shapeCast S16 (View.readAt (Elt F) (s3V).view (Rect.unit (s := S100x128) (k0_off26 r) S1x16.size (k0_off26_inb r)).toLoadRect cont) shapeCasts_S1x16_S16) (ix1 l)
      = cont (ix2 ⟨r.val, r.isLt⟩ ⟨96 + l.val, by have := l.isLt; omega⟩) := by
  rw [show (shapeCast S16 (View.readAt (Elt F) (s3V).view (Rect.unit (s := S100x128) (k0_off26 r) S1x16.size (k0_off26_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off26 r 0 = r.val := congrFun (k0_off26_eq r) 0
  have h1 : k0_off26 r 1 = 96 := congrFun (k0_off26_eq r) 1
  match a with
  | ⟨0, _⟩ => show k0_off26 r 0 + 1 * 0 = r.val; omega
  | ⟨1, _⟩ => show k0_off26 r 1 + 1 * l.val = 96 + l.val; omega

/-- Lane l of piece 7 of row r is the buffer's entry (r, 112 + l). -/
theorem rowRead2_7 (cont : Buf (Elt F) ((s3V).view.loc (V d (cV L) (jV L)))) (r : Fin k0_t4_loop.trips) (l : Fin 16) :
    (shapeCast S16 (View.readAt (Elt F) (s3V).view (Rect.unit (s := S100x128) (k0_off27 r) S1x16.size (k0_off27_inb r)).toLoadRect cont) shapeCasts_S1x16_S16) (ix1 l)
      = cont (ix2 ⟨r.val, r.isLt⟩ ⟨112 + l.val, by have := l.isLt; omega⟩) := by
  rw [show (shapeCast S16 (View.readAt (Elt F) (s3V).view (Rect.unit (s := S100x128) (k0_off27 r) S1x16.size (k0_off27_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off27 r 0 = r.val := congrFun (k0_off27_eq r) 0
  have h1 : k0_off27 r 1 = 112 := congrFun (k0_off27_eq r) 1
  match a with
  | ⟨0, _⟩ => show k0_off27 r 0 + 1 * 0 = r.val; omega
  | ⟨1, _⟩ => show k0_off27 r 1 + 1 * l.val = 112 + l.val; omega

/-- One row step at feature e adds the buffer's entry (r, e). -/
theorem lane_rowStep2 (cont : Buf (Elt F) ((s3V).view.loc (V d (cV L) (jV L)))) (r : Fin k0_t4_loop.trips) (a : A8 F) (e : Fin 128) :
    lane (rowStep2 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead2_0 d L cont r l)
  | ⟨1, _⟩ => exact congrArg (FloatOps.addf _) (rowRead2_1 d L cont r l)
  | ⟨2, _⟩ => exact congrArg (FloatOps.addf _) (rowRead2_2 d L cont r l)
  | ⟨3, _⟩ => exact congrArg (FloatOps.addf _) (rowRead2_3 d L cont r l)
  | ⟨4, _⟩ => exact congrArg (FloatOps.addf _) (rowRead2_4 d L cont r l)
  | ⟨5, _⟩ => exact congrArg (FloatOps.addf _) (rowRead2_5 d L cont r l)
  | ⟨6, _⟩ => exact congrArg (FloatOps.addf _) (rowRead2_6 d L cont r l)
  | ⟨7, _⟩ => exact congrArg (FloatOps.addf _) (rowRead2_7 d L cont r l)

theorem lane_rowFold2 (cont : Buf (Elt F) ((s3V).view.loc (V d (cV L) (jV L)))) (init : A8 F) (n : Nat) (hn : n ≤ 100) (e : Fin 128) :
    lane (rowFold2 d L cont init n) e = laneFold cont (lane init e) e n := by
  induction n with
  | zero => rfl
  | succ n ih =>
    have h : n < k0_t4_loop.trips := by show n < 100; omega
    rw [show rowFold2 d L cont init (n + 1) = _ from rowFold2_succ d L cont init ⟨n, h⟩, lane_rowStep2, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ### Row buffer 3 -/

/-- Lane l of piece 0 of row r is the buffer's entry (r, 0 + l). -/
theorem rowRead3_0 (cont : Buf (Elt F) ((s4V).view.loc (V d (cV L) (jV L)))) (r : Fin k0_t5_loop.trips) (l : Fin 16) :
    (shapeCast S16 (View.readAt (Elt F) (s4V).view (Rect.unit (s := S100x128) (k0_off29 r) S1x16.size (k0_off29_inb r)).toLoadRect cont) shapeCasts_S1x16_S16) (ix1 l)
      = cont (ix2 ⟨r.val, r.isLt⟩ ⟨0 + l.val, by have := l.isLt; omega⟩) := by
  rw [show (shapeCast S16 (View.readAt (Elt F) (s4V).view (Rect.unit (s := S100x128) (k0_off29 r) S1x16.size (k0_off29_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off29 r 0 = r.val := congrFun (k0_off29_eq r) 0
  have h1 : k0_off29 r 1 = 0 := congrFun (k0_off29_eq r) 1
  match a with
  | ⟨0, _⟩ => show k0_off29 r 0 + 1 * 0 = r.val; omega
  | ⟨1, _⟩ => show k0_off29 r 1 + 1 * l.val = 0 + l.val; omega

/-- Lane l of piece 1 of row r is the buffer's entry (r, 16 + l). -/
theorem rowRead3_1 (cont : Buf (Elt F) ((s4V).view.loc (V d (cV L) (jV L)))) (r : Fin k0_t5_loop.trips) (l : Fin 16) :
    (shapeCast S16 (View.readAt (Elt F) (s4V).view (Rect.unit (s := S100x128) (k0_off30 r) S1x16.size (k0_off30_inb r)).toLoadRect cont) shapeCasts_S1x16_S16) (ix1 l)
      = cont (ix2 ⟨r.val, r.isLt⟩ ⟨16 + l.val, by have := l.isLt; omega⟩) := by
  rw [show (shapeCast S16 (View.readAt (Elt F) (s4V).view (Rect.unit (s := S100x128) (k0_off30 r) S1x16.size (k0_off30_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off30 r 0 = r.val := congrFun (k0_off30_eq r) 0
  have h1 : k0_off30 r 1 = 16 := congrFun (k0_off30_eq r) 1
  match a with
  | ⟨0, _⟩ => show k0_off30 r 0 + 1 * 0 = r.val; omega
  | ⟨1, _⟩ => show k0_off30 r 1 + 1 * l.val = 16 + l.val; omega

/-- Lane l of piece 2 of row r is the buffer's entry (r, 32 + l). -/
theorem rowRead3_2 (cont : Buf (Elt F) ((s4V).view.loc (V d (cV L) (jV L)))) (r : Fin k0_t5_loop.trips) (l : Fin 16) :
    (shapeCast S16 (View.readAt (Elt F) (s4V).view (Rect.unit (s := S100x128) (k0_off31 r) S1x16.size (k0_off31_inb r)).toLoadRect cont) shapeCasts_S1x16_S16) (ix1 l)
      = cont (ix2 ⟨r.val, r.isLt⟩ ⟨32 + l.val, by have := l.isLt; omega⟩) := by
  rw [show (shapeCast S16 (View.readAt (Elt F) (s4V).view (Rect.unit (s := S100x128) (k0_off31 r) S1x16.size (k0_off31_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off31 r 0 = r.val := congrFun (k0_off31_eq r) 0
  have h1 : k0_off31 r 1 = 32 := congrFun (k0_off31_eq r) 1
  match a with
  | ⟨0, _⟩ => show k0_off31 r 0 + 1 * 0 = r.val; omega
  | ⟨1, _⟩ => show k0_off31 r 1 + 1 * l.val = 32 + l.val; omega

/-- Lane l of piece 3 of row r is the buffer's entry (r, 48 + l). -/
theorem rowRead3_3 (cont : Buf (Elt F) ((s4V).view.loc (V d (cV L) (jV L)))) (r : Fin k0_t5_loop.trips) (l : Fin 16) :
    (shapeCast S16 (View.readAt (Elt F) (s4V).view (Rect.unit (s := S100x128) (k0_off32 r) S1x16.size (k0_off32_inb r)).toLoadRect cont) shapeCasts_S1x16_S16) (ix1 l)
      = cont (ix2 ⟨r.val, r.isLt⟩ ⟨48 + l.val, by have := l.isLt; omega⟩) := by
  rw [show (shapeCast S16 (View.readAt (Elt F) (s4V).view (Rect.unit (s := S100x128) (k0_off32 r) S1x16.size (k0_off32_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off32 r 0 = r.val := congrFun (k0_off32_eq r) 0
  have h1 : k0_off32 r 1 = 48 := congrFun (k0_off32_eq r) 1
  match a with
  | ⟨0, _⟩ => show k0_off32 r 0 + 1 * 0 = r.val; omega
  | ⟨1, _⟩ => show k0_off32 r 1 + 1 * l.val = 48 + l.val; omega

/-- Lane l of piece 4 of row r is the buffer's entry (r, 64 + l). -/
theorem rowRead3_4 (cont : Buf (Elt F) ((s4V).view.loc (V d (cV L) (jV L)))) (r : Fin k0_t5_loop.trips) (l : Fin 16) :
    (shapeCast S16 (View.readAt (Elt F) (s4V).view (Rect.unit (s := S100x128) (k0_off33 r) S1x16.size (k0_off33_inb r)).toLoadRect cont) shapeCasts_S1x16_S16) (ix1 l)
      = cont (ix2 ⟨r.val, r.isLt⟩ ⟨64 + l.val, by have := l.isLt; omega⟩) := by
  rw [show (shapeCast S16 (View.readAt (Elt F) (s4V).view (Rect.unit (s := S100x128) (k0_off33 r) S1x16.size (k0_off33_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off33 r 0 = r.val := congrFun (k0_off33_eq r) 0
  have h1 : k0_off33 r 1 = 64 := congrFun (k0_off33_eq r) 1
  match a with
  | ⟨0, _⟩ => show k0_off33 r 0 + 1 * 0 = r.val; omega
  | ⟨1, _⟩ => show k0_off33 r 1 + 1 * l.val = 64 + l.val; omega

/-- Lane l of piece 5 of row r is the buffer's entry (r, 80 + l). -/
theorem rowRead3_5 (cont : Buf (Elt F) ((s4V).view.loc (V d (cV L) (jV L)))) (r : Fin k0_t5_loop.trips) (l : Fin 16) :
    (shapeCast S16 (View.readAt (Elt F) (s4V).view (Rect.unit (s := S100x128) (k0_off34 r) S1x16.size (k0_off34_inb r)).toLoadRect cont) shapeCasts_S1x16_S16) (ix1 l)
      = cont (ix2 ⟨r.val, r.isLt⟩ ⟨80 + l.val, by have := l.isLt; omega⟩) := by
  rw [show (shapeCast S16 (View.readAt (Elt F) (s4V).view (Rect.unit (s := S100x128) (k0_off34 r) S1x16.size (k0_off34_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off34 r 0 = r.val := congrFun (k0_off34_eq r) 0
  have h1 : k0_off34 r 1 = 80 := congrFun (k0_off34_eq r) 1
  match a with
  | ⟨0, _⟩ => show k0_off34 r 0 + 1 * 0 = r.val; omega
  | ⟨1, _⟩ => show k0_off34 r 1 + 1 * l.val = 80 + l.val; omega

/-- Lane l of piece 6 of row r is the buffer's entry (r, 96 + l). -/
theorem rowRead3_6 (cont : Buf (Elt F) ((s4V).view.loc (V d (cV L) (jV L)))) (r : Fin k0_t5_loop.trips) (l : Fin 16) :
    (shapeCast S16 (View.readAt (Elt F) (s4V).view (Rect.unit (s := S100x128) (k0_off35 r) S1x16.size (k0_off35_inb r)).toLoadRect cont) shapeCasts_S1x16_S16) (ix1 l)
      = cont (ix2 ⟨r.val, r.isLt⟩ ⟨96 + l.val, by have := l.isLt; omega⟩) := by
  rw [show (shapeCast S16 (View.readAt (Elt F) (s4V).view (Rect.unit (s := S100x128) (k0_off35 r) S1x16.size (k0_off35_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off35 r 0 = r.val := congrFun (k0_off35_eq r) 0
  have h1 : k0_off35 r 1 = 96 := congrFun (k0_off35_eq r) 1
  match a with
  | ⟨0, _⟩ => show k0_off35 r 0 + 1 * 0 = r.val; omega
  | ⟨1, _⟩ => show k0_off35 r 1 + 1 * l.val = 96 + l.val; omega

/-- Lane l of piece 7 of row r is the buffer's entry (r, 112 + l). -/
theorem rowRead3_7 (cont : Buf (Elt F) ((s4V).view.loc (V d (cV L) (jV L)))) (r : Fin k0_t5_loop.trips) (l : Fin 16) :
    (shapeCast S16 (View.readAt (Elt F) (s4V).view (Rect.unit (s := S100x128) (k0_off36 r) S1x16.size (k0_off36_inb r)).toLoadRect cont) shapeCasts_S1x16_S16) (ix1 l)
      = cont (ix2 ⟨r.val, r.isLt⟩ ⟨112 + l.val, by have := l.isLt; omega⟩) := by
  rw [show (shapeCast S16 (View.readAt (Elt F) (s4V).view (Rect.unit (s := S100x128) (k0_off36 r) S1x16.size (k0_off36_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off36 r 0 = r.val := congrFun (k0_off36_eq r) 0
  have h1 : k0_off36 r 1 = 112 := congrFun (k0_off36_eq r) 1
  match a with
  | ⟨0, _⟩ => show k0_off36 r 0 + 1 * 0 = r.val; omega
  | ⟨1, _⟩ => show k0_off36 r 1 + 1 * l.val = 112 + l.val; omega

/-- One row step at feature e adds the buffer's entry (r, e). -/
theorem lane_rowStep3 (cont : Buf (Elt F) ((s4V).view.loc (V d (cV L) (jV L)))) (r : Fin k0_t5_loop.trips) (a : A8 F) (e : Fin 128) :
    lane (rowStep3 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead3_0 d L cont r l)
  | ⟨1, _⟩ => exact congrArg (FloatOps.addf _) (rowRead3_1 d L cont r l)
  | ⟨2, _⟩ => exact congrArg (FloatOps.addf _) (rowRead3_2 d L cont r l)
  | ⟨3, _⟩ => exact congrArg (FloatOps.addf _) (rowRead3_3 d L cont r l)
  | ⟨4, _⟩ => exact congrArg (FloatOps.addf _) (rowRead3_4 d L cont r l)
  | ⟨5, _⟩ => exact congrArg (FloatOps.addf _) (rowRead3_5 d L cont r l)
  | ⟨6, _⟩ => exact congrArg (FloatOps.addf _) (rowRead3_6 d L cont r l)
  | ⟨7, _⟩ => exact congrArg (FloatOps.addf _) (rowRead3_7 d L cont r l)

theorem lane_rowFold3 (cont : Buf (Elt F) ((s4V).view.loc (V d (cV L) (jV L)))) (init : A8 F) (n : Nat) (hn : n ≤ 100) (e : Fin 128) :
    lane (rowFold3 d L cont init n) e = laneFold cont (lane init e) e n := by
  induction n with
  | zero => rfl
  | succ n ih =>
    have h : n < k0_t5_loop.trips := by show n < 100; omega
    rw [show rowFold3 d L cont init (n + 1) = _ from rowFold3_succ d L cont init ⟨n, h⟩, lane_rowStep3, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ## (L2) What a landed gather holds

The task's index scratch holds its 64 token rows (token rows 64·w … 64·w + 63 of the matrix, w the worker number).
A gather's offset list is row n of that scratch, so its r-th word is word r of token row 64·w + n; the gather lands,
at row r of its row buffer, the table row that word names. Every word is at most 99999, so the row it names is the
word itself, kept below the table's extent. -/

omit [FloatOps F] [Named F] in
/-- Word x of row n of the index scratch, once the task's token rows have landed, is word x of token row 64·w + n. -/
theorem idxRow_read (t2 : Buf (Elt F) (tokLoc d)) (n : Nat) (hn : n < 64) (hoff : ∀ a, (![n, 0] : Fin 2 → Nat) a + S1x100.size a ≤ S64x100.size a) (x : S100.Idx) :
    (idxRow ![n, 0] hoff).view.read (Elt F) (idxBuf d L t2) x
      = t2 (ix2 ⟨64 * (wid L).val + n, by have := (wid L).isLt; omega⟩ ⟨(x 0).val, (x 0).isLt⟩) := by
  rw [show ∀ G : Buf (Elt F) ((V d (cV L) (jV L)).loc cc0_scratch0), (idxRow ![n, 0] hoff).view.read (Elt F) G x = G ((idxRow ![n, 0] hoff).view.emb x)
    from fun G => (View.read_apply _ _).trans (cast_eq _ _)]
  rw [show ∀ j, idxBuf d L t2 j = t2 ((tokK L).view.emb j) from fun j => (View.read_apply _ _).trans (cast_eq _ _)]
  congr 1
  funext a; apply Fin.ext
  have hre : (idxRow ![n, 0] hoff).view.emb x = (s0V).view.emb ((Rect.unit (s := S64x100) ![n, 0] S1x100.size hoff).emb (ix2 (0 : Fin 1) (x 0))) := by
    show (s0V).view.emb ((Rect.unit (s := S64x100) ![n, 0] S1x100.size hoff).emb (Shape.reshapeEquiv _ x)) = _
    rw [Shape.reshapeEquiv_eq_of_rowMajor _ (y := (ix2 (0 : Fin 1) (x 0) : S1x100.Idx)) (by
      rw [Shape.rowMajor_val_two, Shape.rowMajor_val_one]; show (0 : ℕ) * 100 + (x 0).val = (x 0).val; omega)]
  rw [hre]
  have h0 : k0_off1 L 0 = 128 * (L 1).val + 64 * (L 0).val := congrFun (k0_off1_eq L) 0
  have h1 : k0_off1 L 1 = 0 := congrFun (k0_off1_eq L) 1
  match a with
  | ⟨0, _⟩ => show k0_off1 L 0 + 1 * (n + 1 * 0) = 64 * (2 * (L 1).val + (L 0).val) + n; omega
  | ⟨1, _⟩ => show k0_off1 L 1 + 1 * (0 + 1 * (x 0).val) = (x 0).val; omega

omit [FloatOps F] [Named F] in
/-- The row of the table the gather's r-th word names. -/
theorem rows_val (t2 : Buf (Elt F) (tokLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (n : Nat) (hn : n < 64) (hoff : ∀ a, (![n, 0] : Fin 2 → Nat) a + S1x100.size a ≤ S64x100.size a) (r : Fin 100) :
    (SparseCore.rows ((idxRow ![n, 0] hoff).view.read (Elt F) (idxBuf d L t2)) hnRows (hin ![n, 0] hoff) r).val
      = (rowOf (t2 (ix2 ⟨64 * (wid L).val + n, by have := (wid L).isLt; omega⟩ r))).val := by
  have hx : ((S100.rowMajor.symm (Fin.cast hnRows.symm r)) 0).val = r.val := by
    have h := Shape.rowMajor_val_one (S100.rowMajor.symm (Fin.cast hnRows.symm r))
    rw [Equiv.apply_symm_apply] at h
    exact h.symm
  have hfin : (⟨((S100.rowMajor.symm (Fin.cast hnRows.symm r)) 0).val, ((S100.rowMajor.symm (Fin.cast hnRows.symm r)) 0).isLt⟩ : Fin 100) = r := Fin.ext hx
  show ((idxRow ![n, 0] hoff).view.read (Elt F) (idxBuf d L t2) (S100.rowMajor.symm (Fin.cast hnRows.symm r))).toNat
    = min (t2 (ix2 ⟨64 * (wid L).val + n, _⟩ r)).toNat 100001
  rw [idxRow_read d L t2 n hn hoff, hfin]
  have hle := hpre (ix2 ⟨64 * (wid L).val + n, by have := (wid L).isLt; omega⟩ r)
  omega

omit [FloatOps F] [Named F] in
/-- The gather's payload at (r, e) is the table at the row its r-th word names, feature e. -/
theorem gatherPay_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (n : Nat) (hn : n < 64) (hoff : ∀ a, (![n, 0] : Fin 2 → Nat) a + S1x100.size a ≤ S64x100.size a) (r : Fin 100) (e : Fin 128) :
    gatherPay d L t2 tab hin ![n, 0] hoff (ix2 r e)
      = tab (ix2 (rowOf (t2 (ix2 ⟨64 * (wid L).val + n, by have := (wid L).isLt; omega⟩ r))) e) := by
  unfold gatherPay SparseCore.gatherPayload
  rw [View.read_apply]
  show tab _ = tab _
  congr 1
  funext b; apply Fin.ext
  match b with
  | ⟨0, _⟩ =>
    show 0 + 1 * (gathers_S100002x128_S100x128.idx (SparseCore.rows ((idxRow ![n, 0] hoff).view.read (Elt F) (idxBuf d L t2)) hnRows (hin ![n, 0] hoff)) (ix2 r e)
      gathers_S100002x128_S100x128.axis).val = (rowOf (t2 (ix2 ⟨64 * (wid L).val + n, _⟩ r))).val
    rw [Shape.Gathers.idx_axis]
    show 0 + 1 * (SparseCore.rows ((idxRow ![n, 0] hoff).view.read (Elt F) (idxBuf d L t2)) hnRows (hin ![n, 0] hoff) r).val = _
    rw [rows_val d L t2 hin hpre n hn hoff r]
    omega
  | ⟨1, _⟩ =>
    show 0 + 1 * (gathers_S100002x128_S100x128.idx (SparseCore.rows ((idxRow ![n, 0] hoff).view.read (Elt F) (idxBuf d L t2)) hnRows (hin ![n, 0] hoff)) (ix2 r e)
      (⟨1, by decide⟩ : Fin S100002x128.rank)).val = e.val
    rw [Shape.Gathers.idx_of_ne _ _ _ _ (by decide)]
    show 0 + 1 * e.val = e.val
    omega

theorem cont0_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s1V).view.writes (Elt F) (s1V).view.junk [⟨Rect.whole cc0_scratch1.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s1V).view (s1V).view.junk (Rect.whole cc0_scratch1.ty.shape) (gatherPay d L t2 tab hin ![n, 0] hoff) [] (ix2 r e)
  rw [Rect.emb_whole_apply] at h
  exact ((View.read_apply _ _).trans (cast_eq _ _)).symm.trans h

theorem cont1_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s2V).view.writes (Elt F) (s2V).view.junk [⟨Rect.whole cc0_scratch2.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s2V).view (s2V).view.junk (Rect.whole cc0_scratch2.ty.shape) (gatherPay d L t2 tab hin ![n, 0] hoff) [] (ix2 r e)
  rw [Rect.emb_whole_apply] at h
  exact ((View.read_apply _ _).trans (cast_eq _ _)).symm.trans h

theorem cont2_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s3V).view.writes (Elt F) (s3V).view.junk [⟨Rect.whole cc0_scratch3.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s3V).view (s3V).view.junk (Rect.whole cc0_scratch3.ty.shape) (gatherPay d L t2 tab hin ![n, 0] hoff) [] (ix2 r e)
  rw [Rect.emb_whole_apply] at h
  exact ((View.read_apply _ _).trans (cast_eq _ _)).symm.trans h

theorem cont3_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s4V).view.writes (Elt F) (s4V).view.junk [⟨Rect.whole cc0_scratch4.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s4V).view (s4V).view.junk (Rect.whole cc0_scratch4.ty.shape) (gatherPay d L t2 tab hin ![n, 0] hoff) [] (ix2 r e)
  rw [Rect.emb_whole_apply] at h
  exact ((View.read_apply _ _).trans (cast_eq _ _)).symm.trans h

/-! ## (L3) The sixteen stores of one trip, read back as one function

Store (r, c) of trip k writes the sixteen lanes of vector c (of A for r = 0, of B for r = 1) to row 2·k + r, columns
16·c … 16·c + 15 (the generated closed forms of the offsets). So all sixteen pieces agree with ONE function of the
scratch's index: on row 2·k the lanes of A, on row 2·k + 1 those of B; an index on another row is under no piece. -/

/-- What the sixteen stores of trip k write, as a function of the scratch's index. -/
def s5Fn (k : Fin k0_t1_loop.trips) (A B : A8 F) : S32x128.Idx → F .f32 :=
  fun y => if (y 0).val = 2 * k.val then lane A (y 1) else lane B (y 1)

omit [Named F] in
/-- A piece at row 2·k + r, columns from 16·c, carrying vector c of its source, agrees with that function. -/
theorem s5_piece (k : Fin k0_t1_loop.trips) (A B src : A8 F) (rr : Nat) (hsrc : (rr = 0 ∧ src = A) ∨ (rr = 1 ∧ src = B)) (c : Fin 8)
    (off : Fin 2 → Nat) (inb : ∀ a, off a + S1x16.size a ≤ S32x128.size a) (hoff : off = ![2 * k.val + rr, 16 * c.val]) (x : S1x16.Idx) :
    (shapeCast S1x16 (comp8 src c) shapeCasts_S16_S1x16) x = s5Fn k A B ((Rect.unit (s := S32x128) off S1x16.size inb).emb x) := by
  subst hoff
  have hx0 : (x 0).val = 0 := by have h : (x 0).val < 1 := (x 0).isLt; omega
  have hx1 : (x 1).val < 16 := (x 1).isLt
  have hrow : ((Rect.unit (s := S32x128) ![2 * k.val + rr, 16 * c.val] S1x16.size inb).emb x 0).val = 2 * k.val + rr := by
    show (2 * k.val + rr) + 1 * (x 0).val = 2 * k.val + rr; omega
  have hcol : (Rect.unit (s := S32x128) ![2 * k.val + rr, 16 * c.val] S1x16.size inb).emb x 1
      = (⟨16 * c.val + (⟨(x 1).val, hx1⟩ : Fin 16).val, by have := c.isLt; show 16 * c.val + (x 1).val < 128; omega⟩ : Fin 128) :=
    Fin.ext (by show 16 * c.val + 1 * (x 1).val = 16 * c.val + (x 1).val; omega)
  rw [show (shapeCast S1x16 (comp8 src c) shapeCasts_S16_S1x16) x = _ from shapeCast_addUnit_apply ![16] _ _ _]
  unfold s5Fn
  rw [hcol, lane_mk, lane_mk]
  have hidx : (fun a : Fin 1 => x a.succ) = ix1 (⟨(x 1).val, hx1⟩ : Fin 16) := by
    funext a; match a with | ⟨0, _⟩ => rfl
  rcases hsrc with ⟨rfl, rfl⟩ | ⟨rfl, rfl⟩
  · rw [if_pos (by omega)]; exact congrArg _ hidx
  · rw [if_neg (by omega)]; exact congrArg _ hidx

omit [FloatOps F] [Named F] in
/-- An index under such a piece is on row 2·k + r. -/
theorem s5_piece_row (k : Fin k0_t1_loop.trips) (rr : Nat) (c : Fin 8)
    (off : Fin 2 → Nat) (inb : ∀ a, off a + S1x16.size a ≤ S32x128.size a) (hoff : off = ![2 * k.val + rr, 16 * c.val])
    (y : S32x128.Idx) (hy : y ∈ (Rect.unit (s := S32x128) off S1x16.size inb).set) : (y 0).val = 2 * k.val + rr := by
  subst hoff
  have h := (Rect.mem_set_unit.mp hy) 0
  have h' : 2 * k.val + rr ≤ (y 0).val ∧ (y 0).val < 2 * k.val + rr + 1 := h
  omega

omit [FloatOps F] [Named F] in
/-- The index (2·k + r, 16·c + l) is under the piece at row 2·k + r from column 16·c. -/
theorem s5_piece_mem (k : Fin k0_t1_loop.trips) (rr : Nat) (c : Fin 8) (l : Fin 16)
    (off : Fin 2 → Nat) (inb : ∀ a, off a + S1x16.size a ≤ S32x128.size a) (hoff : off = ![2 * k.val + rr, 16 * c.val])
    (hrow : 2 * k.val + rr < 32) (hcol : 16 * c.val + l.val < 128) :
    (ix2 (⟨2 * k.val + rr, hrow⟩ : Fin 32) (⟨16 * c.val + l.val, hcol⟩ : Fin 128) : S32x128.Idx) ∈ (Rect.unit (s := S32x128) off S1x16.size inb).set := by
  subst hoff
  rw [Rect.mem_set_unit]
  intro a
  match a with
  | ⟨0, _⟩ => show 2 * k.val + rr ≤ 2 * k.val + rr ∧ 2 * k.val + rr < 2 * k.val + rr + 1; omega
  | ⟨1, _⟩ => show 16 * c.val ≤ 16 * c.val + l.val ∧ 16 * c.val + l.val < 16 * c.val + 16; have := l.isLt; omega

omit [Named F] in
/-- Every one of the sixteen pieces agrees with the one function. -/
theorem s5Pieces_agree (k : Fin k0_t1_loop.trips) (A B : A8 F) :
    ∀ p ∈ s5Pieces k A B, ∀ x : p.1.shape.Idx, p.2 x = s5Fn k A B (p.1.emb x) := by
  intro p hp
  unfold s5Pieces at hp
  simp only [List.mem_cons, List.not_mem_nil, or_false] at hp
  rcases hp with rfl | rfl | rfl | rfl | rfl | rfl | rfl | rfl | rfl | rfl | rfl | rfl | rfl | rfl | rfl | rfl
  · exact fun x => s5_piece k A B B 1 (Or.inr ⟨rfl, rfl⟩) 7 (k0_off45 k 1#32) (k0_off45_inb k 1) (k0_off45_eq k 1) x
  · exact fun x => s5_piece k A B B 1 (Or.inr ⟨rfl, rfl⟩) 6 (k0_off44 k 1#32) (k0_off44_inb k 1) (k0_off44_eq k 1) x
  · exact fun x => s5_piece k A B B 1 (Or.inr ⟨rfl, rfl⟩) 5 (k0_off43 k 1#32) (k0_off43_inb k 1) (k0_off43_eq k 1) x
  · exact fun x => s5_piece k A B B 1 (Or.inr ⟨rfl, rfl⟩) 4 (k0_off42 k 1#32) (k0_off42_inb k 1) (k0_off42_eq k 1) x
  · exact fun x => s5_piece k A B B 1 (Or.inr ⟨rfl, rfl⟩) 3 (k0_off41 k 1#32) (k0_off41_inb k 1) (k0_off41_eq k 1) x
  · exact fun x => s5_piece k A B B 1 (Or.inr ⟨rfl, rfl⟩) 2 (k0_off40 k 1#32) (k0_off40_inb k 1) (k0_off40_eq k 1) x
  · exact fun x => s5_piece k A B B 1 (Or.inr ⟨rfl, rfl⟩) 1 (k0_off39 k 1#32) (k0_off39_inb k 1) (k0_off39_eq k 1) x
  · exact fun x => s5_piece k A B B 1 (Or.inr ⟨rfl, rfl⟩) 0 (k0_off38 k 1#32) (k0_off38_inb k 1) (k0_off38_eq k 1) x
  · exact fun x => s5_piece k A B A 0 (Or.inl ⟨rfl, rfl⟩) 7 (k0_off45 k 0#32) (k0_off45_inb k 0) (k0_off45_eq k 0) x
  · exact fun x => s5_piece k A B A 0 (Or.inl ⟨rfl, rfl⟩) 6 (k0_off44 k 0#32) (k0_off44_inb k 0) (k0_off44_eq k 0) x
  · exact fun x => s5_piece k A B A 0 (Or.inl ⟨rfl, rfl⟩) 5 (k0_off43 k 0#32) (k0_off43_inb k 0) (k0_off43_eq k 0) x
  · exact fun x => s5_piece k A B A 0 (Or.inl ⟨rfl, rfl⟩) 4 (k0_off42 k 0#32) (k0_off42_inb k 0) (k0_off42_eq k 0) x
  · exact fun x => s5_piece k A B A 0 (Or.inl ⟨rfl, rfl⟩) 3 (k0_off41 k 0#32) (k0_off41_inb k 0) (k0_off41_eq k 0) x
  · exact fun x => s5_piece k A B A 0 (Or.inl ⟨rfl, rfl⟩) 2 (k0_off40 k 0#32) (k0_off40_inb k 0) (k0_off40_eq k 0) x
  · exact fun x => s5_piece k A B A 0 (Or.inl ⟨rfl, rfl⟩) 1 (k0_off39 k 0#32) (k0_off39_inb k 0) (k0_off39_eq k 0) x
  · exact fun x => s5_piece k A B A 0 (Or.inl ⟨rfl, rfl⟩) 0 (k0_off38 k 0#32) (k0_off38_inb k 0) (k0_off38_eq k 0) x

omit [FloatOps F] [Named F] in
/-- An index under any of the sixteen pieces is on row 2·k or 2·k + 1. -/
theorem s5Pieces_row (k : Fin k0_t1_loop.trips) (A B : A8 F) (y : S32x128.Idx) :
    ∀ p ∈ s5Pieces k A B, y ∈ p.1.set → (y 0).val = 2 * k.val ∨ (y 0).val = 2 * k.val + 1 := by
  intro p hp
  unfold s5Pieces at hp
  simp only [List.mem_cons, List.not_mem_nil, or_false] at hp
  rcases hp with rfl | rfl | rfl | rfl | rfl | rfl | rfl | rfl | rfl | rfl | rfl | rfl | rfl | rfl | rfl | rfl
  · exact fun hy => Or.inr (s5_piece_row k 1 7 (k0_off45 k 1#32) (k0_off45_inb k 1) (k0_off45_eq k 1) y hy)
  · exact fun hy => Or.inr (s5_piece_row k 1 6 (k0_off44 k 1#32) (k0_off44_inb k 1) (k0_off44_eq k 1) y hy)
  · exact fun hy => Or.inr (s5_piece_row k 1 5 (k0_off43 k 1#32) (k0_off43_inb k 1) (k0_off43_eq k 1) y hy)
  · exact fun hy => Or.inr (s5_piece_row k 1 4 (k0_off42 k 1#32) (k0_off42_inb k 1) (k0_off42_eq k 1) y hy)
  · exact fun hy => Or.inr (s5_piece_row k 1 3 (k0_off41 k 1#32) (k0_off41_inb k 1) (k0_off41_eq k 1) y hy)
  · exact fun hy => Or.inr (s5_piece_row k 1 2 (k0_off40 k 1#32) (k0_off40_inb k 1) (k0_off40_eq k 1) y hy)
  · exact fun hy => Or.inr (s5_piece_row k 1 1 (k0_off39 k 1#32) (k0_off39_inb k 1) (k0_off39_eq k 1) y hy)
  · exact fun hy => Or.inr (s5_piece_row k 1 0 (k0_off38 k 1#32) (k0_off38_inb k 1) (k0_off38_eq k 1) y hy)
  · exact fun hy => Or.inl (s5_piece_row k 0 7 (k0_off45 k 0#32) (k0_off45_inb k 0) (k0_off45_eq k 0) y hy)
  · exact fun hy => Or.inl (s5_piece_row k 0 6 (k0_off44 k 0#32) (k0_off44_inb k 0) (k0_off44_eq k 0) y hy)
  · exact fun hy => Or.inl (s5_piece_row k 0 5 (k0_off43 k 0#32) (k0_off43_inb k 0) (k0_off43_eq k 0) y hy)
  · exact fun hy => Or.inl (s5_piece_row k 0 4 (k0_off42 k 0#32) (k0_off42_inb k 0) (k0_off42_eq k 0) y hy)
  · exact fun hy => Or.inl (s5_piece_row k 0 3 (k0_off41 k 0#32) (k0_off41_inb k 0) (k0_off41_eq k 0) y hy)
  · exact fun hy => Or.inl (s5_piece_row k 0 2 (k0_off40 k 0#32) (k0_off40_inb k 0) (k0_off40_eq k 0) y hy)
  · exact fun hy => Or.inl (s5_piece_row k 0 1 (k0_off39 k 0#32) (k0_off39_inb k 0) (k0_off39_eq k 0) y hy)
  · exact fun hy => Or.inl (s5_piece_row k 0 0 (k0_off38 k 0#32) (k0_off38_inb k 0) (k0_off38_eq k 0) y hy)

omit [FloatOps F] [Named F] in
/-- Every index on rows 2·k and 2·k + 1 is under one of the sixteen pieces. -/
theorem s5Pieces_cover (k : Fin k0_t1_loop.trips) (A B : A8 F) (rr : Fin 2) (e : Fin 128) (hrow : 2 * k.val + rr.val < 32) :
    ∃ p ∈ s5Pieces k A B, (ix2 (⟨2 * k.val + rr.val, hrow⟩ : Fin 32) e : S32x128.Idx) ∈ p.1.set := by
  obtain ⟨c, l, h, rfl⟩ := split128 e
  unfold s5Pieces
  match rr, c with
  | ⟨1, _⟩, ⟨7, _⟩ => exact ⟨_, List.mem_cons_self, s5_piece_mem k 1 7 l (k0_off45 k 1#32) (k0_off45_inb k 1) (k0_off45_eq k 1) hrow h⟩
  | ⟨1, _⟩, ⟨6, _⟩ => exact ⟨_, List.mem_cons_of_mem _ (List.mem_cons_self), s5_piece_mem k 1 6 l (k0_off44 k 1#32) (k0_off44_inb k 1) (k0_off44_eq k 1) hrow h⟩
  | ⟨1, _⟩, ⟨5, _⟩ => exact ⟨_, List.mem_cons_of_mem _ (List.mem_cons_of_mem _ (List.mem_cons_self)), s5_piece_mem k 1 5 l (k0_off43 k 1#32) (k0_off43_inb k 1) (k0_off43_eq k 1) hrow h⟩
  | ⟨1, _⟩, ⟨4, _⟩ => exact ⟨_, List.mem_cons_of_mem _ (List.mem_cons_of_mem _ (List.mem_cons_of_mem _ (List.mem_cons_self))), s5_piece_mem k 1 4 l (k0_off42 k 1#32) (k0_off42_inb k 1) (k0_off42_eq k 1) hrow h⟩
  | ⟨1, _⟩, ⟨3, _⟩ => exact ⟨_, List.mem_cons_of_mem _ (List.mem_cons_of_mem _ (List.mem_cons_of_mem _ (List.mem_cons_of_mem _ (List.mem_cons_self)))), s5_piece_mem k 1 3 l (k0_off41 k 1#32) (k0_off41_inb k 1) (k0_off41_eq k 1) hrow h⟩
  | ⟨1, _⟩, ⟨2, _⟩ => exact ⟨_, List.mem_cons_of_mem _ (List.mem_cons_of_mem _ (List.mem_cons_of_mem _ (List.mem_cons_of_mem _ (List.mem_cons_of_mem _ (List.mem_cons_self))))), s5_piece_mem k 1 2 l (k0_off40 k 1#32) (k0_off40_inb k 1) (k0_off40_eq k 1) hrow h⟩
  | ⟨1, _⟩, ⟨1, _⟩ => exact ⟨_, List.mem_cons_of_mem _ (List.mem_cons_of_mem _ (List.mem_cons_of_mem _ (List.mem_cons_of_mem _ (List.mem_cons_of_mem _ (List.mem_cons_of_mem _ (List.mem_cons_self)))))), s5_piece_mem k 1 1 l (k0_off39 k 1#32) (k0_off39_inb k 1) (k0_off39_eq k 1) hrow h⟩
  | ⟨1, _⟩, ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), s5_piece_mem k 1 0 l (k0_off38 k 1#32) (k0_off38_inb k 1) (k0_off38_eq k 1) hrow h⟩
  | ⟨0, _⟩, ⟨7, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), s5_piece_mem k 0 7 l (k0_off45 k 0#32) (k0_off45_inb k 0) (k0_off45_eq k 0) hrow h⟩
  | ⟨0, _⟩, ⟨6, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), s5_piece_mem k 0 6 l (k0_off44 k 0#32) (k0_off44_inb k 0) (k0_off44_eq k 0) hrow h⟩
  | ⟨0, _⟩, ⟨5, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), s5_piece_mem k 0 5 l (k0_off43 k 0#32) (k0_off43_inb k 0) (k0_off43_eq k 0) hrow h⟩
  | ⟨0, _⟩, ⟨4, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), s5_piece_mem k 0 4 l (k0_off42 k 0#32) (k0_off42_inb k 0) (k0_off42_eq k 0) hrow h⟩
  | ⟨0, _⟩, ⟨3, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), s5_piece_mem k 0 3 l (k0_off41 k 0#32) (k0_off41_inb k 0) (k0_off41_eq k 0) hrow h⟩
  | ⟨0, _⟩, ⟨2, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), s5_piece_mem k 0 2 l (k0_off40 k 0#32) (k0_off40_inb k 0) (k0_off40_eq k 0) hrow h⟩
  | ⟨0, _⟩, ⟨1, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), s5_piece_mem k 0 1 l (k0_off39 k 0#32) (k0_off39_inb k 0) (k0_off39_eq k 0) hrow h⟩
  | ⟨0, _⟩, ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), s5_piece_mem k 0 0 l (k0_off38 k 0#32) (k0_off38_inb k 0) (k0_off38_eq k 0) hrow h⟩

omit [FloatOps F] [Named F] in
/-- Rows 2·k and 2·k + 1 are rows of the scratch. -/
theorem s5_row_lt (k : Fin k0_t1_loop.trips) (rr : Fin 2) : 2 * k.val + rr.val < 32 := by
  have hk : k.val < 16 := k.isLt
  have hr : rr.val < 2 := rr.isLt
  omega

theorem s5_writes_apply (f5 : Buf (Elt F) ((s5V).view.loc (V d (cV L) (jV L)))) (k : Fin k0_t1_loop.trips) (A B : A8 F) (row : Fin 32) (e : Fin 128) :
    ((s5V).view.writes (Elt F) f5 (s5Pieces k A B)) (ix2 row e)
      = if row.val = 2 * k.val then lane A e else if row.val = 2 * k.val + 1 then lane B e else f5 (ix2 row e) := by
  have hk : k.val < 16 := k.isLt
  have hrd : ∀ g : Buf (Elt F) ((s5V).view.loc (V d (cV L) (jV L))), g (ix2 row e) = (s5V).view.read (Elt F) g (ix2 row e) :=
    fun g => ((View.read_apply _ _).trans (cast_eq _ _)).symm
  rw [hrd ((s5V).view.writes (Elt F) f5 (s5Pieces k A B))]
  by_cases h0 : row.val = 2 * k.val
  · rw [if_pos h0]
    obtain rfl : row = ⟨2 * k.val + (0 : Fin 2).val, s5_row_lt k 0⟩ := Fin.ext (by show row.val = 2 * k.val + 0; omega)
    rw [View.read_writes_apply_of_pieces _ _ (s5Fn k A B) _ (s5Pieces_agree k A B) _ (s5Pieces_cover k A B 0 e _)]
    exact if_pos rfl
  · rw [if_neg h0]
    by_cases h1 : row.val = 2 * k.val + 1
    · rw [if_pos h1]
      obtain rfl : row = ⟨2 * k.val + (1 : Fin 2).val, s5_row_lt k 1⟩ := Fin.ext (by show row.val = 2 * k.val + 1; omega)
      rw [View.read_writes_apply_of_pieces _ _ (s5Fn k A B) _ (s5Pieces_agree k A B) _ (s5Pieces_cover k A B 1 e _)]
      exact if_neg (by show ¬ (2 * k.val + 1 = 2 * k.val); omega)
    · rw [if_neg h1]
      rw [View.read_writes_apply_of_forall_not_mem _ _ _ _ (fun p hp hy => by
        rcases s5Pieces_row k A B _ p hp hy with h | h
        · exact h0 h
        · exact h1 h)]
      exact (hrd f5).symm

/-! ## (L5) The pooled value of a sentence is the fold over its two token rows -/

/-- The first hundred words of sentence b are token row 2b: the running sum over them is the fold of the first row. -/
theorem accUpTo_first_row (t2 : S2048x100.Idx → BitVec 32) (tab : S100002x128.Idx → F .f32) (b : Nat) (hb : b < 1024) (e : Fin 128)
    (g0 : S100x128.Idx → F .f32)
    (h0 : ∀ r : Fin 100, g0 (ix2 r e) = tab (ix2 (rowOf (t2 (ix2 ⟨2 * b, by omega⟩ r))) e)) :
    ∀ n, n ≤ 100 → accUpTo t2 tab b e n = laneFold g0 (Scalar.ofBits .f32 0x00000000#32) e n := by
  intro n
  induction n with
  | zero => intro _; rfl
  | succ n ih =>
    intro hn
    have hw : wordAt t2 b n = t2 (ix2 ⟨2 * b, by omega⟩ ⟨n % 100, Nat.mod_lt _ (by decide)⟩) := by
      unfold wordAt
      congr 2
      exact Fin.ext (by show (2 * b + n / 100) % 2048 = 2 * b; omega)
    show FloatOps.addf (accUpTo t2 tab b e n) (tab (ix2 (rowOf (wordAt t2 b n)) e))
      = FloatOps.addf (laneFold g0 (Scalar.ofBits .f32 0x00000000#32) e n) (g0 (ix2 ⟨n % 100, Nat.mod_lt _ (by decide)⟩ e))
    rw [ih (by omega), h0, hw]

/-- The second hundred are token row 2b + 1: the running sum goes on as the fold of the second row. -/
theorem accUpTo_second_row (t2 : S2048x100.Idx → BitVec 32) (tab : S100002x128.Idx → F .f32) (b : Nat) (hb : b < 1024) (e : Fin 128)
    (g1 : S100x128.Idx → F .f32)
    (h1 : ∀ r : Fin 100, g1 (ix2 r e) = tab (ix2 (rowOf (t2 (ix2 ⟨2 * b + 1, by omega⟩ r))) e)) :
    ∀ n, n ≤ 100 → accUpTo t2 tab b e (100 + n) = laneFold g1 (accUpTo t2 tab b e 100) e n := by
  intro n
  induction n with
  | zero => intro _; rfl
  | succ n ih =>
    intro hn
    have hw : wordAt t2 b (100 + n) = t2 (ix2 ⟨2 * b + 1, by omega⟩ ⟨n % 100, Nat.mod_lt _ (by decide)⟩) := by
      unfold wordAt
      congr 2
      · exact Fin.ext (by show (2 * b + (100 + n) / 100) % 2048 = 2 * b + 1; omega)
      · exact Fin.ext (by show (100 + n) % 100 = n % 100; omega)
    show FloatOps.addf (accUpTo t2 tab b e (100 + n)) (tab (ix2 (rowOf (wordAt t2 b (100 + n))) e))
      = FloatOps.addf (laneFold g1 (accUpTo t2 tab b e 100) e n) (g1 (ix2 ⟨n % 100, Nat.mod_lt _ (by decide)⟩ e))
    rw [ih (by omega), h1, hw]

theorem accUpTo_two_rows (t2 : S2048x100.Idx → BitVec 32) (tab : S100002x128.Idx → F .f32) (b : Nat) (hb : b < 1024) (e : Fin 128)
    (g0 g1 : S100x128.Idx → F .f32)
    (h0 : ∀ r : Fin 100, g0 (ix2 r e) = tab (ix2 (rowOf (t2 (ix2 ⟨2 * b, by omega⟩ r))) e))
    (h1 : ∀ r : Fin 100, g1 (ix2 r e) = tab (ix2 (rowOf (t2 (ix2 ⟨2 * b + 1, by omega⟩ r))) e)) :
    accUpTo t2 tab b e 200 = laneFold g1 (laneFold g0 (Scalar.ofBits .f32 0x00000000#32) e 100) e 100 := by
  rw [← accUpTo_first_row t2 tab b hb e g0 h0 100 le_rfl]
  exact accUpTo_second_row t2 tab b hb e g1 h1 100 le_rfl

end Val

end Cert.Proof.IdealSide

end
-- ==== Proof.IdealBodyVal6.lean ====
/-
  The last copy. Row j, feature e of the pooled scratch lands at row 32·w + j, feature e of the pooled matrix, w the
  task's worker number. So if every entry of the scratch is the pooled value of its sentence, the task's rows of the
  matrix are the pooled value afterwards.
-/
import proofs.«202922_g81758997446792_cont_9to1_m_1158_4_alg».proof.Proof.IdealTile
import proofs.«202922_g81758997446792_cont_9to1_m_1158_4_alg».proof.Proof.IdealBodyRows

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

section Val6
variable (d : Dev nD) (L : grid0.Coords)

omit [FloatOps F] [Named F] in
/-- Where the task's j-th pooled row sits in the pooled matrix: row 32·w + j, same feature. -/
theorem outK_emb (j : S32x128.Idx) :
    (((outK L).view.emb j) 0).val = 32 * (wid L).val + (j 0).val ∧ (((outK L).view.emb j) 1).val = (j 1).val := by
  have h0 : (k0_off46 L) 0 = 64 * (L 1).val + 32 * (L 0).val := by rw [k0_off46_eq]; rfl
  have h1 : (k0_off46 L) 1 = 0 := by rw [k0_off46_eq]; rfl
  constructor
  · show (k0_off46 L) 0 + 1 * (j 0).val = 32 * (2 * (L 1).val + (L 0).val) + (j 0).val
    rw [h0]; omega
  · show (k0_off46 L) 1 + 1 * (j 1).val = (j 1).val
    rw [h1]; omega

/-- Copied out, the pooled scratch's thirty-two rows are the task's rows of the pooled matrix. -/
theorem out_final (t2 : Buf (Elt F) (tokLoc d)) (tab : Buf (Elt F) (tabLoc d)) (o : Buf (Elt F) (outLoc d)) (g5 : Buf (Elt F) ((s5V).view.loc (V d (cV L) (jV L))))
    (hP : ∀ (row : Fin 32) (e : Fin 128),
      g5 (ix2 row e) = pooledF (F := F) t2 tab (ix2 ⟨32 * (wid L).val + row.val, by have := (wid L).isLt; have := row.isLt; omega⟩ e)) :
    ∀ i ∈ outSet L, ((outK L).view.writes (Elt F) o [⟨Rect.whole S32x128, ReadAs.same.apply ((s5V).view.read (Elt F) g5)⟩]) i
      = pooledF (F := F) t2 tab i := by
  intro i hi
  obtain ⟨j, -, rfl⟩ := Finset.mem_map.mp hi
  have e1 : (outK L).view.emb j = ((outK L).view.slice (Rect.whole S32x128)).emb j := by
    show _ = (outK L).view.emb ((Rect.whole S32x128).emb j); rw [Rect.emb_whole_apply]
  rw [View.writes_singleton]
  refine (congrArg _ e1).trans ((View.write_emb_of_mem (v := (outK L).view.slice (Rect.whole S32x128)) o _ (Finset.mem_univ j)).trans ?_)
  refine (cast_eq _ _).trans ?_
  show g5 j = _
  obtain ⟨h0, h1⟩ := outK_emb L j
  have hj : (j : S32x128.Idx) = ix2 (⟨(j 0).val, (show (j 0).val < 32 from (j 0).isLt)⟩ : Fin 32) (⟨(j 1).val, (show (j 1).val < 128 from (j 1).isLt)⟩ : Fin 128) := by
    funext a
    match a with
    | 0 => rfl
    | 1 => rfl
  refine (congrArg g5 hj).trans ((hP _ _).trans ?_)
  show accUpTo t2 tab _ _ 200 = accUpTo t2 tab _ _ 200
  congr 1
  · exact h0.symm
  · exact Fin.ext h1.symm

end Val6

end Cert.Proof.IdealSide

end
-- ==== Proof.IdealBody.lean ====
/-
  The pooling task computes the pooled value.

  The predicate followed through the trips: rows below 2k of the pooled scratch hold the pooled value of the task's
  first 2k sentences. It asks nothing at k = 0. A trip stores two rows. Row 2k is the fold, from zero, of the hundred
  table rows that token row 64w + 4k names and then the hundred that token row 64w + 4k + 1 names: the two hundred
  entries of sentence 32w + 2k in reading order, its pooled value. Row 2k + 1 is the same from token rows 64w + 4k + 2
  and 64w + 4k + 3, sentence 32w + 2k + 1. After sixteen trips all 32 rows are pooled values, and the copy out puts them
  at the task's rows of the pooled matrix.
-/
import proofs.«202922_g81758997446792_cont_9to1_m_1158_4_alg».proof.Proof.IdealTile
import proofs.«202922_g81758997446792_cont_9to1_m_1158_4_alg».proof.Proof.IdealBodyGen
import proofs.«202922_g81758997446792_cont_9to1_m_1158_4_alg».proof.Proof.IdealBodyVal
import proofs.«202922_g81758997446792_cont_9to1_m_1158_4_alg».proof.Proof.IdealBodyVal6

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

local notation "tokV" => (Memref.whole Cert.KernelIdeal.main_v0_scv : Memref Cert.KernelIdeal.sig Kind.scVector Space.hbm Cert.KernelIdeal.S2048x100 EltTy.i32)
local notation "tabV" => (Memref.whole Cert.KernelIdeal.main_arg1_scv : Memref Cert.KernelIdeal.sig Kind.scVector Space.hbm Cert.KernelIdeal.S100002x128 EltTy.f32)
local notation "outV" => (Memref.whole Cert.KernelIdeal.main_v1_scv : Memref Cert.KernelIdeal.sig Kind.scVector Space.hbm Cert.KernelIdeal.S1024x128 EltTy.f32)
local notation "s0V" => (Memref.whole Cert.KernelIdeal.cc0_scratch0 : Memref Cert.KernelIdeal.sig Kind.scVector Space.vmem Cert.KernelIdeal.S64x100 EltTy.i32)
local notation "s1V" => (Memref.whole Cert.KernelIdeal.cc0_scratch1 : Memref Cert.KernelIdeal.sig Kind.scVector Space.vmem Cert.KernelIdeal.S100x128 EltTy.f32)
local notation "s2V" => (Memref.whole Cert.KernelIdeal.cc0_scratch2 : Memref Cert.KernelIdeal.sig Kind.scVector Space.vmem Cert.KernelIdeal.S100x128 EltTy.f32)
local notation "s3V" => (Memref.whole Cert.KernelIdeal.cc0_scratch3 : Memref Cert.KernelIdeal.sig Kind.scVector Space.vmem Cert.KernelIdeal.S100x128 EltTy.f32)
local notation "s4V" => (Memref.whole Cert.KernelIdeal.cc0_scratch4 : Memref Cert.KernelIdeal.sig Kind.scVector Space.vmem Cert.KernelIdeal.S100x128 EltTy.f32)
local notation "s5V" => (Memref.whole Cert.KernelIdeal.cc0_scratch5 : Memref Cert.KernelIdeal.sig Kind.scVector Space.vmem Cert.KernelIdeal.S32x128 EltTy.f32)

section Top
variable (d : Dev nD) (L : grid0.Coords)

/-- Rows below 2·k of the pooled scratch hold the pooled value of the task's first 2·k sentences. -/
def P5 (t2 : Buf (Elt F) (tokLoc d)) (tab : Buf (Elt F) (tabLoc d)) (k : Nat) (f5 : Buf (Elt F) ((s5V).view.loc (V d (cV L) (jV L)))) : Prop :=
  ∀ (row : Fin 32) (e : Fin 128), row.val < 2 * k →
    f5 (ix2 row e) = pooledF (F := F) t2 tab (ix2 ⟨32 * (wid L).val + row.val, by have := (wid L).isLt; have := row.isLt; omega⟩ e)

/-- The eight zero vectors a row sum starts from. -/
abbrev zK : A8 F := (k0_pay52 (F := F), k0_pay53 (F := F), k0_pay54 (F := F), k0_pay55 (F := F), k0_pay56 (F := F), k0_pay1 (Scalar.ofBits .f32 0x00000000#32 : F .f32), k0_pay2 (F := F), k0_pay3 (F := F))

theorem comp8_zK (c : Fin 8) (i : S16.Idx) : comp8 (F := F) zK c i = Scalar.ofBits .f32 0x00000000#32 := by
  fin_cases c <;> rfl

theorem lane_zK (e : Fin 128) : lane (F := F) zK e = Scalar.ofBits .f32 0x00000000#32 := comp8_zK _ _

/-- One trip's sixteen stores extend the pooled rows by the two sentences the trip summed. -/
theorem P5_step (t2 : Buf (Elt F) (tokLoc d)) (tab : Buf (Elt F) (tabLoc d)) (hpre : PreOK t2) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (k : Fin k0_t1_loop.trips) (f5 : Buf (Elt F) ((s5V).view.loc (V d (cV L) (jV L)))) (off0 : Fin 2 → Nat) (hoff0 : ∀ a, off0 a + S1x100.size a ≤ S64x100.size a) (off1 : Fin 2 → Nat) (hoff1 : ∀ a, off1 a + S1x100.size a ≤ S64x100.size a) (off2 : Fin 2 → Nat) (hoff2 : ∀ a, off2 a + S1x100.size a ≤ S64x100.size a) (off3 : Fin 2 → Nat) (hoff3 : ∀ a, off3 a + S1x100.size a ≤ S64x100.size a)
    (he0 : off0 = ![4 * k.val + 0, 0]) (he1 : off1 = ![4 * k.val + 1, 0]) (he2 : off2 = ![4 * k.val + 2, 0]) (he3 : off3 = ![4 * k.val + 3, 0])
    (hP : P5 d L t2 tab k.val f5) :
    P5 d L t2 tab (k.val + 1) ((s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t4_loop.trips) k0_t5_loop.trips))) := by
  have hk16 : k.val < 16 := lt_of_lt_of_le k.isLt k0_t1_abs.2.1
  have hw : (wid L).val < 32 := (wid L).isLt
  have ht2 : k0_t2_loop.trips = 100 := by decide
  have ht3 : k0_t3_loop.trips = 100 := by decide
  have ht4 : k0_t4_loop.trips = 100 := by decide
  have ht5 : k0_t5_loop.trips = 100 := by decide
  intro row e hrow
  rw [s5_writes_apply]
  by_cases h1 : row.val = 2 * k.val
  · rw [if_pos h1, ht2, lane_rowFold1 d L _ _ 100 (le_refl _) e, lane_rowFold0 d L _ _ 100 (le_refl _) e, lane_zK]
    refine (accUpTo_two_rows (F := F) t2 tab (32 * (wid L).val + row.val) (by have := row.isLt; omega) e _ _ ?_ ?_).symm
    · intro r
      rw [cont0_apply d L t2 tab hin hpre off0 hoff0 (4 * k.val + 0) (by omega) he0 r e]
      exact congrArg (fun i => tab (ix2 (rowOf (t2 (ix2 i r))) e)) (Fin.ext (by show 64 * (wid L).val + (4 * k.val + 0) = 2 * (32 * (wid L).val + row.val); omega))
    · intro r
      rw [cont1_apply d L t2 tab hin hpre off1 hoff1 (4 * k.val + 1) (by omega) he1 r e]
      exact congrArg (fun i => tab (ix2 (rowOf (t2 (ix2 i r))) e)) (Fin.ext (by show 64 * (wid L).val + (4 * k.val + 1) = 2 * (32 * (wid L).val + row.val) + 1; omega))
  · rw [if_neg h1]
    by_cases h2 : row.val = 2 * k.val + 1
    · rw [if_pos h2, ht4, lane_rowFold3 d L _ _ 100 (le_refl _) e, lane_rowFold2 d L _ _ 100 (le_refl _) e, lane_zK]
      refine (accUpTo_two_rows (F := F) t2 tab (32 * (wid L).val + row.val) (by have := row.isLt; omega) e _ _ ?_ ?_).symm
      · intro r
        rw [cont2_apply d L t2 tab hin hpre off2 hoff2 (4 * k.val + 2) (by omega) he2 r e]
        exact congrArg (fun i => tab (ix2 (rowOf (t2 (ix2 i r))) e)) (Fin.ext (by show 64 * (wid L).val + (4 * k.val + 2) = 2 * (32 * (wid L).val + row.val); omega))
      · intro r
        rw [cont3_apply d L t2 tab hin hpre off3 hoff3 (4 * k.val + 3) (by omega) he3 r e]
        exact congrArg (fun i => tab (ix2 (rowOf (t2 (ix2 i r))) e)) (Fin.ext (by show 64 * (wid L).val + (4 * k.val + 3) = 2 * (32 * (wid L).val + row.val) + 1; omega))
    · rw [if_neg h2]
      exact hP row e (by omega)

end Top

/-- The task's body: the token rows fetched, the two hundred table rows of each of the task's thirty-two sentences gathered
    and added up in reading order, the sums written to the task's rows of the pooled matrix. -/
theorem tile_body (hF : (K (F := F)).Facts) (d : Dev nD) (L : grid0.Coords) (t2 : Buf (Elt F) (tokLoc d)) (tab : Buf (Elt F) (tabLoc d)) (o : Buf (Elt F) (outLoc d)) (hpre : PreOK t2)
      (O : CellTallies nD τ sig (HIx 1)) (W : Waits sig (HIx 1)) (hO : ∀ g, O g none = 0) :
    iprop(levAts (K (F := F)).L (K (F := F)).lev ∗ emp ∗ tileGo d t2 tab o L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pooled_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1)
          fun _ => iprop(tileTd d t2 tab L ∗ scopedBufs (V d (cV L) (jV L)) ∗ scopedSems0 (V d (cV L) (jV L))
            ∗ ∃ W', ⌜∀ p ∈ W', p ∈ W ∨ p.2 = none⌝ ∗ owes (V d (cV L) (jV L)) O W') := by
  refine (tile_body_gen (F := F) d L hF t2 tab o hpre O W hO (P5 d L t2 tab) (fun f row e h => absurd h (by omega))
    (fun hin k f5 off0 hoff0 off1 hoff1 off2 hoff2 off3 hoff3 he0 he1 he2 he3 hP =>
      P5_step d L t2 tab hpre hin k f5 off0 hoff0 off1 hoff1 off2 hoff2 off3 hoff3 he0 he1 he2 he3 hP)).trans (wp_mono frame _ _ fun _ => ?_)
  unfold tileTd
  iintro ⟨Htok, Htab, ⟨%g5, %hP, Hout⟩, Hb, Hs, HW⟩
  isplitl [Htok Htab Hout]
  · isplitl [Htok]; · iexact Htok
    isplitl [Htab]; · iexact Htab
    iapply (Entails.of_eq (pointsTo_congr (out_final d L t2 tab o g5 (fun row e => hP row e (by
      have h16 : k0_t1_loop.trips = 16 := by decide
      have := row.isLt
      omega)))))
    iexact Hout
  isplitl [Hb]; · iexact Hb
  isplitl [Hs]; · iexact Hs
  iexact HW

end Cert.Proof.IdealSide

end
-- ==== Proof.IdealRun.lean ====
/-
  The program's run: every weakly fair execution of @main and the 34 SparseCore threads terminates, faults nowhere,
  and ends with every array of the TensorCore at what @main's steps leave in it.
-/
import proofs.«202922_g81758997446792_cont_9to1_m_1158_4_alg».proof.Proof.IdealTile
import proofs.«202922_g81758997446792_cont_9to1_m_1158_4_alg».proof.Proof.IdealEnds
import proofs.«202922_g81758997446792_cont_9to1_m_1158_4_alg».proof.Proof.IdealBody

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F] [Named F]
variable (m : (ℓ : Loc nD τ sig) → Buf (Elt F) ℓ) (ρ : Dev nD → PrngReg)

/-! ## The task's obligation, from its body's run -/

theorem defs₀_vector (c : Fin τ.nSC) (s : Fin τ.nSub) :
    defs₀ (F := F) (.scVector c s) 0 ()
      = SparseCore.onTile hcore0 hsub0 (fun c s => cc0__pooled_body (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : ∀ d, PreOK (tk m d)) : (K (F := F)).TileObl (D (F := F)) 𝒱 (Pm m) v₀ 0 := by
  intro d c i O W hO _ _
  simp only [show (Pm m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body facts d (coordsV ⟨_, hci.1⟩ ⟨_, hci.2⟩) (tk m d) (tb m d) (o1 m d) (hpre d) O W hO).trans (wp_mono frame _ _ fun _ => obl_post)

/-! ## The run -/

/-- Every array of the TensorCore ends at what @main's steps leave in it. -/
def QC : PUnit × MemSt nD τ sig (Elt F) → Prop := fun r =>
  ∀ c : Dev nD, ∀ b : Ref sig .tc, ¬ b.isScoped → r.2.mem ((c.tc : Thread nD τ).loc b) = afterRegion (Vv m) c b

theorem run_main [∀ e, Nonempty (Elt F e)] (hpre : ∀ d, PreOK (tk m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq)
    (fun q _ => match q with | 0 => tileObl m hpre)
    (fun q _ => match q with | 0 => SparseCore.Cfg.VecSplit.of_plain (vecSplit (tk m) (tb m) (o1 m)))
    m ρ main (GP (F := F)) (FIN m) (u₀ (F := F)) (sep_elim_left.trans (hu₀ m)) (hmain m ρ) (fq m) (hfin m) (QC m) (fun _ h => h)

end Cert.Proof.IdealSide

end
-- ==== Proof.BagSpec.lean ====
/-
  The function both programs compute, written once over the argument arrays, at the extended reals.

  A sentence is a row of 200 token words; each word names a row of the embedding table. The pooled
  vector of a sentence is the sum of the 200 rows its words name, scaled by 1/200 (the mean). Three
  affine layers follow, the first two clamped below at zero:
      h1 = max (mean · W1 + b1) 0,   h2 = max (h1 · W2 + b2) 0,   out = h2 · W3 + b3.
  A word is read as a natural number and kept below the table's 100002 rows; where every word is at
  most 99999 (the domain both programs are compared on) that is the word itself.
-/
import Idealize.ShloMosaic.PureOps.Ideal
import Idealize.ShloMosaic.Lib.ValueIdx

noncomputable section

namespace Cert.BagSpec

open Idealize.ShloMosaic Idealize.ShloMosaic.ValueIdx

abbrev STok : Shape := ⟨2, ![1024, 200]⟩
abbrev STab : Shape := ⟨2, ![100002, 128]⟩
abbrev SW1 : Shape := ⟨2, ![128, 100]⟩
abbrev SW : Shape := ⟨2, ![100, 100]⟩
abbrev SB : Shape := ⟨1, ![100]⟩
abbrev SOut : Shape := ⟨2, ![1024, 100]⟩
abbrev SPool : Shape := ⟨2, ![1024, 128]⟩

/-- Every token word, read as a natural number, is at most 99999. -/
def InRange (tok : STok.Idx → BitVec 32) : Prop := ∀ i, (tok i).toNat ≤ 99999

/-- The table row a token word names: its value as a natural number, kept below the table's 100002 rows. -/
def row (t : BitVec 32) : Fin 100002 := ⟨min t.toNat 100001, by omega⟩

theorem row_val_of_le {t : BitVec 32} (h : t.toNat ≤ 99999) : (row t).val = t.toNat := by
  show min t.toNat 100001 = t.toNat; omega

/-- The sum over a sentence's 200 words of the table rows they name, at one feature. -/
def pooled (tok : STok.Idx → BitVec 32) (tab : STab.Idx → EReal) (b : Fin 1024) (e : Fin 128) : EReal :=
  ∑ l : Fin 200, tab (ix2 (row (tok (ix2 b l))) e)

/-- The mean over the sentence: the pooled sum times 1/200. -/
def mean (tok : STok.Idx → BitVec 32) (tab : STab.Idx → EReal) (b : Fin 1024) (e : Fin 128) : EReal :=
  pooled tok tab b e * ((1 / 200 : ℝ) : EReal)

/-- First layer: the mean through W1 plus b1, clamped below at zero. -/
def hid1 (tok : STok.Idx → BitVec 32) (tab : STab.Idx → EReal) (W1 : SW1.Idx → EReal) (b1 : SB.Idx → EReal)
    (b : Fin 1024) (j : Fin 100) : EReal :=
  max ((∑ e : Fin 128, mean tok tab b e * W1 (ix2 e j)) + b1 (ix1 j)) 0

/-- Second layer: the first through W2 plus b2, clamped below at zero. -/
def hid2 (tok : STok.Idx → BitVec 32) (tab : STab.Idx → EReal) (W1 : SW1.Idx → EReal) (b1 : SB.Idx → EReal)
    (W2 : SW.Idx → EReal) (b2 : SB.Idx → EReal) (b : Fin 1024) (j : Fin 100) : EReal :=
  max ((∑ k : Fin 100, hid1 tok tab W1 b1 b k * W2 (ix2 k j)) + b2 (ix1 j)) 0

/-- The result: the second layer through W3 plus b3. -/
def logits (tok : STok.Idx → BitVec 32) (tab : STab.Idx → EReal) (W1 : SW1.Idx → EReal) (b1 : SB.Idx → EReal)
    (W2 : SW.Idx → EReal) (b2 : SB.Idx → EReal) (W3 : SW.Idx → EReal) (b3 : SB.Idx → EReal) : SOut.Idx → EReal :=
  fun i => (∑ k : Fin 100, hid2 tok tab W1 b1 W2 b2 (i 0) k * W3 (ix2 k (i 1))) + b3 (ix1 (i 1))

end Cert.BagSpec

end
-- ==== Proof.IdealBack.lean ====
/-
  The final contents, read back through @main's host steps: an argument array ends as launched; the token matrix the
  SparseCore kernel reads is the launch matrix in row-major order as [2048, 100]; each bias row is its vector as [1, 100].
-/
import proofs.«202922_g81758997446792_cont_9to1_m_1158_4_alg».proof.Proof.IdealTile
import proofs.«202922_g81758997446792_cont_9to1_m_1158_4_alg».proof.Proof.IdealEnds
import proofs.«202922_g81758997446792_cont_9to1_m_1158_4_alg».proof.Proof.BagSpec

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F] [Named F]
variable (m : (ℓ : Loc nD τ sig) → Buf (Elt F) ℓ)

/-! ## The host steps' results -/

theorem V2_kept (d : Dev nD) (b : DevRef τ sig) (h0 : b ≠ rf main_v0) (h1 : b ≠ rf main_v1) : V2 m d b = m (d, b) := by
  unfold V2 V1 V0
  rw [Function.update_of_ne h1, (opTok (F := F)).result_of_not_mem _ (fun hm => h0 (Finset.mem_singleton.mp hm))]

/-- The token matrix as the SparseCore kernel reads it: the launch matrix's elements in row-major order as [2048, 100]. -/
theorem tk_eq (d : Dev nD) :
    tk m d = shapeCast S2048x100 (m (d, rf main_arg0) : S1024x200.Idx → BitVec 32) shapeCasts_S1024x200_S2048x100 := by
  unfold tk V1
  refine (StableHlo.reshape_result main_arg0 main_v0 rfl shapeCasts_S1024x200_S2048x100 ⟨by decide, rfl⟩ ⟨by decide, rfl⟩ (V0 m d)).trans ?_
  rfl

theorem V5_b1 (d : Dev nD) :
    V5 m d (rf main_v2) = shapeCast S1x100 (m (d, rf main_arg3) : S100.Idx → F .f32) shapeCasts_S100_S1x100 := by
  unfold V5 V4
  rw [(opB3 (F := F)).result_of_not_mem _ (show rf main_v2 ∉ ({rf main_v4} : Finset (DevRef τ sig)) by decide),
    (opB2 (F := F)).result_of_not_mem _ (show rf main_v2 ∉ ({rf main_v3} : Finset (DevRef τ sig)) by decide)]
  unfold V3
  refine (StableHlo.reshape_result main_arg3 main_v2 rfl shapeCasts_S100_S1x100 ⟨by decide, rfl⟩ ⟨by decide, rfl⟩ (V2 m d)).trans ?_
  funext i
  show shapeCast S1x100 (V2 m d (rf main_arg3)) shapeCasts_S100_S1x100 i = _
  rw [V2_kept m d (rf main_arg3) (by decide) (by decide)]

theorem V5_b2 (d : Dev nD) :
    V5 m d (rf main_v3) = shapeCast S1x100 (m (d, rf main_arg5) : S100.Idx → F .f32) shapeCasts_S100_S1x100 := by
  unfold V5
  rw [(opB3 (F := F)).result_of_not_mem _ (show rf main_v3 ∉ ({rf main_v4} : Finset (DevRef τ sig)) by decide)]
  unfold V4
  refine (StableHlo.reshape_result main_arg5 main_v3 rfl shapeCasts_S100_S1x100 ⟨by decide, rfl⟩ ⟨by decide, rfl⟩ (V3 m d)).trans ?_
  funext i
  show shapeCast S1x100 (V3 m d (rf main_arg5)) shapeCasts_S100_S1x100 i = _
  rw [show V3 m d (rf main_arg5) = m (d, rf main_arg5) from by
    unfold V3
    rw [(opB1 (F := F)).result_of_not_mem _ (show rf main_arg5 ∉ ({rf main_v2} : Finset (DevRef τ sig)) by decide)]
    exact V2_kept m d (rf main_arg5) (by decide) (by decide)]

theorem V5_b3 (d : Dev nD) :
    V5 m d (rf main_v4) = shapeCast S1x100 (m (d, rf main_arg7) : S100.Idx → F .f32) shapeCasts_S100_S1x100 := by
  unfold V5
  refine (StableHlo.reshape_result main_arg7 main_v4 rfl shapeCasts_S100_S1x100 ⟨by decide, rfl⟩ ⟨by decide, rfl⟩ (V4 m d)).trans ?_
  funext i
  show shapeCast S1x100 (V4 m d (rf main_arg7)) shapeCasts_S100_S1x100 i = _
  rw [show V4 m d (rf main_arg7) = m (d, rf main_arg7) from by
    unfold V4 V3
    rw [(opB2 (F := F)).result_of_not_mem _ (show rf main_arg7 ∉ ({rf main_v3} : Finset (DevRef τ sig)) by decide),
      (opB1 (F := F)).result_of_not_mem _ (show rf main_arg7 ∉ ({rf main_v2} : Finset (DevRef τ sig)) by decide)]
    exact V2_kept m d (rf main_arg7) (by decide) (by decide)]

/-- An argument array ends as launched. -/
theorem arg_kept (d : Dev nD) (b : Ref sig .tc) (hb : b ≠ main_v5) (h0 : rf b ≠ rf main_v0) (h1 : rf b ≠ rf main_v1) (h2 : rf b ≠ rf main_v2)
    (h3 : rf b ≠ rf main_v3) (h4 : rf b ≠ rf main_v4) : afterRegion (Vv m) d b = m ((d.tc : Thread nD τ).loc b) :=
  (afterRegion_of_ne (Vv m) d hb).trans (V5_kept m d (rf b) h0 h1 h2 h3 h4)

/-- The token matrix's words name table rows when the launch matrix's do. -/
theorem preOK_tk (d : Dev nD) (h : Cert.BagSpec.InRange (m (d, rf main_arg0))) : PreOK (tk m d) := by
  intro j; rw [tk_eq]; exact h _

end Cert.Proof.IdealSide

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.IdealValue.lean ====
/-
  The kernel's two stages are the specification's, at the extended reals.

  The pooling stage adds a sentence's 200 named table entries from the left, starting at the zero word; on the
  extended reals that fold is the plain sum. It reads the tokens as a [2048, 100] matrix, two rows per sentence:
  word l of sentence b sits at row 2 b + l / 100 and column l % 100, which is the position of (b, l) in the
  [1024, 200] matrix the specification reads. The second stage scales the pooled sums by the named constant, which
  is 1/200 there, and runs the three affine layers: each product into a zero accumulator is the plain sum over the
  shared axis, a bias row broadcast down the 1024 rows adds its entry at the column, and the clamp is the maximum
  with zero.
-/
import proofs.«202922_g81758997446792_cont_9to1_m_1158_4_alg».proof.Proof.IdealTile
import proofs.«202922_g81758997446792_cont_9to1_m_1158_4_alg».proof.Proof.BagSpec
import proofs.«202922_g81758997446792_cont_9to1_m_1158_4_alg».proof.Proof.LibPlainMatmul
import Idealize.ShloMosaic.PureOps.IdealRules
import Idealize.ShloMosaic.Lib.Pipeline.Value
import Idealize.ShloMosaic.Lib.ValueLayout

noncomputable section

namespace Cert.Proof.IdealValue

open Cert.KernelIdeal Cert.KernelIdeal.Gen Cert.Proof.IdealSide
open Idealize.ShloMosaic Idealize.ShloMosaic.ValueIdx

/-! ## The pooling stage -/

/-- On the extended reals the left fold of the first n named entries is their sum. -/
theorem accUpTo_eq_sum (t2 : S2048x100.Idx → BitVec 32) (tab : S100002x128.Idx → EReal) (b : Nat) (e : Fin 128) (n : Nat) :
    accUpTo (F := Ideal) t2 tab b e n = ∑ k ∈ Finset.range n, tab (ix2 (rowOf (wordAt t2 b k)) e) := by
  induction n with
  | zero =>
    show Ideal.ofBits .f32 0x00000000#32 = _
    rw [Ideal.ofBits_zero_f32, Finset.sum_range_zero]
  | succ n ih =>
    show accUpTo (F := Ideal) t2 tab b e n + tab (ix2 (rowOf (wordAt t2 b n)) e) = _
    rw [ih, Finset.sum_range_succ]

/-- Word l of sentence b in the [2048, 100] reading of the tokens is the token at (b, l). -/
theorem wordAt_reshape (tok : Cert.BagSpec.STok.Idx → BitVec 32) (h : S1024x200.ShapeCasts S2048x100) (b : Fin 1024)
    (l : Fin 200) : wordAt (shapeCast S2048x100 tok h) b.val l.val = tok (ix2 b l) := by
  unfold wordAt
  refine shapeCast_apply tok h _ (ix2 b l) ?_
  rw [Shape.rowMajor_val_two, Shape.rowMajor_val_two]
  show b.val * 200 + l.val = ((2 * b.val + l.val / 100) % 2048) * 100 + l.val % 100
  have hb := b.isLt
  have hl := l.isLt
  omega

/-- The pooled matrix of the re-read tokens is the specification's pooled sum. -/
theorem pooled_eq (tok : Cert.BagSpec.STok.Idx → BitVec 32) (tab : Cert.BagSpec.STab.Idx → EReal)
    (h : S1024x200.ShapeCasts S2048x100) (i : S1024x128.Idx) :
    pooledF (F := Ideal) (shapeCast S2048x100 tok h) tab i = Cert.BagSpec.pooled tok tab (i 0) (i 1) := by
  unfold pooledF Cert.BagSpec.pooled
  refine (accUpTo_eq_sum _ tab (i 0).val (i 1) 200).trans ?_
  rw [Finset.sum_range]
  refine Finset.sum_congr rfl fun l _ => ?_
  rw [wordAt_reshape tok h (i 0) l]
  rfl

/-! ## The layers -/

/-- The kernel's named reciprocal is 1/200 on the extended reals, by the certificate's table. -/
theorem inv_200 : Named.named (F := Ideal) κ "inv_200" (φ := .f32) 0x3BA3D70A#32 = (((1 : ℝ) / 200 : ℝ) : EReal) :=
  IdealRules.named_const.ideal_named_scalar _ _ _ _ rfl

/-- A bias vector re-read as one row, then broadcast down the rows, at (p, j): its entry at j. -/
theorem biasRow_apply (bias : Cert.BagSpec.SB.Idx → EReal) (hb : S100.ShapeCasts S1x100) (p : Fin 1024) (j : Fin 100) :
    broadcastTo S1024x100 (shapeCast S1x100 (shapeCast S1x100 bias hb) shapeCasts_S1x100_S1x100) broadcasts_S1x100_S1024x100
      (ix2 p j) = bias (ix1 j) := by
  rw [shapeCast_self]
  refine (broadcastTo_1b_ab_apply _ _ p j).trans ?_
  refine shapeCast_apply bias hb _ (ix1 j) ?_
  rw [Shape.rowMajor_val_one, Shape.rowMajor_val_two]
  show j.val = 0 * 100 + j.val
  omega

/-- The first product, into the zero accumulator, at (p, j). -/
theorem prod1_apply (x : FVec Ideal S1024x128 .f32) (W : FVec Ideal S128x100 .f32) (p : Fin 1024) (j : Fin 100) :
    matmul (F := Ideal) dot_S1024x128_S128x100_S1024x100_1_0_0_1_n_n none x W (constant (F := Ideal) S1024x100 .f32 0x00000000#32) (ix2 p j)
      = ∑ c : Fin 128, x (ix2 p c) * W (ix2 c j) :=
  Cert.PointConv.plainMatmul_zero_apply dot_S1024x128_S128x100_S1024x100_1_0_0_1_n_n_wf none x W p j

/-- A later product, into the zero accumulator, at (p, j). -/
theorem prod_apply (x : FVec Ideal S1024x100 .f32) (W : FVec Ideal S100x100 .f32) (p : Fin 1024) (j : Fin 100) :
    matmul (F := Ideal) dot_S1024x100_S100x100_S1024x100_1_0_0_1_n_n none x W (constant (F := Ideal) S1024x100 .f32 0x00000000#32) (ix2 p j)
      = ∑ c : Fin 100, x (ix2 p c) * W (ix2 c j) :=
  Cert.PointConv.plainMatmul_zero_apply dot_S1024x100_S100x100_S1024x100_1_0_0_1_n_n_wf none x W p j

/-- The clamp against the splat of the zero word, at an index: the maximum with zero. -/
theorem clamp_apply (x : FVec Ideal S1024x100 .f32) (i : S1024x100.Idx) :
    maximumf (F := Ideal) x (broadcast S1024x100 (Scalar.ofBits (F := Ideal) .f32 0x00000000#32)) i = max (x i) 0 := by
  show max (x i) (Ideal.ofBits .f32 0x00000000#32) = _
  rw [Ideal.ofBits_zero_f32]

/-! ### The stages as the kernel writes them -/

/-- The pooled sums scaled by the named constant. -/
def kScaled (x : S1024x128.Idx → EReal) : FVec Ideal S1024x128 .f32 :=
  mulf (F := Ideal) (shapeCast S1024x128 x shapeCasts_S1024x128_S1024x128)
    (broadcast S1024x128 (Named.named (F := Ideal) κ "inv_200" (φ := .f32) 0x3BA3D70A#32))

/-- A bias vector, re-read as one row, broadcast down the rows. -/
def kBias (bias : Cert.BagSpec.SB.Idx → EReal) (hb : S100.ShapeCasts S1x100) : FVec Ideal S1024x100 .f32 :=
  broadcastTo S1024x100 (shapeCast S1x100 (shapeCast S1x100 bias hb) shapeCasts_S1x100_S1x100) broadcasts_S1x100_S1024x100

/-- The clamp below at zero. -/
def kClamp (v : FVec Ideal S1024x100 .f32) : FVec Ideal S1024x100 .f32 :=
  maximumf (F := Ideal) v (broadcast S1024x100 (Scalar.ofBits (F := Ideal) .f32 0x00000000#32))

/-- The first layer before its clamp. -/
def kLin1 (v : FVec Ideal S1024x128 .f32) (W : FVec Ideal S128x100 .f32) (bias : Cert.BagSpec.SB.Idx → EReal)
    (hb : S100.ShapeCasts S1x100) : FVec Ideal S1024x100 .f32 :=
  addf (F := Ideal)
    (matmul (F := Ideal) dot_S1024x128_S128x100_S1024x100_1_0_0_1_n_n none v W (constant (F := Ideal) S1024x100 .f32 0x00000000#32))
    (kBias bias hb)

/-- A later layer before its clamp. -/
def kLin (v : FVec Ideal S1024x100 .f32) (W : FVec Ideal S100x100 .f32) (bias : Cert.BagSpec.SB.Idx → EReal)
    (hb : S100.ShapeCasts S1x100) : FVec Ideal S1024x100 .f32 :=
  addf (F := Ideal)
    (matmul (F := Ideal) dot_S1024x100_S100x100_S1024x100_1_0_0_1_n_n none v W (constant (F := Ideal) S1024x100 .f32 0x00000000#32))
    (kBias bias hb)

/-- The body's arithmetic is the composition of those stages. -/
theorem k1_pay1_eq (x : S1024x128.Idx → EReal) (W1 : Cert.BagSpec.SW1.Idx → EReal) (b1 : Cert.BagSpec.SB.Idx → EReal)
    (W2 : Cert.BagSpec.SW.Idx → EReal) (b2 : Cert.BagSpec.SB.Idx → EReal) (W3 : Cert.BagSpec.SW.Idx → EReal)
    (b3 : Cert.BagSpec.SB.Idx → EReal) (hb : S100.ShapeCasts S1x100) :
    k1_pay1 (F := Ideal) x W1 (shapeCast S1x100 b1 hb) W2 (shapeCast S1x100 b2 hb) W3 (shapeCast S1x100 b3 hb)
      = kLin (kClamp (kLin (kClamp (kLin1 (kScaled x) W1 b1 hb)) W2 b2 hb)) W3 b3 hb := rfl

/-- The scaled pooled sums are the specification's means. -/
theorem kScaled_apply (tok : Cert.BagSpec.STok.Idx → BitVec 32) (tab : Cert.BagSpec.STab.Idx → EReal)
    (x : S1024x128.Idx → EReal) (hx : ∀ i, x i = Cert.BagSpec.pooled tok tab (i 0) (i 1)) (p : Fin 1024) (c : Fin 128) :
    kScaled x (ix2 p c) = Cert.BagSpec.mean tok tab p c := by
  unfold kScaled Cert.BagSpec.mean
  rw [mulf_apply, broadcast_apply, inv_200, shapeCast_self, hx]

theorem kClamp_apply (v : FVec Ideal S1024x100 .f32) (i : S1024x100.Idx) : kClamp v i = max (v i) 0 := clamp_apply v i

theorem kLin1_apply (v : FVec Ideal S1024x128 .f32) (W : FVec Ideal S128x100 .f32) (bias : Cert.BagSpec.SB.Idx → EReal)
    (hb : S100.ShapeCasts S1x100) (p : Fin 1024) (j : Fin 100) :
    kLin1 v W bias hb (ix2 p j) = (∑ c : Fin 128, v (ix2 p c) * W (ix2 c j)) + bias (ix1 j) := by
  unfold kLin1 kBias
  rw [addf_apply, prod1_apply, biasRow_apply]

theorem kLin_apply (v : FVec Ideal S1024x100 .f32) (W : FVec Ideal S100x100 .f32) (bias : Cert.BagSpec.SB.Idx → EReal)
    (hb : S100.ShapeCasts S1x100) (p : Fin 1024) (j : Fin 100) :
    kLin v W bias hb (ix2 p j) = (∑ c : Fin 100, v (ix2 p c) * W (ix2 c j)) + bias (ix1 j) := by
  unfold kLin kBias
  rw [addf_apply, prod_apply, biasRow_apply]

/-- The layers' arithmetic, run on pooled sums, is the specification's result. -/
theorem mlp_eq (tok : Cert.BagSpec.STok.Idx → BitVec 32) (tab : Cert.BagSpec.STab.Idx → EReal)
    (W1 : Cert.BagSpec.SW1.Idx → EReal) (b1 : Cert.BagSpec.SB.Idx → EReal) (W2 : Cert.BagSpec.SW.Idx → EReal)
    (b2 : Cert.BagSpec.SB.Idx → EReal) (W3 : Cert.BagSpec.SW.Idx → EReal) (b3 : Cert.BagSpec.SB.Idx → EReal)
    (x : S1024x128.Idx → EReal) (hx : ∀ i, x i = Cert.BagSpec.pooled tok tab (i 0) (i 1)) (hb : S100.ShapeCasts S1x100) :
    k1_pay1 (F := Ideal) x W1 (shapeCast S1x100 b1 hb) W2 (shapeCast S1x100 b2 hb) W3 (shapeCast S1x100 b3 hb)
      = Cert.BagSpec.logits tok tab W1 b1 W2 b2 W3 b3 := by
  rw [k1_pay1_eq]
  funext i
  obtain ⟨p, j, rfl⟩ : ∃ (p : Fin 1024) (j : Fin 100), i = ix2 p j := ⟨i 0, i 1, eq_ix2 i⟩
  rw [kLin_apply]
  show _ = (∑ k : Fin 100, Cert.BagSpec.hid2 tok tab W1 b1 W2 b2 p k * W3 (ix2 k j)) + b3 (ix1 j)
  refine congrArg (· + b3 (ix1 j)) (Finset.sum_congr rfl fun c _ => congrArg (· * W3 (ix2 c j)) ?_)
  rw [kClamp_apply, kLin_apply]
  unfold Cert.BagSpec.hid2
  refine congrArg (fun s => max (s + b2 (ix1 c)) 0) (Finset.sum_congr rfl fun d _ => congrArg (· * W2 (ix2 d c)) ?_)
  rw [kClamp_apply, kLin1_apply]
  unfold Cert.BagSpec.hid1
  refine congrArg (fun s => max (s + b1 (ix1 d)) 0) (Finset.sum_congr rfl fun e _ => congrArg (· * W1 (ix2 e d)) ?_)
  exact kScaled_apply tok tab x hx p e

end Cert.Proof.IdealValue

end
-- ==== Proof.IdealSpec.lean ====
/-
  At the extended reals the result array is the specification: the pooled sums (the fold of 200 additions is their
  sum; the [2048, 100] reading of the token matrix is the [1024, 200] one, two rows per sentence) times 1/200, through
  the three layers.
-/
import proofs.«202922_g81758997446792_cont_9to1_m_1158_4_alg».proof.Proof.IdealTile
import proofs.«202922_g81758997446792_cont_9to1_m_1158_4_alg».proof.Proof.IdealBack
import proofs.«202922_g81758997446792_cont_9to1_m_1158_4_alg».proof.Proof.IdealValue

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

open Cert.Proof.IdealValue

variable (mI : (ℓ : Loc nD τ sig) → Buf (Elt Ideal) ℓ)

/-- The result array is the specification of the launch arrays. -/
theorem out_spec (d : Dev nD) :
    afterRegion (Vv mI) d main_v5
      = Cert.BagSpec.logits (mI (d, rf main_arg0)) (mI (d, rf main_arg1)) (mI (d, rf main_arg2)) (mI (d, rf main_arg3))
          (mI (d, rf main_arg4)) (mI (d, rf main_arg5)) (mI (d, rf main_arg6)) (mI (d, rf main_arg7)) := by
  rw [afterRegion_out]
  unfold mlpOut Vv
  rw [V5_pooled, V5_b1, V5_b2, V5_b3, V5_kept mI d (rf main_arg2) (by decide) (by decide) (by decide) (by decide) (by decide),
    V5_kept mI d (rf main_arg4) (by decide) (by decide) (by decide) (by decide) (by decide),
    V5_kept mI d (rf main_arg6) (by decide) (by decide) (by decide) (by decide) (by decide), tk_eq]
  exact mlp_eq (mI (d, rf main_arg0)) (mI (d, rf main_arg1)) (mI (d, rf main_arg2)) (mI (d, rf main_arg3)) (mI (d, rf main_arg4)) (mI (d, rf main_arg5))
    (mI (d, rf main_arg6)) (mI (d, rf main_arg7)) _ (pooled_eq (mI (d, rf main_arg0)) (tb mI d) shapeCasts_S1024x200_S2048x100) shapeCasts_S100_S1x100

end Cert.Proof.IdealSide

end
-- ==== Proof.BitsTile.lean ====
/-
  What one vector subcore's task is handed and what it hands back, for the pooling kernel.

  The mesh is 2 SparseCores of 16 vector subcores. The task at coordinates (c, s) is task number w = 2·s + c of 32.
  It copies rows 64·w … 64·w + 63 of the token matrix [2048, 100] (two rows per sentence: sentence b is rows
  2·b and 2·b + 1) into its scratch, gathers for each of them the 100 table rows its words name, adds them up,
  and writes rows 32·w … 32·w + 31 of the pooled matrix [1024, 128].

  The pooled value is stated once for every float instance: at sentence b and feature e it is the left fold
  of the float addition over the 200 named table entries, in reading order, from the zero word.
-/
import proofs.«202922_g81758997446792_cont_9to1_m_1158_4_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«202922_g81758997446792_cont_9to1_m_1158_4_alg».proof.Proof.Gen.Kernel
import proofs.«202922_g81758997446792_cont_9to1_m_1158_4_alg».proof.Proof.Gen.Kernel.Skeleton

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The pooled value, for every float instance -/

/-- The table row a token word names: its value as a natural number, kept below the table's 100002 rows. -/
def rowOf (t : BitVec 32) : Fin 100002 := ⟨min t.toNat 100001, by omega⟩

/-- The n-th word of sentence b in the token matrix [2048, 100]: row 2·b + n / 100, column n % 100. -/
def wordAt (t2 : S2048x100.Idx → BitVec 32) (b : Nat) (n : Nat) : BitVec 32 :=
  t2 (ix2 ⟨(2 * b + n / 100) % 2048, Nat.mod_lt _ (by decide)⟩ ⟨n % 100, Nat.mod_lt _ (by decide)⟩)

/-- The sum of the first n named table entries of sentence b at feature e, added left to right from the zero word. -/
def accUpTo [FloatOps F] (t2 : S2048x100.Idx → BitVec 32) (tab : S100002x128.Idx → F .f32) (b : Nat) (e : Fin 128) : Nat → F .f32
  | 0 => Scalar.ofBits .f32 0x00000000#32
  | n + 1 => FloatOps.addf (accUpTo t2 tab b e n) (tab (ix2 (rowOf (wordAt t2 b n)) e))

/-- The pooled matrix: all 200 entries of each sentence added up. -/
def pooledF [FloatOps F] (t2 : S2048x100.Idx → BitVec 32) (tab : S100002x128.Idx → F .f32) : S1024x128.Idx → F .f32 :=
  fun i => accUpTo t2 tab (i 0).val (i 1) 200

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the launch handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays and one task's pieces of them -/

abbrev tokLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The task's 64 rows of the token matrix and its 32 rows of the pooled matrix, as the kernel slices them. -/
abbrev tokRect (L : grid0.Coords) : Rect S2048x100 := Rect.unit (s := S2048x100) (k0_off1 L) S64x100.size (k0_off1_inb L)
abbrev outRect (L : grid0.Coords) : Rect S1024x128 := Rect.unit (s := S1024x128) (k0_off46 L) S32x128.size (k0_off46_inb L)
abbrev tokSet (L : grid0.Coords) : Finset S2048x100.Idx :=
  ((Memref.whole main_v0_scv : Memref sig .scVector .hbm S2048x100 .i32).slice (tokRect L) (fun _ => rfl)).view.set
abbrev outSet (L : grid0.Coords) : Finset S1024x128.Idx :=
  ((Memref.whole main_v1_scv : Memref sig .scVector .hbm S1024x128 .f32).slice (outRect L) (fun _ => rfl)).view.set

/-- The number 2·s + c of the task at (c, s), and its read share of the table: one of 32. -/
def wid (L : grid0.Coords) : Fin 32 := ⟨2 * (L 1).val + (L 0).val, by have h0 : (L 0).val < 2 := (L 0).isLt; have h1 : (L 1).val < 16 := (L 1).isLt; omega⟩
abbrev tabShare (L : grid0.Coords) : PosShare TreeShare := Transfers.shareTok fullShare 32 (wid L)

/-- What the proof asks of the token matrix: every word names a table row. -/
def PreOK (t2 : S2048x100.Idx → BitVec 32) : Prop := ∀ j, (t2 j).toNat ≤ 99999

variable [FloatOps F]

/-- Handed to the task at L: its token rows, its read share of the whole table, its pooled rows (at contents o). -/
def tileGo (d : Dev nD) (t2 : Buf (Elt F) (tokLoc d)) (tab : Buf (Elt F) (tabLoc d)) (o : Buf (Elt F) (outLoc d)) (L : grid0.Coords) : sProp 𝕄 :=
  iprop((tokLoc d ↦[tokSet L]{fullShare} t2) ∗ (tabLoc d ↦{tabShare L} tab) ∗ (outLoc d ↦[outSet L]{fullShare} o))

/-- Handed back: the same, the pooled rows now at the pooled value of the token matrix and the table. -/
def tileTd (d : Dev nD) (t2 : Buf (Elt F) (tokLoc d)) (tab : Buf (Elt F) (tabLoc d)) (L : grid0.Coords) : sProp 𝕄 :=
  iprop((tokLoc d ↦[tokSet L]{fullShare} t2) ∗ (tabLoc d ↦{tabShare L} tab) ∗ (outLoc d ↦[outSet L]{fullShare} pooledF (F := F) t2 tab))

end Cert.Proof.BitsSide

end
-- ==== Proof.BitsSplit.lean ====
/-
  The 32 tasks' pieces of the three arrays: the token matrix and the pooled matrix cut into 32 bands of rows, task
  w = 2·s + c taking band w; the table read by all, each task under one of 32 read shares.
-/
import proofs.«202922_g81758997446792_cont_9to1_m_1158_4_alg».proof.Proof.BitsTile

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The mesh's coordinates and the task number -/

theorem nCore_zero [FloatOps F] : (K (F := F)).nCore 0 = 2 := rfl
theorem nSub_zero [FloatOps F] : (K (F := F)).nSub 0 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The coordinates of task w: core w % 2, subcore w / 2. -/
def coordsW (w : Fin 32) : grid0.Coords := coordsV ⟨w.val % 2, Nat.mod_lt _ (by decide)⟩ ⟨w.val / 2, by have := w.isLt; show w.val / 2 < 16; omega⟩

theorem wid_coordsW (w : Fin 32) : wid (coordsW w) = w := by
  apply Fin.ext; show 2 * (w.val / 2) + w.val % 2 = w.val; omega

/-- Pairs (core, subcore) and task numbers correspond one to one. -/
def widEquiv : Fin 2 × Fin 16 ≃ Fin 32 where
  toFun p := ⟨2 * p.2.val + p.1.val, by have h0 := p.1.isLt; have h1 := p.2.isLt; omega⟩
  invFun w := (⟨w.val % 2, Nat.mod_lt _ (by decide)⟩, ⟨w.val / 2, by have := w.isLt; omega⟩)
  left_inv p := by
    have h0 := p.1.isLt; have h1 := p.2.isLt
    apply Prod.ext <;> apply Fin.ext <;> simp <;> omega
  right_inv w := by apply Fin.ext; simp; omega

theorem coordsW_widEquiv (c : Fin 2) (i : Fin 16) : coordsW (widEquiv (c, i)) = coordsV c i := by
  have h0 := c.isLt; have h1 := i.isLt
  funext a
  match a with
  | ⟨0, _⟩ => apply Fin.ext; show (2 * i.val + c.val) % 2 = c.val; omega
  | ⟨1, _⟩ => apply Fin.ext; show (2 * i.val + c.val) / 2 = i.val; omega

/-- A family over the mesh, core by core and subcore by subcore, is the family over the 32 tasks. -/
theorem bigSep_mesh (Φ : grid0.Coords → sProp 𝕄) :
    (bigSep Finset.univ fun c : Fin 2 => bigSep Finset.univ fun i : Fin 16 => Φ (coordsV c i))
      = bigSep Finset.univ fun w : Fin 32 => Φ (coordsW w) := by
  rw [bigSep_univ_equiv widEquiv (fun w : Fin 32 => Φ (coordsW w)), bigSep_univ_prod]
  refine bigSep_congr fun c _ => bigSep_congr fun i _ => ?_
  rw [coordsW_widEquiv]

/-! ## The bands of rows -/

theorem tdiv : 32 ∣ S2048x100.size 0 := ⟨64, rfl⟩
theorem odiv : 32 ∣ S1024x128.size 0 := ⟨32, rfl⟩

theorem tokRect_eq (w : Fin 32) : tokRect (coordsW w) = Rect.part (s := S2048x100) (a₀ := 0) tdiv w := by
  have hw := w.isLt
  unfold tokRect Rect.part Rect.block
  congr 1 <;> funext a
  · rw [k0_off1_eq]
    match a with
    | 0 => simp [Shape.partIx, Shape.partSize, coordsW, coordsV]; omega
    | 1 => simp [Shape.partIx, Shape.partSize]
  · match a with
    | 0 => simp [Shape.partSize]
    | 1 => simp [Shape.partSize]

theorem outRect_eq (w : Fin 32) : outRect (coordsW w) = Rect.part (s := S1024x128) (a₀ := 0) odiv w := by
  have hw := w.isLt
  unfold outRect Rect.part Rect.block
  congr 1 <;> funext a
  · rw [k0_off46_eq]
    match a with
    | 0 => simp [Shape.partIx, Shape.partSize, coordsW, coordsV]; omega
    | 1 => simp [Shape.partIx, Shape.partSize]
  · match a with
    | 0 => simp [Shape.partSize]
    | 1 => simp [Shape.partSize]

theorem tokSet_eq (w : Fin 32) : tokSet (coordsW w) = (Rect.part (s := S2048x100) (a₀ := 0) tdiv w).set := by
  show ((View.whole (main_v0_scv : Ref sig .scVector)).slice (tokRect (coordsW w))).set = _
  rw [View.set_slice, tokRect_eq]; exact Finset.map_refl

theorem outSet_eq (w : Fin 32) : outSet (coordsW w) = (Rect.part (s := S1024x128) (a₀ := 0) odiv w).set := by
  show ((View.whole (main_v1_scv : Ref sig .scVector)).slice (outRect (coordsW w))).set = _
  rw [View.set_slice, outRect_eq]; exact Finset.map_refl

theorem tok_disjoint : ∀ i ∈ (Finset.univ : Finset (Fin 32)), ∀ j ∈ (Finset.univ : Finset (Fin 32)), i ≠ j →
    Disjoint (tokSet (coordsW i)) (tokSet (coordsW j)) :=
  fun i _ j _ h => by rw [tokSet_eq, tokSet_eq]; exact Rect.part_disjoint tdiv h
theorem out_disjoint : ∀ i ∈ (Finset.univ : Finset (Fin 32)), ∀ j ∈ (Finset.univ : Finset (Fin 32)), i ≠ j →
    Disjoint (outSet (coordsW i)) (outSet (coordsW j)) :=
  fun i _ j _ h => by rw [outSet_eq, outSet_eq]; exact Rect.part_disjoint odiv h
theorem tok_cover : (Finset.univ : Finset (Fin 32)).biUnion (fun w => tokSet (coordsW w)) = Finset.univ :=
  (Finset.biUnion_congr rfl fun i _ => tokSet_eq i).trans (Rect.biUnion_part tdiv)
theorem out_cover : (Finset.univ : Finset (Fin 32)).biUnion (fun w => outSet (coordsW w)) = Finset.univ :=
  (Finset.biUnion_congr rfl fun i _ => outSet_eq i).trans (Rect.biUnion_part odiv)

/-- The token matrix whole is its 32 bands. -/
theorem tok_bands (d : Dev nD) (f : Buf (Elt F) (tokLoc d)) :
    (tokLoc d ↦{fullShare} f : sProp 𝕄) = bigSep Finset.univ fun w : Fin 32 => tokLoc d ↦[tokSet (coordsW w)]{fullShare} f := by
  rw [← pointsTo_biUnion Finset.univ (ℓ := tokLoc d) (fun w => tokSet (coordsW w)) tok_disjoint, tok_cover]; try rfl

/-- The pooled matrix whole is its 32 bands. -/
theorem out_bands (d : Dev nD) (f : Buf (Elt F) (outLoc d)) :
    (outLoc d ↦{fullShare} f : sProp 𝕄) = bigSep Finset.univ fun w : Fin 32 => outLoc d ↦[outSet (coordsW w)]{fullShare} f := by
  rw [← pointsTo_biUnion Finset.univ (ℓ := outLoc d) (fun w => outSet (coordsW w)) out_disjoint, out_cover]; try rfl

/-- The table's 32 read shares, by task. -/
theorem tab_shares (d : Dev nD) (f : Buf (Elt F) (tabLoc d)) :
    (bigSep Finset.univ fun w : Fin 32 => (tabLoc d ↦{tabShare (coordsW w)} f : sProp 𝕄))
      = bigSep Finset.univ fun w : Fin 32 => tabLoc d ↦{Transfers.shareTok fullShare 32 w} f :=
  bigSep_congr fun w _ => by unfold tabShare; rw [wid_coordsW]

end Cert.Proof.BitsSide

end
-- ==== Proof.BitsPay.lean ====
/-
  What the one SparseCore call carries: to each SparseCore its 16 tasks' pieces, to each task its own, and back; the
  whole arrays cut into these pieces at the call and joined after it.
-/
import proofs.«202922_g81758997446792_cont_9to1_m_1158_4_alg».proof.Proof.BitsTile
import proofs.«202922_g81758997446792_cont_9to1_m_1158_4_alg».proof.Proof.BitsSplit

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-- The coordinates of task i of SparseCore c of the call's grid. -/
abbrev coordsOf (c : Fin ((K (F := F)).nCore 0)) (i : Fin ((K (F := F)).nSub 0)) : grid0.Coords :=
  coordsV (Fin.cast nCore_zero c) (Fin.cast nSub_zero i)

variable (d : Dev nD) (t2 : Dev nD → S2048x100.Idx → BitVec 32) (tab : (d : Dev nD) → Buf (Elt F) (tabLoc d)) (o : (d : Dev nD) → Buf (Elt F) (outLoc d))

/-- The call hands SparseCore c its 16 tasks' pieces and takes them back, the pooled rows then at the pooled value. -/
def P : (K (F := F)).Pay (nD := nD) (Val := Elt F) (Name := ℕ) (U := UU) where
  st := fun q d c => match q with | 0 => bigSep Finset.univ fun i : Fin ((K (F := F)).nSub 0) => tileGo d (t2 d) (tab d) (o d) (coordsOf c i)
  dn := fun q d c => match q with | 0 => bigSep Finset.univ fun i : Fin ((K (F := F)).nSub 0) => tileTd d (t2 d) (tab d) (coordsOf c i)
  go := fun q d c i => match q with | 0 => tileGo d (t2 d) (tab d) (o d) (coordsOf c i)
  td := fun q d c i => match q with | 0 => tileTd d (t2 d) (tab d) (coordsOf c i)
  x := fun _ _ => iprop(emp)

instance tileGo_storable (L : grid0.Coords) : BI.Storable (upEmb : UEmb _ 𝕄) (tileGo (F := F) d (t2 d) (tab d) (o d) L) := by
  unfold tileGo; infer_instance
instance tileTd_storable (L : grid0.Coords) : BI.Storable (upEmb : UEmb _ 𝕄) (tileTd (F := F) d (t2 d) (tab d) L) := by
  unfold tileTd; infer_instance

instance P_storable : (P (F := F) t2 tab o).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands are its tasks' pieces, and its results theirs: nothing to rearrange. -/
theorem vecSplit : (K (F := F)).VecSplit' (P t2 tab o) 0 := by
  intro d c
  show (bigSep Finset.univ fun i : Fin ((K (F := F)).nSub 0) => tileGo d (t2 d) (tab d) (o d) (coordsOf c i))
    ⊢ |={Set.univ}=> iprop((bigSep Finset.univ fun i : Fin ((K (F := F)).nSub 0) => tileGo d (t2 d) (tab d) (o d) (coordsOf c i))
      ∗ ((bigSep Finset.univ fun i : Fin ((K (F := F)).nSub 0) => tileTd d (t2 d) (tab d) (coordsOf c i))
          -∗ bigSep Finset.univ fun i : Fin ((K (F := F)).nSub 0) => tileTd d (t2 d) (tab d) (coordsOf c i)))
  iintro H; imodintro
  isplitl [H]; · iexact H
  iintro H; iexact H

/-- What the call takes, over the 32 tasks. -/
theorem st0_eq :
    (bigSep Finset.univ fun c : Fin ((K (F := F)).nCore 0) => (P t2 tab o).st 0 d c)
      = bigSep Finset.univ fun w : Fin 32 => tileGo d (t2 d) (tab d) (o d) (coordsW w) := by
  exact bigSep_mesh (F := F) (fun L => tileGo d (t2 d) (tab d) (o d) L)

/-- What it hands back, over the 32 tasks. -/
theorem dn0_eq :
    (bigSep Finset.univ fun c : Fin ((K (F := F)).nCore 0) => (P t2 tab o).dn 0 d c)
      = bigSep Finset.univ fun w : Fin 32 => tileTd d (t2 d) (tab d) (coordsW w) := by
  exact bigSep_mesh (F := F) (fun L => tileTd d (t2 d) (tab d) L)

/-- The three arrays whole (the table but for the share the TensorCore keeps) are the 32 tasks' pieces. -/
theorem pieces_out :
    iprop((tokLoc d ↦{fullShare} (t2 d)) ∗ (tabLoc d ↦{fullShare} tab d) ∗ (outLoc d ↦{fullShare} o d))
      ⊢ (iprop((tabLoc d ↦{Transfers.shareDrop fullShare 32} tab d)
          ∗ bigSep Finset.univ fun w : Fin 32 => tileGo d (t2 d) (tab d) (o d) (coordsW w)) : sProp 𝕄) := by
  unfold tileGo
  rw [bigSep_sep', bigSep_sep', tab_shares, tok_bands, out_bands]
  iintro ⟨Ht, Hx, Ho⟩
  ihave Hx' := (Transfers.pointsTo_toks_split (S := Finset.univ) fullShare 32) $$ Hx
  icases Hx' with ⟨Hd, Hx⟩
  isplitl [Hd]; · iexact Hd
  isplitl [Ht]; · iexact Ht
  isplitl [Hx]; · iexact Hx
  iexact Ho

/-- Back: the token matrix and the table whole as they were, the pooled matrix whole at the pooled value. -/
theorem pieces_back :
    iprop((tabLoc d ↦{Transfers.shareDrop fullShare 32} tab d)
        ∗ bigSep Finset.univ fun w : Fin 32 => tileTd d (t2 d) (tab d) (coordsW w))
      ⊢ (iprop((tokLoc d ↦{fullShare} (t2 d)) ∗ (tabLoc d ↦{fullShare} tab d)
          ∗ (outLoc d ↦{fullShare} pooledF (F := F) (t2 d) (tab d))) : sProp 𝕄) := by
  unfold tileTd
  rw [bigSep_sep', bigSep_sep', tab_shares, tok_bands, out_bands]
  iintro ⟨Hd, Ht, Hx, Ho⟩
  isplitl [Ht]; · iexact Ht
  isplitl [Hd Hx]
  · iapply (Transfers.pointsTo_toks_join (S := Finset.univ) fullShare 32); isplitl [Hd] <;> iassumption
  iexact Ho

end Cert.Proof.BitsSide

end
-- ==== Proof.BitsMlpBody.lean ====
/-
  The dense layers' kernel body on whole staging buffers.

  The body reads seven buffers whole — the pooled sums [1024,128], the three weight matrices and the three bias
  rows — and stores ONE value over the whole of the eighth, the result [1024,100]: the generated payload
  `k1_pay1` of the seven values read (scale by 1/200, three affine layers, the first two clamped below at zero).
  Here: the rounds algebra the staging cells live in, and the body's triple — from the seven inputs at read
  contents and the result's buffer at anything, to the inputs as they were and the result at the single store
  read back as one function.
-/
import proofs.«202922_g81758997446792_cont_9to1_m_1158_4_alg».proof.Proof.BitsTile
import proofs.«202922_g81758997446792_cont_9to1_m_1158_4_alg».proof.Proof.Gen.Kernel.Launch
import proofs.«202922_g81758997446792_cont_9to1_m_1158_4_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.BitsSide

open Cert.Kernel Cert.Kernel.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The staging cells' algebra inside the proof's -/

/-- The staging cells' rounds are the middle component of the proof's algebra. -/
def EP : Emb UP (MT nD τ sig (HIx 1) (Elt F) ℕ UU ℕ) :=
  (Emb.inl : Emb UP (UP × Counters)).trans (embR : Emb (UP × Counters) (MT nD τ sig (HIx 1) (Elt F) ℕ (UH × (UP × Counters)) ℕ))

instance EP_landsIn : (EP : Emb UP 𝕄).LandsIn (upEmb : UEmb _ 𝕄) := by unfold EP; infer_instance

/-- The pipeline has no prefetched table: nothing to admit. -/
abbrev adm : (p : Fin 1) → (pcfgs (F := F) p).Adm := fun p => (cfgs p).toPCfg_adm

/-! ## The body's accesses: every one the whole of its buffer -/

abbrev boxPool : Rect S1024x128 := Rect.unit (s := S1024x128) ![0, 0] S1024x128.size inb_S1024x128_S1024x128_0_0
abbrev boxW1 : Rect S128x100 := Rect.unit (s := S128x100) ![0, 0] S128x100.size inb_S128x100_S128x100_0_0
abbrev boxBias : Rect S1x100 := Rect.unit (s := S1x100) ![0, 0] S1x100.size inb_S1x100_S1x100_0_0
abbrev boxW : Rect S100x100 := Rect.unit (s := S100x100) ![0, 0] S100x100.size inb_S100x100_S100x100_0_0
abbrev boxOut : Rect S1024x100 := Rect.unit (s := S1024x100) ![0, 0] S1024x100.size inb_S1024x100_S1024x100_0_0

/-- What the body leaves in the result's buffer: its one store, over what the seven loads read. -/
def mlpBlk (pooled : Vec F S1024x128 .f32) (w1 : Vec F S128x100 .f32) (b1 : Vec F S1x100 .f32) (w2 : Vec F S100x100 .f32)
    (b2 : Vec F S1x100 .f32) (w3 : Vec F S100x100 .f32) (b3 : Vec F S1x100 .f32) : Vec F S1024x100 .f32 :=
  View.canon [⟨boxOut, k1_pay1 (View.ld pooled boxPool) (View.ld w1 boxW1) (View.ld b1 boxBias) (View.ld w2 boxW)
    (View.ld b2 boxBias) (View.ld w3 boxW) (View.ld b3 boxBias)⟩]

/-- The one store is over the whole buffer. -/
theorem mlp_cover (p : Vec F S1024x100 .f32) (y : S1024x100.Idx) :
    ∃ pc ∈ ([⟨boxOut, p⟩] : List (View.Piece (Elt F) S1024x100 .f32)), y ∈ pc.1.set :=
  View.cover_of_tiled [⟨boxOut, p⟩] S1024x100.size (by rfl) y

/-! ## The body's triple -/

set_option maxHeartbeats 1000000 in
/-- The body on eight whole staging buffers: the seven inputs at read contents and the result's at anything, to the
    inputs unchanged and the result's at `mlpBlk` of them. -/
theorem mlp_body_run (c : Dev nD) (E : Set ℕ)
    (a0 : Memref sig .tc .vmem S1024x128 .f32) (h0 : a0.IsWhole) (a1 : Memref sig .tc .vmem S128x100 .f32) (h1 : a1.IsWhole)
    (a2 : Memref sig .tc .vmem S1x100 .f32) (h2 : a2.IsWhole) (a3 : Memref sig .tc .vmem S100x100 .f32) (h3 : a3.IsWhole)
    (a4 : Memref sig .tc .vmem S1x100 .f32) (h4 : a4.IsWhole) (a5 : Memref sig .tc .vmem S100x100 .f32) (h5 : a5.IsWhole)
    (a6 : Memref sig .tc .vmem S1x100 .f32) (h6 : a6.IsWhole) (a7 : Memref sig .tc .vmem S1024x100 .f32) (h7 : a7.IsWhole)
    (x0 : Vec F S1024x128 .f32) (x1 : Vec F S128x100 .f32) (x2 : Vec F S1x100 .f32) (x3 : Vec F S100x100 .f32)
    (x4 : Vec F S1x100 .f32) (x5 : Vec F S100x100 .f32) (x6 : Vec F S1x100 .f32) (Kk : PUnit → sProp 𝕄) :
    iprop(owns (c.tc : Thread nD τ) a0 fullShare x0 ∗ owns (c.tc : Thread nD τ) a1 fullShare x1 ∗ owns (c.tc : Thread nD τ) a2 fullShare x2
        ∗ owns (c.tc : Thread nD τ) a3 fullShare x3 ∗ owns (c.tc : Thread nD τ) a4 fullShare x4 ∗ owns (c.tc : Thread nD τ) a5 fullShare x5
        ∗ owns (c.tc : Thread nD τ) a6 fullShare x6 ∗ (∃ d, owns (c.tc : Thread nD τ) a7 fullShare d)
        ∗ (iprop(owns (c.tc : Thread nD τ) a0 fullShare x0 ∗ owns (c.tc : Thread nD τ) a1 fullShare x1 ∗ owns (c.tc : Thread nD τ) a2 fullShare x2
            ∗ owns (c.tc : Thread nD τ) a3 fullShare x3 ∗ owns (c.tc : Thread nD τ) a4 fullShare x4 ∗ owns (c.tc : Thread nD τ) a5 fullShare x5
            ∗ owns (c.tc : Thread nD τ) a6 fullShare x6 ∗ owns (c.tc : Thread nD τ) a7 fullShare (mlpBlk x0 x1 x2 x3 x4 x5 x6)) -∗ Kk ⟨⟩))
      ⊢ wp frame (wpE (defs₀ (F := F)) Variants.none (c.tc : Thread nD τ) none) E (cc1__mlp_body a0 h0 a1 h1 a2 h2 a3 h3 a4 h4 a5 h5 a6 h6 a7 h7) Kk := by
  simp only [cc1__mlp_body_eq_skeleton]; unfold cc1__mlp_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (mlp_cover _)

end Cert.Proof.BitsSide

end
-- ==== Proof.BitsMlpData.lean ====
/-
  The dense layers' kernel region inside the program's main thread.

  The region is one gridless pipeline: ONE point, eight windows, each window's block the whole of its array.
  The pipeline copies the seven input arrays into their staging buffers, runs the body once, and copies the
  result's staging buffer back over the whole result array. So after the region the seven inputs are as they
  were and the result array holds what the body left in its buffer.

  Here: the pipeline's proof data over any valuation of the main thread's unscoped buffers, and the body
  obligation at the one point (from the body's triple).
-/
import proofs.«202922_g81758997446792_cont_9to1_m_1158_4_alg».proof.Proof.BitsMlpBody

set_option maxRecDepth 16384

noncomputable section

namespace Cert.Proof.BitsSide

open Cert.Kernel Cert.Kernel.Gen

open Idealize.ShloMosaic Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A valuation of every device's main-thread buffers. -/
abbrev Valn (F : FTy → Type) : Type := (c : Dev nD) → (b : Ref sig .tc) → Buf (Elt F) ((c.tc : Thread nD τ).loc b)

variable (Vv : Valn F)

/-! ## The proof data -/

/-- Window `w`'s block at the point, read off its array as the region finds it. -/
def winBlk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- The recorded waits the main thread may carry through the region: those at or below the level of its first call. -/
def lowPairs (c : Dev nD) : Set (SemLoc sig × HIx 1) := {p | (K (F := F)).lev ((c.tc : Thread nD τ), p.1) p.2 ≤ 8 * 1}

/-- The pipeline's proof data on core `c`: the arrays as the valuation has them; after the body each input's buffer
    at its block and the result's at the body's store over the input blocks; the invariant the scoped buffers no
    window stages; nothing owed; full shares; the recorded waits low. -/
def dats (_ : Fin 1) (c : Dev nD) : Dat τ (Elt F) (HIx 1) ℕ UU ℕ cfg1 c where
  A w := Vv c (Pipeline.arrRef spec1 w)
  after w t := match w with
    | ⟨0, _⟩ => winBlk Vv c 0 t
    | ⟨1, _⟩ => winBlk Vv c 1 t
    | ⟨2, _⟩ => winBlk Vv c 2 t
    | ⟨3, _⟩ => winBlk Vv c 3 t
    | ⟨4, _⟩ => winBlk Vv c 4 t
    | ⟨5, _⟩ => winBlk Vv c 5 t
    | ⟨6, _⟩ => winBlk Vv c 6 t
    | ⟨7, _⟩ => mlpBlk (winBlk Vv c 0 t) (winBlk Vv c 1 t) (winBlk Vv c 2 t) (winBlk Vv c 3 t) (winBlk Vv c 4 t) (winBlk Vv c 5 t) (winBlk Vv c 6 t)
  Φ _ := Pipeline.scopedRest spec1 c
  q _ := fullShare
  owed _ := 0
  recorded _ := lowPairs (F := F) c

theorem A_eq (c : Dev nD) (w : Fin cfg1.W) : (dats Vv 0 c).A w = Vv c (Pipeline.arrRef spec1 w) := by
  dsimp only [dats]

theorem after_0 (c : Dev nD) (t : Fin cfg1.N) : (dats Vv 0 c).after 0 t = winBlk Vv c 0 t := by dsimp only [dats]
theorem after_1 (c : Dev nD) (t : Fin cfg1.N) : (dats Vv 0 c).after 1 t = winBlk Vv c 1 t := by dsimp only [dats]
theorem after_2 (c : Dev nD) (t : Fin cfg1.N) : (dats Vv 0 c).after 2 t = winBlk Vv c 2 t := by dsimp only [dats]
theorem after_3 (c : Dev nD) (t : Fin cfg1.N) : (dats Vv 0 c).after 3 t = winBlk Vv c 3 t := by dsimp only [dats]
theorem after_4 (c : Dev nD) (t : Fin cfg1.N) : (dats Vv 0 c).after 4 t = winBlk Vv c 4 t := by dsimp only [dats]
theorem after_5 (c : Dev nD) (t : Fin cfg1.N) : (dats Vv 0 c).after 5 t = winBlk Vv c 5 t := by dsimp only [dats]
theorem after_6 (c : Dev nD) (t : Fin cfg1.N) : (dats Vv 0 c).after 6 t = winBlk Vv c 6 t := by dsimp only [dats]
theorem after_7 (c : Dev nD) (t : Fin cfg1.N) : (dats Vv 0 c).after 7 t
    = mlpBlk (winBlk Vv c 0 t) (winBlk Vv c 1 t) (winBlk Vv c 2 t) (winBlk Vv c 3 t) (winBlk Vv c 4 t) (winBlk Vv c 5 t) (winBlk Vv c 6 t) := by
  dsimp only [dats]

/-- Each input's staging buffer holds its block when the body runs: the point fetches it, and the fetch of an
    uncut window fills the whole buffer. -/
theorem before_0 (c : Dev nD) (t : Fin cfg1.N) (d) : (dats Vv 0 c).before 0 t d = winBlk Vv c 0 t := by
  unfold Dat.before; rw [if_pos (fetch1_0 t)]; rfl
theorem before_1 (c : Dev nD) (t : Fin cfg1.N) (d) : (dats Vv 0 c).before 1 t d = winBlk Vv c 1 t := by
  unfold Dat.before; rw [if_pos (fetch1_1 t)]; rfl
theorem before_2 (c : Dev nD) (t : Fin cfg1.N) (d) : (dats Vv 0 c).before 2 t d = winBlk Vv c 2 t := by
  unfold Dat.before; rw [if_pos (fetch1_2 t)]; rfl
theorem before_3 (c : Dev nD) (t : Fin cfg1.N) (d) : (dats Vv 0 c).before 3 t d = winBlk Vv c 3 t := by
  unfold Dat.before; rw [if_pos (fetch1_3 t)]; rfl
theorem before_4 (c : Dev nD) (t : Fin cfg1.N) (d) : (dats Vv 0 c).before 4 t d = winBlk Vv c 4 t := by
  unfold Dat.before; rw [if_pos (fetch1_4 t)]; rfl
theorem before_5 (c : Dev nD) (t : Fin cfg1.N) (d) : (dats Vv 0 c).before 5 t d = winBlk Vv c 5 t := by
  unfold Dat.before; rw [if_pos (fetch1_5 t)]; rfl
theorem before_6 (c : Dev nD) (t : Fin cfg1.N) (d) : (dats Vv 0 c).before 6 t d = winBlk Vv c 6 t := by
  unfold Dat.before; rw [if_pos (fetch1_6 t)]; rfl

/-! ## The body obligation -/

/-- What the body is called with at the point, the windows one by one, -/
def bodyPre (c : Dev nD) (t : Fin cfg1.N) : sProp 𝕄 :=
  iprop((dats Vv 0 c).Φ t.castSucc ∗ (dats Vv 0 c).owesAt (none : HIx 1) t.castSucc
    ∗ (∃ d, owns (c.tc : Thread nD τ) (st1_0 t) fullShare ((dats Vv 0 c).before 0 t d))
    ∗ (∃ d, owns (c.tc : Thread nD τ) (st1_1 t) fullShare ((dats Vv 0 c).before 1 t d))
    ∗ (∃ d, owns (c.tc : Thread nD τ) (st1_2 t) fullShare ((dats Vv 0 c).before 2 t d))
    ∗ (∃ d, owns (c.tc : Thread nD τ) (st1_3 t) fullShare ((dats Vv 0 c).before 3 t d))
    ∗ (∃ d, owns (c.tc : Thread nD τ) (st1_4 t) fullShare ((dats Vv 0 c).before 4 t d))
    ∗ (∃ d, owns (c.tc : Thread nD τ) (st1_5 t) fullShare ((dats Vv 0 c).before 5 t d))
    ∗ (∃ d, owns (c.tc : Thread nD τ) (st1_6 t) fullShare ((dats Vv 0 c).before 6 t d))
    ∗ (∃ d, owns (c.tc : Thread nD τ) (st1_7 t) fullShare ((dats Vv 0 c).before 7 t d)))

/-- and what it hands back. -/
def bodyPost (c : Dev nD) (t : Fin cfg1.N) : sProp 𝕄 :=
  iprop((dats Vv 0 c).Φ t.succ ∗ (dats Vv 0 c).owesAt (none : HIx 1) t.succ
    ∗ owns (c.tc : Thread nD τ) (st1_0 t) fullShare ((dats Vv 0 c).after 0 t)
    ∗ owns (c.tc : Thread nD τ) (st1_1 t) fullShare ((dats Vv 0 c).after 1 t)
    ∗ owns (c.tc : Thread nD τ) (st1_2 t) fullShare ((dats Vv 0 c).after 2 t)
    ∗ owns (c.tc : Thread nD τ) (st1_3 t) fullShare ((dats Vv 0 c).after 3 t)
    ∗ owns (c.tc : Thread nD τ) (st1_4 t) fullShare ((dats Vv 0 c).after 4 t)
    ∗ owns (c.tc : Thread nD τ) (st1_5 t) fullShare ((dats Vv 0 c).after 5 t)
    ∗ owns (c.tc : Thread nD τ) (st1_6 t) fullShare ((dats Vv 0 c).after 6 t)
    ∗ owns (c.tc : Thread nD τ) (st1_7 t) fullShare ((dats Vv 0 c).after 7 t))

/-- The body at the point: the inputs' buffers hold their blocks, so the body's triple applies; the invariant and
    what the thread owes pass through untouched. -/
theorem sound_body (c : Dev nD) (t : Fin cfg1.N) :
    bodyPre Vv c t ⊢ wp frame (wpE (defs₀ (F := F)) Variants.none (c.tc : Thread nD τ) none) Set.univ (bodyAt1 t) (fun _ => bodyPost Vv c t) := by
  unfold bodyPre bodyPost bodyAt1
  simp only [before_0, before_1, before_2, before_3, before_4, before_5, before_6]
  rw [show (dats Vv 0 c).Φ t.succ = (dats Vv 0 c).Φ t.castSucc from rfl,
    show (dats Vv 0 c).owesAt (none : HIx 1) t.succ = (dats Vv 0 c).owesAt (none : HIx 1) t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (mlp_body_run c Set.univ _ _ _ _ _ _ _ _ _ _ _ _ _ _ _ _ (winBlk Vv c 0 t) (winBlk Vv c 1 t) (winBlk Vv c 2 t)
    (winBlk Vv c 3 t) (winBlk Vv c 4 t) (winBlk Vv c 5 t) (winBlk Vv c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the one point. -/
theorem body_obligation (c : Dev nD) : BodyObligation (dats (F := F) Vv 0 c) (defs₀ (F := F)) Variants.none (none : HIx 1) Set.univ := fun t => by
  rw [bigSep_W1, bigSep_W1]
  exact sound_body Vv c t

end Cert.Proof.BitsSide

end
-- ==== Proof.BitsRegion.lean ====
/-
  The dense layers' kernel region, as one rule on the main thread.

  From the main thread's unscoped buffers at a valuation, the region (one gridless pipeline, eight whole-array
  windows) runs to the same valuation with the result array replaced by what the one point wrote back; the
  seven input arrays are as they were (an input window's array is never written). The thread enters owing
  nothing with its recorded waits at low levels and leaves the same way: the pipeline's own waits are recorded
  at the kernels' index, which sits at level zero.

  The rule is first proved at the pipeline layer's body table and then carried to the program's own, which
  wraps it in the layer of the vector-subcore calls.
-/
import proofs.«202922_g81758997446792_cont_9to1_m_1158_4_alg».proof.Proof.BitsMlpData

set_option maxRecDepth 16384

noncomputable section

namespace Cert.Proof.BitsSide

open Cert.Kernel Cert.Kernel.Gen

open Idealize.ShloMosaic Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vv : Valn F)

/-! ## What the region leaves -/

/-- The result array after the region: the proof data's account of the one write-back. -/
def mlpArr (c : Dev nD) : Buf (Elt F) ((c.tc : Thread nD τ).loc main_v5) := (dats Vv 0 c).arrAt 7 cfg1.N

/-- The valuation after the region: the result array replaced, every other buffer as it was. -/
abbrev afterRegion (c : Dev nD) : (b : Ref sig .tc) → Buf (Elt F) ((c.tc : Thread nD τ).loc b) :=
  Function.update (Vv c) main_v5 (mlpArr Vv c)

/-- What the main thread owes around the region, as its state between calls spells it: nothing after its one
    call, its recorded waits at or below that call's level. -/
abbrev owesLow (c : Dev nD) : sProp 𝕄 :=
  iprop(∃ W, ⌜(K (F := F)).WBelow (T c) W (8 * 1)⌝ ∗ owes (T c) ((K (F := F)).Otc c 1) W)

/-- Each window's array after the region is the new valuation's: an input's is never written, the result's is
    the write-back's. -/
theorem arrAt_afterRegion (c : Dev nD) : ∀ w : Fin cfg1.W,
    (dats Vv 0 c).arrAt w cfg1.N = afterRegion Vv c (Pipeline.arrRef spec1 w)
  | ⟨0, _⟩ => ((dats Vv 0 c).arrAt_in 0 rfl _).trans (Function.update_of_ne (show (main_v1 : Ref sig .tc) ≠ main_v5 by decide) _ _).symm
  | ⟨1, _⟩ => ((dats Vv 0 c).arrAt_in 1 rfl _).trans (Function.update_of_ne (show (main_arg2 : Ref sig .tc) ≠ main_v5 by decide) _ _).symm
  | ⟨2, _⟩ => ((dats Vv 0 c).arrAt_in 2 rfl _).trans (Function.update_of_ne (show (main_v2 : Ref sig .tc) ≠ main_v5 by decide) _ _).symm
  | ⟨3, _⟩ => ((dats Vv 0 c).arrAt_in 3 rfl _).trans (Function.update_of_ne (show (main_arg4 : Ref sig .tc) ≠ main_v5 by decide) _ _).symm
  | ⟨4, _⟩ => ((dats Vv 0 c).arrAt_in 4 rfl _).trans (Function.update_of_ne (show (main_v3 : Ref sig .tc) ≠ main_v5 by decide) _ _).symm
  | ⟨5, _⟩ => ((dats Vv 0 c).arrAt_in 5 rfl _).trans (Function.update_of_ne (show (main_arg6 : Ref sig .tc) ≠ main_v5 by decide) _ _).symm
  | ⟨6, _⟩ => ((dats Vv 0 c).arrAt_in 6 rfl _).trans (Function.update_of_ne (show (main_v4 : Ref sig .tc) ≠ main_v5 by decide) _ _).symm
  | ⟨7, _⟩ => (Function.update_self main_v5 (mlpArr Vv c) (Vv c)).symm

/-- The buffers no window stages are the same at both valuations: the result array is a window's. -/
theorem unscopedRest_afterRegion (c : Dev nD) :
    (Pipeline.unscopedRest (Ix := HIx 1) (Name := ℕ) (U := UU) (Lvl := ℕ) spec1 c (afterRegion Vv c) : sProp 𝕄)
      = Pipeline.unscopedRest spec1 c (Vv c) := by
  rw [unscopedRest1_eq, unscopedRest1_eq]
  simp only [afterRegion, Function.update_of_ne (show main_arg0 ≠ main_v5 by decide), Function.update_of_ne (show main_arg1 ≠ main_v5 by decide),
    Function.update_of_ne (show main_arg3 ≠ main_v5 by decide), Function.update_of_ne (show main_arg5 ≠ main_v5 by decide),
    Function.update_of_ne (show main_arg7 ≠ main_v5 by decide), Function.update_of_ne (show main_arg8 ≠ main_v5 by decide),
    Function.update_of_ne (show main_v0 ≠ main_v5 by decide)]

/-- EXIT, the buffers' part: the windows' arrays at their final contents and the buffers no window stages are the
    unscoped buffers at the new valuation. -/
theorem exit_bufs (c : Dev nD) :
    iprop((dats Vv 0 c).arrays ((dats Vv 0 c).arrAt · cfg1.N) ∗ (Pipeline.unscopedRest spec1 c (Vv c) : sProp 𝕄))
      ⊢ unscopedBufs c (afterRegion Vv c) := by
  rw [Pipeline.unscopedBufs_split (Pipeline.pin (pcfgs (F := F)) adm) 0 launch1.win.arr_unscoped launch1.win.arr_inj c (afterRegion Vv c),
    Pipeline.arrays_eq (Pipeline.pin (pcfgs (F := F)) adm) (dats Vv) 0 c launch1.arr_whole ((dats Vv 0 c).share_full fun _ => rfl),
    unscopedRest_afterRegion]
  exact sep_mono (Entails.of_eq (bigSep_congr fun w _ => by rw [arrAt_afterRegion Vv c w])) .rfl

/-! ## The region -/

-- the library's lemmas are stated over the pinned configuration of a pipeline family; ours is that configuration
-- only up to unfolding plain definitions inside a metavariable's type
set_option backward.isDefEq.respectTransparency.types false in
/-- The region: the decided layout, no semaphore of the kernel's own, the body obligation; entered from the
    unscoped buffers at the valuation and the thread owing nothing, left at the new valuation owing nothing. -/
def mlpRegion : Pipeline.RegionSeg (pcfgs (F := F)) adm (dats Vv) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation Vv c).loose
  hwaits := Pipeline.hwaits_of_owed_zero _ _ _ _ (K (F := F)).L (K (F := F)).lev 0 fun _ _ => rfl
  pre c := iprop(unscopedBufs c (Vv c) ∗ owesLow c)
  post c := iprop(unscopedBufs c (afterRegion Vv c) ∗ owesLow c)
  X _ := iprop(emp)
  Y _ := iprop(emp)
  Z c := Pipeline.unscopedRest spec1 c (Vv c)
  hentry c := by
    have hsplit := Pipeline.arrays_of_unscopedBufs (pcfgs (F := F)) adm (dats Vv) launch1.win launch1.arr_whole c
      ((dats Vv 0 c).share_full fun _ => rfl) (Vv c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p (Finset.mem_coe.mp hp))
      rw [(K (F := F)).Otc_end c le_rfl]; iexact HO
    isplitr; · iempintro
    iexact Hrest
  hin c := by
    rw [show (dats Vv 0 c).Φ 0 = Pipeline.scopedRest spec1 c from rfl]
    iintro ⟨-, -, Hr⟩; iexact Hr
  hout c := by
    rw [show (dats Vv 0 c).Φ (Fin.last cfg1.N) = Pipeline.scopedRest spec1 c from rfl]
    iintro Hr
    isplitr; · iempintro
    isplitr
    · unfold Pipeline.ownSems0; rw [show (Finset.univ : Finset PEmpty) = ∅ from rfl, BI.bigSep_empty]; iempintro
    iexact Hr
  hexit c := by
    iintro ⟨Ha, HO, -, HZ⟩
    imodintro
    isplitr [HO]
    · iapply (exit_bufs Vv c)
      isplitl [Ha]; · iexact Ha
      iexact HZ
    · unfold Pipeline.Dat.owesAt Pipeline.owesWithin
      icases HO with ⟨%W, %hW, HO⟩
      iexists W; isplitr
      · ipureintro
        intro p hp
        rcases hW (Finset.mem_coe.mpr hp) with h | ⟨w, s, rfl⟩
        · exact h
        · exact Nat.zero_le _
      rw [(K (F := F)).Otc_end c le_rfl]; iexact HO

/-! ## The region's rule -/

set_option backward.isDefEq.respectTransparency.types false in
set_option maxHeartbeats 2000000 in
/-- The region at the pipeline layer's body table. -/
theorem region_wp_inner (d : Dev nD) {Φ : PUnit → sProp 𝕄} :
    iprop(boundary (T d) ∗ unscopedBufs d (Vv d) ∗ levAts (K (F := F)).L (K (F := F)).lev ∗ owesLow d
        ∗ Pipeline.cellsGhost (Pipeline.pin (pcfgs (F := F)) adm) EP 0 d ∗ Pipeline.toksInit (Pipeline.pin (pcfgs (F := F)) adm) EP 0 d
        ∗ (iprop(boundary (T d) ∗ unscopedBufs d (afterRegion Vv d) ∗ owesLow d) -∗ Φ ⟨⟩))
      ⊢ wp frame (wpE (Pipeline.defs (pcfgs (F := F)) defs₀) (Variants.lift 𝒱₀) (d.tc : Thread nD τ) none) Set.univ
          (.op (.customCall (Pipeline.entry (0 : Fin 1)) ()) fun _ => .ret ⟨⟩) Φ := by
  have hR := Pipeline.RegionSeg.wp (pcfgs (F := F)) adm (dats Vv) (none : HIx 1) cellOf_inj EP defs₀ 𝒱₀
    (K (F := F)).L (K (F := F)).lev (mlpRegion Vv) d none (fun _ h => nomatch h) (fun _ => .ret ⟨⟩) Φ
  rw [show (mlpRegion Vv).post d = iprop(unscopedBufs d (afterRegion Vv d) ∗ owesLow d) from rfl,
    show (mlpRegion Vv).pre d = iprop(unscopedBufs d (Vv d) ∗ owesLow d) from rfl] at hR
  refine BIBase.Entails.trans ?_ hR
  iintro ⟨Hb, Hu, Hlev, Ho, Hg, Ht, Hk⟩
  isplitl [Hk]
  · iintro ⟨Hb, Hu, Ho⟩
    rw [wp_ret]
    imodintro
    iapply Hk
    isplitl [Hb]; · iexact Hb
    isplitl [Hu]; · iexact Hu
    iexact Ho
  isplitl [Hb]; · iexact Hb
  isplitl [Hu Ho]
  · isplitl [Hu]; · iexact Hu
    iexact Ho
  isplitl [Hlev]; · iexact Hlev
  isplitl [Hg]; · iexact Hg
  iexact Ht

/-- THE REGION on the main thread, at the program's body table: from the unscoped buffers at the valuation, the thread
    owing nothing, and the staging cells' launch state, the call runs to the valuation with the result array replaced. -/
theorem region_wp (d : Dev nD) {Φ : PUnit → sProp 𝕄} :
    iprop(boundary (T d) ∗ unscopedBufs d (Vv d) ∗ levAts (K (F := F)).L (K (F := F)).lev ∗ owesLow d
        ∗ Pipeline.cellsGhost (Pipeline.pin (pcfgs (F := F)) adm) EP 0 d ∗ Pipeline.toksInit (Pipeline.pin (pcfgs (F := F)) adm) EP 0 d
        ∗ (iprop(boundary (T d) ∗ unscopedBufs d (afterRegion Vv d) ∗ owesLow d) -∗ Φ ⟨⟩))
      ⊢ wp frame (wpE ((K (F := F)).defs (D (F := F))) 𝒱 (T d) none) Set.univ
          (Prog.lift (.customCall (SparseCore.inner (Pipeline.entry 0)) ())) Φ :=
  (region_wp_inner Vv d).trans
    ((K (F := F)).wp_liftProg (D (F := F)) 𝒱 (T d) Set.univ none (Prog.lift (.customCall (Pipeline.entry 0) ())) Φ)

/-- info: 'Cert.Proof.BitsSide.region_wp' depends on axioms: [propext, Classical.choice, Quot.sound] -/
#guard_msgs in #print axioms region_wp

end Cert.Proof.BitsSide

end
-- ==== Proof.BitsMlpValue.lean ====
/-
  The value of the dense layers' kernel region.

  The pipeline has ONE point and every window's block is the whole of its array at block index zero, so an
  input's block read off its array is the array, and the one write-back overwrites the whole result array with
  what the body left in its buffer: the body's single store over the seven arrays themselves. Hence the result
  array after the region is the generated payload of the seven input arrays.
-/
import proofs.«202922_g81758997446792_cont_9to1_m_1158_4_alg».proof.Proof.BitsRegion
import Idealize.ShloMosaic.Lib.Pipeline.Value

set_option maxRecDepth 16384

noncomputable section

namespace Cert.Proof.BitsSide

open Cert.Kernel Cert.Kernel.Gen

open Idealize.ShloMosaic Idealize.ShloMosaic.Tactic
open Idealize.ShloMosaic.SparseCore (T)
open Idealize.ShloMosaic.SparseCore.Cfg (HIx)
open Idealize.SL Idealize.SL.Sem
open Idealize.ShloMosaic.Pipeline (Dat Cfg Window)

variable {F : FTy → Type} [FloatOps F]

variable (Vv : Valn F)

/-- Both offsets of every access of the body are zero. -/
theorem zeros2 : (![0, 0] : Fin 2 → ℕ) = fun _ => 0 := by
  funext a; match a with | ⟨0, _⟩ => rfl | ⟨1, _⟩ => rfl

/-- A whole-buffer load reads the buffer and the one whole-buffer store leaves its payload: the body's store is
    the payload of the seven buffers' contents. -/
theorem mlpBlk_eq (x0 : Vec F S1024x128 .f32) (x1 : Vec F S128x100 .f32) (x2 : Vec F S1x100 .f32) (x3 : Vec F S100x100 .f32)
    (x4 : Vec F S1x100 .f32) (x5 : Vec F S100x100 .f32) (x6 : Vec F S1x100 .f32) :
    mlpBlk x0 x1 x2 x3 x4 x5 x6 = k1_pay1 x0 x1 x2 x3 x4 x5 x6 := by
  unfold mlpBlk
  rw [View.canon_unit_zero zeros2]
  simp only [View.ld_unit_zero (S := S1024x128) zeros2, View.ld_unit_zero (S := S128x100) zeros2,
    View.ld_unit_zero (S := S1x100) zeros2, View.ld_unit_zero (S := S100x100) zeros2]

/-! ## An input's block is its array -/

theorem winBlk_0 (c : Dev nD) (t : Fin cfg1.N) : winBlk Vv c 0 t = Vv c main_v1 := by
  funext j
  show Vv c main_v1 (((cfg1.win 0).blk t).view.emb j) = Vv c main_v1 j
  congr 1; funext a; apply Fin.ext
  match a with
  | ⟨0, _⟩ => show 0 * 1024 + 1 * (j 0).val = (j 0).val; omega
  | ⟨1, _⟩ => show 0 * 128 + 1 * (j 1).val = (j 1).val; omega
theorem winBlk_1 (c : Dev nD) (t : Fin cfg1.N) : winBlk Vv c 1 t = Vv c main_arg2 := by
  funext j
  show Vv c main_arg2 (((cfg1.win 1).blk t).view.emb j) = Vv c main_arg2 j
  congr 1; funext a; apply Fin.ext
  match a with
  | ⟨0, _⟩ => show 0 * 128 + 1 * (j 0).val = (j 0).val; omega
  | ⟨1, _⟩ => show 0 * 100 + 1 * (j 1).val = (j 1).val; omega
theorem winBlk_2 (c : Dev nD) (t : Fin cfg1.N) : winBlk Vv c 2 t = Vv c main_v2 := by
  funext j
  show Vv c main_v2 (((cfg1.win 2).blk t).view.emb j) = Vv c main_v2 j
  congr 1; funext a; apply Fin.ext
  match a with
  | ⟨0, _⟩ => show 0 * 1 + 1 * (j 0).val = (j 0).val; omega
  | ⟨1, _⟩ => show 0 * 100 + 1 * (j 1).val = (j 1).val; omega
theorem winBlk_3 (c : Dev nD) (t : Fin cfg1.N) : winBlk Vv c 3 t = Vv c main_arg4 := by
  funext j
  show Vv c main_arg4 (((cfg1.win 3).blk t).view.emb j) = Vv c main_arg4 j
  congr 1; funext a; apply Fin.ext
  match a with
  | ⟨0, _⟩ => show 0 * 100 + 1 * (j 0).val = (j 0).val; omega
  | ⟨1, _⟩ => show 0 * 100 + 1 * (j 1).val = (j 1).val; omega
theorem winBlk_4 (c : Dev nD) (t : Fin cfg1.N) : winBlk Vv c 4 t = Vv c main_v3 := by
  funext j
  show Vv c main_v3 (((cfg1.win 4).blk t).view.emb j) = Vv c main_v3 j
  congr 1; funext a; apply Fin.ext
  match a with
  | ⟨0, _⟩ => show 0 * 1 + 1 * (j 0).val = (j 0).val; omega
  | ⟨1, _⟩ => show 0 * 100 + 1 * (j 1).val = (j 1).val; omega
theorem winBlk_5 (c : Dev nD) (t : Fin cfg1.N) : winBlk Vv c 5 t = Vv c main_arg6 := by
  funext j
  show Vv c main_arg6 (((cfg1.win 5).blk t).view.emb j) = Vv c main_arg6 j
  congr 1; funext a; apply Fin.ext
  match a with
  | ⟨0, _⟩ => show 0 * 100 + 1 * (j 0).val = (j 0).val; omega
  | ⟨1, _⟩ => show 0 * 100 + 1 * (j 1).val = (j 1).val; omega
theorem winBlk_6 (c : Dev nD) (t : Fin cfg1.N) : winBlk Vv c 6 t = Vv c main_v4 := by
  funext j
  show Vv c main_v4 (((cfg1.win 6).blk t).view.emb j) = Vv c main_v4 j
  congr 1; funext a; apply Fin.ext
  match a with
  | ⟨0, _⟩ => show 0 * 1 + 1 * (j 0).val = (j 0).val; omega
  | ⟨1, _⟩ => show 0 * 100 + 1 * (j 1).val = (j 1).val; omega

/-! ## The result array -/

/-- The dense layers of the seven arrays as the region finds them: what the region leaves in the result array. -/
def mlpOut (c : Dev nD) : Buf (Elt F) ((c.tc : Thread nD τ).loc main_v5) :=
  k1_pay1 (Vv c main_v1) (Vv c main_arg2) (Vv c main_v2) (Vv c main_arg4) (Vv c main_v3) (Vv c main_arg6) (Vv c main_v4)

/-- THE VALUE: the one point writes the whole result array, with the body's store over the seven arrays. -/
theorem mlpArr_eq (c : Dev nD) : mlpArr Vv c = mlpOut Vv c := by
  unfold mlpArr
  refine (dats Vv 0 c).arrAt_eq_of_cover 7 (mlpOut Vv c) (fun t _ => ?_) (fun i => ⟨t1_0, flush1_7 t1_0, ?_⟩)
  · show (cfg1.win 7).cut (grid1.coords t) ((dats Vv 0 c).after 7 t) = _
    rw [after_7, mlpBlk_eq, winBlk_0, winBlk_1, winBlk_2, winBlk_3, winBlk_4, winBlk_5, winBlk_6]
    funext j
    show mlpOut Vv c ((cfg1.win 7).xinj (grid1.coords t) j) = mlpOut Vv c (((cfg1.win 7).blk t).view.emb j)
    congr 1; funext a; apply Fin.ext
    match a with
    | ⟨0, _⟩ => show (j 0).val = 0 * 1024 + 1 * (j 0).val; omega
    | ⟨1, _⟩ => show (j 1).val = 0 * 100 + 1 * (j 1).val; omega
  · show i ∈ ((View.whole main_v5).slice (win1_7.rect t1_0)).set
    rw [View.set_slice_whole, Rect.mem_set_unit]
    intro a
    match a with
    | ⟨0, _⟩ =>
      show 0 * 1024 ≤ (i 0).val ∧ (i 0).val < 0 * 1024 + 1024
      have h : (i 0).val < 1024 := (i 0).isLt
      omega
    | ⟨1, _⟩ =>
      show 0 * 100 ≤ (i 1).val ∧ (i 1).val < 0 * 100 + 100
      have h : (i 1).val < 100 := (i 1).isLt
      omega

/-- info: 'Cert.Proof.BitsSide.mlpArr_eq' depends on axioms: [propext, Classical.choice, Quot.sound] -/
#guard_msgs in #print axioms mlpArr_eq

/-- The valuation after the region, read: the result array at the dense layers of the seven arrays, -/
theorem afterRegion_out (c : Dev nD) : afterRegion Vv c main_v5 = mlpOut Vv c :=
  (Function.update_self main_v5 (mlpArr Vv c) (Vv c)).trans (mlpArr_eq Vv c)

/-- every other buffer as it was. -/
theorem afterRegion_of_ne (c : Dev nD) {b : Ref sig .tc} (h : b ≠ main_v5) : afterRegion Vv c b = Vv c b :=
  Function.update_of_ne h _ _

end Cert.Proof.BitsSide

end
-- ==== Proof.BitsMain.lean ====
/-
  @main on the TensorCore: the token matrix re-read as [2048, 100]; the SparseCore call, handed the three arrays in 32
  pieces and handing back the pooled matrix; the three biases re-read as rows; the layers' region; and what the final
  memory then holds.
-/
import proofs.«202922_g81758997446792_cont_9to1_m_1158_4_alg».proof.Proof.BitsTile
import proofs.«202922_g81758997446792_cont_9to1_m_1158_4_alg».proof.Proof.BitsPay
import proofs.«202922_g81758997446792_cont_9to1_m_1158_4_alg».proof.Proof.BitsMlpValue
import Idealize.ShloMosaic.Lib.Pipeline.Frame

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

open Idealize.ShloMosaic.Pipeline (unscopedBufs_held ucRefs sub_ucRefs)

variable [FloatOps F]
variable (m : (ℓ : Loc nD τ sig) → Buf (Elt F) ℓ) (ρ : Dev nD → PrngReg)

/-! ## The host operations and the contents after each -/

abbrev rf (b : Ref sig .tc) : DevRef τ sig := Proc.devRef .tc b

abbrev opTok : HloOp τ sig (Elt F) := StableHlo.reshape main_arg0 main_v0 rfl shapeCasts_S1024x200_S2048x100
abbrev opB1 : HloOp τ sig (Elt F) := StableHlo.reshape main_arg3 main_v2 rfl shapeCasts_S100_S1x100
abbrev opB2 : HloOp τ sig (Elt F) := StableHlo.reshape main_arg5 main_v3 rfl shapeCasts_S100_S1x100
abbrev opB3 : HloOp τ sig (Elt F) := StableHlo.reshape main_arg7 main_v4 rfl shapeCasts_S100_S1x100

/-- The launch contents. -/
def V0 (d : Dev nD) : Valuation τ sig (Elt F) := fun b => m (d, b)
/-- After the token matrix is re-read. -/
def V1 (d : Dev nD) : Valuation τ sig (Elt F) := (opTok (F := F)).result (V0 m d)
/-- The token matrix as [2048, 100], and the table. -/
def tk (d : Dev nD) : S2048x100.Idx → BitVec 32 := V1 m d (rf main_v0)
def tb (d : Dev nD) : Buf (Elt F) (tabLoc d) := m (tabLoc d)
/-- After the SparseCore call: the pooled matrix at the pooled value. -/
def V2 (d : Dev nD) : Valuation τ sig (Elt F) := Function.update (V1 m d) (rf main_v1) (pooledF (F := F) (tk m d) (tb m d))
def V3 (d : Dev nD) : Valuation τ sig (Elt F) := (opB1 (F := F)).result (V2 m d)
def V4 (d : Dev nD) : Valuation τ sig (Elt F) := (opB2 (F := F)).result (V3 m d)
def V5 (d : Dev nD) : Valuation τ sig (Elt F) := (opB3 (F := F)).result (V4 m d)
/-- The contents the region is entered at, reference by reference. -/
def Vv (c : Dev nD) (b : Ref sig .tc) : Buf (Elt F) ((c.tc : Thread nD τ).loc b) := V5 m c (rf b)

theorem hTok : (opTok (F := F)).bufs ⊆ ucRefs τ sig := sub_ucRefs _ (StableHlo.reshape_bufs_sub _ _ _ _ _ _)
theorem hB1 : (opB1 (F := F)).bufs ⊆ ucRefs τ sig := sub_ucRefs _ (StableHlo.reshape_bufs_sub _ _ _ _ _ _)
theorem hB2 : (opB2 (F := F)).bufs ⊆ ucRefs τ sig := sub_ucRefs _ (StableHlo.reshape_bufs_sub _ _ _ _ _ _)
theorem hB3 : (opB3 (F := F)).bufs ⊆ ucRefs τ sig := sub_ucRefs _ (StableHlo.reshape_bufs_sub _ _ _ _ _ _)

/-! ## The call's three arrays out of the held set and back -/

/-- The three arrays the SparseCore call works on. -/
abbrev S3 : Finset (DevRef τ sig) := {rf main_v0, rf main_arg1, rf main_v1}
theorem hS3 : S3 ⊆ ucRefs τ sig := by decide

omit [FloatOps F] in
theorem held_S3 (d : Dev nD) (W : Valuation τ sig (Elt F)) :
    (held (T d) S3 W : sProp 𝕄) = iprop((tokLoc d ↦{fullShare} W (rf main_v0)) ∗ (tabLoc d ↦{fullShare} W (rf main_arg1)) ∗ (outLoc d ↦{fullShare} W (rf main_v1))) := by
  unfold held S3
  rw [SparseCore.bigSep_insert' (by decide), SparseCore.bigSep_insert' (by decide), bigSep_singleton]

theorem V1_tab (d : Dev nD) : V1 m d (rf main_arg1) = tb m d :=
  (opTok (F := F)).result_of_not_mem (V0 m d) (b := rf main_arg1) (show rf main_arg1 ∉ ({rf main_v0} : Finset (DevRef τ sig)) by decide)

theorem V2_tok (d : Dev nD) : V2 m d (rf main_v0) = tk m d := Function.update_of_ne (show rf main_v0 ≠ rf main_v1 by decide) _ _
theorem V2_tab (d : Dev nD) : V2 m d (rf main_arg1) = tb m d :=
  (Function.update_of_ne (show rf main_arg1 ≠ rf main_v1 by decide) _ _).trans (V1_tab m d)
theorem V2_out (d : Dev nD) : V2 m d (rf main_v1) = pooledF (F := F) (tk m d) (tb m d) := Function.update_self _ _ _

theorem held_rest_V2 (d : Dev nD) : (held (T d) (ucRefs τ sig \ S3) (V2 m d) : sProp 𝕄) = held (T d) (ucRefs τ sig \ S3) (V1 m d) :=
  StableHlo.held_congr _ fun b hb => Function.update_of_ne (fun e => (Finset.mem_sdiff.mp hb).2 (by rw [e]; decide)) _ _

/-- The pooled matrix's launch-time contents after the first host operation (what the call is handed). -/
def o1 (d : Dev nD) : Buf (Elt F) (outLoc d) := V1 m d (rf main_v1)

theorem held_V1 (d : Dev nD) :
    (held (T d) (ucRefs τ sig) (V1 m d) : sProp 𝕄)
      = iprop(((tokLoc d ↦{fullShare} tk m d) ∗ (tabLoc d ↦{fullShare} tb m d) ∗ (outLoc d ↦{fullShare} o1 m d))
          ∗ held (T d) (ucRefs τ sig \ S3) (V1 m d)) := by
  rw [StableHlo.held_sub_split (T d) hS3 (V1 m d), held_S3, V1_tab]; rfl

theorem held_V2 (d : Dev nD) :
    (held (T d) (ucRefs τ sig) (V2 m d) : sProp 𝕄)
      = iprop(((tokLoc d ↦{fullShare} tk m d) ∗ (tabLoc d ↦{fullShare} tb m d) ∗ (outLoc d ↦{fullShare} pooledF (F := F) (tk m d) (tb m d)))
          ∗ held (T d) (ucRefs τ sig \ S3) (V1 m d)) := by
  rw [StableHlo.held_sub_split (T d) hS3 (V2 m d), held_S3, held_rest_V2, V2_tok, V2_tab, V2_out]

/-- The call's payloads at this launch. -/
abbrev Pm : (K (F := F)).Pay (nD := nD) (Val := Elt F) (Name := ℕ) (U := UU) := P (F := F) (tk m) (tb m) (o1 m)

omit [FloatOps F] in
theorem held_eq_of {W W' : Valuation τ sig (Elt F)} (h : W = W') (c : Thread nD τ) (S : Finset (DevRef τ sig)) :
    (held c S W : sProp 𝕄) = held c S W' := by rw [h]

theorem V1_def (d : Dev nD) : (opTok (F := F)).result (V0 m d) = V1 m d := rfl
theorem V3_def (d : Dev nD) : (opB1 (F := F)).result (V2 m d) = V3 m d := rfl
theorem V4_def (d : Dev nD) : (opB2 (F := F)).result (V3 m d) = V4 m d := rfl
theorem V5_def (d : Dev nD) : (opB3 (F := F)).result (V4 m d) = V5 m d := rfl

/-- The launch contents of the TensorCore's arrays, as a held set. -/
theorem launch_held (d : Dev nD) :
    (unscopedBufs d (fun b => m ((SparseCore.T d).loc b)) : sProp 𝕄) = held (SparseCore.T d) (ucRefs τ sig) (V0 m d) :=
  unscopedBufs_held d (V0 m d)

/-- The contents the region is entered at, as the launch's unscoped buffers. -/
theorem region_held (d : Dev nD) :
    (held (SparseCore.T d) (ucRefs τ sig) (V5 m d) : sProp 𝕄) = unscopedBufs d (Vv m d) :=
  (unscopedBufs_held d (V5 m d)).symm

section Main

/-- What @main leaves: every array of the TensorCore at the contents the region was entered at, the result at what the region wrote. -/
def FIN (d : Dev nD) : sProp 𝕄 := unscopedBufs d (afterRegion (Vv m) d)

/-- What the launch element funds for the layers' pipeline on device d. -/
abbrev GP (d : Dev nD) : sProp 𝕄 :=
  iprop(Pipeline.cellsGhost (Pipeline.pin (pcfgs (F := F)) adm) EP 0 d ∗ Pipeline.toksInit (Pipeline.pin (pcfgs (F := F)) adm) EP 0 d)

set_option maxHeartbeats 1600000 in
theorem hmain (κ : GSem nD τ sig → ℕ) (d : Dev nD) :
    iprop((K (F := F)).ctx EH (Pm m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [launch_held]
  simp only [main, wp_bind, wp_pure]
  iintro ⟨#Hctx, Hst, ⟨Hb, Hheld, Hsems, Hprng⟩, HG⟩
  -- the token matrix re-read as [2048, 100]
  iapply (wp_hlo_within 𝒱 (SparseCore.T d) none Set.univ (op := opTok) (S := ucRefs τ sig) hTok (V := V0 m d)) $$ [Hb Hheld]
  · isplitl [Hb]; · iexact Hb
    iexact Hheld
  iintro ⟨Hb, Hheld⟩
  rw [wp_ret]; imodintro
  ihave Hheld1 := (Entails.of_eq (held_eq_of (V1_def m d) _ _)) $$ Hheld
  ihave Hh := (Entails.of_eq (held_V1 m d)) $$ Hheld1
  icases Hh with ⟨⟨Ht, Hx, Ho⟩, Hrest⟩
  ihave Hp := (pieces_out d (tk m) (tb m) (o1 m)) $$ [Ht Hx Ho]
  · isplitl [Ht]; · iexact Ht
    isplitl [Hx]; · iexact Hx
    iexact Ho
  icases Hp with ⟨Hdrop, Hgo⟩
  -- the SparseCore call
  iapply ((K (F := F)).wp_run (D (F := F)) 𝒱 (EH := EH) (P := Pm m) κ d 0) $$ [Hst Hgo Hdrop Hrest Hb Hsems Hprng HG]
  isplitr; · iexact Hctx
  isplitl [Hst]; · iexact Hst
  isplitl [Hgo]
  · rw [st0_eq]; iexact Hgo
  iintro ⟨Hst, Hdn⟩
  ihave Hdn' := (Entails.of_eq (dn0_eq d (tk m) (tb m) (o1 m))) $$ Hdn
  ihave Hback := (pieces_back d (tk m) (tb m)) $$ [Hdrop Hdn']
  · isplitl [Hdrop]; · iexact Hdrop
    iexact Hdn'
  ihave Hheld2 := (Entails.of_eq (held_V2 m d).symm) $$ [Hback Hrest]
  · isplitl [Hback]; · iexact Hback
    iexact Hrest
  -- the three biases re-read as rows
  iapply (wp_hlo_within 𝒱 (SparseCore.T d) none Set.univ (op := opB1) (S := ucRefs τ sig) hB1 (V := V2 m d)) $$ [Hb Hheld2]
  · isplitl [Hb]; · iexact Hb
    iexact Hheld2
  iintro ⟨Hb, Hheld⟩
  rw [wp_ret]; imodintro
  ihave Hheld3 := (Entails.of_eq (held_eq_of (V3_def m d) _ _)) $$ Hheld
  iapply (wp_hlo_within 𝒱 (SparseCore.T d) none Set.univ (op := opB2) (S := ucRefs τ sig) hB2 (V := V3 m d)) $$ [Hb Hheld3]
  · isplitl [Hb]; · iexact Hb
    iexact Hheld3
  iintro ⟨Hb, Hheld⟩
  rw [wp_ret]; imodintro
  ihave Hheld4 := (Entails.of_eq (held_eq_of (V4_def m d) _ _)) $$ Hheld
  iapply (wp_hlo_within 𝒱 (SparseCore.T d) none Set.univ (op := opB3) (S := ucRefs τ sig) hB3 (V := V4 m d)) $$ [Hb Hheld4]
  · isplitl [Hb]; · iexact Hb
    iexact Hheld4
  iintro ⟨Hb, Hheld⟩
  rw [wp_ret]; imodintro
  -- the layers' region
  ihave Hheld5 := (Entails.of_eq (held_eq_of (V5_def m d) _ _)) $$ Hheld
  ihave Hub := (Entails.of_eq (region_held m d)) $$ Hheld5
  ihave Hlev := ((K (F := F)).ctx_levAts κ) $$ Hctx
  unfold SparseCore.Cfg.tcSt
  icases Hst with ⟨Howe, Hstrest⟩
  icases HG with ⟨Hcg, Htk⟩
  iapply (region_wp (F := F) (Vv m) d) $$ [Hb Hub Hlev Howe Hcg Htk Hstrest]
  isplitl [Hb]; · iexact Hb
  isplitl [Hub]; · iexact Hub
  isplitl [Hlev]; · iexact Hlev
  isplitl [Howe]; · iexact Howe
  isplitl [Hcg]; · iexact Hcg
  isplitl [Htk]; · iexact Htk
  iintro ⟨Hb, Hub, Howe⟩
  imodintro
  isplitl [Howe Hstrest]
  · isplitl [Howe]; · iexact Howe
    iexact Hstrest
  unfold FIN
  iexact Hub

end Main

end Cert.Proof.BitsSide

end
-- ==== Proof.BitsEnds.lean ====
/-
  The two ends of the run: the launch element of the ghost state (the handshakes' rounds, the layers' pipeline's
  rounds, the transfers' counters), and what the final memory holds, array by array.
-/
import proofs.«202922_g81758997446792_cont_9to1_m_1158_4_alg».proof.Proof.BitsTile
import proofs.«202922_g81758997446792_cont_9to1_m_1158_4_alg».proof.Proof.BitsMain

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

open Idealize.ShloMosaic.Pipeline (unscopedBufs_held ucRefs sub_ucRefs)

variable [FloatOps F]
variable (m : (ℓ : Loc nD τ sig) → Buf (Elt F) ℓ) (ρ : Dev nD → PrngReg)

/-! ## The launch element -/

/-- The pipeline's rounds at launch: its staging cells' and duty tokens'. -/
abbrev uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (Pm (F := F) m).x q thr) := by
  unfold u₀
  iintro Hu
  ihave H := (ownU_pair (initOf (K (F := F)).hsCells (K (F := F)).hsToks) ((uP (F := F), (1 : Counters)))) $$ Hu
  icases H with ⟨HH, HR⟩
  ihave HR' := (own_pair_emb (embR (A := UH) (B := UP × Counters) (nD := nD) (τ := τ) (sig := sig) (Ix := HIx 1) (Val := Elt F) (Name := ℕ) (Lvl := ℕ)) (uP (F := F)) (1 : Counters)) $$ HR
  icases HR' with ⟨HP, -⟩
  ihave HP' := (Entails.of_eq (show (BI.own (((Emb.inl : Emb UP (UP × Counters)).trans (embR (A := UH) (B := UP × Counters) (nD := nD) (τ := τ) (sig := sig) (Ix := HIx 1) (Val := Elt F) (Name := ℕ) (Lvl := ℕ))) (uP (F := F))) : sProp 𝕄)
      = BI.own (EP (uP (F := F))) from rfl)) $$ HP
  imod (Pipeline.fund_ghost (Pipeline.pin (pcfgs (F := F)) adm) EP cellOf_inj) $$ HP' with ⟨Hg, Ht⟩
  imodintro
  isplitl [HH]; · iexact HH
  have eg : (bigSep Finset.univ fun c : Dev nD => bigSep Finset.univ fun p : Fin 1 => Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun c _ => bigSep_univ_of_subsingleton (0 : Fin 1)
  have et : (bigSep Finset.univ fun c : Dev nD => bigSep Finset.univ fun p : Fin 1 => Pipeline.toksInit (Pipeline.pin (pcfgs (F := F)) adm) EP p c : sProp 𝕄)
      = bigSep Finset.univ fun c : Dev nD => Pipeline.toksInit (Pipeline.pin (pcfgs (F := F)) adm) EP 0 c :=
    bigSep_congr fun c _ => bigSep_univ_of_subsingleton (0 : Fin 1)
  ihave Hg' := (Entails.of_eq eg) $$ Hg
  ihave Ht' := (Entails.of_eq et) $$ Ht
  isplitl [Hg' Ht']
  · rw [bigSep_sep']
    isplitl [Hg']
    · iexact Hg'
    · iexact Ht'
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## The final memory -/

omit [FloatOps F] in
/-- Buffers held whole agree with the memory, one by one. -/
theorem bufs_agree (d : Dev nD) (s' : Phys nD τ sig (Elt F)) (W : (b : Ref sig .tc) → Buf (Elt F) ((d.tc : Thread nD τ).loc b)) :
    ∀ s : Finset (Ref sig .tc), iprop((bigSep s fun b => ((d.tc : Thread nD τ).loc b) ↦{fullShare} W b) ∗ SI s')
      ⊢ (⌜∀ b ∈ s, s'.mem.mem ((d.tc : Thread nD τ).loc b) = W b⌝ : sProp 𝕄) := by
  classical
  intro s
  induction s using Finset.induction_on with
  | empty => iintro -; ipureintro; intro b hb; exact absurd hb (Finset.notMem_empty b)
  | insert b s hb ih =>
    rw [SparseCore.bigSep_insert' hb]
    iintro ⟨⟨Hb, Hs⟩, HSI⟩
    ihave H := (persistent_entails_right (SI_pointsTo_agree (st := s') (ℓ := (d.tc : Thread nD τ).loc b) (I := Finset.univ) (q := fullShare) (f := W b))) $$ [HSI Hb]
    · isplitl [HSI] <;> iassumption
    icases H with ⟨%h1, HSI, -⟩
    ihave H2 := ih $$ [Hs HSI]
    · isplitl [Hs] <;> iassumption
    icases H2 with %h2
    ipureintro
    intro b' hb'
    rcases Finset.mem_insert.mp hb' with rfl | hb'
    · exact funext fun i => h1 i (Finset.mem_univ i)
    · exact h2 b' hb'

/-- What the final memory holds on device d: every array of the TensorCore at what @main left. -/
def fq (d : Dev nD) (s' : Phys nD τ sig (Elt F)) : Prop :=
  ∀ b : Ref sig .tc, ¬ b.isScoped → s'.mem.mem ((d.tc : Thread nD τ).loc b) = afterRegion (Vv m) d b

theorem hfin (d : Dev nD) (s' : Phys nD τ sig (Elt F)) : iprop(FIN m d ∗ SI s') ⊢ (⌜fq m d s'⌝ : sProp 𝕄) := by
  unfold FIN unscopedBufs
  refine (bufs_agree d s' (afterRegion (Vv m) d) _).trans ?_
  iintro %h; ipureintro
  exact fun b hb => h b (Finset.mem_filter.mpr ⟨Finset.mem_univ b, hb⟩)

/-! ## The contents of each array at the end, read back through @main's steps -/

/-- An array no step of @main writes before the region holds its launch contents there. -/
theorem V5_kept (d : Dev nD) (b : DevRef τ sig) (h0 : b ≠ rf main_v0) (h1 : b ≠ rf main_v1) (h2 : b ≠ rf main_v2) (h3 : b ≠ rf main_v3) (h4 : b ≠ rf main_v4) :
    V5 m d b = m (d, b) := by
  unfold V5 V4 V3 V2 V1 V0
  rw [(opB3 (F := F)).result_of_not_mem _ (fun hm => h4 (Finset.mem_singleton.mp hm)),
    (opB2 (F := F)).result_of_not_mem _ (fun hm => h3 (Finset.mem_singleton.mp hm)),
    (opB1 (F := F)).result_of_not_mem _ (fun hm => h2 (Finset.mem_singleton.mp hm)),
    Function.update_of_ne h1,
    (opTok (F := F)).result_of_not_mem _ (fun hm => h0 (Finset.mem_singleton.mp hm))]

/-- The pooled matrix at the region's entry is the pooled value. -/
theorem V5_pooled (d : Dev nD) : V5 m d (rf main_v1) = pooledF (F := F) (tk m d) (tb m d) := by
  unfold V5 V4 V3
  rw [(opB3 (F := F)).result_of_not_mem _ (show rf main_v1 ∉ ({rf main_v4} : Finset (DevRef τ sig)) by decide),
    (opB2 (F := F)).result_of_not_mem _ (show rf main_v1 ∉ ({rf main_v3} : Finset (DevRef τ sig)) by decide),
    (opB1 (F := F)).result_of_not_mem _ (show rf main_v1 ∉ ({rf main_v2} : Finset (DevRef τ sig)) by decide)]
  exact V2_out m d

end Cert.Proof.BitsSide

end
-- ==== Proof.BitsBodyBase.lean ====
/-
  A vector subcore's own semaphores and scratch buffers, taken out of what the subcore owns one by one.

  The pooling task names six DMA semaphores (one per row buffer and one for each of its two plain copies) and six
  scratch buffers (the index rows, the four row buffers, the pooled rows). The subcore's semaphores at zero and its
  buffers at some contents are families over everything the subcore owns; the two equations here split the named ones
  off in the order the task uses them and leave the rest as one family.
-/
import proofs.«202922_g81758997446792_cont_9to1_m_1158_4_alg».proof.Proof.BitsTile

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The subcore's own semaphores and buffers, named -/

section Own

variable (d : Dev nD) (L : grid0.Coords)

abbrev semCell (s : DmaSems sig S_) : GSem nD τ sig := ((V d (cV L) (jV L)), SemLoc.dma s.sem)

omit [FloatOps F] in
theorem semCell_ne {a b : DmaSem sig} (h : a ≠ b) :
    (((V d (cV L) (jV L)), SemLoc.dma a) : GSem nD τ sig) ≠ ((V d (cV L) (jV L)), SemLoc.dma b) :=
  fun e => h (SemLoc.dma.inj (Prod.mk.inj e).2)

omit [FloatOps F] in
theorem ownSems0_V :
    (ownSems0 (V d (cV L) (jV L)) : sProp 𝕄)
      = iprop(semVal (semCell d L cc0_scratch6) 0 ∗ semVal (semCell d L cc0_scratch7) 0 ∗ semVal (semCell d L cc0_scratch8) 0 ∗ semVal (semCell d L cc0_scratch9) 0 ∗ semVal (semCell d L cc0_scoped0) 0 ∗ semVal (semCell d L cc0_scoped1) 0
          ∗ bigSep (((((((ownCells (V d (cV L) (jV L))).erase (semCell d L cc0_scratch6)).erase (semCell d L cc0_scratch7)).erase (semCell d L cc0_scratch8)).erase (semCell d L cc0_scratch9)).erase (semCell d L cc0_scoped0)).erase (semCell d L cc0_scoped1)) fun g => semVal g 0) := by
  unfold SparseCore.Cfg.ownSems0
  rw [SparseCore.bigSep_erase' ((mem_ownCells (g := semCell d L cc0_scratch6)).mpr ⟨rfl, by show (SemLoc.dma cc0_scratch6.sem : SemLoc sig).isScoped .scVector = true; decide⟩),
    SparseCore.bigSep_erase' (Finset.mem_erase.mpr ⟨semCell_ne d L (by decide : cc0_scratch7.sem ≠ cc0_scratch6.sem), (mem_ownCells (g := semCell d L cc0_scratch7)).mpr ⟨rfl, by show (SemLoc.dma cc0_scratch7.sem : SemLoc sig).isScoped .scVector = true; decide⟩⟩),
    SparseCore.bigSep_erase' (Finset.mem_erase.mpr ⟨semCell_ne d L (by decide : cc0_scratch8.sem ≠ cc0_scratch7.sem), Finset.mem_erase.mpr ⟨semCell_ne d L (by decide : cc0_scratch8.sem ≠ cc0_scratch6.sem), (mem_ownCells (g := semCell d L cc0_scratch8)).mpr ⟨rfl, by show (SemLoc.dma cc0_scratch8.sem : SemLoc sig).isScoped .scVector = true; decide⟩⟩⟩),
    SparseCore.bigSep_erase' (Finset.mem_erase.mpr ⟨semCell_ne d L (by decide : cc0_scratch9.sem ≠ cc0_scratch8.sem), Finset.mem_erase.mpr ⟨semCell_ne d L (by decide : cc0_scratch9.sem ≠ cc0_scratch7.sem), Finset.mem_erase.mpr ⟨semCell_ne d L (by decide : cc0_scratch9.sem ≠ cc0_scratch6.sem), (mem_ownCells (g := semCell d L cc0_scratch9)).mpr ⟨rfl, by show (SemLoc.dma cc0_scratch9.sem : SemLoc sig).isScoped .scVector = true; decide⟩⟩⟩⟩),
    SparseCore.bigSep_erase' (Finset.mem_erase.mpr ⟨semCell_ne d L (by decide : cc0_scoped0.sem ≠ cc0_scratch9.sem), Finset.mem_erase.mpr ⟨semCell_ne d L (by decide : cc0_scoped0.sem ≠ cc0_scratch8.sem), Finset.mem_erase.mpr ⟨semCell_ne d L (by decide : cc0_scoped0.sem ≠ cc0_scratch7.sem), Finset.mem_erase.mpr ⟨semCell_ne d L (by decide : cc0_scoped0.sem ≠ cc0_scratch6.sem), (mem_ownCells (g := semCell d L cc0_scoped0)).mpr ⟨rfl, by show (SemLoc.dma cc0_scoped0.sem : SemLoc sig).isScoped .scVector = true; decide⟩⟩⟩⟩⟩),
    SparseCore.bigSep_erase' (Finset.mem_erase.mpr ⟨semCell_ne d L (by decide : cc0_scoped1.sem ≠ cc0_scoped0.sem), Finset.mem_erase.mpr ⟨semCell_ne d L (by decide : cc0_scoped1.sem ≠ cc0_scratch9.sem), Finset.mem_erase.mpr ⟨semCell_ne d L (by decide : cc0_scoped1.sem ≠ cc0_scratch8.sem), Finset.mem_erase.mpr ⟨semCell_ne d L (by decide : cc0_scoped1.sem ≠ cc0_scratch7.sem), Finset.mem_erase.mpr ⟨semCell_ne d L (by decide : cc0_scoped1.sem ≠ cc0_scratch6.sem), (mem_ownCells (g := semCell d L cc0_scoped1)).mpr ⟨rfl, by show (SemLoc.dma cc0_scoped1.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

end Own

end Cert.Proof.BitsSide

end
-- ==== Proof.BitsBodyDefs.lean ====
/-
  What the pooling task addresses: its 64 token rows and its 32 pooled rows as slices of the whole matrices, a row of
  the index scratch as the list a gather reads, the index scratch's contents once the token rows have landed in it, the
  whole table as a gather's source, and what a gather lands.

  A gather into a row buffer reads the 100 words of one row of the index scratch and lands, at row r of the buffer, the
  table row the r-th word names. Every token word is at most 99999 on the domain the programs are compared on, so it
  names one of the table's 100002 rows: the range fact each gather needs.
-/
import proofs.«202922_g81758997446792_cont_9to1_m_1158_4_alg».proof.Proof.BitsTile
import proofs.«202922_g81758997446792_cont_9to1_m_1158_4_alg».proof.Proof.BitsBodyBase

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

section Tile
variable (d : Dev nD) (L : grid0.Coords)

abbrev tokK (L : grid0.Coords) : Memref sig .scVector .hbm S64x100 .i32 := (tokV).slice (tokRect L) (fun _ => rfl)
abbrev outK (L : grid0.Coords) : Memref sig .scVector .hbm S32x128 .f32 := (outV).slice (outRect L) (fun _ => rfl)

/-- A row of the index scratch, as a gather names its list. -/
abbrev idxRow (off : Fin 2 → Nat) (hoff : ∀ a, off a + S1x100.size a ≤ S64x100.size a) : Memref sig .scVector .vmem S100 .i32 :=
  ((s0V).slice (Rect.unit (s := S64x100) off S1x100.size hoff) (fun _ => rfl)).squeeze S100 squeezes_S1x100_S100

/-- The index scratch once the task's token rows have landed in it. -/
abbrev idxBuf (t2 : Buf (Elt F) (tokLoc d)) : Buf (Elt F) ((V d (cV L) (jV L)).loc cc0_scratch0) := (tokK L).view.read (Elt F) t2

omit [FloatOps F] in
/-- Every word of a row of the index scratch, once it holds the task's token rows, names a table row. -/
theorem hin_idx (t2 : Buf (Elt F) (tokLoc d)) (hpre : PreOK t2) (off : Fin 2 → Nat) (hoff : ∀ a, off a + S1x100.size a ≤ S64x100.size a) :
    ∀ x, ((idxRow off hoff).view.read (Elt F) (idxBuf d L t2) x).toNat < S100002x128.size gathers_S100002x128_S100x128.axis := by
  intro x
  rw [show ∀ G : Buf (Elt F) ((V d (cV L) (jV L)).loc cc0_scratch0), (idxRow off hoff).view.read (Elt F) G x = G ((idxRow off hoff).view.emb x)
    from fun G => (View.read_apply _ _).trans (cast_eq _ _)]
  rw [show ∀ j, idxBuf d L t2 j = t2 ((tokK L).view.emb j) from fun j => (View.read_apply _ _).trans (cast_eq _ _)]
  exact Nat.lt_of_le_of_lt (hpre _) (by decide)

abbrev tabK : Memref sig .scVector .hbm S100002x128 .f32 :=
  (tabV).slice (Rect.unit (s := S100002x128) ![0, 0] S100002x128.size inb_S100002x128_S100002x128_0_0) (fun _ => rfl)

theorem hnRows : S100.numel = S100x128.size gathers_S100002x128_S100x128.axis' := by decide

/-- What a gather lands in a row buffer: at row r, the table row the r-th word of the list names. -/
abbrev gatherPay (t2 : Buf (Elt F) (tokLoc d)) (tab : Buf (Elt F) (tabLoc d))
    (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (off : Fin 2 → Nat) (hoff : ∀ a, off a + S1x100.size a ≤ S64x100.size a) : S100x128.Idx → Elt F .f32 :=
  SparseCore.gatherPayload gathers_S100002x128_S100x128 ((tabK).view.read (Elt F) tab)
    (SparseCore.rows ((idxRow off hoff).view.read (Elt F) (idxBuf d L t2)) hnRows (hin off hoff))

end Tile

end Cert.Proof.BitsSide

end
-- ==== Proof.BitsBodyRows.lean ====
/-
  The row sums as pure functions.

  A sentence's pooled vector is kept in eight vectors of sixteen lanes: vector c, lane l is feature 16·c + l. Adding one
  row of a row buffer adds the row's 128 entries lane by lane; a row sum is that step folded over the buffer's first n
  rows, in order. There is one copy per row buffer, each over its own buffer's loads. Feature e of the eight vectors,
  and the same fold at a single feature, say entry by entry what the vectors hold. The sixteen pieces a trip stores are
  the two finished sums, eight pieces of sixteen lanes each, at rows 2k and 2k + 1 of the pooled scratch.
-/
import proofs.«202922_g81758997446792_cont_9to1_m_1158_4_alg».proof.Proof.BitsTile
import proofs.«202922_g81758997446792_cont_9to1_m_1158_4_alg».proof.Proof.BitsBodyDefs

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

section Rows
variable (d : Dev nD) (L : grid0.Coords)

/-- The eight lane vectors a row sum carries: vector c, lane l is feature 16·c + l. -/
abbrev A8 (F : FTy → Type) : Type := (FVec F S16 .f32 × FVec F S16 .f32 × FVec F S16 .f32 × FVec F S16 .f32 × FVec F S16 .f32 × FVec F S16 .f32 × FVec F S16 .f32 × FVec F S16 .f32)

/-- One row of row buffer 0 added to the eight lane vectors. -/
def rowStep0 (cont : Buf (Elt F) ((s1V).view.loc (V d (cV L) (jV L)))) (r : Fin k0_t2_loop.trips) (a : A8 F) : A8 F :=
  (addf a.1 (shapeCast S16 (View.readAt (Elt F) (s1V).view (Rect.unit (s := S100x128) (k0_off2 r) S1x16.size (k0_off2_inb r)).toLoadRect cont) shapeCasts_S1x16_S16),
   addf a.2.1 (shapeCast S16 (View.readAt (Elt F) (s1V).view (Rect.unit (s := S100x128) (k0_off3 r) S1x16.size (k0_off3_inb r)).toLoadRect cont) shapeCasts_S1x16_S16),
   addf a.2.2.1 (shapeCast S16 (View.readAt (Elt F) (s1V).view (Rect.unit (s := S100x128) (k0_off4 r) S1x16.size (k0_off4_inb r)).toLoadRect cont) shapeCasts_S1x16_S16),
   addf a.2.2.2.1 (shapeCast S16 (View.readAt (Elt F) (s1V).view (Rect.unit (s := S100x128) (k0_off5 r) S1x16.size (k0_off5_inb r)).toLoadRect cont) shapeCasts_S1x16_S16),
   addf a.2.2.2.2.1 (shapeCast S16 (View.readAt (Elt F) (s1V).view (Rect.unit (s := S100x128) (k0_off6 r) S1x16.size (k0_off6_inb r)).toLoadRect cont) shapeCasts_S1x16_S16),
   addf a.2.2.2.2.2.1 (shapeCast S16 (View.readAt (Elt F) (s1V).view (Rect.unit (s := S100x128) (k0_off7 r) S1x16.size (k0_off7_inb r)).toLoadRect cont) shapeCasts_S1x16_S16),
   addf a.2.2.2.2.2.2.1 (shapeCast S16 (View.readAt (Elt F) (s1V).view (Rect.unit (s := S100x128) (k0_off8 r) S1x16.size (k0_off8_inb r)).toLoadRect cont) shapeCasts_S1x16_S16),
   addf a.2.2.2.2.2.2.2 (shapeCast S16 (View.readAt (Elt F) (s1V).view (Rect.unit (s := S100x128) (k0_off9 r) S1x16.size (k0_off9_inb r)).toLoadRect cont) shapeCasts_S1x16_S16))

/-- The first n rows of row buffer 0 added to the eight lane vectors, in order. -/
def rowFold0 (cont : Buf (Elt F) ((s1V).view.loc (V d (cV L) (jV L)))) (init : A8 F) : Nat → A8 F
  | 0 => init
  | n + 1 => if h : n < k0_t2_loop.trips then rowStep0 d L cont ⟨n, h⟩ (rowFold0 cont init n) else rowFold0 cont init n

theorem rowFold0_succ (cont : Buf (Elt F) ((s1V).view.loc (V d (cV L) (jV L)))) (init : A8 F) (r : Fin k0_t2_loop.trips) :
    rowFold0 d L cont init (r.val + 1) = rowStep0 d L cont r (rowFold0 d L cont init r.val) := by
  rw [rowFold0, dif_pos r.isLt]

/-- One row of row buffer 1 added to the eight lane vectors. -/
def rowStep1 (cont : Buf (Elt F) ((s2V).view.loc (V d (cV L) (jV L)))) (r : Fin k0_t3_loop.trips) (a : A8 F) : A8 F :=
  (addf a.1 (shapeCast S16 (View.readAt (Elt F) (s2V).view (Rect.unit (s := S100x128) (k0_off11 r) S1x16.size (k0_off11_inb r)).toLoadRect cont) shapeCasts_S1x16_S16),
   addf a.2.1 (shapeCast S16 (View.readAt (Elt F) (s2V).view (Rect.unit (s := S100x128) (k0_off12 r) S1x16.size (k0_off12_inb r)).toLoadRect cont) shapeCasts_S1x16_S16),
   addf a.2.2.1 (shapeCast S16 (View.readAt (Elt F) (s2V).view (Rect.unit (s := S100x128) (k0_off13 r) S1x16.size (k0_off13_inb r)).toLoadRect cont) shapeCasts_S1x16_S16),
   addf a.2.2.2.1 (shapeCast S16 (View.readAt (Elt F) (s2V).view (Rect.unit (s := S100x128) (k0_off14 r) S1x16.size (k0_off14_inb r)).toLoadRect cont) shapeCasts_S1x16_S16),
   addf a.2.2.2.2.1 (shapeCast S16 (View.readAt (Elt F) (s2V).view (Rect.unit (s := S100x128) (k0_off15 r) S1x16.size (k0_off15_inb r)).toLoadRect cont) shapeCasts_S1x16_S16),
   addf a.2.2.2.2.2.1 (shapeCast S16 (View.readAt (Elt F) (s2V).view (Rect.unit (s := S100x128) (k0_off16 r) S1x16.size (k0_off16_inb r)).toLoadRect cont) shapeCasts_S1x16_S16),
   addf a.2.2.2.2.2.2.1 (shapeCast S16 (View.readAt (Elt F) (s2V).view (Rect.unit (s := S100x128) (k0_off17 r) S1x16.size (k0_off17_inb r)).toLoadRect cont) shapeCasts_S1x16_S16),
   addf a.2.2.2.2.2.2.2 (shapeCast S16 (View.readAt (Elt F) (s2V).view (Rect.unit (s := S100x128) (k0_off18 r) S1x16.size (k0_off18_inb r)).toLoadRect cont) shapeCasts_S1x16_S16))

/-- The first n rows of row buffer 1 added to the eight lane vectors, in order. -/
def rowFold1 (cont : Buf (Elt F) ((s2V).view.loc (V d (cV L) (jV L)))) (init : A8 F) : Nat → A8 F
  | 0 => init
  | n + 1 => if h : n < k0_t3_loop.trips then rowStep1 d L cont ⟨n, h⟩ (rowFold1 cont init n) else rowFold1 cont init n

theorem rowFold1_succ (cont : Buf (Elt F) ((s2V).view.loc (V d (cV L) (jV L)))) (init : A8 F) (r : Fin k0_t3_loop.trips) :
    rowFold1 d L cont init (r.val + 1) = rowStep1 d L cont r (rowFold1 d L cont init r.val) := by
  rw [rowFold1, dif_pos r.isLt]

/-- One row of row buffer 2 added to the eight lane vectors. -/
def rowStep2 (cont : Buf (Elt F) ((s3V).view.loc (V d (cV L) (jV L)))) (r : Fin k0_t4_loop.trips) (a : A8 F) : A8 F :=
  (addf a.1 (shapeCast S16 (View.readAt (Elt F) (s3V).view (Rect.unit (s := S100x128) (k0_off20 r) S1x16.size (k0_off20_inb r)).toLoadRect cont) shapeCasts_S1x16_S16),
   addf a.2.1 (shapeCast S16 (View.readAt (Elt F) (s3V).view (Rect.unit (s := S100x128) (k0_off21 r) S1x16.size (k0_off21_inb r)).toLoadRect cont) shapeCasts_S1x16_S16),
   addf a.2.2.1 (shapeCast S16 (View.readAt (Elt F) (s3V).view (Rect.unit (s := S100x128) (k0_off22 r) S1x16.size (k0_off22_inb r)).toLoadRect cont) shapeCasts_S1x16_S16),
   addf a.2.2.2.1 (shapeCast S16 (View.readAt (Elt F) (s3V).view (Rect.unit (s := S100x128) (k0_off23 r) S1x16.size (k0_off23_inb r)).toLoadRect cont) shapeCasts_S1x16_S16),
   addf a.2.2.2.2.1 (shapeCast S16 (View.readAt (Elt F) (s3V).view (Rect.unit (s := S100x128) (k0_off24 r) S1x16.size (k0_off24_inb r)).toLoadRect cont) shapeCasts_S1x16_S16),
   addf a.2.2.2.2.2.1 (shapeCast S16 (View.readAt (Elt F) (s3V).view (Rect.unit (s := S100x128) (k0_off25 r) S1x16.size (k0_off25_inb r)).toLoadRect cont) shapeCasts_S1x16_S16),
   addf a.2.2.2.2.2.2.1 (shapeCast S16 (View.readAt (Elt F) (s3V).view (Rect.unit (s := S100x128) (k0_off26 r) S1x16.size (k0_off26_inb r)).toLoadRect cont) shapeCasts_S1x16_S16),
   addf a.2.2.2.2.2.2.2 (shapeCast S16 (View.readAt (Elt F) (s3V).view (Rect.unit (s := S100x128) (k0_off27 r) S1x16.size (k0_off27_inb r)).toLoadRect cont) shapeCasts_S1x16_S16))

/-- The first n rows of row buffer 2 added to the eight lane vectors, in order. -/
def rowFold2 (cont : Buf (Elt F) ((s3V).view.loc (V d (cV L) (jV L)))) (init : A8 F) : Nat → A8 F
  | 0 => init
  | n + 1 => if h : n < k0_t4_loop.trips then rowStep2 d L cont ⟨n, h⟩ (rowFold2 cont init n) else rowFold2 cont init n

theorem rowFold2_succ (cont : Buf (Elt F) ((s3V).view.loc (V d (cV L) (jV L)))) (init : A8 F) (r : Fin k0_t4_loop.trips) :
    rowFold2 d L cont init (r.val + 1) = rowStep2 d L cont r (rowFold2 d L cont init r.val) := by
  rw [rowFold2, dif_pos r.isLt]

/-- One row of row buffer 3 added to the eight lane vectors. -/
def rowStep3 (cont : Buf (Elt F) ((s4V).view.loc (V d (cV L) (jV L)))) (r : Fin k0_t5_loop.trips) (a : A8 F) : A8 F :=
  (addf a.1 (shapeCast S16 (View.readAt (Elt F) (s4V).view (Rect.unit (s := S100x128) (k0_off29 r) S1x16.size (k0_off29_inb r)).toLoadRect cont) shapeCasts_S1x16_S16),
   addf a.2.1 (shapeCast S16 (View.readAt (Elt F) (s4V).view (Rect.unit (s := S100x128) (k0_off30 r) S1x16.size (k0_off30_inb r)).toLoadRect cont) shapeCasts_S1x16_S16),
   addf a.2.2.1 (shapeCast S16 (View.readAt (Elt F) (s4V).view (Rect.unit (s := S100x128) (k0_off31 r) S1x16.size (k0_off31_inb r)).toLoadRect cont) shapeCasts_S1x16_S16),
   addf a.2.2.2.1 (shapeCast S16 (View.readAt (Elt F) (s4V).view (Rect.unit (s := S100x128) (k0_off32 r) S1x16.size (k0_off32_inb r)).toLoadRect cont) shapeCasts_S1x16_S16),
   addf a.2.2.2.2.1 (shapeCast S16 (View.readAt (Elt F) (s4V).view (Rect.unit (s := S100x128) (k0_off33 r) S1x16.size (k0_off33_inb r)).toLoadRect cont) shapeCasts_S1x16_S16),
   addf a.2.2.2.2.2.1 (shapeCast S16 (View.readAt (Elt F) (s4V).view (Rect.unit (s := S100x128) (k0_off34 r) S1x16.size (k0_off34_inb r)).toLoadRect cont) shapeCasts_S1x16_S16),
   addf a.2.2.2.2.2.2.1 (shapeCast S16 (View.readAt (Elt F) (s4V).view (Rect.unit (s := S100x128) (k0_off35 r) S1x16.size (k0_off35_inb r)).toLoadRect cont) shapeCasts_S1x16_S16),
   addf a.2.2.2.2.2.2.2 (shapeCast S16 (View.readAt (Elt F) (s4V).view (Rect.unit (s := S100x128) (k0_off36 r) S1x16.size (k0_off36_inb r)).toLoadRect cont) shapeCasts_S1x16_S16))

/-- The first n rows of row buffer 3 added to the eight lane vectors, in order. -/
def rowFold3 (cont : Buf (Elt F) ((s4V).view.loc (V d (cV L) (jV L)))) (init : A8 F) : Nat → A8 F
  | 0 => init
  | n + 1 => if h : n < k0_t5_loop.trips then rowStep3 d L cont ⟨n, h⟩ (rowFold3 cont init n) else rowFold3 cont init n

theorem rowFold3_succ (cont : Buf (Elt F) ((s4V).view.loc (V d (cV L) (jV L)))) (init : A8 F) (r : Fin k0_t5_loop.trips) :
    rowFold3 d L cont init (r.val + 1) = rowStep3 d L cont r (rowFold3 d L cont init r.val) := by
  rw [rowFold3, dif_pos r.isLt]

/-- The c-th of the eight lane vectors. -/
def comp8 (a : A8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

/-- Feature e of the eight lane vectors: vector e / 16, lane e % 16. -/
def lane (a : A8 F) (e : Fin 128) : F .f32 :=
  comp8 a ⟨e.val / 16, by have := e.isLt; omega⟩ (ix1 ⟨e.val % 16, Nat.mod_lt _ (by decide)⟩)

/-- The first n rows of a row buffer added up at feature e, in order, from a0. -/
def laneFold (g : S100x128.Idx → F .f32) (a0 : F .f32) (e : Fin 128) : Nat → F .f32
  | 0 => a0
  | n + 1 => FloatOps.addf (laneFold g a0 e n) (g (ix2 ⟨n % 100, Nat.mod_lt _ (by decide)⟩ e))

/-- The sixteen pieces one trip stores into the pooled scratch: rows 2k (from A) and 2k + 1 (from B), last store first. -/
def s5Pieces (k : Fin k0_t1_loop.trips) (A B : A8 F) : List (View.Piece (Elt F) S32x128 .f32) :=
  [⟨Rect.unit (s := S32x128) (k0_off45 k 1#32) S1x16.size (k0_off45_inb k 1), k0_pay9 B.2.2.2.2.2.2.2⟩,
   ⟨Rect.unit (s := S32x128) (k0_off44 k 1#32) S1x16.size (k0_off44_inb k 1), k0_pay8 B.2.2.2.2.2.2.1⟩,
   ⟨Rect.unit (s := S32x128) (k0_off43 k 1#32) S1x16.size (k0_off43_inb k 1), k0_pay7 B.2.2.2.2.2.1⟩,
   ⟨Rect.unit (s := S32x128) (k0_off42 k 1#32) S1x16.size (k0_off42_inb k 1), k0_pay6 B.2.2.2.2.1⟩,
   ⟨Rect.unit (s := S32x128) (k0_off41 k 1#32) S1x16.size (k0_off41_inb k 1), k0_pay5 B.2.2.2.1⟩,
   ⟨Rect.unit (s := S32x128) (k0_off40 k 1#32) S1x16.size (k0_off40_inb k 1), k0_pay4 B.2.2.1⟩,
   ⟨Rect.unit (s := S32x128) (k0_off39 k 1#32) S1x16.size (k0_off39_inb k 1), k0_pay51 B.2.1⟩,
   ⟨Rect.unit (s := S32x128) (k0_off38 k 1#32) S1x16.size (k0_off38_inb k 1), k0_pay50 B.1⟩,
   ⟨Rect.unit (s := S32x128) (k0_off45 k 0#32) S1x16.size (k0_off45_inb k 0), k0_pay49 A.2.2.2.2.2.2.2⟩,
   ⟨Rect.unit (s := S32x128) (k0_off44 k 0#32) S1x16.size (k0_off44_inb k 0), k0_pay48 A.2.2.2.2.2.2.1⟩,
   ⟨Rect.unit (s := S32x128) (k0_off43 k 0#32) S1x16.size (k0_off43_inb k 0), k0_pay47 A.2.2.2.2.2.1⟩,
   ⟨Rect.unit (s := S32x128) (k0_off42 k 0#32) S1x16.size (k0_off42_inb k 0), k0_pay46 A.2.2.2.2.1⟩,
   ⟨Rect.unit (s := S32x128) (k0_off41 k 0#32) S1x16.size (k0_off41_inb k 0), k0_pay45 A.2.2.2.1⟩,
   ⟨Rect.unit (s := S32x128) (k0_off40 k 0#32) S1x16.size (k0_off40_inb k 0), k0_pay44 A.2.2.1⟩,
   ⟨Rect.unit (s := S32x128) (k0_off39 k 0#32) S1x16.size (k0_off39_inb k 0), k0_pay43 A.2.1⟩,
   ⟨Rect.unit (s := S32x128) (k0_off38 k 0#32) S1x16.size (k0_off38_inb k 0), k0_pay42 A.1⟩]

end Rows

end Cert.Proof.BitsSide

end
-- ==== Proof.BitsBodyTrip.lean ====
/-
  One trip of the task's outer loop, at a symbolic trip k.

  Before the trip the four row buffers are being filled: slot j is fetching chunk 4k + j, the table rows that the task's
  token row 4k + j names. The trip takes the slots in order: it waits for the slot's gather, adds the buffer's hundred
  rows to the running sums (chunks 4k and 4k + 1 make sentence 2k's sum, chunks 4k + 2 and 4k + 3 sentence 2k + 1's,
  each from zero) and, while k < 15, starts the slot on chunk 4k + j + 4. Then it stores the two sums as rows 2k and
  2k + 1 of the pooled scratch. The first theorem is the trip for k < 15, all four slots fetching again afterwards; the
  second is the last trip, all four slots idle afterwards. Each inner loop's invariant says that the carried vectors
  are the fold of the buffer's first r rows.
-/
import proofs.«202922_g81758997446792_cont_9to1_m_1158_4_alg».proof.Proof.BitsTile
import proofs.«202922_g81758997446792_cont_9to1_m_1158_4_alg».proof.Proof.BitsBodyRows

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

section Tile
variable (d : Dev nD) (L : grid0.Coords)

theorem cond_lt : ∀ k : Fin k0_t1_loop.trips, k.val < 15 → (k0_cond1 k = 1#1 ∧ k0_cond2 k = 1#1 ∧ k0_cond3 k = 1#1 ∧ k0_cond4 k = 1#1) := by decide +kernel
theorem cond_ge : ∀ k : Fin k0_t1_loop.trips, ¬ k.val < 15 → (¬ k0_cond1 k = 1#1 ∧ ¬ k0_cond2 k = 1#1 ∧ ¬ k0_cond3 k = 1#1 ∧ ¬ k0_cond4 k = 1#1) := by decide +kernel

set_option maxHeartbeats 4000000 in
/-- One trip of the outer loop while chunks remain: each slot's gather awaited, its hundred rows added up, the slot
    re-armed with the chunk four ahead; the two sentences' sums stored. -/

theorem trip_lt (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (O : CellTallies nD τ sig (HIx 1)) (W' : Waits sig (HIx 1))
    (k : Fin k0_t1_loop.trips) (hk : k.val < 15)
    (off0 : Fin 2 → Nat) (hoff0 : ∀ a, off0 a + S1x100.size a ≤ S64x100.size a) (fp0 : Buf (Elt F) ((s1V).view.loc (V d (cV L) (jV L))))
    (off1 : Fin 2 → Nat) (hoff1 : ∀ a, off1 a + S1x100.size a ≤ S64x100.size a) (fp1 : Buf (Elt F) ((s2V).view.loc (V d (cV L) (jV L))))
    (off2 : Fin 2 → Nat) (hoff2 : ∀ a, off2 a + S1x100.size a ≤ S64x100.size a) (fp2 : Buf (Elt F) ((s3V).view.loc (V d (cV L) (jV L))))
    (off3 : Fin 2 → Nat) (hoff3 : ∀ a, off3 a + S1x100.size a ≤ S64x100.size a) (fp3 : Buf (Elt F) ((s4V).view.loc (V d (cV L) (jV L))))
    (f5 : Buf (Elt F) ((s5V).view.loc (V d (cV L) (jV L))))
    (z0 z1 z2 z3 z4 : FVec F S16 .f32) (c17 : F .f32) :
    iprop(Transfers.MayWaits (V d (cV L) (jV L)) (default : HIx 1) O
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) fp0 [⟨Rect.whole cc0_scratch1.ty.shape, gatherPay d L t2 tab hin off0 hoff0⟩])
          ∗ ((s0V).view.loc (V d (cV L) (jV L)) ↦[(idxRow off0 hoff0).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) fp0 [⟨Rect.whole cc0_scratch1.ty.shape, gatherPay d L t2 tab hin off0 hoff0⟩])
    ∗ ((s0V).view.loc (V d (cV L) (jV L)) ↦[Finset.univ \ (idxRow off0 hoff0).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) fp1 [⟨Rect.whole cc0_scratch2.ty.shape, gatherPay d L t2 tab hin off1 hoff1⟩])
          ∗ ((s0V).view.loc (V d (cV L) (jV L)) ↦[(idxRow off1 hoff1).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) fp1 [⟨Rect.whole cc0_scratch2.ty.shape, gatherPay d L t2 tab hin off1 hoff1⟩])
    ∗ ((s0V).view.loc (V d (cV L) (jV L)) ↦[Finset.univ \ (idxRow off1 hoff1).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) fp2 [⟨Rect.whole cc0_scratch3.ty.shape, gatherPay d L t2 tab hin off2 hoff2⟩])
          ∗ ((s0V).view.loc (V d (cV L) (jV L)) ↦[(idxRow off2 hoff2).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) fp2 [⟨Rect.whole cc0_scratch3.ty.shape, gatherPay d L t2 tab hin off2 hoff2⟩])
    ∗ ((s0V).view.loc (V d (cV L) (jV L)) ↦[Finset.univ \ (idxRow off2 hoff2).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) fp3 [⟨Rect.whole cc0_scratch4.ty.shape, gatherPay d L t2 tab hin off3 hoff3⟩])
          ∗ ((s0V).view.loc (V d (cV L) (jV L)) ↦[(idxRow off3 hoff3).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) fp3 [⟨Rect.whole cc0_scratch4.ty.shape, gatherPay d L t2 tab hin off3 hoff3⟩])
    ∗ ((s0V).view.loc (V d (cV L) (jV L)) ↦[Finset.univ \ (idxRow off3 hoff3).view.set]{Transfers.shareTok fullShare 3 2} idxBuf d L t2)
    ∗ ((s5V).view.loc (V d (cV L) (jV L)) ↦{fullShare} f5)
    ∗ owes (V d (cV L) (jV L)) O W')
      ⊢ wp frame (wpE (defs₀ (F := F)) 𝒱₀ (V d (cV L) (jV L)) none) Set.univ
          (k0_t1_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 z0 z1 z2 z3 z4 c17 k PUnit.unit)
          fun _ => (iprop(Transfers.MayWaits (V d (cV L) (jV L)) (default : HIx 1) O
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) ((s1V).view.writes (Elt F) (s1V).view.junk [⟨Rect.whole cc0_scratch1.ty.shape, gatherPay d L t2 tab hin off0 hoff0⟩]) [⟨Rect.whole cc0_scratch1.ty.shape, gatherPay d L t2 tab hin (k0_off10 k) (k0_off10_inb k (cond_lt k hk).1)⟩])
          ∗ ((s0V).view.loc (V d (cV L) (jV L)) ↦[(idxRow (k0_off10 k) (k0_off10_inb k (cond_lt k hk).1)).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) ((s1V).view.writes (Elt F) (s1V).view.junk [⟨Rect.whole cc0_scratch1.ty.shape, gatherPay d L t2 tab hin off0 hoff0⟩]) [⟨Rect.whole cc0_scratch1.ty.shape, gatherPay d L t2 tab hin (k0_off10 k) (k0_off10_inb k (cond_lt k hk).1)⟩])
    ∗ ((s0V).view.loc (V d (cV L) (jV L)) ↦[Finset.univ \ (idxRow (k0_off10 k) (k0_off10_inb k (cond_lt k hk).1)).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) ((s2V).view.writes (Elt F) (s2V).view.junk [⟨Rect.whole cc0_scratch2.ty.shape, gatherPay d L t2 tab hin off1 hoff1⟩]) [⟨Rect.whole cc0_scratch2.ty.shape, gatherPay d L t2 tab hin (k0_off19 k) (k0_off19_inb k (cond_lt k hk).2.1)⟩])
          ∗ ((s0V).view.loc (V d (cV L) (jV L)) ↦[(idxRow (k0_off19 k) (k0_off19_inb k (cond_lt k hk).2.1)).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) ((s2V).view.writes (Elt F) (s2V).view.junk [⟨Rect.whole cc0_scratch2.ty.shape, gatherPay d L t2 tab hin off1 hoff1⟩]) [⟨Rect.whole cc0_scratch2.ty.shape, gatherPay d L t2 tab hin (k0_off19 k) (k0_off19_inb k (cond_lt k hk).2.1)⟩])
    ∗ ((s0V).view.loc (V d (cV L) (jV L)) ↦[Finset.univ \ (idxRow (k0_off19 k) (k0_off19_inb k (cond_lt k hk).2.1)).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) ((s3V).view.writes (Elt F) (s3V).view.junk [⟨Rect.whole cc0_scratch3.ty.shape, gatherPay d L t2 tab hin off2 hoff2⟩]) [⟨Rect.whole cc0_scratch3.ty.shape, gatherPay d L t2 tab hin (k0_off28 k) (k0_off28_inb k (cond_lt k hk).2.2.1)⟩])
          ∗ ((s0V).view.loc (V d (cV L) (jV L)) ↦[(idxRow (k0_off28 k) (k0_off28_inb k (cond_lt k hk).2.2.1)).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) ((s3V).view.writes (Elt F) (s3V).view.junk [⟨Rect.whole cc0_scratch3.ty.shape, gatherPay d L t2 tab hin off2 hoff2⟩]) [⟨Rect.whole cc0_scratch3.ty.shape, gatherPay d L t2 tab hin (k0_off28 k) (k0_off28_inb k (cond_lt k hk).2.2.1)⟩])
    ∗ ((s0V).view.loc (V d (cV L) (jV L)) ↦[Finset.univ \ (idxRow (k0_off28 k) (k0_off28_inb k (cond_lt k hk).2.2.1)).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) ((s4V).view.writes (Elt F) (s4V).view.junk [⟨Rect.whole cc0_scratch4.ty.shape, gatherPay d L t2 tab hin off3 hoff3⟩]) [⟨Rect.whole cc0_scratch4.ty.shape, gatherPay d L t2 tab hin (k0_off37 k) (k0_off37_inb k (cond_lt k hk).2.2.2)⟩])
          ∗ ((s0V).view.loc (V d (cV L) (jV L)) ↦[(idxRow (k0_off37 k) (k0_off37_inb k (cond_lt k hk).2.2.2)).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) ((s4V).view.writes (Elt F) (s4V).view.junk [⟨Rect.whole cc0_scratch4.ty.shape, gatherPay d L t2 tab hin off3 hoff3⟩]) [⟨Rect.whole cc0_scratch4.ty.shape, gatherPay d L t2 tab hin (k0_off37 k) (k0_off37_inb k (cond_lt k hk).2.2.2)⟩])
    ∗ ((s0V).view.loc (V d (cV L) (jV L)) ↦[Finset.univ \ (idxRow (k0_off37 k) (k0_off37_inb k (cond_lt k hk).2.2.2)).view.set]{Transfers.shareTok fullShare 3 2} idxBuf d L t2)
    ∗ ((s5V).view.loc (V d (cV L) (jV L)) ↦{fullShare} (s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) k0_t4_loop.trips) k0_t5_loop.trips)))
    ∗ owes (V d (cV L) (jV L)) O (insert (SemLoc.dma cc0_scratch9.sem, (default : HIx 1)) (insert (SemLoc.dma cc0_scratch8.sem, (default : HIx 1)) (insert (SemLoc.dma cc0_scratch7.sem, (default : HIx 1)) (insert (SemLoc.dma cc0_scratch6.sem, (default : HIx 1)) W'))))) : sProp 𝕄) := by
  obtain ⟨k0_h1, k0_h2, k0_h3, k0_h4⟩ := cond_lt k hk

  unfold k0_t1_body
  iintro ⟨Hmw, Hfl0, HtR0, HbR0, HiR0, Hfl1, HtR1, HbR1, HiR1, Hfl2, HtR2, HbR2, HiR2, Hfl3, HtR3, HbR3, HiR3, H5, HO⟩
  sl_exec
  sl_for (fun (r : Nat) (acc : A8 F) =>
      (iprop(((s1V).view.loc (V d (cV L) (jV L)) ↦{fullShare} (s1V).view.writes (Elt F) (s1V).view.junk [⟨Rect.whole cc0_scratch1.ty.shape, gatherPay d L t2 tab hin off0 hoff0⟩])
        ∗ ⌜acc = rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) r⌝) : sProp 𝕄)) $$ [HbR0]
  case region =>
    intro r acc
    iintro ⟨Hb, %hacc⟩
    sl_exec
    sl_step
    isplitl [Hb]; · iexact Hb
    ipureintro
    subst hacc
    exact (rowFold0_succ d L _ _ r).symm
  · isplitl [HbR0]; · iexact HbR0
    ipureintro; rfl
  iintro %acc1 HI
  icases HI with ⟨HbR0, %hacc1⟩
  sl_exec

  sl_for (fun (r : Nat) (acc : A8 F) =>
      (iprop(((s2V).view.loc (V d (cV L) (jV L)) ↦{fullShare} (s2V).view.writes (Elt F) (s2V).view.junk [⟨Rect.whole cc0_scratch2.ty.shape, gatherPay d L t2 tab hin off1 hoff1⟩])
        ∗ ⌜acc = rowFold1 d L ((s2V).view.writes (Elt F) (s2V).view.junk [⟨Rect.whole cc0_scratch2.ty.shape, gatherPay d L t2 tab hin off1 hoff1⟩]) acc1 r⌝) : sProp 𝕄)) $$ [HbR1]
  case region =>
    intro r acc
    iintro ⟨Hb, %hacc⟩
    sl_exec
    sl_step
    isplitl [Hb]; · iexact Hb
    ipureintro
    subst hacc
    exact (rowFold1_succ d L _ _ r).symm
  · isplitl [HbR1]; · iexact HbR1
    ipureintro; rfl
  iintro %acc2 HI
  icases HI with ⟨HbR1, %hacc2⟩
  sl_exec

  sl_for (fun (r : Nat) (acc : A8 F) =>
      (iprop(((s3V).view.loc (V d (cV L) (jV L)) ↦{fullShare} (s3V).view.writes (Elt F) (s3V).view.junk [⟨Rect.whole cc0_scratch3.ty.shape, gatherPay d L t2 tab hin off2 hoff2⟩])
        ∗ ⌜acc = rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) r⌝) : sProp 𝕄)) $$ [HbR2]
  case region =>
    intro r acc
    iintro ⟨Hb, %hacc⟩
    sl_exec
    sl_step
    isplitl [Hb]; · iexact Hb
    ipureintro
    subst hacc
    exact (rowFold2_succ d L _ _ r).symm
  · isplitl [HbR2]; · iexact HbR2
    ipureintro; rfl
  iintro %acc3 HI
  icases HI with ⟨HbR2, %hacc3⟩
  sl_exec

  sl_for (fun (r : Nat) (acc : A8 F) =>
      (iprop(((s4V).view.loc (V d (cV L) (jV L)) ↦{fullShare} (s4V).view.writes (Elt F) (s4V).view.junk [⟨Rect.whole cc0_scratch4.ty.shape, gatherPay d L t2 tab hin off3 hoff3⟩])
        ∗ ⌜acc = rowFold3 d L ((s4V).view.writes (Elt F) (s4V).view.junk [⟨Rect.whole cc0_scratch4.ty.shape, gatherPay d L t2 tab hin off3 hoff3⟩]) acc3 r⌝) : sProp 𝕄)) $$ [HbR3]
  case region =>
    intro r acc
    iintro ⟨Hb, %hacc⟩
    sl_exec
    sl_step
    isplitl [Hb]; · iexact Hb
    ipureintro
    subst hacc
    exact (rowFold3_succ d L _ _ r).symm
  · isplitl [HbR3]; · iexact HbR3
    ipureintro; rfl
  iintro %acc4 HI
  icases HI with ⟨HbR3, %hacc4⟩
  sl_exec

  sl_step
  subst hacc1 hacc2 hacc3 hacc4
  isplitl [Hmw]; · iexact Hmw
  isplitl [Hfl0]; · iexact Hfl0
  isplitl [HtR0]; · iexact HtR0
  isplitl [HbR0]; · iexact HbR0
  isplitl [HiR0]; · iexact HiR0
  isplitl [Hfl1]; · iexact Hfl1
  isplitl [HtR1]; · iexact HtR1
  isplitl [HbR1]; · iexact HbR1
  isplitl [HiR1]; · iexact HiR1
  isplitl [Hfl2]; · iexact Hfl2
  isplitl [HtR2]; · iexact HtR2
  isplitl [HbR2]; · iexact HbR2
  isplitl [HiR2]; · iexact HiR2
  isplitl [Hfl3]; · iexact Hfl3
  isplitl [HtR3]; · iexact HtR3
  isplitl [HbR3]; · iexact HbR3
  isplitl [HiR3]; · iexact HiR3
  isplitl [H5]; · iexact H5
  iexact HO

set_option maxHeartbeats 4000000 in
/-- The last trip: the same, no slot re-armed. -/

theorem trip_last (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (O : CellTallies nD τ sig (HIx 1)) (W' : Waits sig (HIx 1))
    (k : Fin k0_t1_loop.trips) (hk : ¬ k.val < 15)
    (off0 : Fin 2 → Nat) (hoff0 : ∀ a, off0 a + S1x100.size a ≤ S64x100.size a) (fp0 : Buf (Elt F) ((s1V).view.loc (V d (cV L) (jV L))))
    (off1 : Fin 2 → Nat) (hoff1 : ∀ a, off1 a + S1x100.size a ≤ S64x100.size a) (fp1 : Buf (Elt F) ((s2V).view.loc (V d (cV L) (jV L))))
    (off2 : Fin 2 → Nat) (hoff2 : ∀ a, off2 a + S1x100.size a ≤ S64x100.size a) (fp2 : Buf (Elt F) ((s3V).view.loc (V d (cV L) (jV L))))
    (off3 : Fin 2 → Nat) (hoff3 : ∀ a, off3 a + S1x100.size a ≤ S64x100.size a) (fp3 : Buf (Elt F) ((s4V).view.loc (V d (cV L) (jV L))))
    (f5 : Buf (Elt F) ((s5V).view.loc (V d (cV L) (jV L))))
    (z0 z1 z2 z3 z4 : FVec F S16 .f32) (c17 : F .f32) :
    iprop(Transfers.MayWaits (V d (cV L) (jV L)) (default : HIx 1) O
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) fp0 [⟨Rect.whole cc0_scratch1.ty.shape, gatherPay d L t2 tab hin off0 hoff0⟩])
          ∗ ((s0V).view.loc (V d (cV L) (jV L)) ↦[(idxRow off0 hoff0).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) fp0 [⟨Rect.whole cc0_scratch1.ty.shape, gatherPay d L t2 tab hin off0 hoff0⟩])
    ∗ ((s0V).view.loc (V d (cV L) (jV L)) ↦[Finset.univ \ (idxRow off0 hoff0).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) fp1 [⟨Rect.whole cc0_scratch2.ty.shape, gatherPay d L t2 tab hin off1 hoff1⟩])
          ∗ ((s0V).view.loc (V d (cV L) (jV L)) ↦[(idxRow off1 hoff1).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) fp1 [⟨Rect.whole cc0_scratch2.ty.shape, gatherPay d L t2 tab hin off1 hoff1⟩])
    ∗ ((s0V).view.loc (V d (cV L) (jV L)) ↦[Finset.univ \ (idxRow off1 hoff1).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) fp2 [⟨Rect.whole cc0_scratch3.ty.shape, gatherPay d L t2 tab hin off2 hoff2⟩])
          ∗ ((s0V).view.loc (V d (cV L) (jV L)) ↦[(idxRow off2 hoff2).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) fp2 [⟨Rect.whole cc0_scratch3.ty.shape, gatherPay d L t2 tab hin off2 hoff2⟩])
    ∗ ((s0V).view.loc (V d (cV L) (jV L)) ↦[Finset.univ \ (idxRow off2 hoff2).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) fp3 [⟨Rect.whole cc0_scratch4.ty.shape, gatherPay d L t2 tab hin off3 hoff3⟩])
          ∗ ((s0V).view.loc (V d (cV L) (jV L)) ↦[(idxRow off3 hoff3).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) fp3 [⟨Rect.whole cc0_scratch4.ty.shape, gatherPay d L t2 tab hin off3 hoff3⟩])
    ∗ ((s0V).view.loc (V d (cV L) (jV L)) ↦[Finset.univ \ (idxRow off3 hoff3).view.set]{Transfers.shareTok fullShare 3 2} idxBuf d L t2)
    ∗ ((s5V).view.loc (V d (cV L) (jV L)) ↦{fullShare} f5)
    ∗ owes (V d (cV L) (jV L)) O W')
      ⊢ wp frame (wpE (defs₀ (F := F)) 𝒱₀ (V d (cV L) (jV L)) none) Set.univ
          (k0_t1_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 z0 z1 z2 z3 z4 c17 k PUnit.unit)
          fun _ => (iprop(Transfers.MayWaits (V d (cV L) (jV L)) (default : HIx 1) O
    ∗ semVal ((V d (cV L) (jV L)), SemLoc.dma cc0_scratch6.sem) 0
    ∗ ((tabV).view.loc (V d (cV L) (jV L)) ↦{Transfers.shareTok (tabShare L) 4 0} tab)
    ∗ ((s1V).view.loc (V d (cV L) (jV L)) ↦{fullShare} (s1V).view.writes (Elt F) (s1V).view.junk [⟨Rect.whole cc0_scratch1.ty.shape, gatherPay d L t2 tab hin off0 hoff0⟩])
    ∗ ((s0V).view.loc (V d (cV L) (jV L)) ↦{Transfers.shareDrop fullShare 3} idxBuf d L t2)
    ∗ semVal ((V d (cV L) (jV L)), SemLoc.dma cc0_scratch7.sem) 0
    ∗ ((tabV).view.loc (V d (cV L) (jV L)) ↦{Transfers.shareTok (tabShare L) 4 1} tab)
    ∗ ((s2V).view.loc (V d (cV L) (jV L)) ↦{fullShare} (s2V).view.writes (Elt F) (s2V).view.junk [⟨Rect.whole cc0_scratch2.ty.shape, gatherPay d L t2 tab hin off1 hoff1⟩])
    ∗ ((s0V).view.loc (V d (cV L) (jV L)) ↦{Transfers.shareTok fullShare 3 0} idxBuf d L t2)
    ∗ semVal ((V d (cV L) (jV L)), SemLoc.dma cc0_scratch8.sem) 0
    ∗ ((tabV).view.loc (V d (cV L) (jV L)) ↦{Transfers.shareTok (tabShare L) 4 2} tab)
    ∗ ((s3V).view.loc (V d (cV L) (jV L)) ↦{fullShare} (s3V).view.writes (Elt F) (s3V).view.junk [⟨Rect.whole cc0_scratch3.ty.shape, gatherPay d L t2 tab hin off2 hoff2⟩])
    ∗ ((s0V).view.loc (V d (cV L) (jV L)) ↦{Transfers.shareTok fullShare 3 1} idxBuf d L t2)
    ∗ semVal ((V d (cV L) (jV L)), SemLoc.dma cc0_scratch9.sem) 0
    ∗ ((tabV).view.loc (V d (cV L) (jV L)) ↦{Transfers.shareTok (tabShare L) 4 3} tab)
    ∗ ((s4V).view.loc (V d (cV L) (jV L)) ↦{fullShare} (s4V).view.writes (Elt F) (s4V).view.junk [⟨Rect.whole cc0_scratch4.ty.shape, gatherPay d L t2 tab hin off3 hoff3⟩])
    ∗ ((s0V).view.loc (V d (cV L) (jV L)) ↦{Transfers.shareTok fullShare 3 2} idxBuf d L t2)
    ∗ ((s5V).view.loc (V d (cV L) (jV L)) ↦{fullShare} (s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) k0_t4_loop.trips) k0_t5_loop.trips)))
    ∗ owes (V d (cV L) (jV L)) O (insert (SemLoc.dma cc0_scratch9.sem, (default : HIx 1)) (insert (SemLoc.dma cc0_scratch8.sem, (default : HIx 1)) (insert (SemLoc.dma cc0_scratch7.sem, (default : HIx 1)) (insert (SemLoc.dma cc0_scratch6.sem, (default : HIx 1)) W'))))) : sProp 𝕄) := by
  obtain ⟨k0_h1, k0_h2, k0_h3, k0_h4⟩ := cond_ge k hk

  unfold k0_t1_body
  iintro ⟨Hmw, Hfl0, HtR0, HbR0, HiR0, Hfl1, HtR1, HbR1, HiR1, Hfl2, HtR2, HbR2, HiR2, Hfl3, HtR3, HbR3, HiR3, H5, HO⟩
  sl_exec
  sl_for (fun (r : Nat) (acc : A8 F) =>
      (iprop(((s1V).view.loc (V d (cV L) (jV L)) ↦{fullShare} (s1V).view.writes (Elt F) (s1V).view.junk [⟨Rect.whole cc0_scratch1.ty.shape, gatherPay d L t2 tab hin off0 hoff0⟩])
        ∗ ⌜acc = rowFold0 d L ((s1V).view.writes (Elt F) (s1V).view.junk [⟨Rect.whole cc0_scratch1.ty.shape, gatherPay d L t2 tab hin off0 hoff0⟩]) (z0, z1, z2, z3, z4, k0_pay1 c17, k0_pay2 (F := F), k0_pay3 (F := F)) r⌝) : sProp 𝕄)) $$ [HbR0]
  case region =>
    intro r acc
    iintro ⟨Hb, %hacc⟩
    sl_exec
    sl_step
    isplitl [Hb]; · iexact Hb
    ipureintro
    subst hacc
    exact (rowFold0_succ d L _ _ r).symm
  · isplitl [HbR0]; · iexact HbR0
    ipureintro; rfl
  iintro %acc1 HI
  icases HI with ⟨HbR0, %hacc1⟩
  sl_exec

  sl_for (fun (r : Nat) (acc : A8 F) =>
      (iprop(((s2V).view.loc (V d (cV L) (jV L)) ↦{fullShare} (s2V).view.writes (Elt F) (s2V).view.junk [⟨Rect.whole cc0_scratch2.ty.shape, gatherPay d L t2 tab hin off1 hoff1⟩])
        ∗ ⌜acc = rowFold1 d L ((s2V).view.writes (Elt F) (s2V).view.junk [⟨Rect.whole cc0_scratch2.ty.shape, gatherPay d L t2 tab hin off1 hoff1⟩]) acc1 r⌝) : sProp 𝕄)) $$ [HbR1]
  case region =>
    intro r acc
    iintro ⟨Hb, %hacc⟩
    sl_exec
    sl_step
    isplitl [Hb]; · iexact Hb
    ipureintro
    subst hacc
    exact (rowFold1_succ d L _ _ r).symm
  · isplitl [HbR1]; · iexact HbR1
    ipureintro; rfl
  iintro %acc2 HI
  icases HI with ⟨HbR1, %hacc2⟩
  sl_exec

  sl_for (fun (r : Nat) (acc : A8 F) =>
      (iprop(((s3V).view.loc (V d (cV L) (jV L)) ↦{fullShare} (s3V).view.writes (Elt F) (s3V).view.junk [⟨Rect.whole cc0_scratch3.ty.shape, gatherPay d L t2 tab hin off2 hoff2⟩])
        ∗ ⌜acc = rowFold2 d L ((s3V).view.writes (Elt F) (s3V).view.junk [⟨Rect.whole cc0_scratch3.ty.shape, gatherPay d L t2 tab hin off2 hoff2⟩]) (z0, z1, z2, z3, z4, k0_pay1 c17, k0_pay2 (F := F), k0_pay3 (F := F)) r⌝) : sProp 𝕄)) $$ [HbR2]
  case region =>
    intro r acc
    iintro ⟨Hb, %hacc⟩
    sl_exec
    sl_step
    isplitl [Hb]; · iexact Hb
    ipureintro
    subst hacc
    exact (rowFold2_succ d L _ _ r).symm
  · isplitl [HbR2]; · iexact HbR2
    ipureintro; rfl
  iintro %acc3 HI
  icases HI with ⟨HbR2, %hacc3⟩
  sl_exec

  sl_for (fun (r : Nat) (acc : A8 F) =>
      (iprop(((s4V).view.loc (V d (cV L) (jV L)) ↦{fullShare} (s4V).view.writes (Elt F) (s4V).view.junk [⟨Rect.whole cc0_scratch4.ty.shape, gatherPay d L t2 tab hin off3 hoff3⟩])
        ∗ ⌜acc = rowFold3 d L ((s4V).view.writes (Elt F) (s4V).view.junk [⟨Rect.whole cc0_scratch4.ty.shape, gatherPay d L t2 tab hin off3 hoff3⟩]) acc3 r⌝) : sProp 𝕄)) $$ [HbR3]
  case region =>
    intro r acc
    iintro ⟨Hb, %hacc⟩
    sl_exec
    sl_step
    isplitl [Hb]; · iexact Hb
    ipureintro
    subst hacc
    exact (rowFold3_succ d L _ _ r).symm
  · isplitl [HbR3]; · iexact HbR3
    ipureintro; rfl
  iintro %acc4 HI
  icases HI with ⟨HbR3, %hacc4⟩
  sl_exec

  sl_step
  subst hacc1 hacc2 hacc3 hacc4
  isplitl [Hmw]; · iexact Hmw
  isplitl [Hfl0]; · iexact Hfl0
  isplitl [HtR0]; · iexact HtR0
  isplitl [HbR0]; · iexact HbR0
  isplitl [HiR0]; · iexact HiR0
  isplitl [Hfl1]; · iexact Hfl1
  isplitl [HtR1]; · iexact HtR1
  isplitl [HbR1]; · iexact HbR1
  isplitl [HiR1]; · iexact HiR1
  isplitl [Hfl2]; · iexact Hfl2
  isplitl [HtR2]; · iexact HtR2
  isplitl [HbR2]; · iexact HbR2
  isplitl [HiR2]; · iexact HiR2
  isplitl [Hfl3]; · iexact Hfl3
  isplitl [HtR3]; · iexact HtR3
  isplitl [HbR3]; · iexact HbR3
  isplitl [HiR3]; · iexact HiR3
  isplitl [H5]; · iexact H5
  iexact HO

end Tile

end Cert.Proof.BitsSide

end
-- ==== Proof.BitsBodyGen.lean ====
/-
  The whole task, with the pooled scratch followed by a predicate.

  The task copies its 64 token rows into the index scratch, starts the four slots on chunks 0 to 3, runs sixteen trips,
  and copies the pooled scratch out to its 32 rows of the pooled matrix. Between trips either all four slots are
  fetching (before trip k < 16 slot j fetches chunk 4k + j) or, after the last trip, all are idle. The table is read
  through four read shares, one per slot, so that four gathers may read it at once; the index scratch likewise.
  What the pooled scratch holds is followed by a predicate P5 of the caller's choosing: anything satisfies P5 0, and a
  trip's sixteen stores take P5 k to P5 (k + 1). The task ends with the pooled rows at the copy of a scratch that
  satisfies P5 16 and every other resource back as it came.
-/
import proofs.«202922_g81758997446792_cont_9to1_m_1158_4_alg».proof.Proof.BitsTile
import proofs.«202922_g81758997446792_cont_9to1_m_1158_4_alg».proof.Proof.BitsBodyTrip

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

section Tile
variable (d : Dev nD) (L : grid0.Coords)

/-- The four slots in flight before trip k: slot j is fetching chunk 4·k + j. -/
def slotsFl (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (k : Nat) : sProp 𝕄 :=
  iprop(∃ (off0 : Fin 2 → Nat) (hoff0 : ∀ a, off0 a + S1x100.size a ≤ S64x100.size a) (fp0 : Buf (Elt F) ((s1V).view.loc (V d (cV L) (jV L)))) (off1 : Fin 2 → Nat) (hoff1 : ∀ a, off1 a + S1x100.size a ≤ S64x100.size a) (fp1 : Buf (Elt F) ((s2V).view.loc (V d (cV L) (jV L)))) (off2 : Fin 2 → Nat) (hoff2 : ∀ a, off2 a + S1x100.size a ≤ S64x100.size a) (fp2 : Buf (Elt F) ((s3V).view.loc (V d (cV L) (jV L)))) (off3 : Fin 2 → Nat) (hoff3 : ∀ a, off3 a + S1x100.size a ≤ S64x100.size a) (fp3 : Buf (Elt F) ((s4V).view.loc (V d (cV L) (jV L)))),
    ⌜off0 = ![4 * k + 0, 0] ∧ off1 = ![4 * k + 1, 0] ∧ off2 = ![4 * k + 2, 0] ∧ off3 = ![4 * k + 3, 0]⌝
    ∗ (Transfers.Flight countersEmb (V d (cV L) (jV L)) (SemLoc.dma cc0_scratch6.sem) (default : HIx 1) 409600
      iprop(((( s1V).view.loc (V d (cV L) (jV L)) ↦[(s1V).view.set]{fullShare} (s1V).view.writes (Elt F) fp0 [⟨Rect.whole cc0_scratch1.ty.shape, gatherPay d L t2 tab hin off0 hoff0⟩])
          ∗ ((s0V).view.loc (V d (cV L) (jV L)) ↦[(idxRow off0 hoff0).view.set]{Transfers.shareDrop fullShare 3} idxBuf d L t2))
        ∗ ((tabV).view.loc (V d (cV L) (jV L)) ↦[(tabK).view.set]{Transfers.shareTok (tabShare L) 4 0} tab)))
    ∗ ((tabV).view.loc (V d (cV L) (jV L)) ↦[Finset.univ \ (tabK).view.set]{Transfers.shareTok (tabShare L) 4 0} tab)
    ∗ ((s1V).view.loc (V d (cV L) (jV L)) ↦[Finset.univ \ (s1V).view.set]{fullShare} (s1V).view.writes (Elt F) fp0 [⟨Rect.whole cc0_scratch1.ty.shape, gatherPay d L t2 tab hin off0 hoff0⟩])
    ∗ ((s0V).view.loc (V d (cV L) (jV L)) ↦[Finset.univ \ (idxRow off0 hoff0).view.set]{Transfers.shareDrop fullShare 3} idxBuf d L t2)
    ∗ (Transfers.Flight countersEmb (V d (cV L) (jV L)) (SemLoc.dma cc0_scratch7.sem) (default : HIx 1) 409600
      iprop(((( s2V).view.loc (V d (cV L) (jV L)) ↦[(s2V).view.set]{fullShare} (s2V).view.writes (Elt F) fp1 [⟨Rect.whole cc0_scratch2.ty.shape, gatherPay d L t2 tab hin off1 hoff1⟩])
          ∗ ((s0V).view.loc (V d (cV L) (jV L)) ↦[(idxRow off1 hoff1).view.set]{Transfers.shareTok fullShare 3 0} idxBuf d L t2))
        ∗ ((tabV).view.loc (V d (cV L) (jV L)) ↦[(tabK).view.set]{Transfers.shareTok (tabShare L) 4 1} tab)))
    ∗ ((tabV).view.loc (V d (cV L) (jV L)) ↦[Finset.univ \ (tabK).view.set]{Transfers.shareTok (tabShare L) 4 1} tab)
    ∗ ((s2V).view.loc (V d (cV L) (jV L)) ↦[Finset.univ \ (s2V).view.set]{fullShare} (s2V).view.writes (Elt F) fp1 [⟨Rect.whole cc0_scratch2.ty.shape, gatherPay d L t2 tab hin off1 hoff1⟩])
    ∗ ((s0V).view.loc (V d (cV L) (jV L)) ↦[Finset.univ \ (idxRow off1 hoff1).view.set]{Transfers.shareTok fullShare 3 0} idxBuf d L t2)
    ∗ (Transfers.Flight countersEmb (V d (cV L) (jV L)) (SemLoc.dma cc0_scratch8.sem) (default : HIx 1) 409600
      iprop(((( s3V).view.loc (V d (cV L) (jV L)) ↦[(s3V).view.set]{fullShare} (s3V).view.writes (Elt F) fp2 [⟨Rect.whole cc0_scratch3.ty.shape, gatherPay d L t2 tab hin off2 hoff2⟩])
          ∗ ((s0V).view.loc (V d (cV L) (jV L)) ↦[(idxRow off2 hoff2).view.set]{Transfers.shareTok fullShare 3 1} idxBuf d L t2))
        ∗ ((tabV).view.loc (V d (cV L) (jV L)) ↦[(tabK).view.set]{Transfers.shareTok (tabShare L) 4 2} tab)))
    ∗ ((tabV).view.loc (V d (cV L) (jV L)) ↦[Finset.univ \ (tabK).view.set]{Transfers.shareTok (tabShare L) 4 2} tab)
    ∗ ((s3V).view.loc (V d (cV L) (jV L)) ↦[Finset.univ \ (s3V).view.set]{fullShare} (s3V).view.writes (Elt F) fp2 [⟨Rect.whole cc0_scratch3.ty.shape, gatherPay d L t2 tab hin off2 hoff2⟩])
    ∗ ((s0V).view.loc (V d (cV L) (jV L)) ↦[Finset.univ \ (idxRow off2 hoff2).view.set]{Transfers.shareTok fullShare 3 1} idxBuf d L t2)
    ∗ (Transfers.Flight countersEmb (V d (cV L) (jV L)) (SemLoc.dma cc0_scratch9.sem) (default : HIx 1) 409600
      iprop(((( s4V).view.loc (V d (cV L) (jV L)) ↦[(s4V).view.set]{fullShare} (s4V).view.writes (Elt F) fp3 [⟨Rect.whole cc0_scratch4.ty.shape, gatherPay d L t2 tab hin off3 hoff3⟩])
          ∗ ((s0V).view.loc (V d (cV L) (jV L)) ↦[(idxRow off3 hoff3).view.set]{Transfers.shareTok fullShare 3 2} idxBuf d L t2))
        ∗ ((tabV).view.loc (V d (cV L) (jV L)) ↦[(tabK).view.set]{Transfers.shareTok (tabShare L) 4 3} tab)))
    ∗ ((tabV).view.loc (V d (cV L) (jV L)) ↦[Finset.univ \ (tabK).view.set]{Transfers.shareTok (tabShare L) 4 3} tab)
    ∗ ((s4V).view.loc (V d (cV L) (jV L)) ↦[Finset.univ \ (s4V).view.set]{fullShare} (s4V).view.writes (Elt F) fp3 [⟨Rect.whole cc0_scratch4.ty.shape, gatherPay d L t2 tab hin off3 hoff3⟩])
    ∗ ((s0V).view.loc (V d (cV L) (jV L)) ↦[Finset.univ \ (idxRow off3 hoff3).view.set]{Transfers.shareTok fullShare 3 2} idxBuf d L t2))

/-- The four slots idle: each buffer held plainly, each semaphore at zero, the read shares whole. -/
def slotsIdle (t2 : Buf (Elt F) (tokLoc d)) (tab : Buf (Elt F) (tabLoc d)) : sProp 𝕄 :=
  iprop(∃ (c0 : Buf (Elt F) ((s1V).view.loc (V d (cV L) (jV L)))) (c1 : Buf (Elt F) ((s2V).view.loc (V d (cV L) (jV L)))) (c2 : Buf (Elt F) ((s3V).view.loc (V d (cV L) (jV L)))) (c3 : Buf (Elt F) ((s4V).view.loc (V d (cV L) (jV L)))),
    semVal ((V d (cV L) (jV L)), SemLoc.dma cc0_scratch6.sem) 0
    ∗ ((tabV).view.loc (V d (cV L) (jV L)) ↦{Transfers.shareTok (tabShare L) 4 0} tab)
    ∗ ((s1V).view.loc (V d (cV L) (jV L)) ↦{fullShare} c0)
    ∗ ((s0V).view.loc (V d (cV L) (jV L)) ↦{Transfers.shareDrop fullShare 3} idxBuf d L t2)
    ∗ semVal ((V d (cV L) (jV L)), SemLoc.dma cc0_scratch7.sem) 0
    ∗ ((tabV).view.loc (V d (cV L) (jV L)) ↦{Transfers.shareTok (tabShare L) 4 1} tab)
    ∗ ((s2V).view.loc (V d (cV L) (jV L)) ↦{fullShare} c1)
    ∗ ((s0V).view.loc (V d (cV L) (jV L)) ↦{Transfers.shareTok fullShare 3 0} idxBuf d L t2)
    ∗ semVal ((V d (cV L) (jV L)), SemLoc.dma cc0_scratch8.sem) 0
    ∗ ((tabV).view.loc (V d (cV L) (jV L)) ↦{Transfers.shareTok (tabShare L) 4 2} tab)
    ∗ ((s3V).view.loc (V d (cV L) (jV L)) ↦{fullShare} c2)
    ∗ ((s0V).view.loc (V d (cV L) (jV L)) ↦{Transfers.shareTok fullShare 3 1} idxBuf d L t2)
    ∗ semVal ((V d (cV L) (jV L)), SemLoc.dma cc0_scratch9.sem) 0
    ∗ ((tabV).view.loc (V d (cV L) (jV L)) ↦{Transfers.shareTok (tabShare L) 4 3} tab)
    ∗ ((s4V).view.loc (V d (cV L) (jV L)) ↦{fullShare} c3)
    ∗ ((s0V).view.loc (V d (cV L) (jV L)) ↦{Transfers.shareTok fullShare 3 2} idxBuf d L t2))

/-- Before trip k of the outer loop: the slots in flight (idle once all sixteen trips are done), the pooled scratch at
    contents the first k trips left (P5), what the thread owes. -/
def outerInv (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (O : CellTallies nD τ sig (HIx 1)) (W : Waits sig (HIx 1))
    (P5 : Nat → Buf (Elt F) ((s5V).view.loc (V d (cV L) (jV L))) → Prop) (k : Nat) (_ : PUnit) : sProp 𝕄 :=
  iprop(Transfers.MayWaits (V d (cV L) (jV L)) (default : HIx 1) O
    ∗ (if k < 16 then slotsFl d L t2 tab hin k else slotsIdle d L t2 tab)
    ∗ (∃ f5, ((s5V).view.loc (V d (cV L) (jV L)) ↦{fullShare} f5) ∗ ⌜P5 k f5⌝)
    ∗ ∃ W', ⌜∀ p ∈ W', p ∈ W ∨ p.2 = none⌝ ∗ owes (V d (cV L) (jV L)) O W')

omit [FloatOps F] in
theorem pts_out (f : Buf (Elt F) (outLoc d)) :
    (((outK L).view.loc (V d (cV L) (jV L)) ↦[(outK L).view.set]{fullShare} f) : sProp 𝕄) = (outLoc d ↦[outSet L]{fullShare} f) := rfl
omit [FloatOps F] in
theorem pts_s0 (f : Buf (Elt F) ((V d (cV L) (jV L)).loc cc0_scratch0)) :
    (((s0V).view.loc (V d (cV L) (jV L)) ↦{fullShare} f) : sProp 𝕄) = ((V d (cV L) (jV L)).loc cc0_scratch0 ↦{fullShare} f) := rfl
omit [FloatOps F] in
theorem pts_s1 (f : Buf (Elt F) ((V d (cV L) (jV L)).loc cc0_scratch1)) :
    (((s1V).view.loc (V d (cV L) (jV L)) ↦{fullShare} f) : sProp 𝕄) = ((V d (cV L) (jV L)).loc cc0_scratch1 ↦{fullShare} f) := rfl
omit [FloatOps F] in
theorem pts_s2 (f : Buf (Elt F) ((V d (cV L) (jV L)).loc cc0_scratch2)) :
    (((s2V).view.loc (V d (cV L) (jV L)) ↦{fullShare} f) : sProp 𝕄) = ((V d (cV L) (jV L)).loc cc0_scratch2 ↦{fullShare} f) := rfl
omit [FloatOps F] in
theorem pts_s3 (f : Buf (Elt F) ((V d (cV L) (jV L)).loc cc0_scratch3)) :
    (((s3V).view.loc (V d (cV L) (jV L)) ↦{fullShare} f) : sProp 𝕄) = ((V d (cV L) (jV L)).loc cc0_scratch3 ↦{fullShare} f) := rfl
omit [FloatOps F] in
theorem pts_s4 (f : Buf (Elt F) ((V d (cV L) (jV L)).loc cc0_scratch4)) :
    (((s4V).view.loc (V d (cV L) (jV L)) ↦{fullShare} f) : sProp 𝕄) = ((V d (cV L) (jV L)).loc cc0_scratch4 ↦{fullShare} f) := rfl
omit [FloatOps F] in
theorem pts_s5 (f : Buf (Elt F) ((V d (cV L) (jV L)).loc cc0_scratch5)) :
    (((s5V).view.loc (V d (cV L) (jV L)) ↦{fullShare} f) : sProp 𝕄) = ((V d (cV L) (jV L)).loc cc0_scratch5 ↦{fullShare} f) := rfl

omit [FloatOps F] in
theorem row_eq (a b : Nat) (h : a = b) : (![a, 0] : Fin 2 → Nat) = ![b, 0] := by rw [h]

set_option maxHeartbeats 8000000 in
/-- The task's body, with the pooled scratch's contents followed through the sixteen trips by a predicate P5 the caller
    chooses (P5 0 of anything; each trip's sixteen stores take P5 k to P5 (k + 1)): the pooled rows end at the scratch's
    final contents, copied out. -/
theorem tile_body_gen (hF : (K (F := F)).Facts) (t2 : Buf (Elt F) (tokLoc d)) (tab : Buf (Elt F) (tabLoc d)) (o : Buf (Elt F) (outLoc d)) (hpre : PreOK t2)
      (O : CellTallies nD τ sig (HIx 1)) (W : Waits sig (HIx 1)) (hO : ∀ g, O g none = 0)
      (P5 : Nat → Buf (Elt F) ((s5V).view.loc (V d (cV L) (jV L))) → Prop) (hP0 : ∀ f, P5 0 f)
      (hPs : ∀ (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (k : Fin k0_t1_loop.trips) (f5 : Buf (Elt F) ((s5V).view.loc (V d (cV L) (jV L)))) (off0 : Fin 2 → Nat) (hoff0 : ∀ a, off0 a + S1x100.size a ≤ S64x100.size a) (off1 : Fin 2 → Nat) (hoff1 : ∀ a, off1 a + S1x100.size a ≤ S64x100.size a) (off2 : Fin 2 → Nat) (hoff2 : ∀ a, off2 a + S1x100.size a ≤ S64x100.size a) (off3 : Fin 2 → Nat) (hoff3 : ∀ a, off3 a + S1x100.size a ≤ S64x100.size a),
        off0 = ![4 * k.val + 0, 0] → off1 = ![4 * k.val + 1, 0] → off2 = ![4 * k.val + 2, 0] → off3 = ![4 * k.val + 3, 0] → P5 k.val f5 →
        P5 (k.val + 1) ((s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t4_loop.trips) k0_t5_loop.trips)))) :
    iprop(levAts (K (F := F)).L (K (F := F)).lev ∗ emp ∗ tileGo d t2 tab o L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pooled_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1)
          fun _ => iprop((tokLoc d ↦[tokSet L]{fullShare} t2) ∗ (tabLoc d ↦{tabShare L} tab) ∗ (∃ g5, ⌜P5 k0_t1_loop.trips g5⌝ ∗ (outLoc d ↦[outSet L]{fullShare} (outK L).view.writes (Elt F) o [⟨Rect.whole S32x128, ReadAs.same.apply ((s5V).view.read (Elt F) g5)⟩])) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__pooled_body_eq_skeleton]; unfold cc0__pooled_body_skel
  unfold tileGo
  rw [(K (F := F)).scopedBufs_V hF d (cV L) (jV L), SparseCore.Cfg.scopedSems0_V (Val := Elt F) d (cV L) (jV L), ownSems0_V, ownBufs_V]
  iintro ⟨#Hlv, -, ⟨Htok, Htab, Hout⟩, ⟨⟨%f0, H0⟩, ⟨%f1, H1⟩, ⟨%f2, H2⟩, ⟨%f3, H3⟩, ⟨%f4, H4⟩, ⟨%f5, H5⟩, Hbufs⟩, ⟨Hs6, Hs7, Hs8, Hs9, Hc0, Hc1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htok' := (Entails.of_eq (show (tokLoc d ↦[tokSet L]{fullShare} t2 : sProp 𝕄)
      = ((tokK L).view.loc (V d (cV L) (jV L)) ↦[(tokK L).view.set]{fullShare} t2) from rfl)) $$ Htok
  ihave Hout' := (Entails.of_eq (show (outLoc d ↦[outSet L]{fullShare} o : sProp 𝕄)
      = ((outK L).view.loc (V d (cV L) (jV L)) ↦[(outK L).view.set]{fullShare} o) from rfl)) $$ Hout
  ihave Htab' := ((Transfers.pointsTo_toks_split (tabShare L) 4).trans (Entails.of_eq (show
      iprop((tabLoc d ↦{Transfers.shareDrop (tabShare L) 4} tab) ∗ bigSep Finset.univ (fun i : Fin 4 => (tabLoc d ↦{Transfers.shareTok (tabShare L) 4 i} tab : sProp 𝕄)))
      = iprop(((tabV).view.loc (V d (cV L) (jV L)) ↦{Transfers.shareDrop (tabShare L) 4} tab)
          ∗ ((tabV).view.loc (V d (cV L) (jV L)) ↦{Transfers.shareTok (tabShare L) 4 0} tab)
          ∗ ((tabV).view.loc (V d (cV L) (jV L)) ↦{Transfers.shareTok (tabShare L) 4 1} tab)
          ∗ ((tabV).view.loc (V d (cV L) (jV L)) ↦{Transfers.shareTok (tabShare L) 4 2} tab)
          ∗ ((tabV).view.loc (V d (cV L) (jV L)) ↦{Transfers.shareTok (tabShare L) 4 3} tab)) by
      rw [show (Finset.univ : Finset (Fin 4)) = {0, 1, 2, 3} by decide,
        SparseCore.bigSep_insert' (by decide), SparseCore.bigSep_insert' (by decide), SparseCore.bigSep_insert' (by decide), bigSep_singleton]))) $$ Htab
  icases Htab' with ⟨HtabR, Htab0, Htab1, Htab2, Htab3⟩
  ihave H0' := (Entails.of_eq (show ((V d (cV L) (jV L)).loc cc0_scratch0 ↦{fullShare} f0 : sProp 𝕄)
      = ((s0V).view.loc (V d (cV L) (jV L)) ↦{fullShare} f0) from rfl)) $$ H0
  ihave H1' := (Entails.of_eq (show ((V d (cV L) (jV L)).loc cc0_scratch1 ↦{fullShare} f1 : sProp 𝕄)
      = ((s1V).view.loc (V d (cV L) (jV L)) ↦{fullShare} f1) from rfl)) $$ H1
  ihave H2' := (Entails.of_eq (show ((V d (cV L) (jV L)).loc cc0_scratch2 ↦{fullShare} f2 : sProp 𝕄)
      = ((s2V).view.loc (V d (cV L) (jV L)) ↦{fullShare} f2) from rfl)) $$ H2
  ihave H3' := (Entails.of_eq (show ((V d (cV L) (jV L)).loc cc0_scratch3 ↦{fullShare} f3 : sProp 𝕄)
      = ((s3V).view.loc (V d (cV L) (jV L)) ↦{fullShare} f3) from rfl)) $$ H3
  ihave H4' := (Entails.of_eq (show ((V d (cV L) (jV L)).loc cc0_scratch4 ↦{fullShare} f4 : sProp 𝕄)
      = ((s4V).view.loc (V d (cV L) (jV L)) ↦{fullShare} f4) from rfl)) $$ H4
  ihave H5' := (Entails.of_eq (show ((V d (cV L) (jV L)).loc cc0_scratch5 ↦{fullShare} f5 : sProp 𝕄)
      = ((s5V).view.loc (V d (cV L) (jV L)) ↦{fullShare} f5) from rfl)) $$ H5
  sl_exec
  ihave H0i := (Entails.of_eq (show ((s0V).view.loc (V d (cV L) (jV L)) ↦{fullShare} View.write (Elt F) (s0V).view f0 (tile_body_gen.sl.dma0 d L t2) Finset.univ : sProp 𝕄)
      = ((s0V).view.loc (V d (cV L) (jV L)) ↦{fullShare} idxBuf d L t2) by rw [View.write_whole_univ]; rfl)) $$ H0'
  ihave H0s := ((Transfers.pointsTo_toks_split fullShare 3).trans (Entails.of_eq (show
      iprop(((s0V).view.loc (V d (cV L) (jV L)) ↦{Transfers.shareDrop fullShare 3} idxBuf d L t2) ∗ bigSep Finset.univ (fun i : Fin 3 => ((s0V).view.loc (V d (cV L) (jV L)) ↦{Transfers.shareTok fullShare 3 i} idxBuf d L t2 : sProp 𝕄)))
      = iprop(((s0V).view.loc (V d (cV L) (jV L)) ↦{Transfers.shareDrop fullShare 3} idxBuf d L t2)
          ∗ ((s0V).view.loc (V d (cV L) (jV L)) ↦{Transfers.shareTok fullShare 3 0} idxBuf d L t2)
          ∗ ((s0V).view.loc (V d (cV L) (jV L)) ↦{Transfers.shareTok fullShare 3 1} idxBuf d L t2)
          ∗ ((s0V).view.loc (V d (cV L) (jV L)) ↦{Transfers.shareTok fullShare 3 2} idxBuf d L t2)) by
      rw [show (Finset.univ : Finset (Fin 3)) = {0, 1, 2} by decide,
        SparseCore.bigSep_insert' (by decide), SparseCore.bigSep_insert' (by decide), bigSep_singleton]))) $$ H0i
  icases H0s with ⟨HiA, HiB, HiC, HiD⟩
  have hin := hin_idx (F := F) d L t2 hpre
  sl_exec
  sl_for (outerInv d L t2 tab hin O W P5) $$ [Hmw Hs6 Htab0 H1' HiA Hs7 Htab1 H2' HiB Hs8 Htab2 H3' HiC Hs9 Htab3 H4' HiD H5' HO]
  case region =>
    intro k _
    have h16 : k.val < 16 := lt_of_lt_of_le k.isLt k0_t1_abs.2.1
    unfold outerInv
    rw [if_pos h16]
    unfold slotsFl
    iintro ⟨Hmw, ⟨%off0, %hoff0, %fp0, %off1, %hoff1, %fp1, %off2, %hoff2, %fp2, %off3, %hoff3, %fp3, %he, Hfl0, HtR0, HbR0, HiR0, Hfl1, HtR1, HbR1, HiR1, Hfl2, HtR2, HbR2, HiR2, Hfl3, HtR3, HbR3, HiR3⟩, ⟨%g5, H5, %hP⟩, %W', %hW', HO⟩
    obtain ⟨he0, he1, he2, he3⟩ := he
    by_cases hk : k.val < 15
    · iapply (wp_wand_r frame _ Set.univ)
      isplitl [Hmw Hfl0 HtR0 HbR0 HiR0 Hfl1 HtR1 HbR1 HiR1 Hfl2 HtR2 HbR2 HiR2 Hfl3 HtR3 HbR3 HiR3 H5 HO]
      · iapply (trip_lt d L t2 tab hin O W' k hk off0 hoff0 fp0 off1 hoff1 fp1 off2 hoff2 fp2 off3 hoff3 fp3 g5 _ _ _ _ _ _)
        isplitl [Hmw]; · iexact Hmw
        isplitl [Hfl0]; · iexact Hfl0
        isplitl [HtR0]; · iexact HtR0
        isplitl [HbR0]; · iexact HbR0
        isplitl [HiR0]; · iexact HiR0
        isplitl [Hfl1]; · iexact Hfl1
        isplitl [HtR1]; · iexact HtR1
        isplitl [HbR1]; · iexact HbR1
        isplitl [HiR1]; · iexact HiR1
        isplitl [Hfl2]; · iexact Hfl2
        isplitl [HtR2]; · iexact HtR2
        isplitl [HbR2]; · iexact HbR2
        isplitl [HiR2]; · iexact HiR2
        isplitl [Hfl3]; · iexact Hfl3
        isplitl [HtR3]; · iexact HtR3
        isplitl [HbR3]; · iexact HbR3
        isplitl [HiR3]; · iexact HiR3
        isplitl [H5]; · iexact H5
        iexact HO
      · iintro %x ⟨Hmw, Hfl0, HtR0, HbR0, HiR0, Hfl1, HtR1, HbR1, HiR1, Hfl2, HtR2, HbR2, HiR2, Hfl3, HtR3, HbR3, HiR3, H5, HO⟩
        rw [if_pos (show k.val + 1 < 16 by omega)]
        isplitl [Hmw]; · iexact Hmw
        isplitl [Hfl0 HtR0 HbR0 HiR0 Hfl1 HtR1 HbR1 HiR1 Hfl2 HtR2 HbR2 HiR2 Hfl3 HtR3 HbR3 HiR3]
        · iexists (k0_off10 k), _, _, (k0_off19 k), _, _, (k0_off28 k), _, _, (k0_off37 k), _, _
          isplitr
          · ipureintro
            exact ⟨(k0_off10_eq k).trans (row_eq _ _ (by omega)), (k0_off19_eq k).trans (row_eq _ _ (by omega)),
              (k0_off28_eq k).trans (row_eq _ _ (by omega)), (k0_off37_eq k).trans (row_eq _ _ (by omega))⟩
          isplitl [Hfl0]; · iexact Hfl0
          isplitl [HtR0]; · iexact HtR0
          isplitl [HbR0]; · iexact HbR0
          isplitl [HiR0]; · iexact HiR0
          isplitl [Hfl1]; · iexact Hfl1
          isplitl [HtR1]; · iexact HtR1
          isplitl [HbR1]; · iexact HbR1
          isplitl [HiR1]; · iexact HiR1
          isplitl [Hfl2]; · iexact Hfl2
          isplitl [HtR2]; · iexact HtR2
          isplitl [HbR2]; · iexact HbR2
          isplitl [HiR2]; · iexact HiR2
          isplitl [Hfl3]; · iexact Hfl3
          isplitl [HtR3]; · iexact HtR3
          isplitl [HbR3]; · iexact HbR3
          iexact HiR3
        isplitl [H5]
        · iexists _; isplitl [H5]; · iexact H5
          ipureintro; exact hPs hin k g5 off0 hoff0 off1 hoff1 off2 hoff2 off3 hoff3 he0 he1 he2 he3 hP
        iexists _; isplitr
        swap; · iexact HO
        ipureintro; intro p hp
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        exact hW' p hp
    · iapply (wp_wand_r frame _ Set.univ)
      isplitl [Hmw Hfl0 HtR0 HbR0 HiR0 Hfl1 HtR1 HbR1 HiR1 Hfl2 HtR2 HbR2 HiR2 Hfl3 HtR3 HbR3 HiR3 H5 HO]
      · iapply (trip_last d L t2 tab hin O W' k hk off0 hoff0 fp0 off1 hoff1 fp1 off2 hoff2 fp2 off3 hoff3 fp3 g5 _ _ _ _ _ _)
        isplitl [Hmw]; · iexact Hmw
        isplitl [Hfl0]; · iexact Hfl0
        isplitl [HtR0]; · iexact HtR0
        isplitl [HbR0]; · iexact HbR0
        isplitl [HiR0]; · iexact HiR0
        isplitl [Hfl1]; · iexact Hfl1
        isplitl [HtR1]; · iexact HtR1
        isplitl [HbR1]; · iexact HbR1
        isplitl [HiR1]; · iexact HiR1
        isplitl [Hfl2]; · iexact Hfl2
        isplitl [HtR2]; · iexact HtR2
        isplitl [HbR2]; · iexact HbR2
        isplitl [HiR2]; · iexact HiR2
        isplitl [Hfl3]; · iexact Hfl3
        isplitl [HtR3]; · iexact HtR3
        isplitl [HbR3]; · iexact HbR3
        isplitl [HiR3]; · iexact HiR3
        isplitl [H5]; · iexact H5
        iexact HO
      · iintro %x ⟨Hmw, Hfl0, HtR0, HbR0, HiR0, Hfl1, HtR1, HbR1, HiR1, Hfl2, HtR2, HbR2, HiR2, Hfl3, HtR3, HbR3, HiR3, H5, HO⟩
        rw [if_neg (show ¬ k.val + 1 < 16 by omega)]
        isplitl [Hmw]; · iexact Hmw
        isplitl [Hfl0 HtR0 HbR0 HiR0 Hfl1 HtR1 HbR1 HiR1 Hfl2 HtR2 HbR2 HiR2 Hfl3 HtR3 HbR3 HiR3]
        · unfold slotsIdle
          iexists _, _, _, _
          isplitl [Hfl0]; · iexact Hfl0
          isplitl [HtR0]; · iexact HtR0
          isplitl [HbR0]; · iexact HbR0
          isplitl [HiR0]; · iexact HiR0
          isplitl [Hfl1]; · iexact Hfl1
          isplitl [HtR1]; · iexact HtR1
          isplitl [HbR1]; · iexact HbR1
          isplitl [HiR1]; · iexact HiR1
          isplitl [Hfl2]; · iexact Hfl2
          isplitl [HtR2]; · iexact HtR2
          isplitl [HbR2]; · iexact HbR2
          isplitl [HiR2]; · iexact HiR2
          isplitl [Hfl3]; · iexact Hfl3
          isplitl [HtR3]; · iexact HtR3
          isplitl [HbR3]; · iexact HbR3
          iexact HiR3
        isplitl [H5]
        · iexists _; isplitl [H5]; · iexact H5
          ipureintro; exact hPs hin k g5 off0 hoff0 off1 hoff1 off2 hoff2 off3 hoff3 he0 he1 he2 he3 hP
        iexists _; isplitr
        swap; · iexact HO
        ipureintro; intro p hp
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        exact hW' p hp
  · unfold outerInv
    rw [if_pos (show 0 < 16 by decide)]
    unfold slotsFl
    isplitl [Hmw]; · iexact Hmw
    isplitl [Hs6 Htab0 H1' HiA Hs7 Htab1 H2' HiB Hs8 Htab2 H3' HiC Hs9 Htab3 H4' HiD]
    · iexists ![0, 0], inb_S64x100_S1x100_0_0, f1, ![1, 0], inb_S64x100_S1x100_1_0, f2, ![2, 0], inb_S64x100_S1x100_2_0, f3, ![3, 0], inb_S64x100_S1x100_3_0, f4
      isplitr
      · ipureintro; exact ⟨rfl, rfl, rfl, rfl⟩
      isplitl [Hs6]; · iexact Hs6
      isplitl [Htab0]; · iexact Htab0
      isplitl [H1']; · iexact H1'
      isplitl [HiA]; · iexact HiA
      isplitl [Hs7]; · iexact Hs7
      isplitl [Htab1]; · iexact Htab1
      isplitl [H2']; · iexact H2'
      isplitl [HiB]; · iexact HiB
      isplitl [Hs8]; · iexact Hs8
      isplitl [Htab2]; · iexact Htab2
      isplitl [H3']; · iexact H3'
      isplitl [HiC]; · iexact HiC
      isplitl [Hs9]; · iexact Hs9
      isplitl [Htab3]; · iexact Htab3
      isplitl [H4']; · iexact H4'
      iexact HiD
    isplitl [H5']
    · iexists f5; isplitl [H5']; · iexact H5'
      ipureintro; exact hP0 f5
    iexists _; isplitr
    swap; · iexact HO
    ipureintro; intro p hp
    rcases Finset.mem_insert.mp hp with hp | hp; · exact .inr (hp ▸ rfl)
    exact .inl hp
  iintro %_ HI
  unfold outerInv
  rw [if_neg (show ¬ Scf.trips k0_t1_loop.lb k0_t1_loop.ub k0_t1_loop.st < 16 by decide)]
  unfold slotsIdle
  icases HI with ⟨-, ⟨%c0, %c1, %c2, %c3, Hv0, Ht0, Hb0, Hi0, Hv1, Ht1, Hb1, Hi1, Hv2, Ht2, Hb2, Hi2, Hv3, Ht3, Hb3, Hi3⟩, ⟨%g5, H5, %hP⟩, %W', %hW', HO⟩
  sl_exec
  sl_step
  isplitl [Htok']
  · iapply (Entails.of_eq (show (((tokK L).view.loc (V d (cV L) (jV L)) ↦[(tokK L).view.set]{fullShare} t2) : sProp 𝕄) = (tokLoc d ↦[tokSet L]{fullShare} t2) from rfl)); iexact Htok'
  isplitl [HtabR Ht0 Ht1 Ht2 Ht3]
  · iapply ((Entails.of_eq (show
      iprop(((tabV).view.loc (V d (cV L) (jV L)) ↦{Transfers.shareDrop (tabShare L) 4} tab)
          ∗ ((tabV).view.loc (V d (cV L) (jV L)) ↦{Transfers.shareTok (tabShare L) 4 0} tab)
          ∗ ((tabV).view.loc (V d (cV L) (jV L)) ↦{Transfers.shareTok (tabShare L) 4 1} tab)
          ∗ ((tabV).view.loc (V d (cV L) (jV L)) ↦{Transfers.shareTok (tabShare L) 4 2} tab)
          ∗ ((tabV).view.loc (V d (cV L) (jV L)) ↦{Transfers.shareTok (tabShare L) 4 3} tab))
      = iprop((tabLoc d ↦{Transfers.shareDrop (tabShare L) 4} tab) ∗ bigSep Finset.univ (fun i : Fin 4 => (tabLoc d ↦{Transfers.shareTok (tabShare L) 4 i} tab : sProp 𝕄))) by
      rw [show (Finset.univ : Finset (Fin 4)) = {0, 1, 2, 3} by decide,
        SparseCore.bigSep_insert' (by decide), SparseCore.bigSep_insert' (by decide), SparseCore.bigSep_insert' (by decide), bigSep_singleton])).trans
      (Transfers.pointsTo_toks_join (tabShare L) 4))
    isplitl [HtabR]; · iexact HtabR
    isplitl [Ht0]; · iexact Ht0
    isplitl [Ht1]; · iexact Ht1
    isplitl [Ht2]; · iexact Ht2
    iexact Ht3
  isplitl [Hout']
  · iexists g5; isplitr
    · ipureintro; exact hP
    iapply (Entails.of_eq (pts_out (F := F) d L _)); iexact Hout'
  isplitl [Hi0 Hi1 Hi2 Hi3 Hb0 Hb1 Hb2 Hb3 H5 Hbufs]
  · isplitl [Hi0 Hi1 Hi2 Hi3]
    · iexists (idxBuf d L t2)
      iapply (Entails.of_eq (pts_s0 (F := F) d L _))
      iapply ((Entails.of_eq (show
        iprop(((s0V).view.loc (V d (cV L) (jV L)) ↦{Transfers.shareDrop fullShare 3} idxBuf d L t2)
            ∗ ((s0V).view.loc (V d (cV L) (jV L)) ↦{Transfers.shareTok fullShare 3 0} idxBuf d L t2)
            ∗ ((s0V).view.loc (V d (cV L) (jV L)) ↦{Transfers.shareTok fullShare 3 1} idxBuf d L t2)
            ∗ ((s0V).view.loc (V d (cV L) (jV L)) ↦{Transfers.shareTok fullShare 3 2} idxBuf d L t2))
        = iprop(((s0V).view.loc (V d (cV L) (jV L)) ↦{Transfers.shareDrop fullShare 3} idxBuf d L t2) ∗ bigSep Finset.univ (fun i : Fin 3 => ((s0V).view.loc (V d (cV L) (jV L)) ↦{Transfers.shareTok fullShare 3 i} idxBuf d L t2 : sProp 𝕄))) by
        rw [show (Finset.univ : Finset (Fin 3)) = {0, 1, 2} by decide,
          SparseCore.bigSep_insert' (by decide), SparseCore.bigSep_insert' (by decide), bigSep_singleton])).trans
        (Transfers.pointsTo_toks_join fullShare 3))
      isplitl [Hi0]; · iexact Hi0
      isplitl [Hi1]; · iexact Hi1
      isplitl [Hi2]; · iexact Hi2
      iexact Hi3
    isplitl [Hb0]; · iexists _; iapply (Entails.of_eq (pts_s1 (F := F) d L _)); iexact Hb0
    isplitl [Hb1]; · iexists _; iapply (Entails.of_eq (pts_s2 (F := F) d L _)); iexact Hb1
    isplitl [Hb2]; · iexists _; iapply (Entails.of_eq (pts_s3 (F := F) d L _)); iexact Hb2
    isplitl [Hb3]; · iexists _; iapply (Entails.of_eq (pts_s4 (F := F) d L _)); iexact Hb3
    isplitl [H5]; · iexists _; iapply (Entails.of_eq (pts_s5 (F := F) d L _)); iexact H5
    iexact Hbufs
  isplitl [Hv0 Hv1 Hv2 Hv3 Hc0 Hc1 Hsems]
  · isplitl [Hv0]; · iexact Hv0
    isplitl [Hv1]; · iexact Hv1
    isplitl [Hv2]; · iexact Hv2
    isplitl [Hv3]; · iexact Hv3
    isplitl [Hc0]; · iexact Hc0
    isplitl [Hc1]; · iexact Hc1
    iexact Hsems
  iexists _; isplitr
  swap; · iexact HO
  ipureintro; intro p hp
  rcases Finset.mem_insert.mp hp with hp | hp; · exact .inr (hp ▸ rfl)
  exact hW' p hp

end Tile

end Cert.Proof.BitsSide

end
-- ==== Proof.BitsBodyVal.lean ====
/-
  The pooling task's values, read index by index.

  One task adds up, for each of its 32 sentences, the 200 table rows its words name. It works a token row (100 words)
  at a time: a gather lands the 100 named table rows in a row buffer [100,128]; a loop adds the buffer's rows, one by
  one, to eight 16-lane vectors (lane l of vector c is feature 16·c + l); after the sentence's two token rows the
  eight vectors are stored as one row of the pooled scratch [32,128]. Here, for every float instance: what the row
  folds mean lane by lane, what a landed gather holds, the sixteen stores of one trip read back as one function,
  and the pooled value of a sentence as the fold over its two token rows.
-/
import proofs.«202922_g81758997446792_cont_9to1_m_1158_4_alg».proof.Proof.BitsTile
import proofs.«202922_g81758997446792_cont_9to1_m_1158_4_alg».proof.Proof.BitsBodyRows
import Idealize.ShloMosaic.Lib.Pipeline.Value

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

/-! ## Indices of the 128 features: vector e / 16, lane e % 16 -/

omit [FloatOps F] in
/-- A feature is sixteen times its vector plus its lane. -/
theorem split128 (e : Fin 128) : ∃ (c : Fin 8) (l : Fin 16) (h : 16 * c.val + l.val < 128), e = ⟨16 * c.val + l.val, h⟩ :=
  ⟨⟨e.val / 16, by have := e.isLt; omega⟩, ⟨e.val % 16, Nat.mod_lt _ (by decide)⟩,
    (by have := e.isLt; show 16 * (e.val / 16) + e.val % 16 < 128; omega),
    Fin.ext (by show e.val = 16 * (e.val / 16) + e.val % 16; omega)⟩
/-- Feature 16·c + l of the eight lane vectors is lane l of vector c. -/
theorem lane_mk (a : A8 F) (c : Fin 8) (l : Fin 16) (h : 16 * c.val + l.val < 128) :
    lane a ⟨16 * c.val + l.val, h⟩ = comp8 a c (ix1 l) := by
  have h1 : (16 * c.val + l.val) / 16 = c.val := by have := l.isLt; omega
  have h2 : (16 * c.val + l.val) % 16 = l.val := by have := l.isLt; omega
  unfold lane
  congr 1
  · congr 1 <;> exact Fin.ext h1
  · congr 1 <;> exact Fin.ext h2

section Val
variable (d : Dev nD) (L : grid0.Coords)

/-! ## (L1) The row folds, lane by lane

A row step loads the eight 16-lane pieces of row r of a row buffer and adds each to its lane vector; piece c starts at
column 16·c (the generated closed forms of the offsets). So at feature e the step adds the buffer's entry (r, e). -/

/-! ### Row buffer 0 -/

/-- Lane l of piece 0 of row r is the buffer's entry (r, 0 + l). -/
theorem rowRead0_0 (cont : Buf (Elt F) ((s1V).view.loc (V d (cV L) (jV L)))) (r : Fin k0_t2_loop.trips) (l : Fin 16) :
    (shapeCast S16 (View.readAt (Elt F) (s1V).view (Rect.unit (s := S100x128) (k0_off2 r) S1x16.size (k0_off2_inb r)).toLoadRect cont) shapeCasts_S1x16_S16) (ix1 l)
      = cont (ix2 ⟨r.val, r.isLt⟩ ⟨0 + l.val, by have := l.isLt; omega⟩) := by
  rw [show (shapeCast S16 (View.readAt (Elt F) (s1V).view (Rect.unit (s := S100x128) (k0_off2 r) S1x16.size (k0_off2_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off2 r 0 = r.val := congrFun (k0_off2_eq r) 0
  have h1 : k0_off2 r 1 = 0 := congrFun (k0_off2_eq r) 1
  match a with
  | ⟨0, _⟩ => show k0_off2 r 0 + 1 * 0 = r.val; omega
  | ⟨1, _⟩ => show k0_off2 r 1 + 1 * l.val = 0 + l.val; omega

/-- Lane l of piece 1 of row r is the buffer's entry (r, 16 + l). -/
theorem rowRead0_1 (cont : Buf (Elt F) ((s1V).view.loc (V d (cV L) (jV L)))) (r : Fin k0_t2_loop.trips) (l : Fin 16) :
    (shapeCast S16 (View.readAt (Elt F) (s1V).view (Rect.unit (s := S100x128) (k0_off3 r) S1x16.size (k0_off3_inb r)).toLoadRect cont) shapeCasts_S1x16_S16) (ix1 l)
      = cont (ix2 ⟨r.val, r.isLt⟩ ⟨16 + l.val, by have := l.isLt; omega⟩) := by
  rw [show (shapeCast S16 (View.readAt (Elt F) (s1V).view (Rect.unit (s := S100x128) (k0_off3 r) S1x16.size (k0_off3_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off3 r 0 = r.val := congrFun (k0_off3_eq r) 0
  have h1 : k0_off3 r 1 = 16 := congrFun (k0_off3_eq r) 1
  match a with
  | ⟨0, _⟩ => show k0_off3 r 0 + 1 * 0 = r.val; omega
  | ⟨1, _⟩ => show k0_off3 r 1 + 1 * l.val = 16 + l.val; omega

/-- Lane l of piece 2 of row r is the buffer's entry (r, 32 + l). -/
theorem rowRead0_2 (cont : Buf (Elt F) ((s1V).view.loc (V d (cV L) (jV L)))) (r : Fin k0_t2_loop.trips) (l : Fin 16) :
    (shapeCast S16 (View.readAt (Elt F) (s1V).view (Rect.unit (s := S100x128) (k0_off4 r) S1x16.size (k0_off4_inb r)).toLoadRect cont) shapeCasts_S1x16_S16) (ix1 l)
      = cont (ix2 ⟨r.val, r.isLt⟩ ⟨32 + l.val, by have := l.isLt; omega⟩) := by
  rw [show (shapeCast S16 (View.readAt (Elt F) (s1V).view (Rect.unit (s := S100x128) (k0_off4 r) S1x16.size (k0_off4_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off4 r 0 = r.val := congrFun (k0_off4_eq r) 0
  have h1 : k0_off4 r 1 = 32 := congrFun (k0_off4_eq r) 1
  match a with
  | ⟨0, _⟩ => show k0_off4 r 0 + 1 * 0 = r.val; omega
  | ⟨1, _⟩ => show k0_off4 r 1 + 1 * l.val = 32 + l.val; omega

/-- Lane l of piece 3 of row r is the buffer's entry (r, 48 + l). -/
theorem rowRead0_3 (cont : Buf (Elt F) ((s1V).view.loc (V d (cV L) (jV L)))) (r : Fin k0_t2_loop.trips) (l : Fin 16) :
    (shapeCast S16 (View.readAt (Elt F) (s1V).view (Rect.unit (s := S100x128) (k0_off5 r) S1x16.size (k0_off5_inb r)).toLoadRect cont) shapeCasts_S1x16_S16) (ix1 l)
      = cont (ix2 ⟨r.val, r.isLt⟩ ⟨48 + l.val, by have := l.isLt; omega⟩) := by
  rw [show (shapeCast S16 (View.readAt (Elt F) (s1V).view (Rect.unit (s := S100x128) (k0_off5 r) S1x16.size (k0_off5_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off5 r 0 = r.val := congrFun (k0_off5_eq r) 0
  have h1 : k0_off5 r 1 = 48 := congrFun (k0_off5_eq r) 1
  match a with
  | ⟨0, _⟩ => show k0_off5 r 0 + 1 * 0 = r.val; omega
  | ⟨1, _⟩ => show k0_off5 r 1 + 1 * l.val = 48 + l.val; omega

/-- Lane l of piece 4 of row r is the buffer's entry (r, 64 + l). -/
theorem rowRead0_4 (cont : Buf (Elt F) ((s1V).view.loc (V d (cV L) (jV L)))) (r : Fin k0_t2_loop.trips) (l : Fin 16) :
    (shapeCast S16 (View.readAt (Elt F) (s1V).view (Rect.unit (s := S100x128) (k0_off6 r) S1x16.size (k0_off6_inb r)).toLoadRect cont) shapeCasts_S1x16_S16) (ix1 l)
      = cont (ix2 ⟨r.val, r.isLt⟩ ⟨64 + l.val, by have := l.isLt; omega⟩) := by
  rw [show (shapeCast S16 (View.readAt (Elt F) (s1V).view (Rect.unit (s := S100x128) (k0_off6 r) S1x16.size (k0_off6_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off6 r 0 = r.val := congrFun (k0_off6_eq r) 0
  have h1 : k0_off6 r 1 = 64 := congrFun (k0_off6_eq r) 1
  match a with
  | ⟨0, _⟩ => show k0_off6 r 0 + 1 * 0 = r.val; omega
  | ⟨1, _⟩ => show k0_off6 r 1 + 1 * l.val = 64 + l.val; omega

/-- Lane l of piece 5 of row r is the buffer's entry (r, 80 + l). -/
theorem rowRead0_5 (cont : Buf (Elt F) ((s1V).view.loc (V d (cV L) (jV L)))) (r : Fin k0_t2_loop.trips) (l : Fin 16) :
    (shapeCast S16 (View.readAt (Elt F) (s1V).view (Rect.unit (s := S100x128) (k0_off7 r) S1x16.size (k0_off7_inb r)).toLoadRect cont) shapeCasts_S1x16_S16) (ix1 l)
      = cont (ix2 ⟨r.val, r.isLt⟩ ⟨80 + l.val, by have := l.isLt; omega⟩) := by
  rw [show (shapeCast S16 (View.readAt (Elt F) (s1V).view (Rect.unit (s := S100x128) (k0_off7 r) S1x16.size (k0_off7_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off7 r 0 = r.val := congrFun (k0_off7_eq r) 0
  have h1 : k0_off7 r 1 = 80 := congrFun (k0_off7_eq r) 1
  match a with
  | ⟨0, _⟩ => show k0_off7 r 0 + 1 * 0 = r.val; omega
  | ⟨1, _⟩ => show k0_off7 r 1 + 1 * l.val = 80 + l.val; omega

/-- Lane l of piece 6 of row r is the buffer's entry (r, 96 + l). -/
theorem rowRead0_6 (cont : Buf (Elt F) ((s1V).view.loc (V d (cV L) (jV L)))) (r : Fin k0_t2_loop.trips) (l : Fin 16) :
    (shapeCast S16 (View.readAt (Elt F) (s1V).view (Rect.unit (s := S100x128) (k0_off8 r) S1x16.size (k0_off8_inb r)).toLoadRect cont) shapeCasts_S1x16_S16) (ix1 l)
      = cont (ix2 ⟨r.val, r.isLt⟩ ⟨96 + l.val, by have := l.isLt; omega⟩) := by
  rw [show (shapeCast S16 (View.readAt (Elt F) (s1V).view (Rect.unit (s := S100x128) (k0_off8 r) S1x16.size (k0_off8_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off8 r 0 = r.val := congrFun (k0_off8_eq r) 0
  have h1 : k0_off8 r 1 = 96 := congrFun (k0_off8_eq r) 1
  match a with
  | ⟨0, _⟩ => show k0_off8 r 0 + 1 * 0 = r.val; omega
  | ⟨1, _⟩ => show k0_off8 r 1 + 1 * l.val = 96 + l.val; omega

/-- Lane l of piece 7 of row r is the buffer's entry (r, 112 + l). -/
theorem rowRead0_7 (cont : Buf (Elt F) ((s1V).view.loc (V d (cV L) (jV L)))) (r : Fin k0_t2_loop.trips) (l : Fin 16) :
    (shapeCast S16 (View.readAt (Elt F) (s1V).view (Rect.unit (s := S100x128) (k0_off9 r) S1x16.size (k0_off9_inb r)).toLoadRect cont) shapeCasts_S1x16_S16) (ix1 l)
      = cont (ix2 ⟨r.val, r.isLt⟩ ⟨112 + l.val, by have := l.isLt; omega⟩) := by
  rw [show (shapeCast S16 (View.readAt (Elt F) (s1V).view (Rect.unit (s := S100x128) (k0_off9 r) S1x16.size (k0_off9_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off9 r 0 = r.val := congrFun (k0_off9_eq r) 0
  have h1 : k0_off9 r 1 = 112 := congrFun (k0_off9_eq r) 1
  match a with
  | ⟨0, _⟩ => show k0_off9 r 0 + 1 * 0 = r.val; omega
  | ⟨1, _⟩ => show k0_off9 r 1 + 1 * l.val = 112 + l.val; omega

/-- One row step at feature e adds the buffer's entry (r, e). -/
theorem lane_rowStep0 (cont : Buf (Elt F) ((s1V).view.loc (V d (cV L) (jV L)))) (r : Fin k0_t2_loop.trips) (a : A8 F) (e : Fin 128) :
    lane (rowStep0 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead0_0 d L cont r l)
  | ⟨1, _⟩ => exact congrArg (FloatOps.addf _) (rowRead0_1 d L cont r l)
  | ⟨2, _⟩ => exact congrArg (FloatOps.addf _) (rowRead0_2 d L cont r l)
  | ⟨3, _⟩ => exact congrArg (FloatOps.addf _) (rowRead0_3 d L cont r l)
  | ⟨4, _⟩ => exact congrArg (FloatOps.addf _) (rowRead0_4 d L cont r l)
  | ⟨5, _⟩ => exact congrArg (FloatOps.addf _) (rowRead0_5 d L cont r l)
  | ⟨6, _⟩ => exact congrArg (FloatOps.addf _) (rowRead0_6 d L cont r l)
  | ⟨7, _⟩ => exact congrArg (FloatOps.addf _) (rowRead0_7 d L cont r l)

theorem lane_rowFold0 (cont : Buf (Elt F) ((s1V).view.loc (V d (cV L) (jV L)))) (init : A8 F) (n : Nat) (hn : n ≤ 100) (e : Fin 128) :
    lane (rowFold0 d L cont init n) e = laneFold cont (lane init e) e n := by
  induction n with
  | zero => rfl
  | succ n ih =>
    have h : n < k0_t2_loop.trips := by show n < 100; omega
    rw [show rowFold0 d L cont init (n + 1) = _ from rowFold0_succ d L cont init ⟨n, h⟩, lane_rowStep0, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ### Row buffer 1 -/

/-- Lane l of piece 0 of row r is the buffer's entry (r, 0 + l). -/
theorem rowRead1_0 (cont : Buf (Elt F) ((s2V).view.loc (V d (cV L) (jV L)))) (r : Fin k0_t3_loop.trips) (l : Fin 16) :
    (shapeCast S16 (View.readAt (Elt F) (s2V).view (Rect.unit (s := S100x128) (k0_off11 r) S1x16.size (k0_off11_inb r)).toLoadRect cont) shapeCasts_S1x16_S16) (ix1 l)
      = cont (ix2 ⟨r.val, r.isLt⟩ ⟨0 + l.val, by have := l.isLt; omega⟩) := by
  rw [show (shapeCast S16 (View.readAt (Elt F) (s2V).view (Rect.unit (s := S100x128) (k0_off11 r) S1x16.size (k0_off11_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off11 r 0 = r.val := congrFun (k0_off11_eq r) 0
  have h1 : k0_off11 r 1 = 0 := congrFun (k0_off11_eq r) 1
  match a with
  | ⟨0, _⟩ => show k0_off11 r 0 + 1 * 0 = r.val; omega
  | ⟨1, _⟩ => show k0_off11 r 1 + 1 * l.val = 0 + l.val; omega

/-- Lane l of piece 1 of row r is the buffer's entry (r, 16 + l). -/
theorem rowRead1_1 (cont : Buf (Elt F) ((s2V).view.loc (V d (cV L) (jV L)))) (r : Fin k0_t3_loop.trips) (l : Fin 16) :
    (shapeCast S16 (View.readAt (Elt F) (s2V).view (Rect.unit (s := S100x128) (k0_off12 r) S1x16.size (k0_off12_inb r)).toLoadRect cont) shapeCasts_S1x16_S16) (ix1 l)
      = cont (ix2 ⟨r.val, r.isLt⟩ ⟨16 + l.val, by have := l.isLt; omega⟩) := by
  rw [show (shapeCast S16 (View.readAt (Elt F) (s2V).view (Rect.unit (s := S100x128) (k0_off12 r) S1x16.size (k0_off12_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off12 r 0 = r.val := congrFun (k0_off12_eq r) 0
  have h1 : k0_off12 r 1 = 16 := congrFun (k0_off12_eq r) 1
  match a with
  | ⟨0, _⟩ => show k0_off12 r 0 + 1 * 0 = r.val; omega
  | ⟨1, _⟩ => show k0_off12 r 1 + 1 * l.val = 16 + l.val; omega

/-- Lane l of piece 2 of row r is the buffer's entry (r, 32 + l). -/
theorem rowRead1_2 (cont : Buf (Elt F) ((s2V).view.loc (V d (cV L) (jV L)))) (r : Fin k0_t3_loop.trips) (l : Fin 16) :
    (shapeCast S16 (View.readAt (Elt F) (s2V).view (Rect.unit (s := S100x128) (k0_off13 r) S1x16.size (k0_off13_inb r)).toLoadRect cont) shapeCasts_S1x16_S16) (ix1 l)
      = cont (ix2 ⟨r.val, r.isLt⟩ ⟨32 + l.val, by have := l.isLt; omega⟩) := by
  rw [show (shapeCast S16 (View.readAt (Elt F) (s2V).view (Rect.unit (s := S100x128) (k0_off13 r) S1x16.size (k0_off13_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off13 r 0 = r.val := congrFun (k0_off13_eq r) 0
  have h1 : k0_off13 r 1 = 32 := congrFun (k0_off13_eq r) 1
  match a with
  | ⟨0, _⟩ => show k0_off13 r 0 + 1 * 0 = r.val; omega
  | ⟨1, _⟩ => show k0_off13 r 1 + 1 * l.val = 32 + l.val; omega

/-- Lane l of piece 3 of row r is the buffer's entry (r, 48 + l). -/
theorem rowRead1_3 (cont : Buf (Elt F) ((s2V).view.loc (V d (cV L) (jV L)))) (r : Fin k0_t3_loop.trips) (l : Fin 16) :
    (shapeCast S16 (View.readAt (Elt F) (s2V).view (Rect.unit (s := S100x128) (k0_off14 r) S1x16.size (k0_off14_inb r)).toLoadRect cont) shapeCasts_S1x16_S16) (ix1 l)
      = cont (ix2 ⟨r.val, r.isLt⟩ ⟨48 + l.val, by have := l.isLt; omega⟩) := by
  rw [show (shapeCast S16 (View.readAt (Elt F) (s2V).view (Rect.unit (s := S100x128) (k0_off14 r) S1x16.size (k0_off14_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off14 r 0 = r.val := congrFun (k0_off14_eq r) 0
  have h1 : k0_off14 r 1 = 48 := congrFun (k0_off14_eq r) 1
  match a with
  | ⟨0, _⟩ => show k0_off14 r 0 + 1 * 0 = r.val; omega
  | ⟨1, _⟩ => show k0_off14 r 1 + 1 * l.val = 48 + l.val; omega

/-- Lane l of piece 4 of row r is the buffer's entry (r, 64 + l). -/
theorem rowRead1_4 (cont : Buf (Elt F) ((s2V).view.loc (V d (cV L) (jV L)))) (r : Fin k0_t3_loop.trips) (l : Fin 16) :
    (shapeCast S16 (View.readAt (Elt F) (s2V).view (Rect.unit (s := S100x128) (k0_off15 r) S1x16.size (k0_off15_inb r)).toLoadRect cont) shapeCasts_S1x16_S16) (ix1 l)
      = cont (ix2 ⟨r.val, r.isLt⟩ ⟨64 + l.val, by have := l.isLt; omega⟩) := by
  rw [show (shapeCast S16 (View.readAt (Elt F) (s2V).view (Rect.unit (s := S100x128) (k0_off15 r) S1x16.size (k0_off15_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off15 r 0 = r.val := congrFun (k0_off15_eq r) 0
  have h1 : k0_off15 r 1 = 64 := congrFun (k0_off15_eq r) 1
  match a with
  | ⟨0, _⟩ => show k0_off15 r 0 + 1 * 0 = r.val; omega
  | ⟨1, _⟩ => show k0_off15 r 1 + 1 * l.val = 64 + l.val; omega

/-- Lane l of piece 5 of row r is the buffer's entry (r, 80 + l). -/
theorem rowRead1_5 (cont : Buf (Elt F) ((s2V).view.loc (V d (cV L) (jV L)))) (r : Fin k0_t3_loop.trips) (l : Fin 16) :
    (shapeCast S16 (View.readAt (Elt F) (s2V).view (Rect.unit (s := S100x128) (k0_off16 r) S1x16.size (k0_off16_inb r)).toLoadRect cont) shapeCasts_S1x16_S16) (ix1 l)
      = cont (ix2 ⟨r.val, r.isLt⟩ ⟨80 + l.val, by have := l.isLt; omega⟩) := by
  rw [show (shapeCast S16 (View.readAt (Elt F) (s2V).view (Rect.unit (s := S100x128) (k0_off16 r) S1x16.size (k0_off16_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off16 r 0 = r.val := congrFun (k0_off16_eq r) 0
  have h1 : k0_off16 r 1 = 80 := congrFun (k0_off16_eq r) 1
  match a with
  | ⟨0, _⟩ => show k0_off16 r 0 + 1 * 0 = r.val; omega
  | ⟨1, _⟩ => show k0_off16 r 1 + 1 * l.val = 80 + l.val; omega

/-- Lane l of piece 6 of row r is the buffer's entry (r, 96 + l). -/
theorem rowRead1_6 (cont : Buf (Elt F) ((s2V).view.loc (V d (cV L) (jV L)))) (r : Fin k0_t3_loop.trips) (l : Fin 16) :
    (shapeCast S16 (View.readAt (Elt F) (s2V).view (Rect.unit (s := S100x128) (k0_off17 r) S1x16.size (k0_off17_inb r)).toLoadRect cont) shapeCasts_S1x16_S16) (ix1 l)
      = cont (ix2 ⟨r.val, r.isLt⟩ ⟨96 + l.val, by have := l.isLt; omega⟩) := by
  rw [show (shapeCast S16 (View.readAt (Elt F) (s2V).view (Rect.unit (s := S100x128) (k0_off17 r) S1x16.size (k0_off17_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off17 r 0 = r.val := congrFun (k0_off17_eq r) 0
  have h1 : k0_off17 r 1 = 96 := congrFun (k0_off17_eq r) 1
  match a with
  | ⟨0, _⟩ => show k0_off17 r 0 + 1 * 0 = r.val; omega
  | ⟨1, _⟩ => show k0_off17 r 1 + 1 * l.val = 96 + l.val; omega

/-- Lane l of piece 7 of row r is the buffer's entry (r, 112 + l). -/
theorem rowRead1_7 (cont : Buf (Elt F) ((s2V).view.loc (V d (cV L) (jV L)))) (r : Fin k0_t3_loop.trips) (l : Fin 16) :
    (shapeCast S16 (View.readAt (Elt F) (s2V).view (Rect.unit (s := S100x128) (k0_off18 r) S1x16.size (k0_off18_inb r)).toLoadRect cont) shapeCasts_S1x16_S16) (ix1 l)
      = cont (ix2 ⟨r.val, r.isLt⟩ ⟨112 + l.val, by have := l.isLt; omega⟩) := by
  rw [show (shapeCast S16 (View.readAt (Elt F) (s2V).view (Rect.unit (s := S100x128) (k0_off18 r) S1x16.size (k0_off18_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off18 r 0 = r.val := congrFun (k0_off18_eq r) 0
  have h1 : k0_off18 r 1 = 112 := congrFun (k0_off18_eq r) 1
  match a with
  | ⟨0, _⟩ => show k0_off18 r 0 + 1 * 0 = r.val; omega
  | ⟨1, _⟩ => show k0_off18 r 1 + 1 * l.val = 112 + l.val; omega

/-- One row step at feature e adds the buffer's entry (r, e). -/
theorem lane_rowStep1 (cont : Buf (Elt F) ((s2V).view.loc (V d (cV L) (jV L)))) (r : Fin k0_t3_loop.trips) (a : A8 F) (e : Fin 128) :
    lane (rowStep1 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead1_0 d L cont r l)
  | ⟨1, _⟩ => exact congrArg (FloatOps.addf _) (rowRead1_1 d L cont r l)
  | ⟨2, _⟩ => exact congrArg (FloatOps.addf _) (rowRead1_2 d L cont r l)
  | ⟨3, _⟩ => exact congrArg (FloatOps.addf _) (rowRead1_3 d L cont r l)
  | ⟨4, _⟩ => exact congrArg (FloatOps.addf _) (rowRead1_4 d L cont r l)
  | ⟨5, _⟩ => exact congrArg (FloatOps.addf _) (rowRead1_5 d L cont r l)
  | ⟨6, _⟩ => exact congrArg (FloatOps.addf _) (rowRead1_6 d L cont r l)
  | ⟨7, _⟩ => exact congrArg (FloatOps.addf _) (rowRead1_7 d L cont r l)

theorem lane_rowFold1 (cont : Buf (Elt F) ((s2V).view.loc (V d (cV L) (jV L)))) (init : A8 F) (n : Nat) (hn : n ≤ 100) (e : Fin 128) :
    lane (rowFold1 d L cont init n) e = laneFold cont (lane init e) e n := by
  induction n with
  | zero => rfl
  | succ n ih =>
    have h : n < k0_t3_loop.trips := by show n < 100; omega
    rw [show rowFold1 d L cont init (n + 1) = _ from rowFold1_succ d L cont init ⟨n, h⟩, lane_rowStep1, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ### Row buffer 2 -/

/-- Lane l of piece 0 of row r is the buffer's entry (r, 0 + l). -/
theorem rowRead2_0 (cont : Buf (Elt F) ((s3V).view.loc (V d (cV L) (jV L)))) (r : Fin k0_t4_loop.trips) (l : Fin 16) :
    (shapeCast S16 (View.readAt (Elt F) (s3V).view (Rect.unit (s := S100x128) (k0_off20 r) S1x16.size (k0_off20_inb r)).toLoadRect cont) shapeCasts_S1x16_S16) (ix1 l)
      = cont (ix2 ⟨r.val, r.isLt⟩ ⟨0 + l.val, by have := l.isLt; omega⟩) := by
  rw [show (shapeCast S16 (View.readAt (Elt F) (s3V).view (Rect.unit (s := S100x128) (k0_off20 r) S1x16.size (k0_off20_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off20 r 0 = r.val := congrFun (k0_off20_eq r) 0
  have h1 : k0_off20 r 1 = 0 := congrFun (k0_off20_eq r) 1
  match a with
  | ⟨0, _⟩ => show k0_off20 r 0 + 1 * 0 = r.val; omega
  | ⟨1, _⟩ => show k0_off20 r 1 + 1 * l.val = 0 + l.val; omega

/-- Lane l of piece 1 of row r is the buffer's entry (r, 16 + l). -/
theorem rowRead2_1 (cont : Buf (Elt F) ((s3V).view.loc (V d (cV L) (jV L)))) (r : Fin k0_t4_loop.trips) (l : Fin 16) :
    (shapeCast S16 (View.readAt (Elt F) (s3V).view (Rect.unit (s := S100x128) (k0_off21 r) S1x16.size (k0_off21_inb r)).toLoadRect cont) shapeCasts_S1x16_S16) (ix1 l)
      = cont (ix2 ⟨r.val, r.isLt⟩ ⟨16 + l.val, by have := l.isLt; omega⟩) := by
  rw [show (shapeCast S16 (View.readAt (Elt F) (s3V).view (Rect.unit (s := S100x128) (k0_off21 r) S1x16.size (k0_off21_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off21 r 0 = r.val := congrFun (k0_off21_eq r) 0
  have h1 : k0_off21 r 1 = 16 := congrFun (k0_off21_eq r) 1
  match a with
  | ⟨0, _⟩ => show k0_off21 r 0 + 1 * 0 = r.val; omega
  | ⟨1, _⟩ => show k0_off21 r 1 + 1 * l.val = 16 + l.val; omega

/-- Lane l of piece 2 of row r is the buffer's entry (r, 32 + l). -/
theorem rowRead2_2 (cont : Buf (Elt F) ((s3V).view.loc (V d (cV L) (jV L)))) (r : Fin k0_t4_loop.trips) (l : Fin 16) :
    (shapeCast S16 (View.readAt (Elt F) (s3V).view (Rect.unit (s := S100x128) (k0_off22 r) S1x16.size (k0_off22_inb r)).toLoadRect cont) shapeCasts_S1x16_S16) (ix1 l)
      = cont (ix2 ⟨r.val, r.isLt⟩ ⟨32 + l.val, by have := l.isLt; omega⟩) := by
  rw [show (shapeCast S16 (View.readAt (Elt F) (s3V).view (Rect.unit (s := S100x128) (k0_off22 r) S1x16.size (k0_off22_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off22 r 0 = r.val := congrFun (k0_off22_eq r) 0
  have h1 : k0_off22 r 1 = 32 := congrFun (k0_off22_eq r) 1
  match a with
  | ⟨0, _⟩ => show k0_off22 r 0 + 1 * 0 = r.val; omega
  | ⟨1, _⟩ => show k0_off22 r 1 + 1 * l.val = 32 + l.val; omega

/-- Lane l of piece 3 of row r is the buffer's entry (r, 48 + l). -/
theorem rowRead2_3 (cont : Buf (Elt F) ((s3V).view.loc (V d (cV L) (jV L)))) (r : Fin k0_t4_loop.trips) (l : Fin 16) :
    (shapeCast S16 (View.readAt (Elt F) (s3V).view (Rect.unit (s := S100x128) (k0_off23 r) S1x16.size (k0_off23_inb r)).toLoadRect cont) shapeCasts_S1x16_S16) (ix1 l)
      = cont (ix2 ⟨r.val, r.isLt⟩ ⟨48 + l.val, by have := l.isLt; omega⟩) := by
  rw [show (shapeCast S16 (View.readAt (Elt F) (s3V).view (Rect.unit (s := S100x128) (k0_off23 r) S1x16.size (k0_off23_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off23 r 0 = r.val := congrFun (k0_off23_eq r) 0
  have h1 : k0_off23 r 1 = 48 := congrFun (k0_off23_eq r) 1
  match a with
  | ⟨0, _⟩ => show k0_off23 r 0 + 1 * 0 = r.val; omega
  | ⟨1, _⟩ => show k0_off23 r 1 + 1 * l.val = 48 + l.val; omega

/-- Lane l of piece 4 of row r is the buffer's entry (r, 64 + l). -/
theorem rowRead2_4 (cont : Buf (Elt F) ((s3V).view.loc (V d (cV L) (jV L)))) (r : Fin k0_t4_loop.trips) (l : Fin 16) :
    (shapeCast S16 (View.readAt (Elt F) (s3V).view (Rect.unit (s := S100x128) (k0_off24 r) S1x16.size (k0_off24_inb r)).toLoadRect cont) shapeCasts_S1x16_S16) (ix1 l)
      = cont (ix2 ⟨r.val, r.isLt⟩ ⟨64 + l.val, by have := l.isLt; omega⟩) := by
  rw [show (shapeCast S16 (View.readAt (Elt F) (s3V).view (Rect.unit (s := S100x128) (k0_off24 r) S1x16.size (k0_off24_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off24 r 0 = r.val := congrFun (k0_off24_eq r) 0
  have h1 : k0_off24 r 1 = 64 := congrFun (k0_off24_eq r) 1
  match a with
  | ⟨0, _⟩ => show k0_off24 r 0 + 1 * 0 = r.val; omega
  | ⟨1, _⟩ => show k0_off24 r 1 + 1 * l.val = 64 + l.val; omega

/-- Lane l of piece 5 of row r is the buffer's entry (r, 80 + l). -/
theorem rowRead2_5 (cont : Buf (Elt F) ((s3V).view.loc (V d (cV L) (jV L)))) (r : Fin k0_t4_loop.trips) (l : Fin 16) :
    (shapeCast S16 (View.readAt (Elt F) (s3V).view (Rect.unit (s := S100x128) (k0_off25 r) S1x16.size (k0_off25_inb r)).toLoadRect cont) shapeCasts_S1x16_S16) (ix1 l)
      = cont (ix2 ⟨r.val, r.isLt⟩ ⟨80 + l.val, by have := l.isLt; omega⟩) := by
  rw [show (shapeCast S16 (View.readAt (Elt F) (s3V).view (Rect.unit (s := S100x128) (k0_off25 r) S1x16.size (k0_off25_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off25 r 0 = r.val := congrFun (k0_off25_eq r) 0
  have h1 : k0_off25 r 1 = 80 := congrFun (k0_off25_eq r) 1
  match a with
  | ⟨0, _⟩ => show k0_off25 r 0 + 1 * 0 = r.val; omega
  | ⟨1, _⟩ => show k0_off25 r 1 + 1 * l.val = 80 + l.val; omega

/-- Lane l of piece 6 of row r is the buffer's entry (r, 96 + l). -/
theorem rowRead2_6 (cont : Buf (Elt F) ((s3V).view.loc (V d (cV L) (jV L)))) (r : Fin k0_t4_loop.trips) (l : Fin 16) :
    (shapeCast S16 (View.readAt (Elt F) (s3V).view (Rect.unit (s := S100x128) (k0_off26 r) S1x16.size (k0_off26_inb r)).toLoadRect cont) shapeCasts_S1x16_S16) (ix1 l)
      = cont (ix2 ⟨r.val, r.isLt⟩ ⟨96 + l.val, by have := l.isLt; omega⟩) := by
  rw [show (shapeCast S16 (View.readAt (Elt F) (s3V).view (Rect.unit (s := S100x128) (k0_off26 r) S1x16.size (k0_off26_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off26 r 0 = r.val := congrFun (k0_off26_eq r) 0
  have h1 : k0_off26 r 1 = 96 := congrFun (k0_off26_eq r) 1
  match a with
  | ⟨0, _⟩ => show k0_off26 r 0 + 1 * 0 = r.val; omega
  | ⟨1, _⟩ => show k0_off26 r 1 + 1 * l.val = 96 + l.val; omega

/-- Lane l of piece 7 of row r is the buffer's entry (r, 112 + l). -/
theorem rowRead2_7 (cont : Buf (Elt F) ((s3V).view.loc (V d (cV L) (jV L)))) (r : Fin k0_t4_loop.trips) (l : Fin 16) :
    (shapeCast S16 (View.readAt (Elt F) (s3V).view (Rect.unit (s := S100x128) (k0_off27 r) S1x16.size (k0_off27_inb r)).toLoadRect cont) shapeCasts_S1x16_S16) (ix1 l)
      = cont (ix2 ⟨r.val, r.isLt⟩ ⟨112 + l.val, by have := l.isLt; omega⟩) := by
  rw [show (shapeCast S16 (View.readAt (Elt F) (s3V).view (Rect.unit (s := S100x128) (k0_off27 r) S1x16.size (k0_off27_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off27 r 0 = r.val := congrFun (k0_off27_eq r) 0
  have h1 : k0_off27 r 1 = 112 := congrFun (k0_off27_eq r) 1
  match a with
  | ⟨0, _⟩ => show k0_off27 r 0 + 1 * 0 = r.val; omega
  | ⟨1, _⟩ => show k0_off27 r 1 + 1 * l.val = 112 + l.val; omega

/-- One row step at feature e adds the buffer's entry (r, e). -/
theorem lane_rowStep2 (cont : Buf (Elt F) ((s3V).view.loc (V d (cV L) (jV L)))) (r : Fin k0_t4_loop.trips) (a : A8 F) (e : Fin 128) :
    lane (rowStep2 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead2_0 d L cont r l)
  | ⟨1, _⟩ => exact congrArg (FloatOps.addf _) (rowRead2_1 d L cont r l)
  | ⟨2, _⟩ => exact congrArg (FloatOps.addf _) (rowRead2_2 d L cont r l)
  | ⟨3, _⟩ => exact congrArg (FloatOps.addf _) (rowRead2_3 d L cont r l)
  | ⟨4, _⟩ => exact congrArg (FloatOps.addf _) (rowRead2_4 d L cont r l)
  | ⟨5, _⟩ => exact congrArg (FloatOps.addf _) (rowRead2_5 d L cont r l)
  | ⟨6, _⟩ => exact congrArg (FloatOps.addf _) (rowRead2_6 d L cont r l)
  | ⟨7, _⟩ => exact congrArg (FloatOps.addf _) (rowRead2_7 d L cont r l)

theorem lane_rowFold2 (cont : Buf (Elt F) ((s3V).view.loc (V d (cV L) (jV L)))) (init : A8 F) (n : Nat) (hn : n ≤ 100) (e : Fin 128) :
    lane (rowFold2 d L cont init n) e = laneFold cont (lane init e) e n := by
  induction n with
  | zero => rfl
  | succ n ih =>
    have h : n < k0_t4_loop.trips := by show n < 100; omega
    rw [show rowFold2 d L cont init (n + 1) = _ from rowFold2_succ d L cont init ⟨n, h⟩, lane_rowStep2, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ### Row buffer 3 -/

/-- Lane l of piece 0 of row r is the buffer's entry (r, 0 + l). -/
theorem rowRead3_0 (cont : Buf (Elt F) ((s4V).view.loc (V d (cV L) (jV L)))) (r : Fin k0_t5_loop.trips) (l : Fin 16) :
    (shapeCast S16 (View.readAt (Elt F) (s4V).view (Rect.unit (s := S100x128) (k0_off29 r) S1x16.size (k0_off29_inb r)).toLoadRect cont) shapeCasts_S1x16_S16) (ix1 l)
      = cont (ix2 ⟨r.val, r.isLt⟩ ⟨0 + l.val, by have := l.isLt; omega⟩) := by
  rw [show (shapeCast S16 (View.readAt (Elt F) (s4V).view (Rect.unit (s := S100x128) (k0_off29 r) S1x16.size (k0_off29_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off29 r 0 = r.val := congrFun (k0_off29_eq r) 0
  have h1 : k0_off29 r 1 = 0 := congrFun (k0_off29_eq r) 1
  match a with
  | ⟨0, _⟩ => show k0_off29 r 0 + 1 * 0 = r.val; omega
  | ⟨1, _⟩ => show k0_off29 r 1 + 1 * l.val = 0 + l.val; omega

/-- Lane l of piece 1 of row r is the buffer's entry (r, 16 + l). -/
theorem rowRead3_1 (cont : Buf (Elt F) ((s4V).view.loc (V d (cV L) (jV L)))) (r : Fin k0_t5_loop.trips) (l : Fin 16) :
    (shapeCast S16 (View.readAt (Elt F) (s4V).view (Rect.unit (s := S100x128) (k0_off30 r) S1x16.size (k0_off30_inb r)).toLoadRect cont) shapeCasts_S1x16_S16) (ix1 l)
      = cont (ix2 ⟨r.val, r.isLt⟩ ⟨16 + l.val, by have := l.isLt; omega⟩) := by
  rw [show (shapeCast S16 (View.readAt (Elt F) (s4V).view (Rect.unit (s := S100x128) (k0_off30 r) S1x16.size (k0_off30_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off30 r 0 = r.val := congrFun (k0_off30_eq r) 0
  have h1 : k0_off30 r 1 = 16 := congrFun (k0_off30_eq r) 1
  match a with
  | ⟨0, _⟩ => show k0_off30 r 0 + 1 * 0 = r.val; omega
  | ⟨1, _⟩ => show k0_off30 r 1 + 1 * l.val = 16 + l.val; omega

/-- Lane l of piece 2 of row r is the buffer's entry (r, 32 + l). -/
theorem rowRead3_2 (cont : Buf (Elt F) ((s4V).view.loc (V d (cV L) (jV L)))) (r : Fin k0_t5_loop.trips) (l : Fin 16) :
    (shapeCast S16 (View.readAt (Elt F) (s4V).view (Rect.unit (s := S100x128) (k0_off31 r) S1x16.size (k0_off31_inb r)).toLoadRect cont) shapeCasts_S1x16_S16) (ix1 l)
      = cont (ix2 ⟨r.val, r.isLt⟩ ⟨32 + l.val, by have := l.isLt; omega⟩) := by
  rw [show (shapeCast S16 (View.readAt (Elt F) (s4V).view (Rect.unit (s := S100x128) (k0_off31 r) S1x16.size (k0_off31_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off31 r 0 = r.val := congrFun (k0_off31_eq r) 0
  have h1 : k0_off31 r 1 = 32 := congrFun (k0_off31_eq r) 1
  match a with
  | ⟨0, _⟩ => show k0_off31 r 0 + 1 * 0 = r.val; omega
  | ⟨1, _⟩ => show k0_off31 r 1 + 1 * l.val = 32 + l.val; omega

/-- Lane l of piece 3 of row r is the buffer's entry (r, 48 + l). -/
theorem rowRead3_3 (cont : Buf (Elt F) ((s4V).view.loc (V d (cV L) (jV L)))) (r : Fin k0_t5_loop.trips) (l : Fin 16) :
    (shapeCast S16 (View.readAt (Elt F) (s4V).view (Rect.unit (s := S100x128) (k0_off32 r) S1x16.size (k0_off32_inb r)).toLoadRect cont) shapeCasts_S1x16_S16) (ix1 l)
      = cont (ix2 ⟨r.val, r.isLt⟩ ⟨48 + l.val, by have := l.isLt; omega⟩) := by
  rw [show (shapeCast S16 (View.readAt (Elt F) (s4V).view (Rect.unit (s := S100x128) (k0_off32 r) S1x16.size (k0_off32_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off32 r 0 = r.val := congrFun (k0_off32_eq r) 0
  have h1 : k0_off32 r 1 = 48 := congrFun (k0_off32_eq r) 1
  match a with
  | ⟨0, _⟩ => show k0_off32 r 0 + 1 * 0 = r.val; omega
  | ⟨1, _⟩ => show k0_off32 r 1 + 1 * l.val = 48 + l.val; omega

/-- Lane l of piece 4 of row r is the buffer's entry (r, 64 + l). -/
theorem rowRead3_4 (cont : Buf (Elt F) ((s4V).view.loc (V d (cV L) (jV L)))) (r : Fin k0_t5_loop.trips) (l : Fin 16) :
    (shapeCast S16 (View.readAt (Elt F) (s4V).view (Rect.unit (s := S100x128) (k0_off33 r) S1x16.size (k0_off33_inb r)).toLoadRect cont) shapeCasts_S1x16_S16) (ix1 l)
      = cont (ix2 ⟨r.val, r.isLt⟩ ⟨64 + l.val, by have := l.isLt; omega⟩) := by
  rw [show (shapeCast S16 (View.readAt (Elt F) (s4V).view (Rect.unit (s := S100x128) (k0_off33 r) S1x16.size (k0_off33_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off33 r 0 = r.val := congrFun (k0_off33_eq r) 0
  have h1 : k0_off33 r 1 = 64 := congrFun (k0_off33_eq r) 1
  match a with
  | ⟨0, _⟩ => show k0_off33 r 0 + 1 * 0 = r.val; omega
  | ⟨1, _⟩ => show k0_off33 r 1 + 1 * l.val = 64 + l.val; omega

/-- Lane l of piece 5 of row r is the buffer's entry (r, 80 + l). -/
theorem rowRead3_5 (cont : Buf (Elt F) ((s4V).view.loc (V d (cV L) (jV L)))) (r : Fin k0_t5_loop.trips) (l : Fin 16) :
    (shapeCast S16 (View.readAt (Elt F) (s4V).view (Rect.unit (s := S100x128) (k0_off34 r) S1x16.size (k0_off34_inb r)).toLoadRect cont) shapeCasts_S1x16_S16) (ix1 l)
      = cont (ix2 ⟨r.val, r.isLt⟩ ⟨80 + l.val, by have := l.isLt; omega⟩) := by
  rw [show (shapeCast S16 (View.readAt (Elt F) (s4V).view (Rect.unit (s := S100x128) (k0_off34 r) S1x16.size (k0_off34_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off34 r 0 = r.val := congrFun (k0_off34_eq r) 0
  have h1 : k0_off34 r 1 = 80 := congrFun (k0_off34_eq r) 1
  match a with
  | ⟨0, _⟩ => show k0_off34 r 0 + 1 * 0 = r.val; omega
  | ⟨1, _⟩ => show k0_off34 r 1 + 1 * l.val = 80 + l.val; omega

/-- Lane l of piece 6 of row r is the buffer's entry (r, 96 + l). -/
theorem rowRead3_6 (cont : Buf (Elt F) ((s4V).view.loc (V d (cV L) (jV L)))) (r : Fin k0_t5_loop.trips) (l : Fin 16) :
    (shapeCast S16 (View.readAt (Elt F) (s4V).view (Rect.unit (s := S100x128) (k0_off35 r) S1x16.size (k0_off35_inb r)).toLoadRect cont) shapeCasts_S1x16_S16) (ix1 l)
      = cont (ix2 ⟨r.val, r.isLt⟩ ⟨96 + l.val, by have := l.isLt; omega⟩) := by
  rw [show (shapeCast S16 (View.readAt (Elt F) (s4V).view (Rect.unit (s := S100x128) (k0_off35 r) S1x16.size (k0_off35_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off35 r 0 = r.val := congrFun (k0_off35_eq r) 0
  have h1 : k0_off35 r 1 = 96 := congrFun (k0_off35_eq r) 1
  match a with
  | ⟨0, _⟩ => show k0_off35 r 0 + 1 * 0 = r.val; omega
  | ⟨1, _⟩ => show k0_off35 r 1 + 1 * l.val = 96 + l.val; omega

/-- Lane l of piece 7 of row r is the buffer's entry (r, 112 + l). -/
theorem rowRead3_7 (cont : Buf (Elt F) ((s4V).view.loc (V d (cV L) (jV L)))) (r : Fin k0_t5_loop.trips) (l : Fin 16) :
    (shapeCast S16 (View.readAt (Elt F) (s4V).view (Rect.unit (s := S100x128) (k0_off36 r) S1x16.size (k0_off36_inb r)).toLoadRect cont) shapeCasts_S1x16_S16) (ix1 l)
      = cont (ix2 ⟨r.val, r.isLt⟩ ⟨112 + l.val, by have := l.isLt; omega⟩) := by
  rw [show (shapeCast S16 (View.readAt (Elt F) (s4V).view (Rect.unit (s := S100x128) (k0_off36 r) S1x16.size (k0_off36_inb r)).toLoadRect cont) shapeCasts_S1x16_S16) (ix1 l)
      = _ from shapeCast_dropUnit_apply ![16] _ _ _]
  rw [View.readAt_apply, View.read_apply]
  show cont _ = cont _
  congr 1
  funext a; apply Fin.ext
  have h0 : k0_off36 r 0 = r.val := congrFun (k0_off36_eq r) 0
  have h1 : k0_off36 r 1 = 112 := congrFun (k0_off36_eq r) 1
  match a with
  | ⟨0, _⟩ => show k0_off36 r 0 + 1 * 0 = r.val; omega
  | ⟨1, _⟩ => show k0_off36 r 1 + 1 * l.val = 112 + l.val; omega

/-- One row step at feature e adds the buffer's entry (r, e). -/
theorem lane_rowStep3 (cont : Buf (Elt F) ((s4V).view.loc (V d (cV L) (jV L)))) (r : Fin k0_t5_loop.trips) (a : A8 F) (e : Fin 128) :
    lane (rowStep3 d L cont r a) e = FloatOps.addf (lane a e) (cont (ix2 ⟨r.val, r.isLt⟩ e)) := by
  obtain ⟨c, l, h, rfl⟩ := split128 e
  rw [lane_mk, lane_mk]
  match c with
  | ⟨0, _⟩ => exact congrArg (FloatOps.addf _) (rowRead3_0 d L cont r l)
  | ⟨1, _⟩ => exact congrArg (FloatOps.addf _) (rowRead3_1 d L cont r l)
  | ⟨2, _⟩ => exact congrArg (FloatOps.addf _) (rowRead3_2 d L cont r l)
  | ⟨3, _⟩ => exact congrArg (FloatOps.addf _) (rowRead3_3 d L cont r l)
  | ⟨4, _⟩ => exact congrArg (FloatOps.addf _) (rowRead3_4 d L cont r l)
  | ⟨5, _⟩ => exact congrArg (FloatOps.addf _) (rowRead3_5 d L cont r l)
  | ⟨6, _⟩ => exact congrArg (FloatOps.addf _) (rowRead3_6 d L cont r l)
  | ⟨7, _⟩ => exact congrArg (FloatOps.addf _) (rowRead3_7 d L cont r l)

theorem lane_rowFold3 (cont : Buf (Elt F) ((s4V).view.loc (V d (cV L) (jV L)))) (init : A8 F) (n : Nat) (hn : n ≤ 100) (e : Fin 128) :
    lane (rowFold3 d L cont init n) e = laneFold cont (lane init e) e n := by
  induction n with
  | zero => rfl
  | succ n ih =>
    have h : n < k0_t5_loop.trips := by show n < 100; omega
    rw [show rowFold3 d L cont init (n + 1) = _ from rowFold3_succ d L cont init ⟨n, h⟩, lane_rowStep3, ih (by omega)]
    show FloatOps.addf _ (cont (ix2 ⟨n, _⟩ e)) = FloatOps.addf _ (cont (ix2 ⟨n % 100, _⟩ e))
    have hm : (⟨n % 100, Nat.mod_lt _ (by decide)⟩ : Fin 100) = ⟨n, h⟩ := Fin.ext (Nat.mod_eq_of_lt h)
    rw [hm]

/-! ## (L2) What a landed gather holds

The task's index scratch holds its 64 token rows (token rows 64·w … 64·w + 63 of the matrix, w the worker number).
A gather's offset list is row n of that scratch, so its r-th word is word r of token row 64·w + n; the gather lands,
at row r of its row buffer, the table row that word names. Every word is at most 99999, so the row it names is the
word itself, kept below the table's extent. -/

omit [FloatOps F] in
/-- Word x of row n of the index scratch, once the task's token rows have landed, is word x of token row 64·w + n. -/
theorem idxRow_read (t2 : Buf (Elt F) (tokLoc d)) (n : Nat) (hn : n < 64) (hoff : ∀ a, (![n, 0] : Fin 2 → Nat) a + S1x100.size a ≤ S64x100.size a) (x : S100.Idx) :
    (idxRow ![n, 0] hoff).view.read (Elt F) (idxBuf d L t2) x
      = t2 (ix2 ⟨64 * (wid L).val + n, by have := (wid L).isLt; omega⟩ ⟨(x 0).val, (x 0).isLt⟩) := by
  rw [show ∀ G : Buf (Elt F) ((V d (cV L) (jV L)).loc cc0_scratch0), (idxRow ![n, 0] hoff).view.read (Elt F) G x = G ((idxRow ![n, 0] hoff).view.emb x)
    from fun G => (View.read_apply _ _).trans (cast_eq _ _)]
  rw [show ∀ j, idxBuf d L t2 j = t2 ((tokK L).view.emb j) from fun j => (View.read_apply _ _).trans (cast_eq _ _)]
  congr 1
  funext a; apply Fin.ext
  have hre : (idxRow ![n, 0] hoff).view.emb x = (s0V).view.emb ((Rect.unit (s := S64x100) ![n, 0] S1x100.size hoff).emb (ix2 (0 : Fin 1) (x 0))) := by
    show (s0V).view.emb ((Rect.unit (s := S64x100) ![n, 0] S1x100.size hoff).emb (Shape.reshapeEquiv _ x)) = _
    rw [Shape.reshapeEquiv_eq_of_rowMajor _ (y := (ix2 (0 : Fin 1) (x 0) : S1x100.Idx)) (by
      rw [Shape.rowMajor_val_two, Shape.rowMajor_val_one]; show (0 : ℕ) * 100 + (x 0).val = (x 0).val; omega)]
  rw [hre]
  have h0 : k0_off1 L 0 = 128 * (L 1).val + 64 * (L 0).val := congrFun (k0_off1_eq L) 0
  have h1 : k0_off1 L 1 = 0 := congrFun (k0_off1_eq L) 1
  match a with
  | ⟨0, _⟩ => show k0_off1 L 0 + 1 * (n + 1 * 0) = 64 * (2 * (L 1).val + (L 0).val) + n; omega
  | ⟨1, _⟩ => show k0_off1 L 1 + 1 * (0 + 1 * (x 0).val) = (x 0).val; omega

omit [FloatOps F] in
/-- The row of the table the gather's r-th word names. -/
theorem rows_val (t2 : Buf (Elt F) (tokLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (n : Nat) (hn : n < 64) (hoff : ∀ a, (![n, 0] : Fin 2 → Nat) a + S1x100.size a ≤ S64x100.size a) (r : Fin 100) :
    (SparseCore.rows ((idxRow ![n, 0] hoff).view.read (Elt F) (idxBuf d L t2)) hnRows (hin ![n, 0] hoff) r).val
      = (rowOf (t2 (ix2 ⟨64 * (wid L).val + n, by have := (wid L).isLt; omega⟩ r))).val := by
  have hx : ((S100.rowMajor.symm (Fin.cast hnRows.symm r)) 0).val = r.val := by
    have h := Shape.rowMajor_val_one (S100.rowMajor.symm (Fin.cast hnRows.symm r))
    rw [Equiv.apply_symm_apply] at h
    exact h.symm
  have hfin : (⟨((S100.rowMajor.symm (Fin.cast hnRows.symm r)) 0).val, ((S100.rowMajor.symm (Fin.cast hnRows.symm r)) 0).isLt⟩ : Fin 100) = r := Fin.ext hx
  show ((idxRow ![n, 0] hoff).view.read (Elt F) (idxBuf d L t2) (S100.rowMajor.symm (Fin.cast hnRows.symm r))).toNat
    = min (t2 (ix2 ⟨64 * (wid L).val + n, _⟩ r)).toNat 100001
  rw [idxRow_read d L t2 n hn hoff, hfin]
  have hle := hpre (ix2 ⟨64 * (wid L).val + n, by have := (wid L).isLt; omega⟩ r)
  omega

omit [FloatOps F] in
/-- The gather's payload at (r, e) is the table at the row its r-th word names, feature e. -/
theorem gatherPay_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (n : Nat) (hn : n < 64) (hoff : ∀ a, (![n, 0] : Fin 2 → Nat) a + S1x100.size a ≤ S64x100.size a) (r : Fin 100) (e : Fin 128) :
    gatherPay d L t2 tab hin ![n, 0] hoff (ix2 r e)
      = tab (ix2 (rowOf (t2 (ix2 ⟨64 * (wid L).val + n, by have := (wid L).isLt; omega⟩ r))) e) := by
  unfold gatherPay SparseCore.gatherPayload
  rw [View.read_apply]
  show tab _ = tab _
  congr 1
  funext b; apply Fin.ext
  match b with
  | ⟨0, _⟩ =>
    show 0 + 1 * (gathers_S100002x128_S100x128.idx (SparseCore.rows ((idxRow ![n, 0] hoff).view.read (Elt F) (idxBuf d L t2)) hnRows (hin ![n, 0] hoff)) (ix2 r e)
      gathers_S100002x128_S100x128.axis).val = (rowOf (t2 (ix2 ⟨64 * (wid L).val + n, _⟩ r))).val
    rw [Shape.Gathers.idx_axis]
    show 0 + 1 * (SparseCore.rows ((idxRow ![n, 0] hoff).view.read (Elt F) (idxBuf d L t2)) hnRows (hin ![n, 0] hoff) r).val = _
    rw [rows_val d L t2 hin hpre n hn hoff r]
    omega
  | ⟨1, _⟩ =>
    show 0 + 1 * (gathers_S100002x128_S100x128.idx (SparseCore.rows ((idxRow ![n, 0] hoff).view.read (Elt F) (idxBuf d L t2)) hnRows (hin ![n, 0] hoff)) (ix2 r e)
      (⟨1, by decide⟩ : Fin S100002x128.rank)).val = e.val
    rw [Shape.Gathers.idx_of_ne _ _ _ _ (by decide)]
    show 0 + 1 * e.val = e.val
    omega

theorem cont0_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s1V).view.writes (Elt F) (s1V).view.junk [⟨Rect.whole cc0_scratch1.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s1V).view (s1V).view.junk (Rect.whole cc0_scratch1.ty.shape) (gatherPay d L t2 tab hin ![n, 0] hoff) [] (ix2 r e)
  rw [Rect.emb_whole_apply] at h
  exact ((View.read_apply _ _).trans (cast_eq _ _)).symm.trans h

theorem cont1_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s2V).view.writes (Elt F) (s2V).view.junk [⟨Rect.whole cc0_scratch2.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s2V).view (s2V).view.junk (Rect.whole cc0_scratch2.ty.shape) (gatherPay d L t2 tab hin ![n, 0] hoff) [] (ix2 r e)
  rw [Rect.emb_whole_apply] at h
  exact ((View.read_apply _ _).trans (cast_eq _ _)).symm.trans h

theorem cont2_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s3V).view.writes (Elt F) (s3V).view.junk [⟨Rect.whole cc0_scratch3.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s3V).view (s3V).view.junk (Rect.whole cc0_scratch3.ty.shape) (gatherPay d L t2 tab hin ![n, 0] hoff) [] (ix2 r e)
  rw [Rect.emb_whole_apply] at h
  exact ((View.read_apply _ _).trans (cast_eq _ _)).symm.trans h

theorem cont3_apply (t2 : Buf (Elt F) (tokLoc d)) (tab : Buf (Elt F) (tabLoc d)) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis) (hpre : PreOK t2)
    (off : Fin 2 → Nat) (hoff : ∀ a, off a + S1x100.size a ≤ S64x100.size a) (n : Nat) (hn : n < 64) (e_off : off = ![n, 0]) (r : Fin 100) (e : Fin 128) :
    ((s4V).view.writes (Elt F) (s4V).view.junk [⟨Rect.whole cc0_scratch4.ty.shape, gatherPay d L t2 tab hin off hoff⟩]) (ix2 r e)
      = tab (ix2 (rowOf (t2 (ix2 ⟨64 * (wid L).val + n, by have := (wid L).isLt; omega⟩ r))) e) := by
  subst e_off
  rw [← gatherPay_apply d L t2 tab hin hpre n hn hoff r e]
  have h := View.read_writes_cons_emb (s4V).view (s4V).view.junk (Rect.whole cc0_scratch4.ty.shape) (gatherPay d L t2 tab hin ![n, 0] hoff) [] (ix2 r e)
  rw [Rect.emb_whole_apply] at h
  exact ((View.read_apply _ _).trans (cast_eq _ _)).symm.trans h

/-! ## (L3) The sixteen stores of one trip, read back as one function

Store (r, c) of trip k writes the sixteen lanes of vector c (of A for r = 0, of B for r = 1) to row 2·k + r, columns
16·c … 16·c + 15 (the generated closed forms of the offsets). So all sixteen pieces agree with ONE function of the
scratch's index: on row 2·k the lanes of A, on row 2·k + 1 those of B; an index on another row is under no piece. -/

/-- What the sixteen stores of trip k write, as a function of the scratch's index. -/
def s5Fn (k : Fin k0_t1_loop.trips) (A B : A8 F) : S32x128.Idx → F .f32 :=
  fun y => if (y 0).val = 2 * k.val then lane A (y 1) else lane B (y 1)
/-- A piece at row 2·k + r, columns from 16·c, carrying vector c of its source, agrees with that function. -/
theorem s5_piece (k : Fin k0_t1_loop.trips) (A B src : A8 F) (rr : Nat) (hsrc : (rr = 0 ∧ src = A) ∨ (rr = 1 ∧ src = B)) (c : Fin 8)
    (off : Fin 2 → Nat) (inb : ∀ a, off a + S1x16.size a ≤ S32x128.size a) (hoff : off = ![2 * k.val + rr, 16 * c.val]) (x : S1x16.Idx) :
    (shapeCast S1x16 (comp8 src c) shapeCasts_S16_S1x16) x = s5Fn k A B ((Rect.unit (s := S32x128) off S1x16.size inb).emb x) := by
  subst hoff
  have hx0 : (x 0).val = 0 := by have h : (x 0).val < 1 := (x 0).isLt; omega
  have hx1 : (x 1).val < 16 := (x 1).isLt
  have hrow : ((Rect.unit (s := S32x128) ![2 * k.val + rr, 16 * c.val] S1x16.size inb).emb x 0).val = 2 * k.val + rr := by
    show (2 * k.val + rr) + 1 * (x 0).val = 2 * k.val + rr; omega
  have hcol : (Rect.unit (s := S32x128) ![2 * k.val + rr, 16 * c.val] S1x16.size inb).emb x 1
      = (⟨16 * c.val + (⟨(x 1).val, hx1⟩ : Fin 16).val, by have := c.isLt; show 16 * c.val + (x 1).val < 128; omega⟩ : Fin 128) :=
    Fin.ext (by show 16 * c.val + 1 * (x 1).val = 16 * c.val + (x 1).val; omega)
  rw [show (shapeCast S1x16 (comp8 src c) shapeCasts_S16_S1x16) x = _ from shapeCast_addUnit_apply ![16] _ _ _]
  unfold s5Fn
  rw [hcol, lane_mk, lane_mk]
  have hidx : (fun a : Fin 1 => x a.succ) = ix1 (⟨(x 1).val, hx1⟩ : Fin 16) := by
    funext a; match a with | ⟨0, _⟩ => rfl
  rcases hsrc with ⟨rfl, rfl⟩ | ⟨rfl, rfl⟩
  · rw [if_pos (by omega)]; exact congrArg _ hidx
  · rw [if_neg (by omega)]; exact congrArg _ hidx

omit [FloatOps F] in
/-- An index under such a piece is on row 2·k + r. -/
theorem s5_piece_row (k : Fin k0_t1_loop.trips) (rr : Nat) (c : Fin 8)
    (off : Fin 2 → Nat) (inb : ∀ a, off a + S1x16.size a ≤ S32x128.size a) (hoff : off = ![2 * k.val + rr, 16 * c.val])
    (y : S32x128.Idx) (hy : y ∈ (Rect.unit (s := S32x128) off S1x16.size inb).set) : (y 0).val = 2 * k.val + rr := by
  subst hoff
  have h := (Rect.mem_set_unit.mp hy) 0
  have h' : 2 * k.val + rr ≤ (y 0).val ∧ (y 0).val < 2 * k.val + rr + 1 := h
  omega

omit [FloatOps F] in
/-- The index (2·k + r, 16·c + l) is under the piece at row 2·k + r from column 16·c. -/
theorem s5_piece_mem (k : Fin k0_t1_loop.trips) (rr : Nat) (c : Fin 8) (l : Fin 16)
    (off : Fin 2 → Nat) (inb : ∀ a, off a + S1x16.size a ≤ S32x128.size a) (hoff : off = ![2 * k.val + rr, 16 * c.val])
    (hrow : 2 * k.val + rr < 32) (hcol : 16 * c.val + l.val < 128) :
    (ix2 (⟨2 * k.val + rr, hrow⟩ : Fin 32) (⟨16 * c.val + l.val, hcol⟩ : Fin 128) : S32x128.Idx) ∈ (Rect.unit (s := S32x128) off S1x16.size inb).set := by
  subst hoff
  rw [Rect.mem_set_unit]
  intro a
  match a with
  | ⟨0, _⟩ => show 2 * k.val + rr ≤ 2 * k.val + rr ∧ 2 * k.val + rr < 2 * k.val + rr + 1; omega
  | ⟨1, _⟩ => show 16 * c.val ≤ 16 * c.val + l.val ∧ 16 * c.val + l.val < 16 * c.val + 16; have := l.isLt; omega
/-- Every one of the sixteen pieces agrees with the one function. -/
theorem s5Pieces_agree (k : Fin k0_t1_loop.trips) (A B : A8 F) :
    ∀ p ∈ s5Pieces k A B, ∀ x : p.1.shape.Idx, p.2 x = s5Fn k A B (p.1.emb x) := by
  intro p hp
  unfold s5Pieces at hp
  simp only [List.mem_cons, List.not_mem_nil, or_false] at hp
  rcases hp with rfl | rfl | rfl | rfl | rfl | rfl | rfl | rfl | rfl | rfl | rfl | rfl | rfl | rfl | rfl | rfl
  · exact fun x => s5_piece k A B B 1 (Or.inr ⟨rfl, rfl⟩) 7 (k0_off45 k 1#32) (k0_off45_inb k 1) (k0_off45_eq k 1) x
  · exact fun x => s5_piece k A B B 1 (Or.inr ⟨rfl, rfl⟩) 6 (k0_off44 k 1#32) (k0_off44_inb k 1) (k0_off44_eq k 1) x
  · exact fun x => s5_piece k A B B 1 (Or.inr ⟨rfl, rfl⟩) 5 (k0_off43 k 1#32) (k0_off43_inb k 1) (k0_off43_eq k 1) x
  · exact fun x => s5_piece k A B B 1 (Or.inr ⟨rfl, rfl⟩) 4 (k0_off42 k 1#32) (k0_off42_inb k 1) (k0_off42_eq k 1) x
  · exact fun x => s5_piece k A B B 1 (Or.inr ⟨rfl, rfl⟩) 3 (k0_off41 k 1#32) (k0_off41_inb k 1) (k0_off41_eq k 1) x
  · exact fun x => s5_piece k A B B 1 (Or.inr ⟨rfl, rfl⟩) 2 (k0_off40 k 1#32) (k0_off40_inb k 1) (k0_off40_eq k 1) x
  · exact fun x => s5_piece k A B B 1 (Or.inr ⟨rfl, rfl⟩) 1 (k0_off39 k 1#32) (k0_off39_inb k 1) (k0_off39_eq k 1) x
  · exact fun x => s5_piece k A B B 1 (Or.inr ⟨rfl, rfl⟩) 0 (k0_off38 k 1#32) (k0_off38_inb k 1) (k0_off38_eq k 1) x
  · exact fun x => s5_piece k A B A 0 (Or.inl ⟨rfl, rfl⟩) 7 (k0_off45 k 0#32) (k0_off45_inb k 0) (k0_off45_eq k 0) x
  · exact fun x => s5_piece k A B A 0 (Or.inl ⟨rfl, rfl⟩) 6 (k0_off44 k 0#32) (k0_off44_inb k 0) (k0_off44_eq k 0) x
  · exact fun x => s5_piece k A B A 0 (Or.inl ⟨rfl, rfl⟩) 5 (k0_off43 k 0#32) (k0_off43_inb k 0) (k0_off43_eq k 0) x
  · exact fun x => s5_piece k A B A 0 (Or.inl ⟨rfl, rfl⟩) 4 (k0_off42 k 0#32) (k0_off42_inb k 0) (k0_off42_eq k 0) x
  · exact fun x => s5_piece k A B A 0 (Or.inl ⟨rfl, rfl⟩) 3 (k0_off41 k 0#32) (k0_off41_inb k 0) (k0_off41_eq k 0) x
  · exact fun x => s5_piece k A B A 0 (Or.inl ⟨rfl, rfl⟩) 2 (k0_off40 k 0#32) (k0_off40_inb k 0) (k0_off40_eq k 0) x
  · exact fun x => s5_piece k A B A 0 (Or.inl ⟨rfl, rfl⟩) 1 (k0_off39 k 0#32) (k0_off39_inb k 0) (k0_off39_eq k 0) x
  · exact fun x => s5_piece k A B A 0 (Or.inl ⟨rfl, rfl⟩) 0 (k0_off38 k 0#32) (k0_off38_inb k 0) (k0_off38_eq k 0) x

omit [FloatOps F] in
/-- An index under any of the sixteen pieces is on row 2·k or 2·k + 1. -/
theorem s5Pieces_row (k : Fin k0_t1_loop.trips) (A B : A8 F) (y : S32x128.Idx) :
    ∀ p ∈ s5Pieces k A B, y ∈ p.1.set → (y 0).val = 2 * k.val ∨ (y 0).val = 2 * k.val + 1 := by
  intro p hp
  unfold s5Pieces at hp
  simp only [List.mem_cons, List.not_mem_nil, or_false] at hp
  rcases hp with rfl | rfl | rfl | rfl | rfl | rfl | rfl | rfl | rfl | rfl | rfl | rfl | rfl | rfl | rfl | rfl
  · exact fun hy => Or.inr (s5_piece_row k 1 7 (k0_off45 k 1#32) (k0_off45_inb k 1) (k0_off45_eq k 1) y hy)
  · exact fun hy => Or.inr (s5_piece_row k 1 6 (k0_off44 k 1#32) (k0_off44_inb k 1) (k0_off44_eq k 1) y hy)
  · exact fun hy => Or.inr (s5_piece_row k 1 5 (k0_off43 k 1#32) (k0_off43_inb k 1) (k0_off43_eq k 1) y hy)
  · exact fun hy => Or.inr (s5_piece_row k 1 4 (k0_off42 k 1#32) (k0_off42_inb k 1) (k0_off42_eq k 1) y hy)
  · exact fun hy => Or.inr (s5_piece_row k 1 3 (k0_off41 k 1#32) (k0_off41_inb k 1) (k0_off41_eq k 1) y hy)
  · exact fun hy => Or.inr (s5_piece_row k 1 2 (k0_off40 k 1#32) (k0_off40_inb k 1) (k0_off40_eq k 1) y hy)
  · exact fun hy => Or.inr (s5_piece_row k 1 1 (k0_off39 k 1#32) (k0_off39_inb k 1) (k0_off39_eq k 1) y hy)
  · exact fun hy => Or.inr (s5_piece_row k 1 0 (k0_off38 k 1#32) (k0_off38_inb k 1) (k0_off38_eq k 1) y hy)
  · exact fun hy => Or.inl (s5_piece_row k 0 7 (k0_off45 k 0#32) (k0_off45_inb k 0) (k0_off45_eq k 0) y hy)
  · exact fun hy => Or.inl (s5_piece_row k 0 6 (k0_off44 k 0#32) (k0_off44_inb k 0) (k0_off44_eq k 0) y hy)
  · exact fun hy => Or.inl (s5_piece_row k 0 5 (k0_off43 k 0#32) (k0_off43_inb k 0) (k0_off43_eq k 0) y hy)
  · exact fun hy => Or.inl (s5_piece_row k 0 4 (k0_off42 k 0#32) (k0_off42_inb k 0) (k0_off42_eq k 0) y hy)
  · exact fun hy => Or.inl (s5_piece_row k 0 3 (k0_off41 k 0#32) (k0_off41_inb k 0) (k0_off41_eq k 0) y hy)
  · exact fun hy => Or.inl (s5_piece_row k 0 2 (k0_off40 k 0#32) (k0_off40_inb k 0) (k0_off40_eq k 0) y hy)
  · exact fun hy => Or.inl (s5_piece_row k 0 1 (k0_off39 k 0#32) (k0_off39_inb k 0) (k0_off39_eq k 0) y hy)
  · exact fun hy => Or.inl (s5_piece_row k 0 0 (k0_off38 k 0#32) (k0_off38_inb k 0) (k0_off38_eq k 0) y hy)

omit [FloatOps F] in
/-- Every index on rows 2·k and 2·k + 1 is under one of the sixteen pieces. -/
theorem s5Pieces_cover (k : Fin k0_t1_loop.trips) (A B : A8 F) (rr : Fin 2) (e : Fin 128) (hrow : 2 * k.val + rr.val < 32) :
    ∃ p ∈ s5Pieces k A B, (ix2 (⟨2 * k.val + rr.val, hrow⟩ : Fin 32) e : S32x128.Idx) ∈ p.1.set := by
  obtain ⟨c, l, h, rfl⟩ := split128 e
  unfold s5Pieces
  match rr, c with
  | ⟨1, _⟩, ⟨7, _⟩ => exact ⟨_, List.mem_cons_self, s5_piece_mem k 1 7 l (k0_off45 k 1#32) (k0_off45_inb k 1) (k0_off45_eq k 1) hrow h⟩
  | ⟨1, _⟩, ⟨6, _⟩ => exact ⟨_, List.mem_cons_of_mem _ (List.mem_cons_self), s5_piece_mem k 1 6 l (k0_off44 k 1#32) (k0_off44_inb k 1) (k0_off44_eq k 1) hrow h⟩
  | ⟨1, _⟩, ⟨5, _⟩ => exact ⟨_, List.mem_cons_of_mem _ (List.mem_cons_of_mem _ (List.mem_cons_self)), s5_piece_mem k 1 5 l (k0_off43 k 1#32) (k0_off43_inb k 1) (k0_off43_eq k 1) hrow h⟩
  | ⟨1, _⟩, ⟨4, _⟩ => exact ⟨_, List.mem_cons_of_mem _ (List.mem_cons_of_mem _ (List.mem_cons_of_mem _ (List.mem_cons_self))), s5_piece_mem k 1 4 l (k0_off42 k 1#32) (k0_off42_inb k 1) (k0_off42_eq k 1) hrow h⟩
  | ⟨1, _⟩, ⟨3, _⟩ => exact ⟨_, List.mem_cons_of_mem _ (List.mem_cons_of_mem _ (List.mem_cons_of_mem _ (List.mem_cons_of_mem _ (List.mem_cons_self)))), s5_piece_mem k 1 3 l (k0_off41 k 1#32) (k0_off41_inb k 1) (k0_off41_eq k 1) hrow h⟩
  | ⟨1, _⟩, ⟨2, _⟩ => exact ⟨_, List.mem_cons_of_mem _ (List.mem_cons_of_mem _ (List.mem_cons_of_mem _ (List.mem_cons_of_mem _ (List.mem_cons_of_mem _ (List.mem_cons_self))))), s5_piece_mem k 1 2 l (k0_off40 k 1#32) (k0_off40_inb k 1) (k0_off40_eq k 1) hrow h⟩
  | ⟨1, _⟩, ⟨1, _⟩ => exact ⟨_, List.mem_cons_of_mem _ (List.mem_cons_of_mem _ (List.mem_cons_of_mem _ (List.mem_cons_of_mem _ (List.mem_cons_of_mem _ (List.mem_cons_of_mem _ (List.mem_cons_self)))))), s5_piece_mem k 1 1 l (k0_off39 k 1#32) (k0_off39_inb k 1) (k0_off39_eq k 1) hrow h⟩
  | ⟨1, _⟩, ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), s5_piece_mem k 1 0 l (k0_off38 k 1#32) (k0_off38_inb k 1) (k0_off38_eq k 1) hrow h⟩
  | ⟨0, _⟩, ⟨7, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), s5_piece_mem k 0 7 l (k0_off45 k 0#32) (k0_off45_inb k 0) (k0_off45_eq k 0) hrow h⟩
  | ⟨0, _⟩, ⟨6, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), s5_piece_mem k 0 6 l (k0_off44 k 0#32) (k0_off44_inb k 0) (k0_off44_eq k 0) hrow h⟩
  | ⟨0, _⟩, ⟨5, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), s5_piece_mem k 0 5 l (k0_off43 k 0#32) (k0_off43_inb k 0) (k0_off43_eq k 0) hrow h⟩
  | ⟨0, _⟩, ⟨4, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), s5_piece_mem k 0 4 l (k0_off42 k 0#32) (k0_off42_inb k 0) (k0_off42_eq k 0) hrow h⟩
  | ⟨0, _⟩, ⟨3, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), s5_piece_mem k 0 3 l (k0_off41 k 0#32) (k0_off41_inb k 0) (k0_off41_eq k 0) hrow h⟩
  | ⟨0, _⟩, ⟨2, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), s5_piece_mem k 0 2 l (k0_off40 k 0#32) (k0_off40_inb k 0) (k0_off40_eq k 0) hrow h⟩
  | ⟨0, _⟩, ⟨1, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), s5_piece_mem k 0 1 l (k0_off39 k 0#32) (k0_off39_inb k 0) (k0_off39_eq k 0) hrow h⟩
  | ⟨0, _⟩, ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), s5_piece_mem k 0 0 l (k0_off38 k 0#32) (k0_off38_inb k 0) (k0_off38_eq k 0) hrow h⟩

omit [FloatOps F] in
/-- Rows 2·k and 2·k + 1 are rows of the scratch. -/
theorem s5_row_lt (k : Fin k0_t1_loop.trips) (rr : Fin 2) : 2 * k.val + rr.val < 32 := by
  have hk : k.val < 16 := k.isLt
  have hr : rr.val < 2 := rr.isLt
  omega

theorem s5_writes_apply (f5 : Buf (Elt F) ((s5V).view.loc (V d (cV L) (jV L)))) (k : Fin k0_t1_loop.trips) (A B : A8 F) (row : Fin 32) (e : Fin 128) :
    ((s5V).view.writes (Elt F) f5 (s5Pieces k A B)) (ix2 row e)
      = if row.val = 2 * k.val then lane A e else if row.val = 2 * k.val + 1 then lane B e else f5 (ix2 row e) := by
  have hk : k.val < 16 := k.isLt
  have hrd : ∀ g : Buf (Elt F) ((s5V).view.loc (V d (cV L) (jV L))), g (ix2 row e) = (s5V).view.read (Elt F) g (ix2 row e) :=
    fun g => ((View.read_apply _ _).trans (cast_eq _ _)).symm
  rw [hrd ((s5V).view.writes (Elt F) f5 (s5Pieces k A B))]
  by_cases h0 : row.val = 2 * k.val
  · rw [if_pos h0]
    obtain rfl : row = ⟨2 * k.val + (0 : Fin 2).val, s5_row_lt k 0⟩ := Fin.ext (by show row.val = 2 * k.val + 0; omega)
    rw [View.read_writes_apply_of_pieces _ _ (s5Fn k A B) _ (s5Pieces_agree k A B) _ (s5Pieces_cover k A B 0 e _)]
    exact if_pos rfl
  · rw [if_neg h0]
    by_cases h1 : row.val = 2 * k.val + 1
    · rw [if_pos h1]
      obtain rfl : row = ⟨2 * k.val + (1 : Fin 2).val, s5_row_lt k 1⟩ := Fin.ext (by show row.val = 2 * k.val + 1; omega)
      rw [View.read_writes_apply_of_pieces _ _ (s5Fn k A B) _ (s5Pieces_agree k A B) _ (s5Pieces_cover k A B 1 e _)]
      exact if_neg (by show ¬ (2 * k.val + 1 = 2 * k.val); omega)
    · rw [if_neg h1]
      rw [View.read_writes_apply_of_forall_not_mem _ _ _ _ (fun p hp hy => by
        rcases s5Pieces_row k A B _ p hp hy with h | h
        · exact h0 h
        · exact h1 h)]
      exact (hrd f5).symm

/-! ## (L5) The pooled value of a sentence is the fold over its two token rows -/

/-- The first hundred words of sentence b are token row 2b: the running sum over them is the fold of the first row. -/
theorem accUpTo_first_row (t2 : S2048x100.Idx → BitVec 32) (tab : S100002x128.Idx → F .f32) (b : Nat) (hb : b < 1024) (e : Fin 128)
    (g0 : S100x128.Idx → F .f32)
    (h0 : ∀ r : Fin 100, g0 (ix2 r e) = tab (ix2 (rowOf (t2 (ix2 ⟨2 * b, by omega⟩ r))) e)) :
    ∀ n, n ≤ 100 → accUpTo t2 tab b e n = laneFold g0 (Scalar.ofBits .f32 0x00000000#32) e n := by
  intro n
  induction n with
  | zero => intro _; rfl
  | succ n ih =>
    intro hn
    have hw : wordAt t2 b n = t2 (ix2 ⟨2 * b, by omega⟩ ⟨n % 100, Nat.mod_lt _ (by decide)⟩) := by
      unfold wordAt
      congr 2
      exact Fin.ext (by show (2 * b + n / 100) % 2048 = 2 * b; omega)
    show FloatOps.addf (accUpTo t2 tab b e n) (tab (ix2 (rowOf (wordAt t2 b n)) e))
      = FloatOps.addf (laneFold g0 (Scalar.ofBits .f32 0x00000000#32) e n) (g0 (ix2 ⟨n % 100, Nat.mod_lt _ (by decide)⟩ e))
    rw [ih (by omega), h0, hw]

/-- The second hundred are token row 2b + 1: the running sum goes on as the fold of the second row. -/
theorem accUpTo_second_row (t2 : S2048x100.Idx → BitVec 32) (tab : S100002x128.Idx → F .f32) (b : Nat) (hb : b < 1024) (e : Fin 128)
    (g1 : S100x128.Idx → F .f32)
    (h1 : ∀ r : Fin 100, g1 (ix2 r e) = tab (ix2 (rowOf (t2 (ix2 ⟨2 * b + 1, by omega⟩ r))) e)) :
    ∀ n, n ≤ 100 → accUpTo t2 tab b e (100 + n) = laneFold g1 (accUpTo t2 tab b e 100) e n := by
  intro n
  induction n with
  | zero => intro _; rfl
  | succ n ih =>
    intro hn
    have hw : wordAt t2 b (100 + n) = t2 (ix2 ⟨2 * b + 1, by omega⟩ ⟨n % 100, Nat.mod_lt _ (by decide)⟩) := by
      unfold wordAt
      congr 2
      · exact Fin.ext (by show (2 * b + (100 + n) / 100) % 2048 = 2 * b + 1; omega)
      · exact Fin.ext (by show (100 + n) % 100 = n % 100; omega)
    show FloatOps.addf (accUpTo t2 tab b e (100 + n)) (tab (ix2 (rowOf (wordAt t2 b (100 + n))) e))
      = FloatOps.addf (laneFold g1 (accUpTo t2 tab b e 100) e n) (g1 (ix2 ⟨n % 100, Nat.mod_lt _ (by decide)⟩ e))
    rw [ih (by omega), h1, hw]

theorem accUpTo_two_rows (t2 : S2048x100.Idx → BitVec 32) (tab : S100002x128.Idx → F .f32) (b : Nat) (hb : b < 1024) (e : Fin 128)
    (g0 g1 : S100x128.Idx → F .f32)
    (h0 : ∀ r : Fin 100, g0 (ix2 r e) = tab (ix2 (rowOf (t2 (ix2 ⟨2 * b, by omega⟩ r))) e))
    (h1 : ∀ r : Fin 100, g1 (ix2 r e) = tab (ix2 (rowOf (t2 (ix2 ⟨2 * b + 1, by omega⟩ r))) e)) :
    accUpTo t2 tab b e 200 = laneFold g1 (laneFold g0 (Scalar.ofBits .f32 0x00000000#32) e 100) e 100 := by
  rw [← accUpTo_first_row t2 tab b hb e g0 h0 100 le_rfl]
  exact accUpTo_second_row t2 tab b hb e g1 h1 100 le_rfl

end Val

end Cert.Proof.BitsSide

end
-- ==== Proof.BitsBodyVal6.lean ====
/-
  The last copy. Row j, feature e of the pooled scratch lands at row 32·w + j, feature e of the pooled matrix, w the
  task's worker number. So if every entry of the scratch is the pooled value of its sentence, the task's rows of the
  matrix are the pooled value afterwards.
-/
import proofs.«202922_g81758997446792_cont_9to1_m_1158_4_alg».proof.Proof.BitsTile
import proofs.«202922_g81758997446792_cont_9to1_m_1158_4_alg».proof.Proof.BitsBodyRows

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

section Val6
variable (d : Dev nD) (L : grid0.Coords)

omit [FloatOps F] in
/-- Where the task's j-th pooled row sits in the pooled matrix: row 32·w + j, same feature. -/
theorem outK_emb (j : S32x128.Idx) :
    (((outK L).view.emb j) 0).val = 32 * (wid L).val + (j 0).val ∧ (((outK L).view.emb j) 1).val = (j 1).val := by
  have h0 : (k0_off46 L) 0 = 64 * (L 1).val + 32 * (L 0).val := by rw [k0_off46_eq]; rfl
  have h1 : (k0_off46 L) 1 = 0 := by rw [k0_off46_eq]; rfl
  constructor
  · show (k0_off46 L) 0 + 1 * (j 0).val = 32 * (2 * (L 1).val + (L 0).val) + (j 0).val
    rw [h0]; omega
  · show (k0_off46 L) 1 + 1 * (j 1).val = (j 1).val
    rw [h1]; omega

/-- Copied out, the pooled scratch's thirty-two rows are the task's rows of the pooled matrix. -/
theorem out_final (t2 : Buf (Elt F) (tokLoc d)) (tab : Buf (Elt F) (tabLoc d)) (o : Buf (Elt F) (outLoc d)) (g5 : Buf (Elt F) ((s5V).view.loc (V d (cV L) (jV L))))
    (hP : ∀ (row : Fin 32) (e : Fin 128),
      g5 (ix2 row e) = pooledF (F := F) t2 tab (ix2 ⟨32 * (wid L).val + row.val, by have := (wid L).isLt; have := row.isLt; omega⟩ e)) :
    ∀ i ∈ outSet L, ((outK L).view.writes (Elt F) o [⟨Rect.whole S32x128, ReadAs.same.apply ((s5V).view.read (Elt F) g5)⟩]) i
      = pooledF (F := F) t2 tab i := by
  intro i hi
  obtain ⟨j, -, rfl⟩ := Finset.mem_map.mp hi
  have e1 : (outK L).view.emb j = ((outK L).view.slice (Rect.whole S32x128)).emb j := by
    show _ = (outK L).view.emb ((Rect.whole S32x128).emb j); rw [Rect.emb_whole_apply]
  rw [View.writes_singleton]
  refine (congrArg _ e1).trans ((View.write_emb_of_mem (v := (outK L).view.slice (Rect.whole S32x128)) o _ (Finset.mem_univ j)).trans ?_)
  refine (cast_eq _ _).trans ?_
  show g5 j = _
  obtain ⟨h0, h1⟩ := outK_emb L j
  have hj : (j : S32x128.Idx) = ix2 (⟨(j 0).val, (show (j 0).val < 32 from (j 0).isLt)⟩ : Fin 32) (⟨(j 1).val, (show (j 1).val < 128 from (j 1).isLt)⟩ : Fin 128) := by
    funext a
    match a with
    | 0 => rfl
    | 1 => rfl
  refine (congrArg g5 hj).trans ((hP _ _).trans ?_)
  show accUpTo t2 tab _ _ 200 = accUpTo t2 tab _ _ 200
  congr 1
  · exact h0.symm
  · exact Fin.ext h1.symm

end Val6

end Cert.Proof.BitsSide

end
-- ==== Proof.BitsBody.lean ====
/-
  The pooling task computes the pooled value.

  The predicate followed through the trips: rows below 2k of the pooled scratch hold the pooled value of the task's
  first 2k sentences. It asks nothing at k = 0. A trip stores two rows. Row 2k is the fold, from zero, of the hundred
  table rows that token row 64w + 4k names and then the hundred that token row 64w + 4k + 1 names: the two hundred
  entries of sentence 32w + 2k in reading order, its pooled value. Row 2k + 1 is the same from token rows 64w + 4k + 2
  and 64w + 4k + 3, sentence 32w + 2k + 1. After sixteen trips all 32 rows are pooled values, and the copy out puts them
  at the task's rows of the pooled matrix.
-/
import proofs.«202922_g81758997446792_cont_9to1_m_1158_4_alg».proof.Proof.BitsTile
import proofs.«202922_g81758997446792_cont_9to1_m_1158_4_alg».proof.Proof.BitsBodyGen
import proofs.«202922_g81758997446792_cont_9to1_m_1158_4_alg».proof.Proof.BitsBodyVal
import proofs.«202922_g81758997446792_cont_9to1_m_1158_4_alg».proof.Proof.BitsBodyVal6

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "tokV" => (Memref.whole Cert.Kernel.main_v0_scv : Memref Cert.Kernel.sig Kind.scVector Space.hbm Cert.Kernel.S2048x100 EltTy.i32)
local notation "tabV" => (Memref.whole Cert.Kernel.main_arg1_scv : Memref Cert.Kernel.sig Kind.scVector Space.hbm Cert.Kernel.S100002x128 EltTy.f32)
local notation "outV" => (Memref.whole Cert.Kernel.main_v1_scv : Memref Cert.Kernel.sig Kind.scVector Space.hbm Cert.Kernel.S1024x128 EltTy.f32)
local notation "s0V" => (Memref.whole Cert.Kernel.cc0_scratch0 : Memref Cert.Kernel.sig Kind.scVector Space.vmem Cert.Kernel.S64x100 EltTy.i32)
local notation "s1V" => (Memref.whole Cert.Kernel.cc0_scratch1 : Memref Cert.Kernel.sig Kind.scVector Space.vmem Cert.Kernel.S100x128 EltTy.f32)
local notation "s2V" => (Memref.whole Cert.Kernel.cc0_scratch2 : Memref Cert.Kernel.sig Kind.scVector Space.vmem Cert.Kernel.S100x128 EltTy.f32)
local notation "s3V" => (Memref.whole Cert.Kernel.cc0_scratch3 : Memref Cert.Kernel.sig Kind.scVector Space.vmem Cert.Kernel.S100x128 EltTy.f32)
local notation "s4V" => (Memref.whole Cert.Kernel.cc0_scratch4 : Memref Cert.Kernel.sig Kind.scVector Space.vmem Cert.Kernel.S100x128 EltTy.f32)
local notation "s5V" => (Memref.whole Cert.Kernel.cc0_scratch5 : Memref Cert.Kernel.sig Kind.scVector Space.vmem Cert.Kernel.S32x128 EltTy.f32)

section Top
variable (d : Dev nD) (L : grid0.Coords)

/-- Rows below 2·k of the pooled scratch hold the pooled value of the task's first 2·k sentences. -/
def P5 (t2 : Buf (Elt F) (tokLoc d)) (tab : Buf (Elt F) (tabLoc d)) (k : Nat) (f5 : Buf (Elt F) ((s5V).view.loc (V d (cV L) (jV L)))) : Prop :=
  ∀ (row : Fin 32) (e : Fin 128), row.val < 2 * k →
    f5 (ix2 row e) = pooledF (F := F) t2 tab (ix2 ⟨32 * (wid L).val + row.val, by have := (wid L).isLt; have := row.isLt; omega⟩ e)

/-- The eight zero vectors a row sum starts from. -/
abbrev zK : A8 F := (k0_pay52 (F := F), k0_pay53 (F := F), k0_pay54 (F := F), k0_pay55 (F := F), k0_pay56 (F := F), k0_pay1 (Scalar.ofBits .f32 0x00000000#32 : F .f32), k0_pay2 (F := F), k0_pay3 (F := F))

theorem comp8_zK (c : Fin 8) (i : S16.Idx) : comp8 (F := F) zK c i = Scalar.ofBits .f32 0x00000000#32 := by
  fin_cases c <;> rfl

theorem lane_zK (e : Fin 128) : lane (F := F) zK e = Scalar.ofBits .f32 0x00000000#32 := comp8_zK _ _

/-- One trip's sixteen stores extend the pooled rows by the two sentences the trip summed. -/
theorem P5_step (t2 : Buf (Elt F) (tokLoc d)) (tab : Buf (Elt F) (tabLoc d)) (hpre : PreOK t2) (hin : ∀ (off : Fin 2 → Nat) (hoff : ∀ a, off a + S1x100.size a ≤ S64x100.size a) (x : S100.Idx),
      ((idxRow off hoff).view.read (Elt F) (idxBuf d L t2) x).toNat < S100002x128.size gathers_S100002x128_S100x128.axis)
    (k : Fin k0_t1_loop.trips) (f5 : Buf (Elt F) ((s5V).view.loc (V d (cV L) (jV L)))) (off0 : Fin 2 → Nat) (hoff0 : ∀ a, off0 a + S1x100.size a ≤ S64x100.size a) (off1 : Fin 2 → Nat) (hoff1 : ∀ a, off1 a + S1x100.size a ≤ S64x100.size a) (off2 : Fin 2 → Nat) (hoff2 : ∀ a, off2 a + S1x100.size a ≤ S64x100.size a) (off3 : Fin 2 → Nat) (hoff3 : ∀ a, off3 a + S1x100.size a ≤ S64x100.size a)
    (he0 : off0 = ![4 * k.val + 0, 0]) (he1 : off1 = ![4 * k.val + 1, 0]) (he2 : off2 = ![4 * k.val + 2, 0]) (he3 : off3 = ![4 * k.val + 3, 0])
    (hP : P5 d L t2 tab k.val f5) :
    P5 d L t2 tab (k.val + 1) ((s5V).view.writes (Elt F) f5 (s5Pieces k (rowFold1 d L ((s2V).view.writes (Elt F) (s2V).view.junk [⟨Rect.whole cc0_scratch2.ty.shape, gatherPay d L t2 tab hin off1 hoff1⟩]) (rowFold0 d L ((s1V).view.writes (Elt F) (s1V).view.junk [⟨Rect.whole cc0_scratch1.ty.shape, gatherPay d L t2 tab hin off0 hoff0⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t2_loop.trips) k0_t3_loop.trips) (rowFold3 d L ((s4V).view.writes (Elt F) (s4V).view.junk [⟨Rect.whole cc0_scratch4.ty.shape, gatherPay d L t2 tab hin off3 hoff3⟩]) (rowFold2 d L ((s3V).view.writes (Elt F) (s3V).view.junk [⟨Rect.whole cc0_scratch3.ty.shape, gatherPay d L t2 tab hin off2 hoff2⟩]) (k0_pay52 (F := F), k0_pay53 (F := F), k0_pay54 (F := F), k0_pay55 (F := F), k0_pay56 (F := F), k0_pay1 (Scalar.ofBits .f32 0x00000000#32 : F .f32), k0_pay2 (F := F), k0_pay3 (F := F)) k0_t4_loop.trips) k0_t5_loop.trips))) := by
  have hk16 : k.val < 16 := lt_of_lt_of_le k.isLt k0_t1_abs.2.1
  have hw : (wid L).val < 32 := (wid L).isLt
  have ht2 : k0_t2_loop.trips = 100 := by decide
  have ht3 : k0_t3_loop.trips = 100 := by decide
  have ht4 : k0_t4_loop.trips = 100 := by decide
  have ht5 : k0_t5_loop.trips = 100 := by decide
  intro row e hrow
  rw [s5_writes_apply]
  by_cases h1 : row.val = 2 * k.val
  · rw [if_pos h1, ht2, lane_rowFold1 d L _ _ 100 (le_refl _) e, lane_rowFold0 d L _ _ 100 (le_refl _) e, lane_zK]
    refine (accUpTo_two_rows (F := F) t2 tab (32 * (wid L).val + row.val) (by have := row.isLt; omega) e _ _ ?_ ?_).symm
    · intro r
      rw [cont0_apply d L t2 tab hin hpre off0 hoff0 (4 * k.val + 0) (by omega) he0 r e]
      exact congrArg (fun i => tab (ix2 (rowOf (t2 (ix2 i r))) e)) (Fin.ext (by show 64 * (wid L).val + (4 * k.val + 0) = 2 * (32 * (wid L).val + row.val); omega))
    · intro r
      rw [cont1_apply d L t2 tab hin hpre off1 hoff1 (4 * k.val + 1) (by omega) he1 r e]
      exact congrArg (fun i => tab (ix2 (rowOf (t2 (ix2 i r))) e)) (Fin.ext (by show 64 * (wid L).val + (4 * k.val + 1) = 2 * (32 * (wid L).val + row.val) + 1; omega))
  · rw [if_neg h1]
    by_cases h2 : row.val = 2 * k.val + 1
    · rw [if_pos h2, ht4, lane_rowFold3 d L _ _ 100 (le_refl _) e, lane_rowFold2 d L _ _ 100 (le_refl _) e, lane_zK]
      refine (accUpTo_two_rows (F := F) t2 tab (32 * (wid L).val + row.val) (by have := row.isLt; omega) e _ _ ?_ ?_).symm
      · intro r
        rw [cont2_apply d L t2 tab hin hpre off2 hoff2 (4 * k.val + 2) (by omega) he2 r e]
        exact congrArg (fun i => tab (ix2 (rowOf (t2 (ix2 i r))) e)) (Fin.ext (by show 64 * (wid L).val + (4 * k.val + 2) = 2 * (32 * (wid L).val + row.val); omega))
      · intro r
        rw [cont3_apply d L t2 tab hin hpre off3 hoff3 (4 * k.val + 3) (by omega) he3 r e]
        exact congrArg (fun i => tab (ix2 (rowOf (t2 (ix2 i r))) e)) (Fin.ext (by show 64 * (wid L).val + (4 * k.val + 3) = 2 * (32 * (wid L).val + row.val) + 1; omega))
    · rw [if_neg h2]
      exact hP row e (by omega)

end Top

/-- The task's body: the token rows fetched, the two hundred table rows of each of the task's thirty-two sentences gathered
    and added up in reading order, the sums written to the task's rows of the pooled matrix. -/
theorem tile_body (hF : (K (F := F)).Facts) (d : Dev nD) (L : grid0.Coords) (t2 : Buf (Elt F) (tokLoc d)) (tab : Buf (Elt F) (tabLoc d)) (o : Buf (Elt F) (outLoc d)) (hpre : PreOK t2)
      (O : CellTallies nD τ sig (HIx 1)) (W : Waits sig (HIx 1)) (hO : ∀ g, O g none = 0) :
    iprop(levAts (K (F := F)).L (K (F := F)).lev ∗ emp ∗ tileGo d t2 tab o L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pooled_body L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1)
          fun _ => iprop(tileTd d t2 tab L ∗ scopedBufs (V d (cV L) (jV L)) ∗ scopedSems0 (V d (cV L) (jV L))
            ∗ ∃ W', ⌜∀ p ∈ W', p ∈ W ∨ p.2 = none⌝ ∗ owes (V d (cV L) (jV L)) O W') := by
  refine (tile_body_gen (F := F) d L hF t2 tab o hpre O W hO (P5 d L t2 tab) (fun f row e h => absurd h (by omega))
    (fun hin k f5 off0 hoff0 off1 hoff1 off2 hoff2 off3 hoff3 he0 he1 he2 he3 hP =>
      P5_step d L t2 tab hpre hin k f5 off0 hoff0 off1 hoff1 off2 hoff2 off3 hoff3 he0 he1 he2 he3 hP)).trans (wp_mono frame _ _ fun _ => ?_)
  unfold tileTd
  iintro ⟨Htok, Htab, ⟨%g5, %hP, Hout⟩, Hb, Hs, HW⟩
  isplitl [Htok Htab Hout]
  · isplitl [Htok]; · iexact Htok
    isplitl [Htab]; · iexact Htab
    iapply (Entails.of_eq (pointsTo_congr (out_final d L t2 tab o g5 (fun row e => hP row e (by
      have h16 : k0_t1_loop.trips = 16 := by decide
      have := row.isLt
      omega)))))
    iexact Hout
  isplitl [Hb]; · iexact Hb
  isplitl [Hs]; · iexact Hs
  iexact HW

end Cert.Proof.BitsSide

end
-- ==== Proof.BitsRun.lean ====
/-
  The program's run: every weakly fair execution of @main and the 34 SparseCore threads terminates, faults nowhere,
  and ends with every array of the TensorCore at what @main's steps leave in it.
-/
import proofs.«202922_g81758997446792_cont_9to1_m_1158_4_alg».proof.Proof.BitsTile
import proofs.«202922_g81758997446792_cont_9to1_m_1158_4_alg».proof.Proof.BitsEnds
import proofs.«202922_g81758997446792_cont_9to1_m_1158_4_alg».proof.Proof.BitsBody

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The task's obligation, from its body's run -/

theorem defs₀_vector (c : Fin τ.nSC) (s : Fin τ.nSub) :
    defs₀ (F := F) (.scVector c s) 0 ()
      = SparseCore.onTile hcore0 hsub0 (fun c s => cc0__pooled_body (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : ∀ d, PreOK (tk m d)) : (K (F := F)).TileObl (D (F := F)) 𝒱 (Pm m) v₀ 0 := by
  intro d c i O W hO _ _
  simp only [show (Pm m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body facts d (coordsV ⟨_, hci.1⟩ ⟨_, hci.2⟩) (tk m d) (tb m d) (o1 m d) (hpre d) O W hO).trans (wp_mono frame _ _ fun _ => obl_post)

/-! ## The run -/

/-- Every array of the TensorCore ends at what @main's steps leave in it. -/
def QC : PUnit × MemSt nD τ sig (Elt F) → Prop := fun r =>
  ∀ c : Dev nD, ∀ b : Ref sig .tc, ¬ b.isScoped → r.2.mem ((c.tc : Thread nD τ).loc b) = afterRegion (Vv m) c b

theorem run_main [∀ e, Nonempty (Elt F e)] (hpre : ∀ d, PreOK (tk m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq)
    (fun q _ => match q with | 0 => tileObl m hpre)
    (fun q _ => match q with | 0 => SparseCore.Cfg.VecSplit.of_plain (vecSplit (tk m) (tb m) (o1 m)))
    m ρ main (GP (F := F)) (FIN m) (u₀ (F := F)) (sep_elim_left.trans (hu₀ m)) (hmain m ρ) (fq m) (hfin m) (QC m) (fun _ h => h)

end Cert.Proof.BitsSide

end
-- ==== Proof.BitsBack.lean ====
/-
  The final contents, read back through @main's host steps: an argument array ends as launched; the token matrix the
  SparseCore kernel reads is the launch matrix in row-major order as [2048, 100]; each bias row is its vector as [1, 100].
-/
import proofs.«202922_g81758997446792_cont_9to1_m_1158_4_alg».proof.Proof.BitsTile
import proofs.«202922_g81758997446792_cont_9to1_m_1158_4_alg».proof.Proof.BitsEnds
import proofs.«202922_g81758997446792_cont_9to1_m_1158_4_alg».proof.Proof.BagSpec

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-! ## The host steps' results -/

theorem V2_kept (d : Dev nD) (b : DevRef τ sig) (h0 : b ≠ rf main_v0) (h1 : b ≠ rf main_v1) : V2 m d b = m (d, b) := by
  unfold V2 V1 V0
  rw [Function.update_of_ne h1, (opTok (F := F)).result_of_not_mem _ (fun hm => h0 (Finset.mem_singleton.mp hm))]

/-- The token matrix as the SparseCore kernel reads it: the launch matrix's elements in row-major order as [2048, 100]. -/
theorem tk_eq (d : Dev nD) :
    tk m d = shapeCast S2048x100 (m (d, rf main_arg0) : S1024x200.Idx → BitVec 32) shapeCasts_S1024x200_S2048x100 := by
  unfold tk V1
  refine (StableHlo.reshape_result main_arg0 main_v0 rfl shapeCasts_S1024x200_S2048x100 ⟨by decide, rfl⟩ ⟨by decide, rfl⟩ (V0 m d)).trans ?_
  rfl

theorem V5_b1 (d : Dev nD) :
    V5 m d (rf main_v2) = shapeCast S1x100 (m (d, rf main_arg3) : S100.Idx → F .f32) shapeCasts_S100_S1x100 := by
  unfold V5 V4
  rw [(opB3 (F := F)).result_of_not_mem _ (show rf main_v2 ∉ ({rf main_v4} : Finset (DevRef τ sig)) by decide),
    (opB2 (F := F)).result_of_not_mem _ (show rf main_v2 ∉ ({rf main_v3} : Finset (DevRef τ sig)) by decide)]
  unfold V3
  refine (StableHlo.reshape_result main_arg3 main_v2 rfl shapeCasts_S100_S1x100 ⟨by decide, rfl⟩ ⟨by decide, rfl⟩ (V2 m d)).trans ?_
  funext i
  show shapeCast S1x100 (V2 m d (rf main_arg3)) shapeCasts_S100_S1x100 i = _
  rw [V2_kept m d (rf main_arg3) (by decide) (by decide)]

theorem V5_b2 (d : Dev nD) :
    V5 m d (rf main_v3) = shapeCast S1x100 (m (d, rf main_arg5) : S100.Idx → F .f32) shapeCasts_S100_S1x100 := by
  unfold V5
  rw [(opB3 (F := F)).result_of_not_mem _ (show rf main_v3 ∉ ({rf main_v4} : Finset (DevRef τ sig)) by decide)]
  unfold V4
  refine (StableHlo.reshape_result main_arg5 main_v3 rfl shapeCasts_S100_S1x100 ⟨by decide, rfl⟩ ⟨by decide, rfl⟩ (V3 m d)).trans ?_
  funext i
  show shapeCast S1x100 (V3 m d (rf main_arg5)) shapeCasts_S100_S1x100 i = _
  rw [show V3 m d (rf main_arg5) = m (d, rf main_arg5) from by
    unfold V3
    rw [(opB1 (F := F)).result_of_not_mem _ (show rf main_arg5 ∉ ({rf main_v2} : Finset (DevRef τ sig)) by decide)]
    exact V2_kept m d (rf main_arg5) (by decide) (by decide)]

theorem V5_b3 (d : Dev nD) :
    V5 m d (rf main_v4) = shapeCast S1x100 (m (d, rf main_arg7) : S100.Idx → F .f32) shapeCasts_S100_S1x100 := by
  unfold V5
  refine (StableHlo.reshape_result main_arg7 main_v4 rfl shapeCasts_S100_S1x100 ⟨by decide, rfl⟩ ⟨by decide, rfl⟩ (V4 m d)).trans ?_
  funext i
  show shapeCast S1x100 (V4 m d (rf main_arg7)) shapeCasts_S100_S1x100 i = _
  rw [show V4 m d (rf main_arg7) = m (d, rf main_arg7) from by
    unfold V4 V3
    rw [(opB2 (F := F)).result_of_not_mem _ (show rf main_arg7 ∉ ({rf main_v3} : Finset (DevRef τ sig)) by decide),
      (opB1 (F := F)).result_of_not_mem _ (show rf main_arg7 ∉ ({rf main_v2} : Finset (DevRef τ sig)) by decide)]
    exact V2_kept m d (rf main_arg7) (by decide) (by decide)]

/-- An argument array ends as launched. -/
theorem arg_kept (d : Dev nD) (b : Ref sig .tc) (hb : b ≠ main_v5) (h0 : rf b ≠ rf main_v0) (h1 : rf b ≠ rf main_v1) (h2 : rf b ≠ rf main_v2)
    (h3 : rf b ≠ rf main_v3) (h4 : rf b ≠ rf main_v4) : afterRegion (Vv m) d b = m ((d.tc : Thread nD τ).loc b) :=
  (afterRegion_of_ne (Vv m) d hb).trans (V5_kept m d (rf b) h0 h1 h2 h3 h4)

/-- The token matrix's words name table rows when the launch matrix's do. -/
theorem preOK_tk (d : Dev nD) (h : Cert.BagSpec.InRange (m (d, rf main_arg0))) : PreOK (tk m d) := by
  intro j; rw [tk_eq]; exact h _

end Cert.Proof.BitsSide

end
-- ==== Proof.LibTypedRef.lean ====
/-
  Typed references: a value stored through a typed reference and read back through the same reference.

  A module-local function's body is printed over typed references: each carries a buffer and the proof that the buffer's
  type is the value's, and contents pass to and from the buffer by transport along that proof. Read at once, a line of such
  operations leaves a transport pair around every intermediate value. The pair cancels, for any signature and any values.
-/
import Idealize.ShloMosaic.Lib.StableHlo

noncomputable section

namespace Cert.TypedRef

open Idealize.ShloMosaic Idealize.ShloMosaic.StableHlo

/-- A value written to a typed reference's buffer and read back through the same reference is the value. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.TypedRef

end
-- ==== Proof.RefRun.lean ====
/-
  The reference program run, with its value.

  The reference is a straight line of host operations: the rows of the embedding table that the token
  words name are gathered (a negative word first moved up by the table's height, a word outside the
  table answered by a fill value), summed over the 200 positions of a sentence, divided by 200, and
  passed through three affine layers, the first two clamped below at zero. Its helper functions are
  unfolded at their calls, which makes the program one list of operations; every weakly fair execution
  runs the list to its end, the result buffer then holds the operations' composed term of the argument
  arrays, and no operation writes an argument.
-/
import proofs.«202922_g81758997446792_cont_9to1_m_1158_4_alg».proof.ReferenceIdeal
import Idealize.ShloMosaic.Lib.StableHlo.Run
import proofs.«202922_g81758997446792_cont_9to1_m_1158_4_alg».proof.Proof.LibTypedRef

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀

/-! ## The value, stage by stage -/

/-- A negative token word moved up by the table's height 100002; any other word kept. -/
def wrapped (tok : IVec S1024x200 32) : IVec S1024x200 32 :=
  select (cmpi .slt tok (broadcastInDim S1024x200 ![] bcast_S_S1024x200 (constantI S_ 32 0#32)))
    (addi tok (broadcastInDim S1024x200 ![] bcast_S_S1024x200 (constantI S_ 32 100002#32))) tok

/-- The words as a column of one-element index vectors. -/
def idx (tok : IVec S1024x200 32) : IVec S1024x200x1 32 :=
  broadcastInDim S1024x200x1 ![0, 1] bcast_S1024x200_S1024x200x1_0_1 (wrapped tok)

/-- Where the index lies inside the table: 0 ≤ index ≤ 100001, read signed. -/
def inTable (tok : IVec S1024x200 32) : IVec S1024x200 1 :=
  Host.reduce IntOp.andi
    (andi (cmpi .sge (idx tok) (broadcastInDim S1024x200x1 ![] bcast_S_S1024x200x1 (constantI S_ 32 0#32)))
      (cmpi .sle (idx tok) (broadcastInDim S1024x200x1 ![0, 1, 2] bcast_S1x1x1_S1024x200x1_0_1_2
        (broadcastInDim S1x1x1 ![2] bcast_S1_S1x1x1_2 (constantI S1 32 100001#32)))))
    (constantI S_ 1 1#1) reducesTo_S1024x200x1_S1024x200_d2 h_S_

/-- The gathered rows: the table's row at each index inside the table, the fill value elsewhere. -/
def taken (tok : IVec S1024x200 32) (tab : FVec F S100002x128 .f32) : FVec F S1024x200x128 .f32 :=
  select (broadcastInDim S1024x200x128 ![0, 1] bcast_S1024x200_S1024x200x128_0_1 (inTable tok))
    (Host.gather gather_S100002x128_S1024x200x1_S1024x200x128_2_0_n_n_0_2_1128 tab (idx tok))
    (broadcastInDim S1024x200x128 ![] bcast_S_S1024x200x128 (constant (F := F) S_ .f32 0x7FC00000#32))

/-- The sum over a sentence's 200 positions, divided by 200. -/
def meanRows (tok : IVec S1024x200 32) (tab : FVec F S100002x128 .f32) : FVec F S1024x128 .f32 :=
  Host.divf (F := F)
    (Host.reduceAdd (F := F) (taken tok tab) (constant (F := F) S_ .f32 0x00000000#32) reducesTo_S1024x200x128_S1024x128_d1 h_S_)
    (broadcastInDim S1024x128 ![] bcast_S_S1024x128 (constant (F := F) S_ .f32 0x43480000#32))

/-- A bias vector as 1024 equal rows. -/
def biasRows (b : FVec F S100 .f32) : FVec F S1024x100 .f32 :=
  broadcastInDim S1024x100 ![0, 1] bcast_S1x100_S1024x100_0_1 (broadcastInDim S1x100 ![1] bcast_S100_S1x100_1 b)

/-- The clamp below at zero. -/
def clamp (x : FVec F S1024x100 .f32) : FVec F S1024x100 .f32 :=
  maximumf x (broadcastInDim S1024x100 ![] bcast_S_S1024x100 (constant (F := F) S_ .f32 0x00000000#32))

/-- The first layer before its clamp: the mean rows through W1, plus b1. -/
def lin1 (x : FVec F S1024x128 .f32) (W : FVec F S128x100 .f32) (b : FVec F S100 .f32) : FVec F S1024x100 .f32 :=
  addf (Host.dotGeneral (F := F) dot_S1024x128_S128x100_S1024x100_1_0_0_1_n_n none x W) (biasRows b)

/-- A later layer before its clamp: the rows through W, plus b. -/
def lin (x : FVec F S1024x100 .f32) (W : FVec F S100x100 .f32) (b : FVec F S100 .f32) : FVec F S1024x100 .f32 :=
  addf (Host.dotGeneral (F := F) dot_S1024x100_S100x100_S1024x100_1_0_0_1_n_n none x W) (biasRows b)

/-- The reference's result as one term of its argument arrays. -/
def refTerm (tok : IVec S1024x200 32) (tab : FVec F S100002x128 .f32) (W1 : FVec F S128x100 .f32) (b1 : FVec F S100 .f32)
    (W2 : FVec F S100x100 .f32) (b2 : FVec F S100 .f32) (W3 : FVec F S100x100 .f32) (b3 : FVec F S100 .f32) :
    FVec F S1024x100 .f32 :=
  lin (clamp (lin (clamp (lin1 (meanRows tok tab) W1 b1)) W2 b2)) W3 b3

/-! ## The program as a list of operations -/

/-- The program's 46 operations in order, the helper functions unfolded at their calls: the gather's 23 (the
    select of its nested helper among them), the sum, the division, and per layer the contraction, the bias's two
    broadcasts and the sum, with the clamp's three after the first two layers. -/
abbrev ops : List (HloOp τ sig (Elt F)) :=
  [
    TRef.nullary main_call0.c (constantI S_ 32 0#32),
    TRef.unary main_call0.c main_call0.v0 (broadcastInDim S1024x200 ![] bcast_S_S1024x200),
    TRef.binary (.of main_arg0 : TRef sig ⟨S1024x200, .i32⟩) main_call0.v0 main_call0.v1 (cmpi .slt),
    TRef.nullary main_call0.c_0 (constantI S_ 32 100002#32),
    TRef.unary main_call0.c_0 main_call0.v2 (broadcastInDim S1024x200 ![] bcast_S_S1024x200),
    TRef.binary (.of main_arg0 : TRef sig ⟨S1024x200, .i32⟩) main_call0.v2 main_call0.v3 addi,
    TRef.ternary main_call0.v1 main_call0.v3 (.of main_arg0 : TRef sig ⟨S1024x200, .i32⟩) main_call0.call0.v0 select,
    TRef.unary main_call0.call0.v0 main_call0.v5 (broadcastInDim S1024x200x1 ![0, 1] bcast_S1024x200_S1024x200x1_0_1),
    TRef.nullary main_call0.c_1 (constantI S1 32 100001#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1 : TRef sig ⟨S100002x128, .f32⟩) main_call0.v5 main_call0.v13 (fun x i => Host.gather gather_S100002x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    nullary main_cst (constant S_ .f32 0x00000000#32),
    binary main_v0 main_cst main_v1 ((fun x v => Host.reduceAdd x v reducesTo_S1024x200x128_S1024x128_d1 h_S_) : (⟨S1024x200x128, .f32⟩ : BufTy).Contents (Elt F) → (⟨S_, .f32⟩ : BufTy).Contents (Elt F) → (⟨S1024x128, .f32⟩ : BufTy).Contents (Elt F)),
    nullary main_cst_0 (constant S_ .f32 0x43480000#32),
    unary main_cst_0 main_v2 (broadcastInDim S1024x128 ![] bcast_S_S1024x128 : (⟨S_, .f32⟩ : BufTy).Contents (Elt F) → (⟨S1024x128, .f32⟩ : BufTy).Contents (Elt F)),
    binary main_v1 main_v2 main_v3 (Host.divf : (⟨S1024x128, .f32⟩ : BufTy).Contents (Elt F) → (⟨S1024x128, .f32⟩ : BufTy).Contents (Elt F) → (⟨S1024x128, .f32⟩ : BufTy).Contents (Elt F)),
    binary main_v3 main_arg2 main_v4 ((fun l r => Host.dotGeneral dot_S1024x128_S128x100_S1024x100_1_0_0_1_n_n none l r) : (⟨S1024x128, .f32⟩ : BufTy).Contents (Elt F) → (⟨S128x100, .f32⟩ : BufTy).Contents (Elt F) → (⟨S1024x100, .f32⟩ : BufTy).Contents (Elt F)),
    unary main_arg3 main_v5 (broadcastInDim S1x100 ![1] bcast_S100_S1x100_1 : (⟨S100, .f32⟩ : BufTy).Contents (Elt F) → (⟨S1x100, .f32⟩ : BufTy).Contents (Elt F)),
    unary main_v5 main_v6 (broadcastInDim S1024x100 ![0, 1] bcast_S1x100_S1024x100_0_1 : (⟨S1x100, .f32⟩ : BufTy).Contents (Elt F) → (⟨S1024x100, .f32⟩ : BufTy).Contents (Elt F)),
    binary main_v4 main_v6 main_v7 (addf : (⟨S1024x100, .f32⟩ : BufTy).Contents (Elt F) → (⟨S1024x100, .f32⟩ : BufTy).Contents (Elt F) → (⟨S1024x100, .f32⟩ : BufTy).Contents (Elt F)),
    TRef.nullary main_call1.cst (constant S_ .f32 0x00000000#32),
    TRef.unary main_call1.cst main_call1.v0 (broadcastInDim S1024x100 ![] bcast_S_S1024x100),
    TRef.binary (.of main_v7 : TRef sig ⟨S1024x100, .f32⟩) main_call1.v0 main_call1.v1 maximumf,
    binary main_v8 main_arg4 main_v9 ((fun l r => Host.dotGeneral dot_S1024x100_S100x100_S1024x100_1_0_0_1_n_n none l r) : (⟨S1024x100, .f32⟩ : BufTy).Contents (Elt F) → (⟨S100x100, .f32⟩ : BufTy).Contents (Elt F) → (⟨S1024x100, .f32⟩ : BufTy).Contents (Elt F)),
    unary main_arg5 main_v10 (broadcastInDim S1x100 ![1] bcast_S100_S1x100_1 : (⟨S100, .f32⟩ : BufTy).Contents (Elt F) → (⟨S1x100, .f32⟩ : BufTy).Contents (Elt F)),
    unary main_v10 main_v11 (broadcastInDim S1024x100 ![0, 1] bcast_S1x100_S1024x100_0_1 : (⟨S1x100, .f32⟩ : BufTy).Contents (Elt F) → (⟨S1024x100, .f32⟩ : BufTy).Contents (Elt F)),
    binary main_v9 main_v11 main_v12 (addf : (⟨S1024x100, .f32⟩ : BufTy).Contents (Elt F) → (⟨S1024x100, .f32⟩ : BufTy).Contents (Elt F) → (⟨S1024x100, .f32⟩ : BufTy).Contents (Elt F)),
    TRef.nullary main_call2.cst (constant S_ .f32 0x00000000#32),
    TRef.unary main_call2.cst main_call2.v0 (broadcastInDim S1024x100 ![] bcast_S_S1024x100),
    TRef.binary (.of main_v12 : TRef sig ⟨S1024x100, .f32⟩) main_call2.v0 main_call2.v1 maximumf,
    binary main_v13 main_arg6 main_v14 ((fun l r => Host.dotGeneral dot_S1024x100_S100x100_S1024x100_1_0_0_1_n_n none l r) : (⟨S1024x100, .f32⟩ : BufTy).Contents (Elt F) → (⟨S100x100, .f32⟩ : BufTy).Contents (Elt F) → (⟨S1024x100, .f32⟩ : BufTy).Contents (Elt F)),
    unary main_arg7 main_v15 (broadcastInDim S1x100 ![1] bcast_S100_S1x100_1 : (⟨S100, .f32⟩ : BufTy).Contents (Elt F) → (⟨S1x100, .f32⟩ : BufTy).Contents (Elt F)),
    unary main_v15 main_v16 (broadcastInDim S1024x100 ![0, 1] bcast_S1x100_S1024x100_0_1 : (⟨S1x100, .f32⟩ : BufTy).Contents (Elt F) → (⟨S1024x100, .f32⟩ : BufTy).Contents (Elt F)),
    binary main_v14 main_v16 main_v17 (addf : (⟨S1024x100, .f32⟩ : BufTy).Contents (Elt F) → (⟨S1024x100, .f32⟩ : BufTy).Contents (Elt F) → (⟨S1024x100, .f32⟩ : BufTy).Contents (Elt F)) ]

-- forty-six binds re-associated
set_option maxRecDepth 2048 in
/-- The program is that straight line: the helper functions' definitions unfolded at their calls, then both sides
    are one chain of steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

/-! ## What the line leaves in the buffers -/

attribute [local irreducible] Host.reduce Host.gather in
/-- The result buffer after the line holds the composed term of the arguments' contents: each operation's result
    read at its own buffer; a value written through a helper function's typed reference and read back through it
    is the value, and at the program's literal buffers the transport is the identity. The gather and the reduction of
    the range mask are kept folded meanwhile: the equation never looks inside them. -/
theorem out_eq (V : Valuation τ sig (Elt F)) :
    after ops V (main_v17 : DevRef τ sig)
      = refTerm (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  simp only [Cert.TypedRef.ofBuf_toBuf]
  rfl

/-- No operation of the line writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp

/-! ## The run -/

/-- On every device, for any float values, from any memory with zero counters: every weakly fair execution of the
    reference terminates with the result buffer at `refTerm` of the arguments' launch contents and the nine
    argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v17)
        = refTerm (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v17).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefRun

end
-- ==== Proof.LibGatherRows.lean ====
/-
  Rows of a matrix gathered at an array of one-element index vectors, read at an index.

  What `x[idx]` of a matrix `x : [N, F]` at an integer array `idx : [R, C]` lowers to: a gather over the indices as
  `[R, C, 1]`, the one offset axis last (the row's F entries), the row axis collapsed, slice sizes `[1, F]`. Result
  element (r, c, e) is `x` at row `idx[r, c, 0]`, read as a signed integer and clamped into `[0, N - 1]`, and column
  `e`: on the row axis the slice's start is the clamped index and there is no offset, on the column axis the start
  is zero and the offset is the result's last coordinate.
-/
import Idealize.ShloMosaic.PureOps.Ideal
import Idealize.ShloMosaic.Lib.ValueIdx

noncomputable section

namespace Cert.GatherRows

open Idealize.ShloMosaic Idealize.ShloMosaic.ValueIdx

variable {α : Type}

/-- Those dimension numbers, for any proof that they are well formed. -/
abbrev rowDims (N F R C : Nat)
    (wf : GatherDims.WF ⟨2, ![N, F]⟩ ⟨3, ![R, C, 1]⟩ ⟨3, ![R, C, F]⟩ [2] [0] [] [0] [] 2 ![1, F]) :
    GatherDims ⟨2, ![N, F]⟩ ⟨3, ![R, C, 1]⟩ ⟨3, ![R, C, F]⟩ where
  offsetDims := [2]
  collapsedSliceDims := [0]
  operandBatchingDims := []
  startIndicesBatchingDims := []
  startIndexMap := [0]
  indexVectorDim := 2
  sliceSizes := ![1, F]
  wf := wf

/-- The gather read at (r, c, e): the matrix at the row `idx[r, c, 0]` names, read signed and clamped, and column `e`. -/
theorem gather_rows_apply {N F R C w : Nat} (hN : 0 < N)
    (wf : GatherDims.WF ⟨2, ![N, F]⟩ ⟨3, ![R, C, 1]⟩ ⟨3, ![R, C, F]⟩ [2] [0] [] [0] [] 2 ![1, F])
    (x : (⟨2, ![N, F]⟩ : Shape).Idx → α) (idx : IVec ⟨3, ![R, C, 1]⟩ w) (r : Fin R) (c : Fin C) (e : Fin F) :
    Host.gather (rowDims N F R C wf) x idx (ix3 r c e)
      = x (ix2 ⟨min (idx (ix3 r c (0 : Fin 1))).toInt.toNat (N - 1), by omega⟩ e) := by
  unfold Host.gather
  congr 1
  funext a
  refine Fin.ext ?_
  match a with
  | ⟨0, h0⟩ =>
    show (rowDims N F R C wf).start (ix3 r c e) idx ⟨0, h0⟩ + (rowDims N F R C wf).batchCoord (ix3 r c e) ⟨0, h0⟩
        + (rowDims N F R C wf).offCoord (ix3 r c e) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowDims N F R C wf).startIndexMap from List.mem_singleton.mpr rfl)]
    have hsi : (rowDims N F R C wf).siIdx (ix3 r c e) ⟨List.idxOf (⟨0, h0⟩ : Fin 2) (rowDims N F R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, h1⟩ =>
    show (rowDims N F R C wf).start (ix3 r c e) idx ⟨1, h1⟩ + (rowDims N F R C wf).batchCoord (ix3 r c e) ⟨1, h1⟩
        + (rowDims N F R C wf).offCoord (ix3 r c e) ⟨1, h1⟩ = e.val
    rw [GatherDims.batchCoord_eq_zero _ _ _ List.not_mem_nil]
    unfold GatherDims.start
    have hne : ¬ (⟨1, h1⟩ : Fin 2) ∈ ([0] : List (Fin 2)) := fun h =>
      absurd (congrArg Fin.val (List.mem_singleton.mp h)) Nat.one_ne_zero
    rw [dif_neg (show ¬ (⟨1, h1⟩ : Fin 2) ∈ (rowDims N F R C wf).startIndexMap from hne)]
    simp only [Nat.zero_add, Nat.add_zero]
    unfold GatherDims.offCoord
    rw [dif_pos (show (⟨1, h1⟩ : Fin 2) ∈ (rowDims N F R C wf).sKept from
      (GatherDims.mem_sKept _ _).mpr ⟨hne, List.not_mem_nil⟩)]
    rfl

end Cert.GatherRows

end
-- ==== Proof.RefTake.lean ====
/-
  The gathered rows, read at an index, on the domain where every token word is at most 99999.

  Such a word reads the same signed and unsigned and is not negative, so the move of negative words leaves
  it; it lies inside the table (0 ≤ t ≤ 100001), so the range mask is 1 and the select takes the gathered
  value; the gather clamps the word into the table's rows, where it already lies. The entry at sentence b,
  position l and feature e is therefore the table's entry at the row the word names and column e.
-/
import proofs.«202922_g81758997446792_cont_9to1_m_1158_4_alg».proof.Proof.RefRun
import proofs.«202922_g81758997446792_cont_9to1_m_1158_4_alg».proof.Proof.BagSpec
import proofs.«202922_g81758997446792_cont_9to1_m_1158_4_alg».proof.Proof.LibGatherRows
import Idealize.ShloMosaic.Lib.Affine
import Idealize.ShloMosaic.Lib.Pipeline.Value
import Idealize.ShloMosaic.PureOps.Reduce

noncomputable section

namespace Cert.ReferenceIdeal.RefValue

open Cert.ReferenceIdeal Cert.ReferenceIdeal.RefRun Idealize.ShloMosaic Idealize.ShloMosaic.ValueIdx

variable {F : FTy → Type} [FloatOps F] [Facts]
open Facts₀

/-- A word that reads at most 99999 as a natural number reads the same as a signed integer. -/
theorem toInt_of_le {t : BitVec 32} (h : t.toNat ≤ 99999) : t.toInt = (t.toNat : Int) :=
  BitVec.toInt_eq_toNat_of_lt (by omega)

/-- Such a word is not negative, so it is kept as it is. -/
theorem wrapped_apply (tok : IVec S1024x200 32) (i : S1024x200.Idx) (h : (tok i).toNat ≤ 99999) :
    wrapped tok i = tok i := by
  have hc : IntOp.cmpi .slt (tok i) 0#32 = 0#1 := eq_zero_of_ne_one fun e => by
    have h1 := IntOp.cmpi_slt.1 e
    rw [toInt_of_le h, show (0#32 : BitVec 32).toInt = 0 from by decide] at h1
    omega
  show Scalar.select (IntOp.cmpi .slt (tok i) 0#32) (IntOp.addi (tok i) 100002#32) (tok i) = tok i
  rw [hc, select_zero]

/-- The index column at (b, l, 0) is the word at (b, l). -/
theorem idx_apply (tok : IVec S1024x200 32) (b : Fin 1024) (l : Fin 200) (u : Fin 1) :
    idx tok (ix3 b l u) = wrapped tok (ix2 b l) :=
  broadcastInDim_apply _ _ _ (ix3 b l u) (ix2 b l) fun a => by
    match a with
    | ⟨0, _⟩ => rfl
    | ⟨1, _⟩ => rfl

/-- The source index of the mask's reduction over the unit axis, at (b, l), is (b, l, 0). -/
theorem lift_unit (hR : S1024x200x1.Reduces [2] S1024x200) (b : Fin 1024) (l : Fin 200) (k : Fin 1) :
    hR.lift (ix2 b l) k = ix3 b l k := by
  funext c
  apply Fin.ext
  match c with
  | ⟨0, _⟩ => rfl
  | ⟨1, _⟩ => rfl
  | ⟨2, _⟩ => rfl

/-- A fold of `and` over a one-element index set is the one term and the initial word. -/
theorem fold_andi_fin1 (f : Fin 1 → BitVec 1) (init : BitVec 1) :
    (Finset.univ : Finset (Fin 1)).fold IntOp.andi init f = IntOp.andi (f 0) init := by
  rw [Finset.univ_unique, Finset.fold_singleton]; rfl

/-- A word that is at most 99999 lies inside the table: the range mask is 1 there. -/
theorem inTable_apply (tok : IVec S1024x200 32) (b : Fin 1024) (l : Fin 200) (h : (tok (ix2 b l)).toNat ≤ 99999) :
    inTable tok (ix2 b l) = 1#1 := by
  have hR : S1024x200x1.Reduces [2] S1024x200 := by decide
  unfold inTable
  rw [Host.reduce_eq_fold_single IntOp.andi _ _ reducesTo_S1024x200x1_S1024x200_d2 hR h_S_ (ix2 b l)]
  refine (fold_andi_fin1 _ _).trans ?_
  show IntOp.andi (IntOp.andi (IntOp.cmpi .sge (idx tok (hR.lift (ix2 b l) (0 : Fin 1))) 0#32)
      (IntOp.cmpi .sle (idx tok (hR.lift (ix2 b l) (0 : Fin 1))) 100001#32)) 1#1 = 1#1
  rw [lift_unit, idx_apply, wrapped_apply _ _ h]
  have h0 : IntOp.cmpi .sge (tok (ix2 b l)) 0#32 = 1#1 := IntOp.cmpi_sge.2 (by
    rw [toInt_of_le h, show (0#32 : BitVec 32).toInt = 0 from by decide]; omega)
  have h1 : IntOp.cmpi .sle (tok (ix2 b l)) 100001#32 = 1#1 := IntOp.cmpi_sle.2 (by
    rw [toInt_of_le h, show (100001#32 : BitVec 32).toInt = 100001 from by decide]; omega)
  rw [h0, h1]
  decide

/-- The gathered rows at (b, l, e), for a word that is at most 99999: the table's entry at the row the word names. -/
theorem taken_apply (tok : IVec S1024x200 32) (tab : FVec F S100002x128 .f32) (b : Fin 1024) (l : Fin 200) (e : Fin 128)
    (h : (tok (ix2 b l)).toNat ≤ 99999) :
    taken tok tab (ix3 b l e) = tab (ix2 (Cert.BagSpec.row (tok (ix2 b l))) e) := by
  have hm : broadcastInDim S1024x200x128 ![0, 1] bcast_S1024x200_S1024x200x128_0_1 (inTable tok) (ix3 b l e)
      = inTable tok (ix2 b l) :=
    broadcastInDim_apply _ _ _ (ix3 b l e) (ix2 b l) fun a => by
      match a with
      | ⟨0, _⟩ => rfl
      | ⟨1, _⟩ => rfl
  have hg : Host.gather gather_S100002x128_S1024x200x1_S1024x200x128_2_0_n_n_0_2_1128 tab (idx tok) (ix3 b l e)
      = tab (ix2 ⟨min (idx tok (ix3 b l (0 : Fin 1))).toInt.toNat (100002 - 1), by omega⟩ e) :=
    Cert.GatherRows.gather_rows_apply (N := 100002) (F := 128) (R := 1024) (C := 200) (by decide)
      gather_S100002x128_S1024x200x1_S1024x200x128_2_0_n_n_0_2_1128_wf tab (idx tok) b l e
  unfold taken
  rw [select_apply, hm, inTable_apply tok b l h, select_one, hg]
  refine congrArg tab (congrArg (fun r => ix2 r e) (Fin.ext ?_))
  show min (idx tok (ix3 b l (0 : Fin 1))).toInt.toNat (100002 - 1) = min (tok (ix2 b l)).toNat 100001
  rw [idx_apply, wrapped_apply _ _ h, toInt_of_le h, Int.toNat_natCast]

end Cert.ReferenceIdeal.RefValue

end
-- ==== Proof.BagConsts.lean ====
/-
  The float constants the reference spells, as the extended reals their words denote.
-/
import Idealize.ShloMosaic.PureOps.Ideal

noncomputable section

namespace Cert.BagConsts

open Idealize.ShloMosaic

/-- The word of 200.0, the reference's divisor, denotes the real 200. -/
theorem ofBits_200 : Ideal.ofBits .f32 0x43480000#32 = ((200 : ℝ) : EReal) := by
  simp [Ideal.ofBits, Ideal.ieee, -EReal.coe_mul]; norm_num

end Cert.BagConsts

end
-- ==== Proof.LibPlainHostDot.lean ====
/-
  A plain matrix product on the host, read at an index.

  The host's `dot_general` of an `R × n` matrix with an `n × k` matrix, contracting the shared axis and nothing batched,
  is at `(q, o)` the sum over the shared axis of the products of the entries, on the extended reals.
-/
import proofs.«202922_g81758997446792_cont_9to1_m_1158_4_alg».proof.Proof.LibPlainMatmul

noncomputable section

namespace Cert.PointConv

open Idealize.ShloMosaic Idealize.ShloMosaic.ValueIdx

/-- A host product of an `R × n` by an `n × k` matrix, at `(q, o)`: the sum over the shared axis. -/
theorem plainHostDot_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    Host.dotGeneral (plainDims R n k wf) prec A B (ix2 q o) = ∑ c : Fin n, A (ix2 q c) * B (ix2 c o) := by
  simp only [Host.dotGeneral]
  rw [Ideal.dotGeneral_apply, ← Equiv.sum_comp (plainContr wf).symm]
  refine Finset.sum_congr rfl fun c _ => ?_
  rw [plainDims_lhsIdx, plainDims_rhsIdx]

end Cert.PointConv

end
-- ==== Proof.RefValue.lean ====
/-
  The reference's value is the specification, on the domain where every token word is at most 99999.

  Read at an index, stage by stage: the sum over a sentence's 200 positions of the gathered rows is the
  pooled sum of the rows the words name (the sum starts from the word of zero), the division by the word
  of 200 is the product with 1/200, each contraction with one shared axis is the plain sum over that axis,
  a bias vector broadcast to rows adds its entry at the column, and the clamp is the maximum with zero.
-/
import proofs.«202922_g81758997446792_cont_9to1_m_1158_4_alg».proof.Proof.RefTake
import proofs.«202922_g81758997446792_cont_9to1_m_1158_4_alg».proof.Proof.BagConsts
import proofs.«202922_g81758997446792_cont_9to1_m_1158_4_alg».proof.Proof.LibPlainHostDot
import Idealize.ShloMosaic.Lib.IdealHost

noncomputable section

namespace Cert.ReferenceIdeal.RefValue

open Cert.ReferenceIdeal Cert.ReferenceIdeal.RefRun Idealize.ShloMosaic Idealize.ShloMosaic.ValueIdx

variable [Facts]
open Facts₀

/-- The source index of the sum over positions, at (b, e), is (b, l, e). -/
theorem lift_pos (hR : S1024x200x128.Reduces [1] S1024x128) (b : Fin 1024) (e : Fin 128) (l : Fin 200) :
    hR.lift (ix2 b e) l = ix3 b l e := by
  funext c
  apply Fin.ext
  match c with
  | ⟨0, _⟩ => rfl
  | ⟨1, _⟩ => rfl
  | ⟨2, _⟩ => rfl

/-- The mean rows at (b, e): the pooled sum of the rows the words name, times 1/200. -/
theorem meanRows_apply (tok : IVec S1024x200 32) (tab : FVec Ideal S100002x128 .f32) (hr : Cert.BagSpec.InRange tok)
    (b : Fin 1024) (e : Fin 128) :
    meanRows (F := Ideal) tok tab (ix2 b e) = Cert.BagSpec.mean tok tab b e := by
  have hR : S1024x200x128.Reduces [1] S1024x128 := by decide
  unfold Cert.BagSpec.mean Cert.BagSpec.pooled
  unfold meanRows
  rw [hostDivf_apply, hostReduceAdd_apply, broadcastInDim_scalar_apply, constant_apply, constant_apply,
    Ideal.hostReduceAdd_single _ hR, Ideal.ofBits_zero_f32, zero_add, Cert.BagConsts.ofBits_200,
    Ideal.div_coe (by norm_num)]
  refine congrArg (· * (((1 : ℝ) / 200 : ℝ) : EReal)) ?_
  show ∑ l : Fin 200, taken (F := Ideal) tok tab (hR.lift (ix2 b e) l) = _
  refine Finset.sum_congr rfl fun l _ => ?_
  rw [lift_pos hR b e l, taken_apply tok tab b l e (hr _)]

/-- A bias vector as rows, at (q, j): its entry at j. -/
theorem biasRows_apply {F : FTy → Type} [FloatOps F] (bias : FVec F S100 .f32) (q : Fin 1024) (j : Fin 100) :
    biasRows bias (ix2 q j) = bias (ix1 j) := by
  unfold biasRows
  refine (broadcastInDim_apply _ _ _ (ix2 q j) (ix2 (0 : Fin 1) j) fun a => by
    match a with
    | ⟨0, _⟩ => rfl
    | ⟨1, _⟩ => rfl).trans ?_
  exact broadcastInDim_apply _ _ _ (ix2 (0 : Fin 1) j) (ix1 j) fun a => by
    match a with
    | ⟨0, _⟩ => rfl

/-- The clamp at an index: the maximum with zero. -/
theorem clamp_apply (x : FVec Ideal S1024x100 .f32) (i : S1024x100.Idx) : clamp (F := Ideal) x i = max (x i) 0 := by
  show max (x i) (Ideal.ofBits .f32 0x00000000#32) = _
  rw [Ideal.ofBits_zero_f32]

/-- The first layer before its clamp, at (q, j). -/
theorem lin1_apply (x : FVec Ideal S1024x128 .f32) (W : FVec Ideal S128x100 .f32) (bias : FVec Ideal S100 .f32)
    (q : Fin 1024) (j : Fin 100) :
    lin1 (F := Ideal) x W bias (ix2 q j) = (∑ c : Fin 128, x (ix2 q c) * W (ix2 c j)) + bias (ix1 j) := by
  show Host.dotGeneral (F := Ideal) dot_S1024x128_S128x100_S1024x100_1_0_0_1_n_n none x W (ix2 q j)
      + biasRows bias (ix2 q j) = _
  rw [biasRows_apply]
  exact congrArg (· + bias (ix1 j))
    (Cert.PointConv.plainHostDot_apply dot_S1024x128_S128x100_S1024x100_1_0_0_1_n_n_wf none x W q j)

/-- A later layer before its clamp, at (q, j). -/
theorem lin_apply (x : FVec Ideal S1024x100 .f32) (W : FVec Ideal S100x100 .f32) (bias : FVec Ideal S100 .f32)
    (q : Fin 1024) (j : Fin 100) :
    lin (F := Ideal) x W bias (ix2 q j) = (∑ c : Fin 100, x (ix2 q c) * W (ix2 c j)) + bias (ix1 j) := by
  show Host.dotGeneral (F := Ideal) dot_S1024x100_S100x100_S1024x100_1_0_0_1_n_n none x W (ix2 q j)
      + biasRows bias (ix2 q j) = _
  rw [biasRows_apply]
  exact congrArg (· + bias (ix1 j))
    (Cert.PointConv.plainHostDot_apply dot_S1024x100_S100x100_S1024x100_1_0_0_1_n_n_wf none x W q j)

/-- The first clamped layer is the specification's. -/
theorem hid1_apply (tok : IVec S1024x200 32) (tab : FVec Ideal S100002x128 .f32) (W1 : FVec Ideal S128x100 .f32)
    (b1 : FVec Ideal S100 .f32) (hr : Cert.BagSpec.InRange tok) (q : Fin 1024) (j : Fin 100) :
    clamp (F := Ideal) (lin1 (F := Ideal) (meanRows (F := Ideal) tok tab) W1 b1) (ix2 q j)
      = Cert.BagSpec.hid1 tok tab W1 b1 q j := by
  rw [clamp_apply, lin1_apply]
  unfold Cert.BagSpec.hid1
  refine congrArg (fun s => max (s + b1 (ix1 j)) 0) (Finset.sum_congr rfl fun c _ => ?_)
  rw [meanRows_apply tok tab hr q c]

/-- The second clamped layer is the specification's. -/
theorem hid2_apply (tok : IVec S1024x200 32) (tab : FVec Ideal S100002x128 .f32) (W1 : FVec Ideal S128x100 .f32)
    (b1 : FVec Ideal S100 .f32) (W2 : FVec Ideal S100x100 .f32) (b2 : FVec Ideal S100 .f32)
    (hr : Cert.BagSpec.InRange tok) (q : Fin 1024) (j : Fin 100) :
    clamp (F := Ideal) (lin (F := Ideal) (clamp (F := Ideal) (lin1 (F := Ideal) (meanRows (F := Ideal) tok tab) W1 b1)) W2 b2) (ix2 q j)
      = Cert.BagSpec.hid2 tok tab W1 b1 W2 b2 q j := by
  rw [clamp_apply, lin_apply]
  unfold Cert.BagSpec.hid2
  refine congrArg (fun s => max (s + b2 (ix1 j)) 0) (Finset.sum_congr rfl fun c _ => ?_)
  rw [hid1_apply tok tab W1 b1 hr q c]

/-- Under the range the reference's composed term is the specification. -/
theorem refTerm_eq (tok : IVec S1024x200 32) (tab : FVec Ideal S100002x128 .f32) (W1 : FVec Ideal S128x100 .f32)
    (b1 : FVec Ideal S100 .f32) (W2 : FVec Ideal S100x100 .f32) (b2 : FVec Ideal S100 .f32)
    (W3 : FVec Ideal S100x100 .f32) (b3 : FVec Ideal S100 .f32) (hr : Cert.BagSpec.InRange tok) :
    refTerm (F := Ideal) tok tab W1 b1 W2 b2 W3 b3 = Cert.BagSpec.logits tok tab W1 b1 W2 b2 W3 b3 := by
  funext i
  obtain ⟨q, j, rfl⟩ : ∃ (q : Fin 1024) (j : Fin 100), i = ix2 q j := ⟨i 0, i 1, eq_ix2 i⟩
  unfold refTerm Cert.BagSpec.logits
  rw [lin_apply]
  refine congrArg (fun s => s + b3 (ix1 j)) (Finset.sum_congr rfl fun c _ => ?_)
  rw [hid2_apply tok tab W1 b1 W2 b2 hr q c]

end Cert.ReferenceIdeal.RefValue

end
-- ==== Proof.PreRange.lean ====
/-
  The token range, read out of the precondition.

  The precondition is a conjunction of `i1` words, the last of which is the reduction by `and`, over all
  1024 x 200 token words, of (0 <= t signed) and (t <= 99999 signed). Where the whole conjunction is 1 that
  last word is 1, so both comparisons are 1 at every index: a word that reads signed as a number between
  0 and 99999 reads unsigned as the same number, which is at most 99999.
-/
import proofs.«202922_g81758997446792_cont_9to1_m_1158_4_alg».proof.Pre_input_domain
import proofs.«202922_g81758997446792_cont_9to1_m_1158_4_alg».proof.Proof.BagSpec
import Idealize.ShloMosaic.Lib.ReduceAll

namespace Cert.PreRange

open Idealize.ShloMosaic Idealize.ShloMosaic.ValueIdx

/-- The shape of a scalar has one index. -/
instance : Subsingleton Cert.Pre_input_domain.S_.Idx := ⟨fun a b => funext fun d => d.elim0⟩

/-- A 32-bit word whose signed reading lies between 0 and 99999 reads unsigned at most 99999. -/
theorem toNat_le_of_signed {t : BitVec 32} (h0 : (0#32 : BitVec 32).toInt ≤ t.toInt)
    (h1 : t.toInt ≤ (99999#32 : BitVec 32).toInt) : t.toNat ≤ 99999 := by
  have e0 : (0#32 : BitVec 32).toInt = 0 := by decide
  have e1 : (99999#32 : BitVec 32).toInt = 99999 := by decide
  rw [e0] at h0; rw [e1] at h1
  have hc := BitVec.toInt_eq_toNat_cond t
  have hlt := t.isLt
  split at hc <;> omega

/-- Under the precondition every token word, read as a natural number, is at most 99999. -/
theorem inRange_of_pre {F : FTy → Type} [FloatOps F] [Cert.Pre_input_domain.Facts]
    (a0 : IVec Cert.Pre_input_domain.S1024x200 32) (a1 : FVec F Cert.Pre_input_domain.S100002x128 .f32)
    (a2 : FVec F Cert.Pre_input_domain.S128x100 .f32) (a3 : FVec F Cert.Pre_input_domain.S100 .f32)
    (a4 : FVec F Cert.Pre_input_domain.S100x100 .f32) (a5 : FVec F Cert.Pre_input_domain.S100 .f32)
    (a6 : FVec F Cert.Pre_input_domain.S100x100 .f32) (a7 : FVec F Cert.Pre_input_domain.S100 .f32)
    (a8 : IVec Cert.Pre_input_domain.S_ 1)
    (h : Cert.Pre_input_domain.fn (F := F) a0 a1 a2 a3 a4 a5 a6 a7 a8 = fun _ => 1#1) :
    Cert.BagSpec.InRange a0 := by
  intro i
  have h0 := congrFun h ix0
  dsimp only [Cert.Pre_input_domain.fn, Cert.Pre_input_domain.fn_part1, Cert.Pre_input_domain.fn_part2] at h0
  have hlast := (IntOp.andi_eq_one.1 h0).2
  have hi := Host.reduce_andi_all _ _ _ _ _ hlast i
  obtain ⟨hge, hle⟩ := IntOp.andi_eq_one.1 hi
  exact toNat_le_of_signed (IntOp.cmpi_sge.1 hge) (IntOp.cmpi_sle.1 hle)

end Cert.PreRange
-- ==== Proof.lean ====
/-
  A bag of embeddings: each of 1024 sentences is 200 token words; the kernel gathers the table rows the words name
  on the SparseCore's 32 vector subcores and adds them up, 32 sentences per subcore, then a TensorCore region scales
  the sums by 1/200 and applies three affine layers, the first two clamped below at zero. The reference gathers the
  same rows, takes their mean and applies the same layers.

  The two agree at the extended reals: a word in the stated range names the same table row for both; the kernel's
  fold of 200 additions is the reference's sum over the sentence (addition of extended reals is commutative and
  associative, so the order and the grouping in two halves of 100 do not matter); the product with the constant
  named 1/200 is the quotient by 200; the matrix unit's products into a zero accumulator and the host's contractions
  are the same sums over the shared axis; the clamps and the bias additions are the same operations.

  Every weakly fair execution of the kernel's threads terminates without a fault: each subcore's copies and gathers
  complete on semaphores of their own, one gather at a time per semaphore, no buffer read or overwritten while a
  gather into it is pending; the words' range keeps every gathered row inside the table.
-/
import proofs.«202922_g81758997446792_cont_9to1_m_1158_4_alg».proof.Defs
import proofs.«202922_g81758997446792_cont_9to1_m_1158_4_alg».proof.Proof.Gen.Kernel
import proofs.«202922_g81758997446792_cont_9to1_m_1158_4_alg».proof.Proof.Gen.KernelIdeal
import proofs.«202922_g81758997446792_cont_9to1_m_1158_4_alg».proof.Proof.Gen.ReferenceIdeal
import proofs.«202922_g81758997446792_cont_9to1_m_1158_4_alg».proof.Proof.Gen.Pre_input_domain
import proofs.«202922_g81758997446792_cont_9to1_m_1158_4_alg».proof.Proof.IdealRun
import proofs.«202922_g81758997446792_cont_9to1_m_1158_4_alg».proof.Proof.IdealSpec
import proofs.«202922_g81758997446792_cont_9to1_m_1158_4_alg».proof.Proof.BitsRun
import proofs.«202922_g81758997446792_cont_9to1_m_1158_4_alg».proof.Proof.BitsBack
import proofs.«202922_g81758997446792_cont_9to1_m_1158_4_alg».proof.Proof.RefRun
import proofs.«202922_g81758997446792_cont_9to1_m_1158_4_alg».proof.Proof.RefValue
import proofs.«202922_g81758997446792_cont_9to1_m_1158_4_alg».proof.Proof.PreRange
import Idealize.ShloMosaic.PureOps.IdealRules
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_input_domain := Cert.Pre_input_domain.Gen.facts) := by
  intro m g hpre
  have hr : ∀ d, Cert.BagSpec.InRange (m (d, Cert.Proof.BitsSide.rf Cert.Kernel.main_arg0)) := fun d =>
    Cert.PreRange.inRange_of_pre _ _ _ _ _ _ _ _ _ (hpre d)
  refine (θ_run _ _ _).mono (fun r h c => ?_) (Cert.Proof.BitsSide.run_main (F := Bits) m g (fun d => Cert.Proof.BitsSide.preOK_tk m d (hr d)))
  exact ⟨(h c Cert.Kernel.main_arg0 (by decide)).trans (Cert.Proof.BitsSide.arg_kept m c Cert.Kernel.main_arg0 (by decide) (by decide) (by decide) (by decide) (by decide) (by decide)),
    (h c Cert.Kernel.main_arg1 (by decide)).trans (Cert.Proof.BitsSide.arg_kept m c Cert.Kernel.main_arg1 (by decide) (by decide) (by decide) (by decide) (by decide) (by decide)),
    (h c Cert.Kernel.main_arg2 (by decide)).trans (Cert.Proof.BitsSide.arg_kept m c Cert.Kernel.main_arg2 (by decide) (by decide) (by decide) (by decide) (by decide) (by decide)),
    (h c Cert.Kernel.main_arg3 (by decide)).trans (Cert.Proof.BitsSide.arg_kept m c Cert.Kernel.main_arg3 (by decide) (by decide) (by decide) (by decide) (by decide) (by decide)),
    (h c Cert.Kernel.main_arg4 (by decide)).trans (Cert.Proof.BitsSide.arg_kept m c Cert.Kernel.main_arg4 (by decide) (by decide) (by decide) (by decide) (by decide) (by decide)),
    (h c Cert.Kernel.main_arg5 (by decide)).trans (Cert.Proof.BitsSide.arg_kept m c Cert.Kernel.main_arg5 (by decide) (by decide) (by decide) (by decide) (by decide) (by decide)),
    (h c Cert.Kernel.main_arg6 (by decide)).trans (Cert.Proof.BitsSide.arg_kept m c Cert.Kernel.main_arg6 (by decide) (by decide) (by decide) (by decide) (by decide) (by decide)),
    (h c Cert.Kernel.main_arg7 (by decide)).trans (Cert.Proof.BitsSide.arg_kept m c Cert.Kernel.main_arg7 (by decide) (by decide) (by decide) (by decide) (by decide) (by decide)),
    (h c Cert.Kernel.main_arg8 (by decide)).trans (Cert.Proof.BitsSide.arg_kept m c Cert.Kernel.main_arg8 (by decide) (by decide) (by decide) (by decide) (by decide) (by decide))⟩

/-- The idealized kernel runs and leaves its arguments as launched. -/
theorem frame_kernelIdeal : Cert.frame_KernelIdeal (hKernelIdeal := Cert.KernelIdeal.Gen.facts) (hPre_input_domain := Cert.Pre_input_domain.Gen.facts) := by
  intro m g hpre
  have hr : ∀ d, Cert.BagSpec.InRange (m (d, Cert.Proof.IdealSide.rf Cert.KernelIdeal.main_arg0)) := fun d =>
    Cert.PreRange.inRange_of_pre _ _ _ _ _ _ _ _ _ (hpre d)
  refine (θ_run _ _ _).mono (fun r h c => ?_) (Cert.Proof.IdealSide.run_main (F := Ideal) m g (fun d => Cert.Proof.IdealSide.preOK_tk m d (hr d)))
  exact ⟨(h c Cert.KernelIdeal.main_arg0 (by decide)).trans (Cert.Proof.IdealSide.arg_kept m c Cert.KernelIdeal.main_arg0 (by decide) (by decide) (by decide) (by decide) (by decide) (by decide)),
    (h c Cert.KernelIdeal.main_arg1 (by decide)).trans (Cert.Proof.IdealSide.arg_kept m c Cert.KernelIdeal.main_arg1 (by decide) (by decide) (by decide) (by decide) (by decide) (by decide)),
    (h c Cert.KernelIdeal.main_arg2 (by decide)).trans (Cert.Proof.IdealSide.arg_kept m c Cert.KernelIdeal.main_arg2 (by decide) (by decide) (by decide) (by decide) (by decide) (by decide)),
    (h c Cert.KernelIdeal.main_arg3 (by decide)).trans (Cert.Proof.IdealSide.arg_kept m c Cert.KernelIdeal.main_arg3 (by decide) (by decide) (by decide) (by decide) (by decide) (by decide)),
    (h c Cert.KernelIdeal.main_arg4 (by decide)).trans (Cert.Proof.IdealSide.arg_kept m c Cert.KernelIdeal.main_arg4 (by decide) (by decide) (by decide) (by decide) (by decide) (by decide)),
    (h c Cert.KernelIdeal.main_arg5 (by decide)).trans (Cert.Proof.IdealSide.arg_kept m c Cert.KernelIdeal.main_arg5 (by decide) (by decide) (by decide) (by decide) (by decide) (by decide)),
    (h c Cert.KernelIdeal.main_arg6 (by decide)).trans (Cert.Proof.IdealSide.arg_kept m c Cert.KernelIdeal.main_arg6 (by decide) (by decide) (by decide) (by decide) (by decide) (by decide)),
    (h c Cert.KernelIdeal.main_arg7 (by decide)).trans (Cert.Proof.IdealSide.arg_kept m c Cert.KernelIdeal.main_arg7 (by decide) (by decide) (by decide) (by decide) (by decide) (by decide)),
    (h c Cert.KernelIdeal.main_arg8 (by decide)).trans (Cert.Proof.IdealSide.arg_kept m c Cert.KernelIdeal.main_arg8 (by decide) (by decide) (by decide) (by decide) (by decide) (by decide))⟩

/-- The reference runs and leaves its arguments as launched: its run with the value dropped. -/
theorem frame_reference : Cert.frame_ReferenceIdeal (hReferenceIdeal := Cert.ReferenceIdeal.Gen.facts) (hPre_input_domain := Cert.Pre_input_domain.Gen.facts) :=
  fun m g _ => (θ_run Cert.ReferenceIdeal.defs _ _).mono (fun _ h c => (h c).2) (Cert.ReferenceIdeal.RefRun.run (F := Ideal) m g)

/-- The one rewrite of the idealization: the constant the kernel scales by is named 1/200, its value at the extended reals. -/
theorem preserves : Cert.preserves_Kernel_KernelIdeal :=
  IdealRules.named_const.statement Cert.KernelIdeal.κ "inv_200" .f32 0x3BA3D70A#32 ((1 / 200 : ℝ) : EReal) rfl

/-- From memories agreeing on the arguments both programs end with the specification of those arguments in their result. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hr : ∀ d, Cert.BagSpec.InRange (m (d, Cert.Proof.IdealSide.rf Cert.KernelIdeal.main_arg0)) := fun d =>
    Cert.PreRange.inRange_of_pre _ _ _ _ _ _ _ _ _ (hpre d)
  refine ⟨fun c => Cert.BagSpec.logits (m (c, Cert.Proof.IdealSide.rf Cert.KernelIdeal.main_arg0)) (m (c, Cert.Proof.IdealSide.rf Cert.KernelIdeal.main_arg1))
      (m (c, Cert.Proof.IdealSide.rf Cert.KernelIdeal.main_arg2)) (m (c, Cert.Proof.IdealSide.rf Cert.KernelIdeal.main_arg3)) (m (c, Cert.Proof.IdealSide.rf Cert.KernelIdeal.main_arg4))
      (m (c, Cert.Proof.IdealSide.rf Cert.KernelIdeal.main_arg5)) (m (c, Cert.Proof.IdealSide.rf Cert.KernelIdeal.main_arg6)) (m (c, Cert.Proof.IdealSide.rf Cert.KernelIdeal.main_arg7)), ?_, ?_⟩
  · refine (θ_run _ _ _).mono (fun r h c => ?_) (Cert.Proof.IdealSide.run_main (F := Ideal) m g (fun d => Cert.Proof.IdealSide.preOK_tk m d (hr d)))
    exact ⟨(h c Cert.KernelIdeal.main_v5 (by decide)).trans (Cert.Proof.IdealSide.out_spec m c),
      (h c Cert.KernelIdeal.main_arg0 (by decide)).trans (Cert.Proof.IdealSide.arg_kept m c Cert.KernelIdeal.main_arg0 (by decide) (by decide) (by decide) (by decide) (by decide) (by decide)),
      (h c Cert.KernelIdeal.main_arg1 (by decide)).trans (Cert.Proof.IdealSide.arg_kept m c Cert.KernelIdeal.main_arg1 (by decide) (by decide) (by decide) (by decide) (by decide) (by decide)),
      (h c Cert.KernelIdeal.main_arg2 (by decide)).trans (Cert.Proof.IdealSide.arg_kept m c Cert.KernelIdeal.main_arg2 (by decide) (by decide) (by decide) (by decide) (by decide) (by decide)),
      (h c Cert.KernelIdeal.main_arg3 (by decide)).trans (Cert.Proof.IdealSide.arg_kept m c Cert.KernelIdeal.main_arg3 (by decide) (by decide) (by decide) (by decide) (by decide) (by decide)),
      (h c Cert.KernelIdeal.main_arg4 (by decide)).trans (Cert.Proof.IdealSide.arg_kept m c Cert.KernelIdeal.main_arg4 (by decide) (by decide) (by decide) (by decide) (by decide) (by decide)),
      (h c Cert.KernelIdeal.main_arg5 (by decide)).trans (Cert.Proof.IdealSide.arg_kept m c Cert.KernelIdeal.main_arg5 (by decide) (by decide) (by decide) (by decide) (by decide) (by decide)),
      (h c Cert.KernelIdeal.main_arg6 (by decide)).trans (Cert.Proof.IdealSide.arg_kept m c Cert.KernelIdeal.main_arg6 (by decide) (by decide) (by decide) (by decide) (by decide) (by decide)),
      (h c Cert.KernelIdeal.main_arg7 (by decide)).trans (Cert.Proof.IdealSide.arg_kept m c Cert.KernelIdeal.main_arg7 (by decide) (by decide) (by decide) (by decide) (by decide) (by decide)),
      (h c Cert.KernelIdeal.main_arg8 (by decide)).trans (Cert.Proof.IdealSide.arg_kept m c Cert.KernelIdeal.main_arg8 (by decide) (by decide) (by decide) (by decide) (by decide) (by decide))⟩
  · refine (θ_run Cert.ReferenceIdeal.defs _ _).mono (fun r h c => ⟨(h c).1.trans ?_, (h c).2⟩) (Cert.ReferenceIdeal.RefRun.run (F := Ideal) m' g')
    obtain ⟨e0, e1, e2, e3, e4, e5, e6, e7, _⟩ := hagree c
    rw [e0, e1, e2, e3, e4, e5, e6, e7]
    exact Cert.ReferenceIdeal.RefValue.refTerm_eq _ _ _ _ _ _ _ _ (hr c)

theorem claim : Cert.Claim :=
  ⟨Cert.Kernel.Gen.facts, Cert.KernelIdeal.Gen.facts, Cert.ReferenceIdeal.Gen.facts, Cert.Pre_input_domain.Gen.facts,
    frame_kernel, frame_kernelIdeal, frame_reference, preserves, algebraic⟩

end Cert.Proof

end
